-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_0)) (v4 : (c : Dev Cert.KernelIdeal.nD) → Buf (Elt Ideal) ((c.tc : Thread Cert.KernelIdeal.nD Cert.KernelIdeal.τ).loc Cert.KernelIdeal.main_v20_3)) (v5 : (c : Dev Cert.KernelIdeal.nD) → Buf (Elt Ideal) ((c.tc : Thread Cert.KernelIdeal.nD Cert.KernelIdeal.τ).loc Cert.KernelIdeal.main_v20_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_0) = v3 c
          ∧ r.2.mem ((c.tc : Thread Cert.KernelIdeal.nD Cert.KernelIdeal.τ).loc Cert.KernelIdeal.main_v20_3) = v4 c
          ∧ r.2.mem ((c.tc : Thread Cert.KernelIdeal.nD Cert.KernelIdeal.τ).loc Cert.KernelIdeal.main_v20_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S48x64 : Shape := ⟨2, ![48, 64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S48x64 : S_.BroadcastsInDim S48x64 (![] : Fin 0 → Fin S48x64.rank)
  reducesTo_S48x64_S_d0_1 : S48x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part8 {F : FTy → Type} [FloatOps F] (main_arg28 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  main_v143

def fn_part7 {F : FTy → Type} [FloatOps F] (main_arg25 : FVec F S128 .f32) (main_arg26 : FVec F S128 .f32) (main_arg27 : FVec F S128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg28 main_v133 main_v136

def fn_part6 {F : FTy → Type} [FloatOps F] (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x128 .f32 := Host.absf main_arg23
  let main_cst_44 : FVec F S_ .f32 := constant S_ .f32 0x7F800000#32
  let main_v115 : FVec F S64x128 .f32 := broadcastInDim S64x128 ![] bcast_S_S64x128 main_cst_44
  let main_v116 : IVec S64x128 1 := cmpf .olt main_v114 main_v115
  let main_c_45 : IVec S_ 1 := constantI S_ 1 1#1
  let main_v117 : IVec S_ 1 := (fun x v => Host.reduce IntOp.andi x v reducesTo_S64x128_S_d0_1 h_S_) main_v116 main_c_45
  let main_v118 : IVec S_ 1 := andi main_v113 main_v117
  let main_v119 : FVec F S128 .f32 := Host.absf main_arg24
  fn_part7 (F := F) main_arg25 main_arg26 main_arg27 main_arg28 main_v118 main_v119

def fn_part5 {F : FTy → Type} [FloatOps F] (main_arg18 : FVec F S64 .f32) (main_arg19 : FVec F S64 .f32) (main_arg20 : FVec F S64 .f32) (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) (main_v83 : IVec S_ 1) (main_v84 : FVec F S48x64 .f32) (main_cst_32 : FVec F S_ .f32) : IVec S_ 1 :=
  let main_v85 : FVec F S48x64 .f32 := broadcastInDim S48x64 ![] bcast_S_S48x64 main_cst_32
  let main_v86 : IVec S48x64 1 := cmpf .olt main_v84 main_v85
  let main_c_33 : IVec S_ 1 := constantI S_ 1 1#1
  let main_v87 : IVec S_ 1 := (fun x v => Host.reduce IntOp.andi x v reducesTo_S48x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S32x32 .f32) (main_arg15 : FVec F S32x16 .f32) (main_arg16 : FVec F S32x16 .f32) (main_arg17 : FVec F S48x64 .f32) (main_arg18 : FVec F S64 .f32) (main_arg19 : FVec F S64 .f32) (main_arg20 : FVec F S64 .f32) (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) (main_v63 : IVec S_ 1) (main_v67 : IVec S_ 1) : IVec S_ 1 :=
  let main_v68 : IVec S_ 1 := andi main_v63 main_v67
  let main_v69 : FVec F S32x32 .f32 := Host.absf main_arg14
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32x16 .f32 := Host.absf main_arg15
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S32x16 .f32 := Host.absf main_arg16
  let main_cst_30 : FVec F S_ .f32 := constant S_ .f32 0x7F800000#32
  let main_v80 : FVec F S32x16 .f32 := broadcastInDim S32x16 ![] bcast_S_S32x16 main_cst_30
  let main_v81 : IVec S32x16 1 := cmpf .olt main_v79 main_v80
  let main_c_31 : IVec S_ 1 := constantI S_ 1 1#1
  let main_v82 : IVec S_ 1 := (fun x v => Host.reduce IntOp.andi x v reducesTo_S32x16_S_d0_1 h_S_) main_v81 main_c_31
  let main_v83 : IVec S_ 1 := andi main_v78 main_v82
  let main_v84 : FVec F S48x64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S32 .f32) (main_arg12 : FVec F S32 .f32) (main_arg13 : FVec F S32 .f32) (main_arg14 : FVec F S32x32 .f32) (main_arg15 : FVec F S32x16 .f32) (main_arg16 : FVec F S32x16 .f32) (main_arg17 : FVec F S48x64 .f32) (main_arg18 : FVec F S64 .f32) (main_arg19 : FVec F S64 .f32) (main_arg20 : FVec F S64 .f32) (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S64 .f32) (main_arg8 : FVec F S64x32 .f32) (main_arg9 : FVec F S32 .f32) (main_arg10 : FVec F S32 .f32) (main_arg11 : FVec F S32 .f32) (main_arg12 : FVec F S32 .f32) (main_arg13 : FVec F S32 .f32) (main_arg14 : FVec F S32x32 .f32) (main_arg15 : FVec F S32x16 .f32) (main_arg16 : FVec F S32x16 .f32) (main_arg17 : FVec F S48x64 .f32) (main_arg18 : FVec F S64 .f32) (main_arg19 : FVec F S64 .f32) (main_arg20 : FVec F S64 .f32) (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S64 .f32) (main_arg5 : FVec F S64 .f32) (main_arg6 : FVec F S64 .f32) (main_arg7 : FVec F S64 .f32) (main_arg8 : FVec F S64x32 .f32) (main_arg9 : FVec F S32 .f32) (main_arg10 : FVec F S32 .f32) (main_arg11 : FVec F S32 .f32) (main_arg12 : FVec F S32 .f32) (main_arg13 : FVec F S32 .f32) (main_arg14 : FVec F S32x32 .f32) (main_arg15 : FVec F S32x16 .f32) (main_arg16 : FVec F S32x16 .f32) (main_arg17 : FVec F S48x64 .f32) (main_arg18 : FVec F S64 .f32) (main_arg19 : FVec F S64 .f32) (main_arg20 : FVec F S64 .f32) (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64 .f32) (main_arg5 : FVec F S64 .f32) (main_arg6 : FVec F S64 .f32) (main_arg7 : FVec F S64 .f32) (main_arg8 : FVec F S64x32 .f32) (main_arg9 : FVec F S32 .f32) (main_arg10 : FVec F S32 .f32) (main_arg11 : FVec F S32 .f32) (main_arg12 : FVec F S32 .f32) (main_arg13 : FVec F S32 .f32) (main_arg14 : FVec F S32x32 .f32) (main_arg15 : FVec F S32x16 .f32) (main_arg16 : FVec F S32x16 .f32) (main_arg17 : FVec F S48x64 .f32) (main_arg18 : FVec F S64 .f32) (main_arg19 : FVec F S64 .f32) (main_arg20 : FVec F S64 .f32) (main_arg21 : FVec F S64 .f32) (main_arg22 : FVec F S64 .f32) (main_arg23 : FVec F S64x128 .f32) (main_arg24 : FVec F S128 .f32) (main_arg25 : FVec F S128 .f32) (main_arg26 : FVec F S128 .f32) (main_arg27 : FVec F S128 .f32) (main_arg28 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S48x64 : Shape := ⟨2, ![48, 64]⟩
abbrev S64x128 : Shape := ⟨2, ![64, 128]⟩
abbrev S128 : Shape := ⟨1, ![128]⟩
abbrev S1x64 : Shape := ⟨2, ![1, 64]⟩
abbrev S1x32 : Shape := ⟨2, ![1, 32]⟩
abbrev S1x128 : Shape := ⟨2, ![1, 128]⟩
abbrev S10000x16 : Shape := ⟨2, ![10000, 16]⟩
abbrev S10000x32 : Shape := ⟨2, ![10000, 32]⟩
abbrev S10000x48 : Shape := ⟨2, ![10000, 48]⟩
abbrev S400x10000 : Shape := ⟨2, ![400, 10000]⟩
abbrev S400x16 : Shape := ⟨2, ![400, 16]⟩
abbrev S400x32 : Shape := ⟨2, ![400, 32]⟩
abbrev S400x48 : Shape := ⟨2, ![400, 48]⟩
abbrev S400x128 : Shape := ⟨2, ![400, 128]⟩
abbrev S10000x64 : Shape := ⟨2, ![10000, 64]⟩
abbrev S400x64 : Shape := ⟨2, ![400, 64]⟩

abbrev nBuf : Space → Nat
  | .hbm => 54
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32x32, .f32⟩
  | .hbm, ⟨15, _⟩ => ⟨S32x16, .f32⟩
  | .hbm, ⟨16, _⟩ => ⟨S32x16, .f32⟩
  | .hbm, ⟨17, _⟩ => ⟨S48x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x32, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S10000x16, .f32⟩
  | .hbm, ⟨50, _⟩ => ⟨S10000x16, .f32⟩
  | .hbm, ⟨51, _⟩ => ⟨S10000x32, .f32⟩
  | .hbm, ⟨52, _⟩ => ⟨S10000x48, .f32⟩
  | .hbm, ⟨53, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S64x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S32x32, .f32⟩
  | .local _ .vmem, ⟨16, _⟩ => ⟨S32x16, .f32⟩
  | .local _ .vmem, ⟨17, _⟩ => ⟨S32x16, .f32⟩
  | .local _ .vmem, ⟨18, _⟩ => ⟨S48x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S400x16, .f32⟩
  | .local _ .vmem, ⟨31, _⟩ => ⟨S400x16, .f32⟩
  | .local _ .vmem, ⟨32, _⟩ => ⟨S400x16, .f32⟩
  | .local _ .vmem, ⟨33, _⟩ => ⟨S400x16, .f32⟩
  | .local _ .vmem, ⟨34, _⟩ => ⟨S400x32, .f32⟩
  | .local _ .vmem, ⟨35, _⟩ => ⟨S400x32, .f32⟩
  | .local _ .vmem, ⟨36, _⟩ => ⟨S400x48, .f32⟩
  | .local _ .vmem, ⟨37, _⟩ => ⟨S400x48, .f32⟩
  | .local _ .vmem, ⟨38, _⟩ => ⟨S400x128, .f32⟩
  | .local _ .vmem, ⟨39, _⟩ => ⟨S400x128, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20_0 : Ref sig .tc := ⟨.hbm, 49, rfl⟩
abbrev main_v20_1 : Ref sig .tc := ⟨.hbm, 50, rfl⟩
abbrev main_v20_2 : Ref sig .tc := ⟨.hbm, 51, rfl⟩
abbrev main_v20_3 : Ref sig .tc := ⟨.hbm, 52, rfl⟩
abbrev main_v20_4 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_stg30_0 : Ref sig .tc := ⟨.vmem, 32, rfl⟩
abbrev cc0_stg30_1 : Ref sig .tc := ⟨.vmem, 33, rfl⟩
abbrev cc0_stg31_0 : Ref sig .tc := ⟨.vmem, 34, rfl⟩
abbrev cc0_stg31_1 : Ref sig .tc := ⟨.vmem, 35, rfl⟩
abbrev cc0_stg32_0 : Ref sig .tc := ⟨.vmem, 36, rfl⟩
abbrev cc0_stg32_1 : Ref sig .tc := ⟨.vmem, 37, rfl⟩
abbrev cc0_stg33_0 : Ref sig .tc := ⟨.vmem, 38, rfl⟩
abbrev cc0_stg33_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31
abbrev cc0_sem30_0 : DmaSem sig := 32
abbrev cc0_sem30_1 : DmaSem sig := 33
abbrev cc0_sem31_0 : DmaSem sig := 34
abbrev cc0_sem31_1 : DmaSem sig := 35
abbrev cc0_sem32_0 : DmaSem sig := 36
abbrev cc0_sem32_1 : DmaSem sig := 37
abbrev cc0_sem33_0 : DmaSem sig := 38
abbrev cc0_sem33_1 : DmaSem sig := 39

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v19 : BitVec 32 := Scalar.muli arg1 c400_i32
  let v20 : Index := Scalar.indexCast v19
  let c0_14 : Index := 0#32
  ![v20.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg1 : BitVec 32 := BitVec.ofNat 32 (i 1).val
  let c400_i32 : BitVec 32 := 400#32
  let v18 : BitVec 32 := Scalar.muli arg1 c400_i32
  let v19 : Index := Scalar.indexCast v18
  let c0_12 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_31 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_32 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_33 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S48x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S64x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 2 → Memref sig .tc .vmem S400x16 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S400x16 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S400x32 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S400x48 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S400x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

class Facts₀ : Prop where
  shapeCasts_S64_S1x64 : S64.ShapeCasts S1x64
  shapeCasts_S32_S1x32 : S32.ShapeCasts S1x32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S400x10000_S400x10000_0_0 : ∀ a, (![0, 0] : Fin 2 → Nat) a + S400x10000.size a ≤ S400x10000.size a
  h_S400x10000 : 0 < S400x10000.numel
  inb_S32x16_S32x16_0_0 : ∀ a, (![0, 0] : Fin 2 → Nat) a + S32x16.size a ≤ S32x16.size a
  h_S32x16 : 0 < S32x16.numel
  concatenates_S400x16_S400x16_S400x32_d1 : Shape.Concatenates [S400x16, S400x16] S400x32 1
  h_S400x32 : 0 < S400x32.numel
  shapeCasts_S400x32_S400x32 : S400x32.ShapeCasts S400x32
  slices_S400x32_o0_0_S400x16 : S400x32.Slices ![0, 0] S400x16
  inb_S400x16_S400x16_0_0 : ∀ a, (![0, 0] : Fin 2 → Nat) a + S400x16.size a ≤ S400x16.size a
  h_S400x16 : 0 < S400x16.numel
  slices_S400x32_o0_16_S400x16 : S400x32.Slices ![0, 16] S400x16
  inb_S400x32_S400x32_0_0 : ∀ a, (![0, 0] : Fin 2 → Nat) a + S400x32.size a ≤ S400x32.size a
  concatenates_S400x32_S400x16_S400x48_d1 : Shape.Concatenates [S400x32, S400x16] S400x48 1
  inb_S400x48_S400x48_0_0 : ∀ a, (![0, 0] : Fin 2 → Nat) a + S400x48.size a ≤ S400x48.size a
  h_S400x48 : 0 < S400x48.numel
  inb_S48x64_S48x64_0_0 : ∀ a, (![0, 0] : Fin 2 → Nat) a + S48x64.size a ≤ S48x64.size a
  h_S48x64 : 0 < S48x64.numel
  broadcasts_S1x64_S400x64 : S1x64.Broadcasts S400x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x48_S48x64_S400x64_1_0_0_1_n_n_wf : DotDims.WF S400x48 S48x64 S400x64 [1] [0] [0] [1] [] []
  dot_S400x64_S64x128_S400x128_1_0_0_1_n_n_wf : DotDims.WF S400x64 S64x128 S400x128 [1] [0] [0] [1] [] []
  hrank0 : 0 < grid0.rank
  k0_off1_inb : ∀ i : grid0.Coords, ∀ (k0_h2 : k0_cond2 i = 1#1), ∀ a, (k0_off1 i) a + S400x32.size a ≤ S10000x32.size a
  k0_off2_inb : ∀ i : grid0.Coords, ∀ (k0_h3 : k0_cond3 i = 1#1), ∀ a, (k0_off2 i) a + S400x32.size a ≤ S10000x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x32.size a ≤ S32x32.size a
  hwx0_14 : ∀ i : grid0.Coords, EltTy.bits .f32 = 32 ∨ (Rect.block (s := S32x32) S32x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S32x16.size a
  hwx0_15 : ∀ i : grid0.Coords, EltTy.bits .f32 = 32 ∨ (Rect.block (s := S32x16) S32x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x16.size a ≤ S32x16.size a
  hwx0_16 : ∀ i : grid0.Coords, EltTy.bits .f32 = 32 ∨ (Rect.block (s := S32x16) S32x16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S48x64.size a ≤ S48x64.size a
  hwx0_17 : ∀ i : grid0.Coords, EltTy.bits .f32 = 32 ∨ (Rect.block (s := S48x64) S48x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x64.size a ≤ S1x64.size a
  hwx0_19 : ∀ i : grid0.Coords, EltTy.bits .f32 = 32 ∨ (Rect.block (s := S1x64) S1x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x64.size a ≤ S1x64.size a
  hwx0_21 : ∀ i : grid0.Coords, EltTy.bits .f32 = 32 ∨ (Rect.block (s := S1x64) S1x64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x64.size a ≤ S1x64.size a
  hwx0_22 : ∀ i : grid0.Coords, EltTy.bits .f32 = 32 ∨ (Rect.block (s := S1x64) S1x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64x128.size a ≤ S64x128.size a
  hwx0_23 : ∀ i : grid0.Coords, EltTy.bits .f32 = 32 ∨ (Rect.block (s := S64x128) S64x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x128.size a ≤ S1x128.size a
  hwx0_25 : ∀ i : grid0.Coords, EltTy.bits .f32 = 32 ∨ (Rect.block (s := S1x128) S1x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x128.size a ≤ S1x128.size a
  hwx0_27 : ∀ i : grid0.Coords, EltTy.bits .f32 = 32 ∨ (Rect.block (s := S1x128) S1x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S400x16.size a ≤ S10000x16.size a
  hwx0_29 : ∀ i : grid0.Coords, EltTy.bits .f32 = 32 ∨ (Rect.block (s := S10000x16) S400x16.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S400x16.size a ≤ S10000x16.size a
  hwx0_30 : ∀ i : grid0.Coords, EltTy.bits .f32 = 32 ∨ (Rect.block (s := S10000x16) S400x16.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S400x32.size a ≤ S10000x32.size a
  hwx0_31 : ∀ i : grid0.Coords, EltTy.bits .f32 = 32 ∨ (Rect.block (s := S10000x32) S400x32.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S400x48.size a ≤ S10000x48.size a
  hwx0_32 : ∀ i : grid0.Coords, EltTy.bits .f32 = 32 ∨ (Rect.block (s := S10000x48) S400x48.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S400x128.size a ≤ S10000x128.size a
  hwx0_33 : ∀ i : grid0.Coords, EltTy.bits .f32 = 32 ∨ (Rect.block (s := S10000x128) S400x128.size (cc0_transform_33 i) (hinb0_33 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x48_S48x64_S400x64_1_0_0_1_n_n : DotDims S400x48 S48x64 S400x64 where
  lhsContracting := [1]
  rhsContracting := [0]
  lhsNonContracting := [0]
  rhsNonContracting := [1]
  lhsBatch := []
  rhsBatch := []
  wf := dot_S400x48_S48x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S32x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S32x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S32x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S48x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v10) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v11) S1x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v12) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v13) S1x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v14) S1x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S64x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v15) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v16) S1x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v17) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v18) S1x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v19) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v20_0) S400x16.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v20_1) S400x16.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v20_2) S400x32.size cc0_transform_31 reads0_31 true false 2 stage0_31 sem0_31
    hrank0 hreads0_31 hinb0_31 nbuf0_31 (Memref.isWhole_whole _) hwx0_31 hstage0_31

abbrev win0_32 : Pipeline.Window sig grid0 :=
  Pipeline.Window.ofSpec (Memref.whole main_v20_3) S400x48.size cc0_transform_32 reads0_32 true false 2 stage0_32 sem0_32
    hrank0 hreads0_32 hinb0_32 nbuf0_32 (Memref.isWhole_whole _) hwx0_32 hstage0_32

abbrev win0_33 : Pipeline.Window sig grid0 :=
  Pipeline.Window.ofSpec (Memref.whole main_v20_4) S400x128.size cc0_transform_33 reads0_33 true false 2 stage0_33 sem0_33
    hrank0 hreads0_33 hinb0_33 nbuf0_33 (Memref.isWhole_whole _) hwx0_33 hstage0_33

abbrev win0 : Fin 34 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | ⟨_ + 34, h⟩ => absurd h (Nat.not_lt.2 (Nat.le_add_left _ _))
abbrev spec0 : Fin 34 → Pipeline.WinSpec sig grid0.rank := fun w => (win0 w).toWinSpec

abbrev idle0 : Fin 34 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun i => !(k0_cond3 i == 1#1) | 30 => fun i => !(k0_cond3 i == 1#1) | 31 => fun i => !(k0_cond3 i == 1#1) | 32 => fun i => !(k0_cond3 i == 1#1) | 33 => fun i => !(k0_cond3 i == 1#1) | ⟨_ + 34, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S48x64 : Shape := ⟨2, ![48, 64]⟩
abbrev S64x128 : Shape := ⟨2, ![64, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩
abbrev S10000x16 : Shape := ⟨2, ![10000, 16]⟩
abbrev S10000x48 : Shape := ⟨2, ![10000, 48]⟩
abbrev S1x128 : Shape := ⟨2, ![1, 128]⟩

abbrev nBuf : Space → Nat
  | .hbm => 164
  | .vmem => 0
  | .smem => 0
  | _ => 0

abbrev hbmTy0_0 (i : Nat) : BufTy := match i % 128 with
  | 0 => ⟨S10000x128, .f32⟩
  | 1 => ⟨S10000x10000, .f32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S64x32, .f32⟩
  | 9 => ⟨S32, .f32⟩
  | 10 => ⟨S32, .f32⟩
  | 11 => ⟨S32, .f32⟩
  | 12 => ⟨S32, .f32⟩
  | 13 => ⟨S32, .f32⟩
  | 14 => ⟨S32x32, .f32⟩
  | 15 => ⟨S32x16, .f32⟩
  | 16 => ⟨S32x16, .f32⟩
  | 17 => ⟨S48x64, .f32⟩
  | 18 => ⟨S64, .f32⟩
  | 19 => ⟨S64, .f32⟩
  | 20 => ⟨S64, .f32⟩
  | 21 => ⟨S64, .f32⟩
  | 22 => ⟨S64, .f32⟩
  | 23 => ⟨S64x128, .f32⟩
  | 24 => ⟨S128, .f32⟩
  | 25 => ⟨S128, .f32⟩
  | 26 => ⟨S128, .f32⟩
  | 27 => ⟨S128, .f32⟩
  | 28 => ⟨S128, .f32⟩
  | 29 => ⟨S10000x64, .f32⟩
  | 30 => ⟨S1x64, .f32⟩
  | 31 => ⟨S10000x64, .f32⟩
  | 32 => ⟨S10000x64, .f32⟩
  | 33 => ⟨S1x64, .f32⟩
  | 34 => ⟨S10000x64, .f32⟩
  | 35 => ⟨S10000x64, .f32⟩
  | 36 => ⟨S_, .f32⟩
  | 37 => ⟨S64, .f32⟩
  | 38 => ⟨S64, .f32⟩
  | 39 => ⟨S64, .f32⟩
  | 40 => ⟨S1x64, .f32⟩
  | 41 => ⟨S10000x64, .f32⟩
  | 42 => ⟨S10000x64, .f32⟩
  | 43 => ⟨S1x64, .f32⟩
  | 44 => ⟨S10000x64, .f32⟩
  | 45 => ⟨S10000x64, .f32⟩
  | 46 => ⟨S1x64, .f32⟩
  | 47 => ⟨S10000x64, .f32⟩
  | 48 => ⟨S10000x64, .f32⟩
  | 49 => ⟨S_, .f32⟩
  | 50 => ⟨S10000x64, .f32⟩
  | 51 => ⟨S10000x64, .i1⟩
  | 52 => ⟨S_, .f32⟩
  | 53 => ⟨S10000x64, .f32⟩
  | 54 => ⟨S10000x64, .i1⟩
  | 55 => ⟨S_, .f32⟩
  | 56 => ⟨S_, .f32⟩
  | 57 => ⟨S10000x64, .f32⟩
  | 58 => ⟨S10000x64, .f32⟩
  | 59 => ⟨S10000x64, .f32⟩
  | 60 => ⟨S_, .f32⟩
  | 61 => ⟨S10000x64, .f32⟩
  | 62 => ⟨S10000x64, .f32⟩
  | 63 => ⟨S10000x64, .f32⟩
  | 64 => ⟨S10000x32, .f32⟩
  | 65 => ⟨S1x32, .f32⟩
  | 66 => ⟨S10000x32, .f32⟩
  | 67 => ⟨S10000x32, .f32⟩
  | 68 => ⟨S1x32, .f32⟩
  | 69 => ⟨S10000x32, .f32⟩
  | 70 => ⟨S10000x32, .f32⟩
  | 71 => ⟨S_, .f32⟩
  | 72 => ⟨S32, .f32⟩
  | 73 => ⟨S32, .f32⟩
  | 74 => ⟨S32, .f32⟩
  | 75 => ⟨S1x32, .f32⟩
  | 76 => ⟨S10000x32, .f32⟩
  | 77 => ⟨S10000x32, .f32⟩
  | 78 => ⟨S1x32, .f32⟩
  | 79 => ⟨S10000x32, .f32⟩
  | 80 => ⟨S10000x32, .f32⟩
  | 81 => ⟨S1x32, .f32⟩
  | 82 => ⟨S10000x32, .f32⟩
  | 83 => ⟨S10000x32, .f32⟩
  | 84 => ⟨S_, .f32⟩
  | 85 => ⟨S10000x32, .f32⟩
  | 86 => ⟨S10000x32, .i1⟩
  | 87 => ⟨S_, .f32⟩
  | 88 => ⟨S10000x32, .f32⟩
  | 89 => ⟨S10000x32, .i1⟩
  | 90 => ⟨S_, .f32⟩
  | 91 => ⟨S_, .f32⟩
  | 92 => ⟨S10000x32, .f32⟩
  | 93 => ⟨S10000x32, .f32⟩
  | 94 => ⟨S10000x32, .f32⟩
  | 95 => ⟨S_, .f32⟩
  | 96 => ⟨S10000x32, .f32⟩
  | 97 => ⟨S10000x32, .f32⟩
  | 98 => ⟨S10000x32, .f32⟩
  | 99 => ⟨S10000x32, .f32⟩
  | 100 => ⟨S10000x32, .f32⟩
  | 101 => ⟨S10000x16, .f32⟩
  | 102 => ⟨S10000x16, .f32⟩
  | 103 => ⟨S10000x16, .f32⟩
  | 104 => ⟨S10000x16, .f32⟩
  | 105 => ⟨S10000x48, .f32⟩
  | 106 => ⟨S10000x64, .f32⟩
  | 107 => ⟨S1x64, .f32⟩
  | 108 => ⟨S10000x64, .f32⟩
  | 109 => ⟨S10000x64, .f32⟩
  | 110 => ⟨S1x64, .f32⟩
  | 111 => ⟨S10000x64, .f32⟩
  | 112 => ⟨S10000x64, .f32⟩
  | 113 => ⟨S_, .f32⟩
  | 114 => ⟨S64, .f32⟩
  | 115 => ⟨S64, .f32⟩
  | 116 => ⟨S64, .f32⟩
  | 117 => ⟨S1x64, .f32⟩
  | 118 => ⟨S10000x64, .f32⟩
  | 119 => ⟨S10000x64, .f32⟩
  | 120 => ⟨S1x64, .f32⟩
  | 121 => ⟨S10000x64, .f32⟩
  | 122 => ⟨S10000x64, .f32⟩
  | 123 => ⟨S1x64, .f32⟩
  | 124 => ⟨S10000x64, .f32⟩
  | 125 => ⟨S10000x64, .f32⟩
  | 126 => ⟨S_, .f32⟩
  | 127 => ⟨S10000x64, .f32⟩
  | _ => ⟨S10000x128, .f32⟩

abbrev hbmTy0_1 (i : Nat) : BufTy := match i % 128 with
  | 0 => ⟨S10000x64, .i1⟩
  | 1 => ⟨S_, .f32⟩
  | 2 => ⟨S10000x64, .f32⟩
  | 3 => ⟨S10000x64, .i1⟩
  | 4 => ⟨S_, .f32⟩
  | 5 => ⟨S_, .f32⟩
  | 6 => ⟨S10000x64, .f32⟩
  | 7 => ⟨S10000x64, .f32⟩
  | 8 => ⟨S10000x64, .f32⟩
  | 9 => ⟨S_, .f32⟩
  | 10 => ⟨S10000x64, .f32⟩
  | 11 => ⟨S10000x64, .f32⟩
  | 12 => ⟨S10000x64, .f32⟩
  | 13 => ⟨S10000x128, .f32⟩
  | 14 => ⟨S1x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S128, .f32⟩
  | 22 => ⟨S128, .f32⟩
  | 23 => ⟨S128, .f32⟩
  | 24 => ⟨S1x128, .f32⟩
  | 25 => ⟨S10000x128, .f32⟩
  | 26 => ⟨S10000x128, .f32⟩
  | 27 => ⟨S1x128, .f32⟩
  | 28 => ⟨S10000x128, .f32⟩
  | 29 => ⟨S10000x128, .f32⟩
  | 30 => ⟨S1x128, .f32⟩
  | 31 => ⟨S10000x128, .f32⟩
  | 32 => ⟨S10000x128, .f32⟩
  | 33 => ⟨S_, .f32⟩
  | 34 => ⟨S10000x128, .f32⟩
  | 35 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_cst_1 : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_v4 : Ref sig .tc := ⟨.hbm, 58, rfl⟩
abbrev main_call0_v5 : Ref sig .tc := ⟨.hbm, 59, rfl⟩
abbrev main_call0_cst_2 : Ref sig .tc := ⟨.hbm, 60, rfl⟩
abbrev main_call0_v6 : Ref sig .tc := ⟨.hbm, 61, rfl⟩
abbrev main_call0_v7 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_0 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_cst_1 : Ref sig .tc := ⟨.hbm, 90, rfl⟩
abbrev main_call1_call0_v0 : Ref sig .tc := ⟨.hbm, 91, rfl⟩
abbrev main_call1_call0_v1 : Ref sig .tc := ⟨.hbm, 92, rfl⟩
abbrev main_call1_v4 : Ref sig .tc := ⟨.hbm, 93, rfl⟩
abbrev main_call1_v5 : Ref sig .tc := ⟨.hbm, 94, rfl⟩
abbrev main_call1_cst_2 : Ref sig .tc := ⟨.hbm, 95, rfl⟩
abbrev main_call1_v6 : Ref sig .tc := ⟨.hbm, 96, rfl⟩
abbrev main_call1_v7 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_1 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_cst_1 : Ref sig .tc := ⟨.hbm, 132, rfl⟩
abbrev main_call2_call0_v0 : Ref sig .tc := ⟨.hbm, 133, rfl⟩
abbrev main_call2_call0_v1 : Ref sig .tc := ⟨.hbm, 134, rfl⟩
abbrev main_call2_v4 : Ref sig .tc := ⟨.hbm, 135, rfl⟩
abbrev main_call2_v5 : Ref sig .tc := ⟨.hbm, 136, rfl⟩
abbrev main_call2_cst_2 : Ref sig .tc := ⟨.hbm, 137, rfl⟩
abbrev main_call2_v6 : Ref sig .tc := ⟨.hbm, 138, rfl⟩
abbrev main_call2_v7 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_cst_2 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_call3_cst : Ref sig .tc := ⟨.hbm, 161, rfl⟩
abbrev main_call3_v0 : Ref sig .tc := ⟨.hbm, 162, rfl⟩
abbrev main_v86 : Ref sig .tc := ⟨.hbm, 163, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S64 : S_.BroadcastsInDim S64 (![] : Fin 0 → Fin S64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S32 : S_.BroadcastsInDim S32 (![] : Fin 0 → Fin S32.rank)
  bcast_S_S10000x32 : S_.BroadcastsInDim S10000x32 (![] : Fin 0 → Fin S10000x32.rank)
  concatenates_S10000x32_S10000x16_S10000x48_d1 : Shape.Concatenates [S10000x32, S10000x16] S10000x48 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S128 : S_.BroadcastsInDim S128 (![] : Fin 0 → Fin S128.rank)
  bcast_S_S10000x128 : S_.BroadcastsInDim S10000x128 (![] : Fin 0 → Fin S10000x128.rank)
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x48_S48x64_S10000x64_1_0_0_1_n_n_wf : DotDims.WF S10000x48 S48x64 S10000x64 [1] [0] [0] [1] [] []
  dot_S10000x64_S64x128_S10000x128_1_0_0_1_n_n_wf : DotDims.WF S10000x64 S64x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x48_S48x64_S10000x64_1_0_0_1_n_n : DotDims S10000x48 S48x64 S10000x64 where
  lhsContracting := [1]
  rhsContracting := [0]
  lhsNonContracting := [0]
  rhsNonContracting := [1]
  lhsBatch := []
  rhsBatch := []
  wf := dot_S10000x48_S48x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.BodyShared_K.lean ====
/-
  The two-pass kernel's grid has fifty points: pass 0 (points 0–24) and pass 1 (points 25–49), twenty-five row blocks each.
  Three conditions on the grid coordinates select what the body does: the first point alone runs the encoder, every
  point of pass 0 fills one slice of the second support, every point of pass 1 produces one block of each result.
  Here: the conditions in closed form, where each window is idle and when it is written back, the names of the
  staging buffers at a point, and the region's invariant with the three scratch buffers owned at some contents.
-/
import proofs.«133634_g45492293599347_cont_8to1c4_324_9_alg».proof.Proof.Gen.Kernel.Frame
import proofs.«133634_g45492293599347_cont_8to1c4_324_9_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, decided over the grid -/

/-- The encoder's condition: both grid coordinates are zero. -/
abbrev condE (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcondE : ∀ t : Fin cfg0.N, condE (grid0.coords t) ↔ t.val = 0 :=
  (by decide +kernel : ∀ t : Fin grid0.N, condE (grid0.coords t) ↔ t.val = 0)

/-- Pass 0: the first grid coordinate is zero. -/
abbrev cond0 (i : grid0.Coords) : Prop := k0_cond2 i = 1#1
theorem hcond0 : ∀ t : Fin cfg0.N, cond0 (grid0.coords t) ↔ t.val < 25 :=
  (by decide +kernel : ∀ t : Fin grid0.N, cond0 (grid0.coords t) ↔ t.val < 25)

/-- Pass 1: the first grid coordinate is one. -/
abbrev cond1 (i : grid0.Coords) : Prop := k0_cond3 i = 1#1
theorem hcond1 : ∀ t : Fin cfg0.N, cond1 (grid0.coords t) ↔ 25 ≤ t.val :=
  (by decide +kernel : ∀ t : Fin grid0.N, cond1 (grid0.coords t) ↔ 25 ≤ t.val)

/-! ## Where the windows are idle and when they are written back -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
theorem liveAt_9 : ∀ t : Fin cfg0.N, cfg0.idle 9 (grid0.coords t) = false := by decide +kernel
theorem liveAt_10 : ∀ t : Fin cfg0.N, cfg0.idle 10 (grid0.coords t) = false := by decide +kernel
theorem liveAt_11 : ∀ t : Fin cfg0.N, cfg0.idle 11 (grid0.coords t) = false := by decide +kernel
theorem liveAt_12 : ∀ t : Fin cfg0.N, cfg0.idle 12 (grid0.coords t) = false := by decide +kernel
theorem liveAt_13 : ∀ t : Fin cfg0.N, cfg0.idle 13 (grid0.coords t) = false := by decide +kernel
theorem liveAt_14 : ∀ t : Fin cfg0.N, cfg0.idle 14 (grid0.coords t) = false := by decide +kernel
theorem liveAt_15 : ∀ t : Fin cfg0.N, cfg0.idle 15 (grid0.coords t) = false := by decide +kernel
theorem liveAt_16 : ∀ t : Fin cfg0.N, cfg0.idle 16 (grid0.coords t) = false := by decide +kernel
theorem liveAt_17 : ∀ t : Fin cfg0.N, cfg0.idle 17 (grid0.coords t) = false := by decide +kernel
theorem liveAt_18 : ∀ t : Fin cfg0.N, cfg0.idle 18 (grid0.coords t) = false := by decide +kernel
theorem liveAt_19 : ∀ t : Fin cfg0.N, cfg0.idle 19 (grid0.coords t) = false := by decide +kernel
theorem liveAt_20 : ∀ t : Fin cfg0.N, cfg0.idle 20 (grid0.coords t) = false := by decide +kernel
theorem liveAt_21 : ∀ t : Fin cfg0.N, cfg0.idle 21 (grid0.coords t) = false := by decide +kernel
theorem liveAt_22 : ∀ t : Fin cfg0.N, cfg0.idle 22 (grid0.coords t) = false := by decide +kernel
theorem liveAt_23 : ∀ t : Fin cfg0.N, cfg0.idle 23 (grid0.coords t) = false := by decide +kernel
theorem liveAt_24 : ∀ t : Fin cfg0.N, cfg0.idle 24 (grid0.coords t) = false := by decide +kernel
theorem liveAt_25 : ∀ t : Fin cfg0.N, cfg0.idle 25 (grid0.coords t) = false := by decide +kernel
theorem liveAt_26 : ∀ t : Fin cfg0.N, cfg0.idle 26 (grid0.coords t) = false := by decide +kernel
theorem liveAt_27 : ∀ t : Fin cfg0.N, cfg0.idle 27 (grid0.coords t) = false := by decide +kernel
theorem liveAt_28 : ∀ t : Fin cfg0.N, cfg0.idle 28 (grid0.coords t) = false := by decide +kernel
theorem idleAt_29 : ∀ t : Fin cfg0.N, t.val < 25 → cfg0.idle 29 (grid0.coords t) = true := by decide +kernel
theorem noFlush_29 : ∀ t : Fin cfg0.N, t.val < 25 → (cfg0.win 29).flush t = false := by decide +kernel
theorem liveAt_29 : ∀ t : Fin cfg0.N, 25 ≤ t.val → cfg0.idle 29 (grid0.coords t) = false := by decide +kernel
theorem flush_29 : ∀ t : Fin cfg0.N, 25 ≤ t.val → (cfg0.win 29).flush t = true := by decide +kernel
theorem idleAt_30 : ∀ t : Fin cfg0.N, t.val < 25 → cfg0.idle 30 (grid0.coords t) = true := by decide +kernel
theorem noFlush_30 : ∀ t : Fin cfg0.N, t.val < 25 → (cfg0.win 30).flush t = false := by decide +kernel
theorem liveAt_30 : ∀ t : Fin cfg0.N, 25 ≤ t.val → cfg0.idle 30 (grid0.coords t) = false := by decide +kernel
theorem flush_30 : ∀ t : Fin cfg0.N, 25 ≤ t.val → (cfg0.win 30).flush t = true := by decide +kernel
theorem idleAt_31 : ∀ t : Fin cfg0.N, t.val < 25 → cfg0.idle 31 (grid0.coords t) = true := by decide +kernel
theorem noFlush_31 : ∀ t : Fin cfg0.N, t.val < 25 → (cfg0.win 31).flush t = false := by decide +kernel
theorem liveAt_31 : ∀ t : Fin cfg0.N, 25 ≤ t.val → cfg0.idle 31 (grid0.coords t) = false := by decide +kernel
theorem flush_31 : ∀ t : Fin cfg0.N, 25 ≤ t.val → (cfg0.win 31).flush t = true := by decide +kernel
theorem idleAt_32 : ∀ t : Fin cfg0.N, t.val < 25 → cfg0.idle 32 (grid0.coords t) = true := by decide +kernel
theorem noFlush_32 : ∀ t : Fin cfg0.N, t.val < 25 → (cfg0.win 32).flush t = false := by decide +kernel
theorem liveAt_32 : ∀ t : Fin cfg0.N, 25 ≤ t.val → cfg0.idle 32 (grid0.coords t) = false := by decide +kernel
theorem flush_32 : ∀ t : Fin cfg0.N, 25 ≤ t.val → (cfg0.win 32).flush t = true := by decide +kernel
theorem idleAt_33 : ∀ t : Fin cfg0.N, t.val < 25 → cfg0.idle 33 (grid0.coords t) = true := by decide +kernel
theorem noFlush_33 : ∀ t : Fin cfg0.N, t.val < 25 → (cfg0.win 33).flush t = false := by decide +kernel
theorem liveAt_33 : ∀ t : Fin cfg0.N, 25 ≤ t.val → cfg0.idle 33 (grid0.coords t) = false := by decide +kernel
theorem flush_33 : ∀ t : Fin cfg0.N, 25 ≤ t.val → (cfg0.win 33).flush t = true := by decide +kernel

/-! ## The staging buffers at a point, and the scratch buffers -/

abbrev ms_0 (t : Fin cfg0.N) : Memref sig .tc .vmem S10000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S400x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x64 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x64 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S64x32 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x32 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x32 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x32 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x32 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x32 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S32x32 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S32x16 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S32x16 .f32 := win0_16.stage (cfg0.slots t 16)
abbrev hs_16 (t : Fin cfg0.N) : (ms_16 t).IsWhole := hstage0_16 ((cfg0.slots t 16).cast nbuf0_16)
abbrev ms_17 (t : Fin cfg0.N) : Memref sig .tc .vmem S48x64 .f32 := win0_17.stage (cfg0.slots t 17)
abbrev hs_17 (t : Fin cfg0.N) : (ms_17 t).IsWhole := hstage0_17 ((cfg0.slots t 17).cast nbuf0_17)
abbrev ms_18 (t : Fin cfg0.N) : Memref sig .tc .vmem S1x64 .f32 := win0_18.stage (cfg0.slots t 18)
abbrev hs_18 (t : Fin cfg0.N) : (ms_18 t).IsWhole := hstage0_18 ((cfg0.slots t 18).cast nbuf0_18)
abbrev ms_19 (t : Fin cfg0.N) : Memref sig .tc .vmem S1x64 .f32 := win0_19.stage (cfg0.slots t 19)
abbrev hs_19 (t : Fin cfg0.N) : (ms_19 t).IsWhole := hstage0_19 ((cfg0.slots t 19).cast nbuf0_19)
abbrev ms_20 (t : Fin cfg0.N) : Memref sig .tc .vmem S1x64 .f32 := win0_20.stage (cfg0.slots t 20)
abbrev hs_20 (t : Fin cfg0.N) : (ms_20 t).IsWhole := hstage0_20 ((cfg0.slots t 20).cast nbuf0_20)
abbrev ms_21 (t : Fin cfg0.N) : Memref sig .tc .vmem S1x64 .f32 := win0_21.stage (cfg0.slots t 21)
abbrev hs_21 (t : Fin cfg0.N) : (ms_21 t).IsWhole := hstage0_21 ((cfg0.slots t 21).cast nbuf0_21)
abbrev ms_22 (t : Fin cfg0.N) : Memref sig .tc .vmem S1x64 .f32 := win0_22.stage (cfg0.slots t 22)
abbrev hs_22 (t : Fin cfg0.N) : (ms_22 t).IsWhole := hstage0_22 ((cfg0.slots t 22).cast nbuf0_22)
abbrev ms_23 (t : Fin cfg0.N) : Memref sig .tc .vmem S64x128 .f32 := win0_23.stage (cfg0.slots t 23)
abbrev hs_23 (t : Fin cfg0.N) : (ms_23 t).IsWhole := hstage0_23 ((cfg0.slots t 23).cast nbuf0_23)
abbrev ms_24 (t : Fin cfg0.N) : Memref sig .tc .vmem S1x128 .f32 := win0_24.stage (cfg0.slots t 24)
abbrev hs_24 (t : Fin cfg0.N) : (ms_24 t).IsWhole := hstage0_24 ((cfg0.slots t 24).cast nbuf0_24)
abbrev ms_25 (t : Fin cfg0.N) : Memref sig .tc .vmem S1x128 .f32 := win0_25.stage (cfg0.slots t 25)
abbrev hs_25 (t : Fin cfg0.N) : (ms_25 t).IsWhole := hstage0_25 ((cfg0.slots t 25).cast nbuf0_25)
abbrev ms_26 (t : Fin cfg0.N) : Memref sig .tc .vmem S1x128 .f32 := win0_26.stage (cfg0.slots t 26)
abbrev hs_26 (t : Fin cfg0.N) : (ms_26 t).IsWhole := hstage0_26 ((cfg0.slots t 26).cast nbuf0_26)
abbrev ms_27 (t : Fin cfg0.N) : Memref sig .tc .vmem S1x128 .f32 := win0_27.stage (cfg0.slots t 27)
abbrev hs_27 (t : Fin cfg0.N) : (ms_27 t).IsWhole := hstage0_27 ((cfg0.slots t 27).cast nbuf0_27)
abbrev ms_28 (t : Fin cfg0.N) : Memref sig .tc .vmem S1x128 .f32 := win0_28.stage (cfg0.slots t 28)
abbrev hs_28 (t : Fin cfg0.N) : (ms_28 t).IsWhole := hstage0_28 ((cfg0.slots t 28).cast nbuf0_28)
abbrev ms_29 (t : Fin cfg0.N) : Memref sig .tc .vmem S400x16 .f32 := win0_29.stage (cfg0.slots t 29)
abbrev hs_29 (t : Fin cfg0.N) : (ms_29 t).IsWhole := hstage0_29 ((cfg0.slots t 29).cast nbuf0_29)
abbrev ms_30 (t : Fin cfg0.N) : Memref sig .tc .vmem S400x16 .f32 := win0_30.stage (cfg0.slots t 30)
abbrev hs_30 (t : Fin cfg0.N) : (ms_30 t).IsWhole := hstage0_30 ((cfg0.slots t 30).cast nbuf0_30)
abbrev ms_31 (t : Fin cfg0.N) : Memref sig .tc .vmem S400x32 .f32 := win0_31.stage (cfg0.slots t 31)
abbrev hs_31 (t : Fin cfg0.N) : (ms_31 t).IsWhole := hstage0_31 ((cfg0.slots t 31).cast nbuf0_31)
abbrev ms_32 (t : Fin cfg0.N) : Memref sig .tc .vmem S400x48 .f32 := win0_32.stage (cfg0.slots t 32)
abbrev hs_32 (t : Fin cfg0.N) : (ms_32 t).IsWhole := hstage0_32 ((cfg0.slots t 32).cast nbuf0_32)
abbrev ms_33 (t : Fin cfg0.N) : Memref sig .tc .vmem S400x128 .f32 := win0_33.stage (cfg0.slots t 33)
abbrev hs_33 (t : Fin cfg0.N) : (ms_33 t).IsWhole := hstage0_33 ((cfg0.slots t 33).cast nbuf0_33)
abbrev scM_0 : Memref sig .tc .vmem S10000x32 .f32 := Memref.whole cc0_scratch0
abbrev scM_1 : Memref sig .tc .vmem S10000x32 .f32 := Memref.whole cc0_scratch1
abbrev scM_2 : Memref sig .tc .vmem S10000x32 .f32 := Memref.whole cc0_scratch2

/-- The class invariant with the scratch buffers as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d)) ∗ (∃ r, prngReg c r)) := by
  unfold Pipeline.ΦA; rw [scopedRest0_eq]; simp only [scM_0, scM_1, scM_2, owns_whole]; try rfl

end Cert.Kernel.Body

end
-- ==== Proof.BodyRunA_K.lean ====
/-
  The body at the grid's first point: the encoder (two dense layers) fills the feature buffer whole, one more matrix
  product fills the first support's buffer whole, and then, as at every point of pass 0, the adjacency block times that
  support, times the two weight matrices side by side, goes into the point's slice of the second support's buffer.
-/
import proofs.«133634_g45492293599347_cont_8to1c4_324_9_alg».proof.Proof.BodyShared_K

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
/-- The pieces the body leaves in the three scratch buffers at the first point, with the proof that it runs. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S32x32 .f32) (harg16 : arg16.IsWhole) (arg17 : Memref sig .tc .vmem S32x16 .f32) (harg17 : arg17.IsWhole) (arg18 : Memref sig .tc .vmem S32x16 .f32) (harg18 : arg18.IsWhole) (arg19 : Memref sig .tc .vmem S48x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S1x64 .f32) (harg24 : arg24.IsWhole) (arg25 : Memref sig .tc .vmem S64x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S400x16 .f32) (harg31 : arg31.IsWhole) (arg32 : Memref sig .tc .vmem S400x16 .f32) (harg32 : arg32.IsWhole) (arg33 : Memref sig .tc .vmem S400x32 .f32) (harg33 : arg33.IsWhole) (arg34 : Memref sig .tc .vmem S400x48 .f32) (harg34 : arg34.IsWhole) (arg35 : Memref sig .tc .vmem S400x128 .f32) (harg35 : arg35.IsWhole) (arg36 : Memref sig .tc .vmem S10000x32 .f32) (harg36 : arg36.IsWhole) (arg37 : Memref sig .tc .vmem S10000x32 .f32) (harg37 : arg37.IsWhole) (arg38 : Memref sig .tc .vmem S10000x32 .f32) (harg38 : arg38.IsWhole) (hcE : condE i) (hc0 : cond0 i) (hc1 : ¬cond1 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S1x64 .f32) (x7 : Vec F S1x64 .f32) (x8 : Vec F S64x32 .f32) (x9 : Vec F S1x32 .f32) (x10 : Vec F S1x32 .f32) (x11 : Vec F S1x32 .f32) (x12 : Vec F S1x32 .f32) (x13 : Vec F S1x32 .f32) (x14 : Vec F S32x32 .f32) (x15 : Vec F S32x16 .f32) (x16 : Vec F S32x16 .f32) (x17 : Vec F S48x64 .f32) (x18 : Vec F S1x64 .f32) (x19 : Vec F S1x64 .f32) (x20 : Vec F S1x64 .f32) (x21 : Vec F S1x64 .f32) (x22 : Vec F S1x64 .f32) (x23 : Vec F S64x128 .f32) (x24 : Vec F S1x128 .f32) (x25 : Vec F S1x128 .f32) (x26 : Vec F S1x128 .f32) (x27 : Vec F S1x128 .f32) (x28 : Vec F S1x128 .f32) :
    Σ' (LS0 : List (View.Piece (Elt F) S10000x32 .f32)) (LS1 : List (View.Piece (Elt F) S10000x32 .f32)), { LS2 : List (View.Piece (Elt F) S10000x32 .f32) //
      ∀ (y29 : Vec F S400x16 .f32) (y30 : Vec F S400x16 .f32) (y31 : Vec F S400x32 .f32) (y32 : Vec F S400x48 .f32) (y33 : Vec F S400x128 .f32) (xs2 : Vec F S10000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ (∃ d, owns (c : Thread nD τ) arg36 fullShare d) ∗ (∃ d, owns (c : Thread nD τ) arg37 fullShare d) ∗ owns (c : Thread nD τ) arg38 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ (∃ f, arg36.view.loc (c : Thread nD τ) ↦[arg36.view.set]{fullShare} arg36.view.writes (Elt F) f LS0) ∗ (∃ f, arg37.view.loc (c : Thread nD τ) ↦[arg37.view.set]{fullShare} arg37.view.writes (Elt F) f LS1) ∗ (arg38.view.loc (c : Thread nD τ) ↦[arg38.view.set]{fullShare} arg38.view.writes (Elt F) (harg38.unread xs2) LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, fun y29 y30 y31 y32 y33 xs2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%ds0, %f34, -, H34⟩, ⟨%ds1, %f35, -, H35⟩, ⟨%f36, %hf36, H36⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg38.eq_unread hf36
    sl_exec (disch := first | exact hcE | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]; · iexists _; iexact H34
    isplitl [H35]; · iexists _; iexact H35
    iexact H36

end Cert.Kernel.Body

end
-- ==== Proof.BodyRunB_K.lean ====
/-
  The body at a point of pass 0 other than the first: the adjacency block times the first support, times the two
  weight matrices side by side, stored into the point's slice of the second support's scratch buffer.  Nothing else
  is written: every input, every result buffer and the other two scratch buffers come back as they were, and the
  second support's buffer comes back as what it held with that one slice overwritten.
-/
import proofs.«133634_g45492293599347_cont_8to1c4_324_9_alg».proof.Proof.BodyShared_K

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the second support's buffer at such a point (one slice), with the proof that the body
    runs from the buffers at the stated contents to the continuation holding them as described above. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S32x32 .f32) (harg16 : arg16.IsWhole) (arg17 : Memref sig .tc .vmem S32x16 .f32) (harg17 : arg17.IsWhole) (arg18 : Memref sig .tc .vmem S32x16 .f32) (harg18 : arg18.IsWhole) (arg19 : Memref sig .tc .vmem S48x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S1x64 .f32) (harg24 : arg24.IsWhole) (arg25 : Memref sig .tc .vmem S64x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S400x16 .f32) (harg31 : arg31.IsWhole) (arg32 : Memref sig .tc .vmem S400x16 .f32) (harg32 : arg32.IsWhole) (arg33 : Memref sig .tc .vmem S400x32 .f32) (harg33 : arg33.IsWhole) (arg34 : Memref sig .tc .vmem S400x48 .f32) (harg34 : arg34.IsWhole) (arg35 : Memref sig .tc .vmem S400x128 .f32) (harg35 : arg35.IsWhole) (arg36 : Memref sig .tc .vmem S10000x32 .f32) (harg36 : arg36.IsWhole) (arg37 : Memref sig .tc .vmem S10000x32 .f32) (harg37 : arg37.IsWhole) (arg38 : Memref sig .tc .vmem S10000x32 .f32) (harg38 : arg38.IsWhole) (hcE : ¬condE i) (hc0 : cond0 i) (hc1 : ¬cond1 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S1x64 .f32) (x7 : Vec F S1x64 .f32) (x8 : Vec F S64x32 .f32) (x9 : Vec F S1x32 .f32) (x10 : Vec F S1x32 .f32) (x11 : Vec F S1x32 .f32) (x12 : Vec F S1x32 .f32) (x13 : Vec F S1x32 .f32) (x14 : Vec F S32x32 .f32) (x15 : Vec F S32x16 .f32) (x16 : Vec F S32x16 .f32) (x17 : Vec F S48x64 .f32) (x18 : Vec F S1x64 .f32) (x19 : Vec F S1x64 .f32) (x20 : Vec F S1x64 .f32) (x21 : Vec F S1x64 .f32) (x22 : Vec F S1x64 .f32) (x23 : Vec F S64x128 .f32) (x24 : Vec F S1x128 .f32) (x25 : Vec F S1x128 .f32) (x26 : Vec F S1x128 .f32) (x27 : Vec F S1x128 .f32) (x28 : Vec F S1x128 .f32) (xs1 : Vec F S10000x32 .f32) :
    { LS2 : List (View.Piece (Elt F) S10000x32 .f32) //
      ∀ (y29 : Vec F S400x16 .f32) (y30 : Vec F S400x16 .f32) (y31 : Vec F S400x32 .f32) (y32 : Vec F S400x48 .f32) (y33 : Vec F S400x128 .f32) (xs0 xs2 : Vec F S10000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ owns (c : Thread nD τ) arg36 fullShare xs0 ∗ owns (c : Thread nD τ) arg37 fullShare xs1 ∗ owns (c : Thread nD τ) arg38 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ owns (c : Thread nD τ) arg36 fullShare xs0 ∗ owns (c : Thread nD τ) arg37 fullShare xs1 ∗ (arg38.view.loc (c : Thread nD τ) ↦[arg38.view.set]{fullShare} arg38.view.writes (Elt F) (harg38.unread xs2) LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, fun y29 y30 y31 y32 y33 xs0 xs2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36
    sl_exec (disch := first | exact hcE | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    iexact H36

end Cert.Kernel.Body

end
-- ==== Proof.BodyRunC_K.lean ====
/-
  The body at a point of pass 1: the adjacency block times the second support gives the block's mean (left columns) and
  log-deviation (right columns); the block's rows of the features are copied out; features and mean side by side are
  the latent block; two more dense layers decode it.  Five result buffers are stored whole; nothing else is written.
-/
import proofs.«133634_g45492293599347_cont_8to1c4_324_9_alg».proof.Proof.BodyShared_K

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
/-- The pieces the body leaves in the five result buffers at such a point, with the proof that it runs. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S32x32 .f32) (harg16 : arg16.IsWhole) (arg17 : Memref sig .tc .vmem S32x16 .f32) (harg17 : arg17.IsWhole) (arg18 : Memref sig .tc .vmem S32x16 .f32) (harg18 : arg18.IsWhole) (arg19 : Memref sig .tc .vmem S48x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S1x64 .f32) (harg24 : arg24.IsWhole) (arg25 : Memref sig .tc .vmem S64x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S400x16 .f32) (harg31 : arg31.IsWhole) (arg32 : Memref sig .tc .vmem S400x16 .f32) (harg32 : arg32.IsWhole) (arg33 : Memref sig .tc .vmem S400x32 .f32) (harg33 : arg33.IsWhole) (arg34 : Memref sig .tc .vmem S400x48 .f32) (harg34 : arg34.IsWhole) (arg35 : Memref sig .tc .vmem S400x128 .f32) (harg35 : arg35.IsWhole) (arg36 : Memref sig .tc .vmem S10000x32 .f32) (harg36 : arg36.IsWhole) (arg37 : Memref sig .tc .vmem S10000x32 .f32) (harg37 : arg37.IsWhole) (arg38 : Memref sig .tc .vmem S10000x32 .f32) (harg38 : arg38.IsWhole) (hcE : ¬condE i) (hc0 : ¬cond0 i) (hc1 : cond1 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S1x64 .f32) (x7 : Vec F S1x64 .f32) (x8 : Vec F S64x32 .f32) (x9 : Vec F S1x32 .f32) (x10 : Vec F S1x32 .f32) (x11 : Vec F S1x32 .f32) (x12 : Vec F S1x32 .f32) (x13 : Vec F S1x32 .f32) (x14 : Vec F S32x32 .f32) (x15 : Vec F S32x16 .f32) (x16 : Vec F S32x16 .f32) (x17 : Vec F S48x64 .f32) (x18 : Vec F S1x64 .f32) (x19 : Vec F S1x64 .f32) (x20 : Vec F S1x64 .f32) (x21 : Vec F S1x64 .f32) (x22 : Vec F S1x64 .f32) (x23 : Vec F S64x128 .f32) (x24 : Vec F S1x128 .f32) (x25 : Vec F S1x128 .f32) (x26 : Vec F S1x128 .f32) (x27 : Vec F S1x128 .f32) (x28 : Vec F S1x128 .f32) (xs0 xs2 : Vec F S10000x32 .f32) :
    Σ' (L29 : List (View.Piece (Elt F) S400x16 .f32)) (L30 : List (View.Piece (Elt F) S400x16 .f32)) (L31 : List (View.Piece (Elt F) S400x32 .f32)) (L32 : List (View.Piece (Elt F) S400x48 .f32)), { L33 : List (View.Piece (Elt F) S400x128 .f32) //
      ∀ (xs1 : Vec F S10000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ owns (c : Thread nD τ) arg36 fullShare xs0 ∗ owns (c : Thread nD τ) arg37 fullShare xs1 ∗ owns (c : Thread nD τ) arg38 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33) ∗ owns (c : Thread nD τ) arg36 fullShare xs0 ∗ owns (c : Thread nD τ) arg37 fullShare xs1 ∗ owns (c : Thread nD τ) arg38 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, ?_, ?_, fun xs1 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%f34, %hf34, H34⟩, ⟨%f35, %hf35, H35⟩, ⟨%f36, %hf36, H36⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg36.eq_unread hf34; obtain rfl := harg37.eq_unread hf35; obtain rfl := harg38.eq_unread hf36
    sl_exec (disch := first | exact hcE | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]
    · iexists _; isplitr; · ipureintro; exact harg36.read_unread _
      iexact H34
    isplitl [H35]
    · iexists _; isplitr; · ipureintro; exact harg37.read_unread _
      iexact H35
    iexists _; isplitr; · ipureintro; exact harg38.read_unread _
    iexact H36

end Cert.Kernel.Body

end
-- ==== Proof.BodyData_K.lean ====
/-
  What the scratch buffers and the result buffers hold after each grid point, and the region's invariant.

  After the first point the feature buffer holds the encoder's output and the first support's buffer the features times
  its weight; neither is written again.  The second support's buffer is filled one slice of 400 rows per point of pass 0:
  after point n < 25 it is what it held at entry with slices 0 … n overwritten, and from point 24 on it no longer depends
  on what it held at entry.  At a point of pass 1 the five result buffers hold the block computed from the adjacency
  block, the second support and the block's rows of the features.
-/
import proofs.«133634_g45492293599347_cont_8to1c4_324_9_alg».proof.Proof.BodyRunA_K
import proofs.«133634_g45492293599347_cont_8to1c4_324_9_alg».proof.Proof.BodyRunB_K
import proofs.«133634_g45492293599347_cont_8to1c4_324_9_alg».proof.Proof.BodyRunC_K
import Idealize.ShloMosaic.Lib.WritesUnit
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The body's pieces at the first point, on that point's staging buffers and blocks. -/
def runAat (c : Dev nD) (t : Fin cfg0.N) (h : t.val = 0) :=
  runA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (ms_26 t) (hs_26 t) (ms_27 t) (hs_27 t) (ms_28 t) (hs_28 t) (ms_29 t) (hs_29 t) (ms_30 t) (hs_30 t) (ms_31 t) (hs_31 t) (ms_32 t) (hs_32 t) (ms_33 t) (hs_33 t) scM_0 (Memref.isWhole_whole _) scM_1 (Memref.isWhole_whole _) scM_2 (Memref.isWhole_whole _) ((hcondE t).mpr h) ((hcond0 t).mpr (by omega)) (fun hh => absurd ((hcond1 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

/-- The body's pieces at a later point of pass 0, the first support's buffer holding `xs1`. -/
def runBat (c : Dev nD) (t : Fin cfg0.N) (h : t.val ≠ 0) (h' : t.val < 25) (xs1 : Vec F S10000x32 .f32) :=
  runB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (ms_26 t) (hs_26 t) (ms_27 t) (hs_27 t) (ms_28 t) (hs_28 t) (ms_29 t) (hs_29 t) (ms_30 t) (hs_30 t) (ms_31 t) (hs_31 t) (ms_32 t) (hs_32 t) (ms_33 t) (hs_33 t) scM_0 (Memref.isWhole_whole _) scM_1 (Memref.isWhole_whole _) scM_2 (Memref.isWhole_whole _) (fun hh => h ((hcondE t).mp hh)) ((hcond0 t).mpr h') (fun hh => absurd ((hcond1 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) xs1

/-- The body's pieces at a point of pass 1, the feature buffer holding `xs0` and the second support's `xs2`. -/
def runCat (c : Dev nD) (t : Fin cfg0.N) (h : 25 ≤ t.val) (xs0 xs2 : Vec F S10000x32 .f32) :=
  runC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (ms_26 t) (hs_26 t) (ms_27 t) (hs_27 t) (ms_28 t) (hs_28 t) (ms_29 t) (hs_29 t) (ms_30 t) (hs_30 t) (ms_31 t) (hs_31 t) (ms_32 t) (hs_32 t) (ms_33 t) (hs_33 t) scM_0 (Memref.isWhole_whole _) scM_1 (Memref.isWhole_whole _) scM_2 (Memref.isWhole_whole _) (fun hh => absurd ((hcondE t).mp hh) (by omega)) (fun hh => absurd ((hcond0 t).mp hh) (by omega)) ((hcond1 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) xs0 xs2

/-- The grid's first point. -/
def t0 : Fin cfg0.N := ⟨0, by rw [N50]; omega⟩

/-- The features: what the first point leaves in the feature buffer. -/
def featC (c : Dev nD) : Vec F S10000x32 .f32 :=
  scM_0.view.read (Elt F) (scM_0.view.writes (Elt F) scM_0.view.junk (runAat m c t0 rfl).1)

/-- The first support: what the first point leaves in its buffer. -/
def s1C (c : Dev nD) : Vec F S10000x32 .f32 :=
  scM_1.view.read (Elt F) (scM_1.view.writes (Elt F) scM_1.view.junk (runAat m c t0 rfl).2.1)

theorem coverS0 (c : Dev nD) (y : S10000x32.Idx) : ∃ pc ∈ (runAat m c t0 rfl).1, y ∈ pc.1.set :=
  View.cover_of_tiledL (runAat m c t0 rfl).1 S10000x32.size (by sl_kernel_rfl) y

theorem coverS1 (c : Dev nD) (y : S10000x32.Idx) : ∃ pc ∈ (runAat m c t0 rfl).2.1, y ∈ pc.1.set :=
  View.cover_of_tiledL (runAat m c t0 rfl).2.1 S10000x32.size (by sl_kernel_rfl) y

/-- The second support's buffer after point `n`, having held `d0` at entry: slice by slice through pass 0, then kept. -/
def s2At (c : Dev nD) (d0 : Vec F S10000x32 .f32) : (n : ℕ) → n < cfg0.N → Vec F S10000x32 .f32
  | 0, hn => scM_2.view.read (Elt F) (scM_2.view.writes (Elt F) ((Memref.isWhole_whole _ : scM_2.IsWhole).unread d0) (runAat m c ⟨0, hn⟩ rfl).2.2.1)
  | n + 1, hn =>
    if h : n + 1 < 25 then
      scM_2.view.read (Elt F) (scM_2.view.writes (Elt F) ((Memref.isWhole_whole _ : scM_2.IsWhole).unread (s2At c d0 n (Nat.lt_of_succ_lt hn))) (runBat m c ⟨n + 1, hn⟩ (Nat.succ_ne_zero n) h (s1C m c)).1)
    else s2At c d0 n (Nat.lt_of_succ_lt hn)

theorem s2At_zero (c : Dev nD) (d0 : Vec F S10000x32 .f32) (t : Fin cfg0.N) (h : t.val = 0) :
    s2At m c d0 t.val t.isLt = scM_2.view.read (Elt F) (scM_2.view.writes (Elt F) ((Memref.isWhole_whole _ : scM_2.IsWhole).unread d0) (runAat m c t h).2.2.1) := by
  obtain ⟨n, hn⟩ := t
  cases n with
  | zero => rfl
  | succ n => exact absurd h (Nat.succ_ne_zero n)

theorem s2At_pass0 (c : Dev nD) (d0 : Vec F S10000x32 .f32) (t : Fin cfg0.N) (h : t.val ≠ 0) (h' : t.val < 25) :
    s2At m c d0 t.val t.isLt = scM_2.view.read (Elt F) (scM_2.view.writes (Elt F) ((Memref.isWhole_whole _ : scM_2.IsWhole).unread (s2At m c d0 (t.val - 1) (Nat.lt_of_le_of_lt (Nat.sub_le _ _) t.isLt))) (runBat m c t h h' (s1C m c)).1) := by
  obtain ⟨n, hn⟩ := t
  cases n with
  | zero => exact absurd rfl h
  | succ n => exact dif_pos h'

theorem s2At_pass1 (c : Dev nD) (d0 : Vec F S10000x32 .f32) (t : Fin cfg0.N) (h : 25 ≤ t.val) :
    s2At m c d0 t.val t.isLt = s2At m c d0 (t.val - 1) (Nat.lt_of_le_of_lt (Nat.sub_le _ _) t.isLt) := by
  obtain ⟨n, hn⟩ := t
  cases n with
  | zero => exact absurd h (by show ¬ 25 ≤ 0; omega)
  | succ n => exact dif_neg (by dsimp only at h; omega)

/-- Contents standing for "anything": a starting point for the closed form of the second support, overwritten entirely. -/
def anyVec : Vec F S10000x32 .f32 := scM_2.view.read (Elt F) scM_2.view.junk

/-- The second support: the buffer after the last point of pass 0. -/
def s2C (c : Dev nD) : Vec F S10000x32 .f32 := s2At m c anyVec 24 (by rw [N50]; omega)

/-- The body's pieces at a point of pass 1, on the features and the second support. -/
def runCC (c : Dev nD) (t : Fin cfg0.N) (h : 25 ≤ t.val) := runCat m c t h (featC m c) (s2C m c)

/-- What a point of pass 1 leaves in result buffer 0: its pieces read back; at a point of pass 0 nothing is stated. -/
def out29 (c : Dev nD) (t : Fin cfg0.N) : Vec F S400x16 .f32 :=
  if h : 25 ≤ t.val then (ms_29 t).view.read (Elt F) ((ms_29 t).view.writes (Elt F) (ms_29 t).view.junk (runCC m c t h).1)
  else Pipeline.Dat.unnamed (cfg := cfg0) ⟨29, by decide⟩ t

theorem cover29 (c : Dev nD) (t : Fin cfg0.N) (h : 25 ≤ t.val) (y : S400x16.Idx) : ∃ pc ∈ (runCC m c t h).1, y ∈ pc.1.set :=
  View.cover_of_tiledL (runCC m c t h).1 S400x16.size (by sl_kernel_rfl) y

/-- What a point of pass 1 leaves in result buffer 1: its pieces read back; at a point of pass 0 nothing is stated. -/
def out30 (c : Dev nD) (t : Fin cfg0.N) : Vec F S400x16 .f32 :=
  if h : 25 ≤ t.val then (ms_30 t).view.read (Elt F) ((ms_30 t).view.writes (Elt F) (ms_30 t).view.junk (runCC m c t h).2.1)
  else Pipeline.Dat.unnamed (cfg := cfg0) ⟨30, by decide⟩ t

theorem cover30 (c : Dev nD) (t : Fin cfg0.N) (h : 25 ≤ t.val) (y : S400x16.Idx) : ∃ pc ∈ (runCC m c t h).2.1, y ∈ pc.1.set :=
  View.cover_of_tiledL (runCC m c t h).2.1 S400x16.size (by sl_kernel_rfl) y

/-- What a point of pass 1 leaves in result buffer 2: its pieces read back; at a point of pass 0 nothing is stated. -/
def out31 (c : Dev nD) (t : Fin cfg0.N) : Vec F S400x32 .f32 :=
  if h : 25 ≤ t.val then (ms_31 t).view.read (Elt F) ((ms_31 t).view.writes (Elt F) (ms_31 t).view.junk (runCC m c t h).2.2.1)
  else Pipeline.Dat.unnamed (cfg := cfg0) ⟨31, by decide⟩ t

theorem cover31 (c : Dev nD) (t : Fin cfg0.N) (h : 25 ≤ t.val) (y : S400x32.Idx) : ∃ pc ∈ (runCC m c t h).2.2.1, y ∈ pc.1.set :=
  View.cover_of_tiledL (runCC m c t h).2.2.1 S400x32.size (by sl_kernel_rfl) y

/-- What a point of pass 1 leaves in result buffer 3: its pieces read back; at a point of pass 0 nothing is stated. -/
def out32 (c : Dev nD) (t : Fin cfg0.N) : Vec F S400x48 .f32 :=
  if h : 25 ≤ t.val then (ms_32 t).view.read (Elt F) ((ms_32 t).view.writes (Elt F) (ms_32 t).view.junk (runCC m c t h).2.2.2.1)
  else Pipeline.Dat.unnamed (cfg := cfg0) ⟨32, by decide⟩ t

theorem cover32 (c : Dev nD) (t : Fin cfg0.N) (h : 25 ≤ t.val) (y : S400x48.Idx) : ∃ pc ∈ (runCC m c t h).2.2.2.1, y ∈ pc.1.set :=
  View.cover_of_tiledL (runCC m c t h).2.2.2.1 S400x48.size (by sl_kernel_rfl) y

/-- What a point of pass 1 leaves in result buffer 4: its pieces read back; at a point of pass 0 nothing is stated. -/
def out33 (c : Dev nD) (t : Fin cfg0.N) : Vec F S400x128 .f32 :=
  if h : 25 ≤ t.val then (ms_33 t).view.read (Elt F) ((ms_33 t).view.writes (Elt F) (ms_33 t).view.junk (runCC m c t h).2.2.2.2.1)
  else Pipeline.Dat.unnamed (cfg := cfg0) ⟨33, by decide⟩ t

theorem cover33 (c : Dev nD) (t : Fin cfg0.N) (h : 25 ≤ t.val) (y : S400x128.Idx) : ∃ pc ∈ (runCC m c t h).2.2.2.2.1, y ∈ pc.1.set :=
  View.cover_of_tiledL (runCC m c t h).2.2.2.2.1 S400x128.size (by sl_kernel_rfl) y

/-! ## The invariant and the proof data -/

/-- Before point `n`: at the start the class's invariant (scratch at anything); afterwards the features and the first
    support in their buffers, the second support's buffer at what the slices so far leave of SOME entry contents, and the
    generator register at some state. -/
def PhiS (c : Dev nD) : (n : ℕ) → n ≤ cfg0.N → sProp 𝕄
  | 0, _ => Pipeline.ΦA spec0 c
  | n + 1, hn => iprop(iprop(owns (c : Thread nD τ) scM_0 fullShare (featC m c) ∗ owns (c : Thread nD τ) scM_1 fullShare (s1C m c) ∗ (∃ d0, owns (c : Thread nD τ) scM_2 fullShare (s2At m c d0 n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare (featC m c) ∗ owns (c : Thread nD τ) scM_1 fullShare (s1C m c) ∗ (∃ d0, owns (c : Thread nD τ) scM_2 fullShare (s2At m c d0 n hn))) ∗ (∃ r, prngReg c r)) := rfl

theorem PhiS_pos (c : Dev nD) (n : ℕ) (h : n ≤ cfg0.N) (hz : n ≠ 0) :
    PhiS m c n h = iprop(iprop(owns (c : Thread nD τ) scM_0 fullShare (featC m c) ∗ owns (c : Thread nD τ) scM_1 fullShare (s1C m c) ∗ (∃ d0, owns (c : Thread nD τ) scM_2 fullShare (s2At m c d0 (n - 1) (by omega)))) ∗ (∃ r, prngReg c r)) := by
  cases n with
  | zero => exact absurd rfl hz
  | succ n => rfl

/-- The proof data on core `c`: the arrays as the region finds them; after the body each input's buffer at its block and
    each result buffer at `out·`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => out29 m c t
    | ⟨30, _⟩ => out30 m c t
    | ⟨31, _⟩ => out31 m c t
    | ⟨32, _⟩ => out32 m c t
    | ⟨33, _⟩ => out33 m c t
    | ⟨_ + 34, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = out29 m c t := by dsimp only [dats]
theorem after_30 (c : Dev nD) (t : Fin cfg0.N) : (dats m 0 c).after 30 t = out30 m c t := by dsimp only [dats]
theorem after_31 (c : Dev nD) (t : Fin cfg0.N) : (dats m 0 c).after 31 t = out31 m c t := by dsimp only [dats]
theorem after_32 (c : Dev nD) (t : Fin cfg0.N) : (dats m 0 c).after 32 t = out32 m c t := by dsimp only [dats]
theorem after_33 (c : Dev nD) (t : Fin cfg0.N) : (dats m 0 c).after 33 t = out33 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d
theorem before_26 (c : Dev nD) (t : Fin cfg0.N) (d) : (dats m 0 c).before 26 t d = iblk m c 26 t :=
  before0_26_of m (dats m 0 c) (A_eq m c 26) (after_26 m c) t d
theorem before_27 (c : Dev nD) (t : Fin cfg0.N) (d) : (dats m 0 c).before 27 t d = iblk m c 27 t :=
  before0_27_of m (dats m 0 c) (A_eq m c 27) (after_27 m c) t d
theorem before_28 (c : Dev nD) (t : Fin cfg0.N) (d) : (dats m 0 c).before 28 t d = iblk m c 28 t :=
  before0_28_of m (dats m 0 c) (A_eq m c 28) (after_28 m c) t d

/-! ## The second support's buffer is complete after pass 0 -/

/-- The slice's offsets at a point of pass 0: row 400·t, column 0. -/
theorem off1 : ∀ t : Fin cfg0.N, t.val < 25 → k0_off1 (grid0.coords t) = ![400 * t.val, 0] :=
  (by decide +kernel : ∀ t : Fin grid0.N, t.val < 25 → k0_off1 (grid0.coords t) = ![400 * t.val, 0])

/-- The rows of the second support's buffer that point `t` of pass 0 writes. -/
abbrev sliceRect (t : Fin cfg0.N) (h : t.val < 25) : Rect S10000x32 :=
  Rect.unit (s := S10000x32) (k0_off1 (grid0.coords t)) S400x32.size (k0_off1_inb (grid0.coords t) ((hcond0 t).mpr h))

/-- At the first point the second support's buffer gets one piece: the point's slice. -/
theorem runAat_shape (c : Dev nD) (t : Fin cfg0.N) (h : t.val = 0) :
    ∃ w : (sliceRect t (by omega)).shape.Idx → Elt F .f32, (runAat m c t h).2.2.1 = [(⟨sliceRect t (by omega), w⟩ : View.Piece (Elt F) S10000x32 .f32)] := by
  unfold runAat runA; dsimp only; exact ⟨_, rfl⟩

/-- At a later point of pass 0 likewise. -/
theorem runBat_shape (c : Dev nD) (t : Fin cfg0.N) (h : t.val ≠ 0) (h' : t.val < 25) (xs1 : Vec F S10000x32 .f32) :
    ∃ w : (sliceRect t h').shape.Idx → Elt F .f32, (runBat m c t h h' xs1).1 = [(⟨sliceRect t h', w⟩ : View.Piece (Elt F) S10000x32 .f32)] := by
  unfold runBat runB; dsimp only; exact ⟨_, rfl⟩

/-- One slice of 400 rows written over two arrays that agree outside the slice at an index: the results agree there. -/
theorem slice_congr (f f' : Vec F S10000x32 .f32) {off : Fin 2 → ℕ} (o : ℕ) (inb : ∀ a, off a + S400x32.size a ≤ S10000x32.size a)
    (w : (Rect.unit (s := S10000x32) off S400x32.size inb).shape.Idx → Elt F .f32) (hoff : off = ![o, 0]) (y : S10000x32.Idx)
    (h : ¬(o ≤ (y (0 : Fin 2)).val ∧ (y (0 : Fin 2)).val < o + 400) → f y = f' y) :
    scM_2.view.read (Elt F) (scM_2.view.writes (Elt F) ((Memref.isWhole_whole _ : (scM_2 : Memref sig .tc .vmem S10000x32 .f32).IsWhole).unread f) [(⟨Rect.unit (s := S10000x32) off S400x32.size inb, w⟩ : View.Piece (Elt F) S10000x32 .f32)]) y
      = scM_2.view.read (Elt F) (scM_2.view.writes (Elt F) ((Memref.isWhole_whole _ : (scM_2 : Memref sig .tc .vmem S10000x32 .f32).IsWhole).unread f') [(⟨Rect.unit (s := S10000x32) off S400x32.size inb, w⟩ : View.Piece (Elt F) S10000x32 .f32)]) y := by
  rw [View.read_writes_cons_rows (d := ![10000, 32]) scM_2.view _ inb w [] y hoff (W := 400) rfl rfl,
      View.read_writes_cons_rows (d := ![10000, 32]) scM_2.view _ inb w [] y hoff (W := 400) rfl rfl]
  split
  · rfl
  · rename_i hn
    rw [View.writes_nil, View.writes_nil]
    exact ((congrFun (Memref.IsWhole.read_unread _ f) y).trans (h hn)).trans (congrFun (Memref.IsWhole.read_unread _ f') y).symm

/-- After point n of pass 0 the rows below 400·(n + 1) do not depend on what the buffer held at entry. -/
theorem s2At_indep (c : Dev nD) (d0 d0' : Vec F S10000x32 .f32) : ∀ (n : ℕ) (hn : n < cfg0.N), n < 25 →
    ∀ y : S10000x32.Idx, (y (0 : Fin 2)).val < 400 * (n + 1) → s2At m c d0 n hn y = s2At m c d0' n hn y
  | 0, hn, _, y, hy => by
    rw [s2At_zero m c d0 ⟨0, hn⟩ rfl, s2At_zero m c d0' ⟨0, hn⟩ rfl]
    obtain ⟨w, hw⟩ := runAat_shape m c ⟨0, hn⟩ rfl
    rw [hw]
    exact slice_congr d0 d0' (400 * 0) _ w (off1 ⟨0, hn⟩ (by show (0 : ℕ) < 25; omega)) y (fun hnot => absurd ⟨by omega, by omega⟩ hnot)
  | n + 1, hn, h25, y, hy => by
    rw [s2At_pass0 m c d0 ⟨n + 1, hn⟩ (Nat.succ_ne_zero n) h25, s2At_pass0 m c d0' ⟨n + 1, hn⟩ (Nat.succ_ne_zero n) h25]
    obtain ⟨w, hw⟩ := runBat_shape m c ⟨n + 1, hn⟩ (Nat.succ_ne_zero n) h25 (s1C m c)
    rw [hw]
    exact slice_congr _ _ (400 * (n + 1)) _ w (off1 ⟨n + 1, hn⟩ h25) y
      (fun hnot => s2At_indep c d0 d0' n (Nat.lt_of_succ_lt hn) (by omega) y (by omega))

/-- From point 24 on the buffer is the second support, whatever it held at entry. -/
theorem s2At_full (c : Dev nD) (d0 : Vec F S10000x32 .f32) : ∀ (n : ℕ) (hn : n < cfg0.N), 24 ≤ n → s2At m c d0 n hn = s2C m c
  | 0, _, h => absurd h (by omega)
  | n + 1, hn, h => by
    by_cases hk : n + 1 = 24
    · have hn' : n = 23 := by omega
      subst hn'
      funext y
      exact s2At_indep m c d0 anyVec 24 hn (by omega) y (by have := Idealize.ShloMosaic.ValueIdx.idx2_lt0 y; omega)
    · have hlt : ¬ (n + 1 < 25) := by omega
      exact (show s2At m c d0 (n + 1) hn = s2At m c d0 n (Nat.lt_of_succ_lt hn) from dif_neg hlt).trans
        (s2At_full c d0 n (Nat.lt_of_succ_lt hn) (by omega))

end Cert.Kernel.Body

end
-- ==== Proof.BodyFrame_K.lean ====
/-
  The body's obligation at every grid point, the run of the whole program, and its frame.

  At the first point the scratch buffers are found at anything and left at the features, the first support and slice 0 of
  the second; at a later point of pass 0 one more slice is written; at a point of pass 1 the second support's buffer is
  complete, so it is the second support whatever it held at entry, and the five result buffers are stored whole.
-/
import proofs.«133634_g45492293599347_cont_8to1c4_324_9_alg».proof.Proof.BodyData_K

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d))
    ∗ (∃ d, owns (c : Thread nD τ) (ms_17 t) fullShare ((dats m 0 c).before 17 t d))
    ∗ (∃ d, owns (c : Thread nD τ) (ms_18 t) fullShare ((dats m 0 c).before 18 t d))
    ∗ (∃ d, owns (c : Thread nD τ) (ms_19 t) fullShare ((dats m 0 c).before 19 t d))
    ∗ (∃ d, owns (c : Thread nD τ) (ms_20 t) fullShare ((dats m 0 c).before 20 t d))
    ∗ (∃ d, owns (c : Thread nD τ) (ms_21 t) fullShare ((dats m 0 c).before 21 t d))
    ∗ (∃ d, owns (c : Thread nD τ) (ms_22 t) fullShare ((dats m 0 c).before 22 t d))
    ∗ (∃ d, owns (c : Thread nD τ) (ms_23 t) fullShare ((dats m 0 c).before 23 t d))
    ∗ (∃ d, owns (c : Thread nD τ) (ms_24 t) fullShare ((dats m 0 c).before 24 t d))
    ∗ (∃ d, owns (c : Thread nD τ) (ms_25 t) fullShare ((dats m 0 c).before 25 t d))
    ∗ (∃ d, owns (c : Thread nD τ) (ms_26 t) fullShare ((dats m 0 c).before 26 t d))
    ∗ (∃ d, owns (c : Thread nD τ) (ms_27 t) fullShare ((dats m 0 c).before 27 t d))
    ∗ (∃ d, owns (c : Thread nD τ) (ms_28 t) fullShare ((dats m 0 c).before 28 t d))
    ∗ (∃ d, owns (c : Thread nD τ) (ms_29 t) fullShare ((dats m 0 c).before 29 t d))
    ∗ (∃ d, owns (c : Thread nD τ) (ms_30 t) fullShare ((dats m 0 c).before 30 t d))
    ∗ (∃ d, owns (c : Thread nD τ) (ms_31 t) fullShare ((dats m 0 c).before 31 t d))
    ∗ (∃ d, owns (c : Thread nD τ) (ms_32 t) fullShare ((dats m 0 c).before 32 t d))
    ∗ (∃ d, owns (c : Thread nD τ) (ms_33 t) fullShare ((dats m 0 c).before 33 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t)

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N50
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  rw [show (dats m 0 c).leavesExact 8 t = owns (c : Thread nD τ) (ms_8 t) fullShare ((dats m 0 c).after 8 t) from by
    unfold Dat.leavesExact; rw [liveAt_8 t], after_8]
  rw [show (dats m 0 c).leavesExact 9 t = owns (c : Thread nD τ) (ms_9 t) fullShare ((dats m 0 c).after 9 t) from by
    unfold Dat.leavesExact; rw [liveAt_9 t], after_9]
  rw [show (dats m 0 c).leavesExact 10 t = owns (c : Thread nD τ) (ms_10 t) fullShare ((dats m 0 c).after 10 t) from by
    unfold Dat.leavesExact; rw [liveAt_10 t], after_10]
  rw [show (dats m 0 c).leavesExact 11 t = owns (c : Thread nD τ) (ms_11 t) fullShare ((dats m 0 c).after 11 t) from by
    unfold Dat.leavesExact; rw [liveAt_11 t], after_11]
  rw [show (dats m 0 c).leavesExact 12 t = owns (c : Thread nD τ) (ms_12 t) fullShare ((dats m 0 c).after 12 t) from by
    unfold Dat.leavesExact; rw [liveAt_12 t], after_12]
  rw [show (dats m 0 c).leavesExact 13 t = owns (c : Thread nD τ) (ms_13 t) fullShare ((dats m 0 c).after 13 t) from by
    unfold Dat.leavesExact; rw [liveAt_13 t], after_13]
  rw [show (dats m 0 c).leavesExact 14 t = owns (c : Thread nD τ) (ms_14 t) fullShare ((dats m 0 c).after 14 t) from by
    unfold Dat.leavesExact; rw [liveAt_14 t], after_14]
  rw [show (dats m 0 c).leavesExact 15 t = owns (c : Thread nD τ) (ms_15 t) fullShare ((dats m 0 c).after 15 t) from by
    unfold Dat.leavesExact; rw [liveAt_15 t], after_15]
  rw [show (dats m 0 c).leavesExact 16 t = owns (c : Thread nD τ) (ms_16 t) fullShare ((dats m 0 c).after 16 t) from by
    unfold Dat.leavesExact; rw [liveAt_16 t], after_16]
  rw [show (dats m 0 c).leavesExact 17 t = owns (c : Thread nD τ) (ms_17 t) fullShare ((dats m 0 c).after 17 t) from by
    unfold Dat.leavesExact; rw [liveAt_17 t], after_17]
  rw [show (dats m 0 c).leavesExact 18 t = owns (c : Thread nD τ) (ms_18 t) fullShare ((dats m 0 c).after 18 t) from by
    unfold Dat.leavesExact; rw [liveAt_18 t], after_18]
  rw [show (dats m 0 c).leavesExact 19 t = owns (c : Thread nD τ) (ms_19 t) fullShare ((dats m 0 c).after 19 t) from by
    unfold Dat.leavesExact; rw [liveAt_19 t], after_19]
  rw [show (dats m 0 c).leavesExact 20 t = owns (c : Thread nD τ) (ms_20 t) fullShare ((dats m 0 c).after 20 t) from by
    unfold Dat.leavesExact; rw [liveAt_20 t], after_20]
  rw [show (dats m 0 c).leavesExact 21 t = owns (c : Thread nD τ) (ms_21 t) fullShare ((dats m 0 c).after 21 t) from by
    unfold Dat.leavesExact; rw [liveAt_21 t], after_21]
  rw [show (dats m 0 c).leavesExact 22 t = owns (c : Thread nD τ) (ms_22 t) fullShare ((dats m 0 c).after 22 t) from by
    unfold Dat.leavesExact; rw [liveAt_22 t], after_22]
  rw [show (dats m 0 c).leavesExact 23 t = owns (c : Thread nD τ) (ms_23 t) fullShare ((dats m 0 c).after 23 t) from by
    unfold Dat.leavesExact; rw [liveAt_23 t], after_23]
  rw [show (dats m 0 c).leavesExact 24 t = owns (c : Thread nD τ) (ms_24 t) fullShare ((dats m 0 c).after 24 t) from by
    unfold Dat.leavesExact; rw [liveAt_24 t], after_24]
  rw [show (dats m 0 c).leavesExact 25 t = owns (c : Thread nD τ) (ms_25 t) fullShare ((dats m 0 c).after 25 t) from by
    unfold Dat.leavesExact; rw [liveAt_25 t], after_25]
  rw [show (dats m 0 c).leavesExact 26 t = owns (c : Thread nD τ) (ms_26 t) fullShare ((dats m 0 c).after 26 t) from by
    unfold Dat.leavesExact; rw [liveAt_26 t], after_26]
  rw [show (dats m 0 c).leavesExact 27 t = owns (c : Thread nD τ) (ms_27 t) fullShare ((dats m 0 c).after 27 t) from by
    unfold Dat.leavesExact; rw [liveAt_27 t], after_27]
  rw [show (dats m 0 c).leavesExact 28 t = owns (c : Thread nD τ) (ms_28 t) fullShare ((dats m 0 c).after 28 t) from by
    unfold Dat.leavesExact; rw [liveAt_28 t], after_28]
  by_cases hz : t.val = 0
  · -- the first point: the encoder, the first support, slice 0
    obtain rfl : t = t0 := Fin.ext hz
    rw [Dat.leavesExact_idle (dats m 0 c) 29 t0 (idleAt_29 t0 (by show (0 : ℕ) < 25; omega)) (noFlush_29 t0 (by show (0 : ℕ) < 25; omega))]
    rw [Dat.leavesExact_idle (dats m 0 c) 30 t0 (idleAt_30 t0 (by show (0 : ℕ) < 25; omega)) (noFlush_30 t0 (by show (0 : ℕ) < 25; omega))]
    rw [Dat.leavesExact_idle (dats m 0 c) 31 t0 (idleAt_31 t0 (by show (0 : ℕ) < 25; omega)) (noFlush_31 t0 (by show (0 : ℕ) < 25; omega))]
    rw [Dat.leavesExact_idle (dats m 0 c) 32 t0 (idleAt_32 t0 (by show (0 : ℕ) < 25; omega)) (noFlush_32 t0 (by show (0 : ℕ) < 25; omega))]
    rw [Dat.leavesExact_idle (dats m 0 c) 33 t0 (idleAt_33 t0 (by show (0 : ℕ) < 25; omega)) (noFlush_33 t0 (by show (0 : ℕ) < 25; omega))]
    simp only [s2At_zero m c _ t0 rfl]
    rw [PhiS_castSucc m c t0, PhiS_zero m c _ _ (show (t0 : Fin cfg0.N).val = 0 from rfl), PhiA_eq]
    iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
    iapply ((runAat m c t0 rfl).2.2.2 _ _ _ _ _ ds2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, H22, H23, H24, H25, H26, H27, H28, H29, H30, H31, H32, H33, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_of_cover _ _ _ _ _ (coverS0 m c)
        isplitl [HS1]
        · unfold owns; iexists _; isplitr
          swap; · iexact HS1
          ipureintro; exact View.read_writes_of_cover _ _ _ _ _ (coverS1 m c)
        iexists ds2
        unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    iexists _; iexact H33
  · by_cases h25 : t.val < 25
    · -- a later point of pass 0: one more slice
      rw [Dat.leavesExact_idle (dats m 0 c) 29 t (idleAt_29 t h25) (noFlush_29 t h25)]
      rw [Dat.leavesExact_idle (dats m 0 c) 30 t (idleAt_30 t h25) (noFlush_30 t h25)]
      rw [Dat.leavesExact_idle (dats m 0 c) 31 t (idleAt_31 t h25) (noFlush_31 t h25)]
      rw [Dat.leavesExact_idle (dats m 0 c) 32 t (idleAt_32 t h25) (noFlush_32 t h25)]
      rw [Dat.leavesExact_idle (dats m 0 c) 33 t (idleAt_33 t h25) (noFlush_33 t h25)]
      simp only [s2At_pass0 m c _ t hz h25]
      rw [PhiS_castSucc m c t, PhiS_pos m c _ _ hz]
      iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
      iapply ((runBat m c t hz h25 (s1C m c)).2 _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, H25, H26, H27, H28, H29, H30, H31, H32, H33, HS0, HS1, HS2⟩
      isplitl [HS0 HS1 HS2 Hg]
      · isplitl [HS0 HS1 HS2]
        · isplitl [HS0]; · iexact HS0
          isplitl [HS1]; · iexact HS1
          iexists ds2
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      iexists _; iexact H33
    · -- a point of pass 1: the second support is complete; five result blocks
      have h25' : 25 ≤ t.val := Nat.le_of_not_lt h25
      rw [show (dats m 0 c).leavesExact 29 t = owns (c : Thread nD τ) (ms_29 t) fullShare ((dats m 0 c).after 29 t) from by
        unfold Dat.leavesExact; rw [liveAt_29 t h25'], after_29, out29, dif_pos h25']
      rw [show (dats m 0 c).leavesExact 30 t = owns (c : Thread nD τ) (ms_30 t) fullShare ((dats m 0 c).after 30 t) from by
        unfold Dat.leavesExact; rw [liveAt_30 t h25'], after_30, out30, dif_pos h25']
      rw [show (dats m 0 c).leavesExact 31 t = owns (c : Thread nD τ) (ms_31 t) fullShare ((dats m 0 c).after 31 t) from by
        unfold Dat.leavesExact; rw [liveAt_31 t h25'], after_31, out31, dif_pos h25']
      rw [show (dats m 0 c).leavesExact 32 t = owns (c : Thread nD τ) (ms_32 t) fullShare ((dats m 0 c).after 32 t) from by
        unfold Dat.leavesExact; rw [liveAt_32 t h25'], after_32, out32, dif_pos h25']
      rw [show (dats m 0 c).leavesExact 33 t = owns (c : Thread nD τ) (ms_33 t) fullShare ((dats m 0 c).after 33 t) from by
        unfold Dat.leavesExact; rw [liveAt_33 t h25'], after_33, out33, dif_pos h25']
      simp only [s2At_pass1 m c _ t h25']
      rw [PhiS_castSucc m c t, PhiS_pos m c _ _ hz]
      simp only [s2At_full m c _ (t.val - 1) (Nat.lt_of_le_of_lt (Nat.sub_le _ _) t.isLt) (by omega)]
      iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
      iapply ((runCC m c t h25').2.2.2.2.2 (s1C m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      isplitl [H33]; · iexists _; iexact H33
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, HS0, HS1, HS2⟩
      isplitl [HS0 HS1 HS2 Hg]
      · isplitl [HS0 HS1 HS2]
        · isplitl [HS0]; · iexact HS0
          isplitl [HS1]; · iexact HS1
          iexists ds2; iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]
      · unfold owns; iexists _; isplitr
        swap; · iexact H29
        ipureintro; exact View.read_writes_of_cover _ _ _ _ _ (cover29 m c t h25')
      isplitl [H30]
      · unfold owns; iexists _; isplitr
        swap; · iexact H30
        ipureintro; exact View.read_writes_of_cover _ _ _ _ _ (cover30 m c t h25')
      isplitl [H31]
      · unfold owns; iexists _; isplitr
        swap; · iexact H31
        ipureintro; exact View.read_writes_of_cover _ _ _ _ _ (cover31 m c t h25')
      isplitl [H32]
      · unfold owns; iexists _; isplitr
        swap; · iexact H32
        ipureintro; exact View.read_writes_of_cover _ _ _ _ _ (cover32 m c t h25')
      unfold owns; iexists _; isplitr
      swap; · iexact H33
      ipureintro; exact View.read_writes_of_cover _ _ _ _ _ (cover33 m c t h25')

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, ⟨%ds2, HS2⟩⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 50 := N50; omega)

set_option backward.isDefEq.respectTransparency.types false in
/-- Every weakly fair execution of the program terminates, with every array of the pipeline at what the library computes
    from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

end Cert.Kernel.Body

end
-- ==== Proof.Spec.lean ====
/-
  The graph auto-encoder's forward pass as plain formulas on extended reals, entry by entry.

  Two dense layers (a matrix product, a bias row, a normalisation by stored column statistics, a scale and a shift,
  then the exponential linear unit) give the node features; one product with a weight matrix gives the support;
  the adjacency matrix is applied to it; two weight matrices give the supports of the mean and of the log-deviation,
  and the adjacency matrix is applied again to each.  The features and the mean, side by side, are decoded by one
  more such dense layer and by a last one that ends in a rectifier instead of the exponential unit.

  Every product is a sum over the whole contracted axis; nothing here depends on how rows are grouped into blocks.
-/
import Idealize.ShloMosaic.PureOps.Ideal
import Idealize.ShloMosaic.Lib.ValueIdx
import Idealize.ShloMosaic.Lib.IdealHost

noncomputable section

namespace Cert.Spec

open Idealize.ShloMosaic Idealize.ShloMosaic.ValueIdx

/-- A two-axis array of extended reals. -/
abbrev Mat (a b : ℕ) : Type := (⟨2, ![a, b]⟩ : Shape).Idx → EReal
/-- A one-axis array of extended reals. -/
abbrev Vect (a : ℕ) : Type := (⟨1, ![a]⟩ : Shape).Idx → EReal

variable {M K N : ℕ}

/-- The small positive number added to a variance before its square root: the single-precision value nearest 1/1000. -/
def eps : EReal := Ideal.ofBits .f32 0x3A83126F#32

/-- The matrix product: entry (p, q) is the sum over k of x (p, k) · w (k, q). -/
def dense (x : Mat M K) (w : Mat K N) : Mat M N :=
  fun j => ∑ k : Fin K, x (ix2 (j 0) k) * w (ix2 k (j 1))

theorem dense_ix2 (x : Mat M K) (w : Mat K N) (p : Fin M) (q : Fin N) :
    dense x w (ix2 p q) = ∑ k : Fin K, x (ix2 p k) * w (ix2 k q) := rfl

/-- A row added to every row of a matrix. -/
def addRow (v : Mat M N) (b : Vect N) : Mat M N := fun j => v j + b (ix1 (j 1))

theorem addRow_ix2 (v : Mat M N) (b : Vect N) (p : Fin M) (q : Fin N) :
    addRow v b (ix2 p q) = v (ix2 p q) + b (ix1 q) := rfl

/-- Normalisation by stored column statistics, then a scale and a shift:
    ((v − mean) / sqrt (variance + eps)) · scale + shift, column by column. -/
def norm (v : Mat M N) (g b rm rv : Vect N) : Mat M N := fun j =>
  Ideal.div (v j - rm (ix1 (j 1))) (Ideal.sqrt (rv (ix1 (j 1)) + eps)) * g (ix1 (j 1)) + b (ix1 (j 1))

theorem norm_ix2 (v : Mat M N) (g b rm rv : Vect N) (p : Fin M) (q : Fin N) :
    norm v g b rm rv (ix2 p q)
      = Ideal.div (v (ix2 p q) - rm (ix1 q)) (Ideal.sqrt (rv (ix1 q) + eps)) * g (ix1 q) + b (ix1 q) := rfl

/-- The exponential linear unit: y where y is positive, exp y − 1 elsewhere. -/
def elu (y : EReal) : EReal :=
  Scalar.select (FloatOps.cmpf (F := Ideal) (φ := .f32) .ogt y (0 : EReal)) y (Ideal.exp y - 1)

/-- A dense layer ending in the exponential linear unit. -/
def layer (x : Mat M K) (w : Mat K N) (b g be rm rv : Vect N) : Mat M N :=
  fun j => elu (norm (addRow (dense x w) b) g be rm rv j)

/-- A dense layer ending in the rectifier. -/
def layerRelu (x : Mat M K) (w : Mat K N) (b g be rm rv : Vect N) : Mat M N :=
  fun j => max (norm (addRow (dense x w) b) g be rm rv j) 0

/-- Two matrices of the same height side by side. -/
def hcat {A B : ℕ} (x : Mat M A) (y : Mat M B) : Mat M (A + B) := fun j =>
  if h : (j 1).val < A then x (ix2 (j 0) ⟨(j 1).val, h⟩)
  else y (ix2 (j 0) ⟨(j 1).val - A, by have := idx2_lt1 j; omega⟩)

theorem hcat_left {A B : ℕ} (x : Mat M A) (y : Mat M B) (p : Fin M) (q : Fin (A + B)) (h : q.val < A) :
    hcat x y (ix2 p q) = x (ix2 p ⟨q.val, h⟩) := dif_pos h

theorem hcat_right {A B : ℕ} (x : Mat M A) (y : Mat M B) (p : Fin M) (q : Fin (A + B)) (h : ¬ q.val < A) :
    hcat x y (ix2 p q) = y (ix2 p ⟨q.val - A, by have := q.isLt; omega⟩) := dif_neg h

/-- A product with two weight matrices side by side is the two products side by side. -/
theorem dense_hcat {A B : ℕ} (x : Mat M K) (u : Mat K A) (v : Mat K B) :
    dense x (hcat u v) = hcat (dense x u) (dense x v) := by
  funext j
  obtain ⟨p, q, rfl⟩ : ∃ (p : Fin M) (q : Fin (A + B)), j = ix2 p q := ⟨j 0, j 1, eq_ix2 j⟩
  by_cases h : q.val < A
  · rw [hcat_left _ _ _ _ h, dense_ix2, dense_ix2]
    exact Finset.sum_congr rfl fun k _ => by rw [hcat_left _ _ _ _ h]
  · rw [hcat_right _ _ _ _ h, dense_ix2, dense_ix2]
    exact Finset.sum_congr rfl fun k _ => by rw [hcat_right _ _ _ _ h]

/-! ## Rows and blocks of rows -/

/-- The one row of a 1×N matrix, as a vector. -/
def rowVec (r : Mat 1 N) : Vect N := fun j => r (ix2 (0 : Fin 1) (j 0))

theorem rowVec_ix1 (r : Mat 1 N) (q : Fin N) : rowVec r (ix1 q) = r (ix2 (0 : Fin 1) q) := rfl

/-- The block of M' consecutive rows of a matrix that starts at row o. -/
def rows {M' : ℕ} (o : ℕ) (h : o + M' ≤ M) (x : Mat M N) : Mat M' N :=
  fun j => x (ix2 ⟨o + (j 0).val, by have := idx2_lt0 j; omega⟩ (j 1))

theorem rows_ix2 {M' : ℕ} (o : ℕ) (h : o + M' ≤ M) (x : Mat M N) (p : Fin M') (q : Fin N) :
    rows o h x (ix2 p q) = x (ix2 ⟨o + p.val, by have := p.isLt; omega⟩ q) := rfl

/-- A block of rows of a product is the product of the block of rows. -/
theorem dense_rows {M' : ℕ} (o : ℕ) (h : o + M' ≤ M) (x : Mat M K) (w : Mat K N) :
    dense (rows o h x) w = rows o h (dense x w) := rfl

theorem addRow_rows {M' : ℕ} (o : ℕ) (h : o + M' ≤ M) (v : Mat M N) (b : Vect N) :
    addRow (rows o h v) b = rows o h (addRow v b) := rfl

theorem norm_rows {M' : ℕ} (o : ℕ) (h : o + M' ≤ M) (v : Mat M N) (g b rm rv : Vect N) :
    norm (rows o h v) g b rm rv = rows o h (norm v g b rm rv) := rfl

theorem layer_rows {M' : ℕ} (o : ℕ) (h : o + M' ≤ M) (x : Mat M K) (w : Mat K N) (b g be rm rv : Vect N) :
    layer (rows o h x) w b g be rm rv = rows o h (layer x w b g be rm rv) := rfl

theorem layerRelu_rows {M' : ℕ} (o : ℕ) (h : o + M' ≤ M) (x : Mat M K) (w : Mat K N) (b g be rm rv : Vect N) :
    layerRelu (rows o h x) w b g be rm rv = rows o h (layerRelu x w b g be rm rv) := rfl

theorem hcat_rows {M' A B : ℕ} (o : ℕ) (h : o + M' ≤ M) (x : Mat M A) (y : Mat M B) :
    hcat (rows o h x) (rows o h y) = rows o h (hcat x y) := rfl

/-- The left and the right columns of two matrices side by side. -/
def leftCols {A B : ℕ} (z : Mat M (A + B)) : Mat M A :=
  fun j => z (ix2 (j 0) ⟨(j 1).val, by have := idx2_lt1 j; omega⟩)

def rightCols {A B : ℕ} (z : Mat M (A + B)) : Mat M B :=
  fun j => z (ix2 (j 0) ⟨A + (j 1).val, by have := idx2_lt1 j; omega⟩)

theorem leftCols_hcat {A B : ℕ} (x : Mat M A) (y : Mat M B) : leftCols (hcat x y) = x := by
  funext j
  obtain ⟨p, q, rfl⟩ : ∃ (p : Fin M) (q : Fin A), j = ix2 p q := ⟨j 0, j 1, eq_ix2 j⟩
  exact hcat_left x y p ⟨q.val, by have := q.isLt; omega⟩ q.isLt

theorem rightCols_hcat {A B : ℕ} (x : Mat M A) (y : Mat M B) : rightCols (hcat x y) = y := by
  funext j
  obtain ⟨p, q, rfl⟩ : ∃ (p : Fin M) (q : Fin B), j = ix2 p q := ⟨j 0, j 1, eq_ix2 j⟩
  have hq : ¬ (A + q.val) < A := by omega
  refine (hcat_right x y p ⟨A + q.val, by have := q.isLt; omega⟩ hq).trans ?_
  congr 1
  funext a
  match a with
  | ⟨0, _⟩ => rfl
  | ⟨1, _⟩ => exact Fin.ext (by simp)

/-! ## The model -/

section Model

variable (x : Mat 10000 128) (adj : Mat 10000 10000)
  (W1 : Mat 128 64) (b1 g1 be1 rm1 rv1 : Vect 64)
  (W2 : Mat 64 32) (b2 g2 be2 rm2 rv2 : Vect 32)
  (Wg1 : Mat 32 32) (Wg2 Wg3 : Mat 32 16)
  (Wd1 : Mat 48 64) (bd1 gd1 bed1 rmd1 rvd1 : Vect 64)
  (Wd2 : Mat 64 128) (bd2 gd2 bed2 rmd2 rvd2 : Vect 128)

/-- The node features: two dense layers. -/
def feat : Mat 10000 32 := layer (layer x W1 b1 g1 be1 rm1 rv1) W2 b2 g2 be2 rm2 rv2

/-- The first graph layer's support: the features times its weight. -/
def support1 : Mat 10000 32 := dense (feat x W1 b1 g1 be1 rm1 rv1 W2 b2 g2 be2 rm2 rv2) Wg1

/-- The first graph layer: the adjacency matrix applied to its support. -/
def hidden1 : Mat 10000 32 := dense adj (support1 x W1 b1 g1 be1 rm1 rv1 W2 b2 g2 be2 rm2 rv2 Wg1)

/-- The supports of the mean and of the log-deviation, side by side (columns 0–15 and 16–31). -/
def support2 : Mat 10000 (16 + 16) :=
  hcat (dense (hidden1 x adj W1 b1 g1 be1 rm1 rv1 W2 b2 g2 be2 rm2 rv2 Wg1) Wg2)
       (dense (hidden1 x adj W1 b1 g1 be1 rm1 rv1 W2 b2 g2 be2 rm2 rv2 Wg1) Wg3)

/-- The mean: the adjacency matrix applied to its support. -/
def mu : Mat 10000 16 := dense adj (dense (hidden1 x adj W1 b1 g1 be1 rm1 rv1 W2 b2 g2 be2 rm2 rv2 Wg1) Wg2)

/-- The log-deviation: the adjacency matrix applied to its support. -/
def logstd : Mat 10000 16 := dense adj (dense (hidden1 x adj W1 b1 g1 be1 rm1 rv1 W2 b2 g2 be2 rm2 rv2 Wg1) Wg3)

/-- The latent code: the features and the mean side by side. -/
def latent : Mat 10000 (32 + 16) :=
  hcat (feat x W1 b1 g1 be1 rm1 rv1 W2 b2 g2 be2 rm2 rv2) (mu x adj W1 b1 g1 be1 rm1 rv1 W2 b2 g2 be2 rm2 rv2 Wg1 Wg2)

/-- The decoder: a dense layer with the exponential unit, then one with the rectifier. -/
def decoded : Mat 10000 128 :=
  layerRelu (layer (latent x adj W1 b1 g1 be1 rm1 rv1 W2 b2 g2 be2 rm2 rv2 Wg1 Wg2) Wd1 bd1 gd1 bed1 rmd1 rvd1)
    Wd2 bd2 gd2 bed2 rmd2 rvd2

/-- The adjacency matrix applied to the two supports side by side gives the mean and the log-deviation side by side. -/
theorem dense_support2 :
    dense adj (support2 x adj W1 b1 g1 be1 rm1 rv1 W2 b2 g2 be2 rm2 rv2 Wg1 Wg2 Wg3)
      = hcat (mu x adj W1 b1 g1 be1 rm1 rv1 W2 b2 g2 be2 rm2 rv2 Wg1 Wg2)
             (logstd x adj W1 b1 g1 be1 rm1 rv1 W2 b2 g2 be2 rm2 rv2 Wg1 Wg3) :=
  dense_hcat adj _ _

end Model

end Cert.Spec

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.LibAt2.lean ====
/-
  Two-axis arrays read at an index given by its two coordinates: a unit-stride slice, a rotation along either
  axis, and a concatenation along either axis read at the piece that holds the index.
-/
import Idealize.ShloMosaic.Lib.Pipeline.Value
import Idealize.ShloMosaic.Lib.ValueIdx
import Idealize.ShloMosaic.Lib.KernelVsHost

namespace Cert.LibAt2

open Idealize.ShloMosaic Idealize.ShloMosaic.ValueIdx

variable {α : Type}

/-- A slice of a two-axis array at `(r, q)` is the array at `(o₀ + r, o₁ + q)`. -/
theorem slice_at {A B A' B' : Nat} (off : Fin 2 → Nat) (x : (⟨2, ![A, B]⟩ : Shape).Idx → α)
    (h : (⟨2, ![A, B]⟩ : Shape).Slices off ⟨2, ![A', B']⟩) (r : Fin A') (q : Fin B')
    (r' : Fin A) (q' : Fin B) (hr : r'.val = off 0 + r.val) (hq : q'.val = off 1 + q.val) :
    extractStridedSlice ⟨2, ![A', B']⟩ off x h (ix2 r q) = x (ix2 r' q') :=
  extractStridedSlice_apply off x h _ _ (fun a => by
    match a with
    | ⟨0, _⟩ => exact hr
    | ⟨1, _⟩ => exact hq)

/-- A rotation by `s` along the first axis at `(r, q)` is the array at `((r + A − s mod A) mod A, q)`. -/
theorem rot0_at {A B : Nat} (sb : BitVec 32) (x : (⟨2, ![A, B]⟩ : Shape).Idx → α)
    (h : (⟨2, ![A, B]⟩ : Shape).Rotates 0 none) (r : Fin A) (q : Fin B)
    (r' : Fin A) (hr : r'.val = (r.val + A - sb.toNat % A) % A) :
    dynamicRotate 0 sb none x h (ix2 r q) = x (ix2 r' q) :=
  dynamicRotate_apply 0 sb x h _ _ (fun b => by
    match b with
    | ⟨0, _⟩ => exact hr
    | ⟨1, _⟩ => rfl)

/-- A rotation by `s` along the second axis at `(r, q)` is the array at `(r, (q + B − s mod B) mod B)`. -/
theorem rot1_at {A B : Nat} (sb : BitVec 32) (x : (⟨2, ![A, B]⟩ : Shape).Idx → α)
    (h : (⟨2, ![A, B]⟩ : Shape).Rotates 1 none) (r : Fin A) (q : Fin B)
    (q' : Fin B) (hq : q'.val = (q.val + B - sb.toNat % B) % B) :
    dynamicRotate 1 sb none x h (ix2 r q) = x (ix2 r q') :=
  dynamicRotate_apply 1 sb x h _ _ (fun b => by
    match b with
    | ⟨0, _⟩ => rfl
    | ⟨1, _⟩ => exact hq)

/-- A concatenation along the first axis at `(r, q)`: piece `k`, which starts at row `pre`, at `(r − pre, q)`. -/
theorem cat0_at {N n : Nat} (xs : List ((s : Shape) × (s.Idx → α)))
    (h : Shape.Concatenates (xs.map (·.1)) ⟨2, ![N, n]⟩ 0) (r : Fin N) (q : Fin n)
    (k : Nat) (hk : k < xs.length) (a : Nat) (x₁ : (⟨2, ![a, n]⟩ : Shape).Idx → α)
    (hxk : xs[k] = ⟨⟨2, ![a, n]⟩, x₁⟩) (pre : Nat)
    (hpre : (((xs.take k).map (·.1)).map fun s => if h : s.rank = (⟨2, ![N, n]⟩ : Shape).rank then s.size ((0 : Fin 2).cast h.symm) else 0).sum = pre)
    (r' : Fin a) (hr : pre + r'.val = r.val) :
    concatenate ⟨2, ![N, n]⟩ 0 xs h (ix2 r q) = x₁ (ix2 r' q) :=
  concatenate_apply_piece 0 xs h (ix2 r q) k hk ⟨2, ![a, n]⟩ x₁ hxk rfl pre hpre (ix2 r' q)
    (fun b hb => by
      match b with
      | ⟨0, _⟩ => exact absurd rfl hb
      | ⟨1, _⟩ => rfl)
    hr

/-- A concatenation along the second axis at `(r, q)`: piece `k`, which starts at column `pre`, at `(r, q − pre)`. -/
theorem cat1_at {N n : Nat} (xs : List ((s : Shape) × (s.Idx → α)))
    (h : Shape.Concatenates (xs.map (·.1)) ⟨2, ![N, n]⟩ 1) (r : Fin N) (q : Fin n)
    (k : Nat) (hk : k < xs.length) (a : Nat) (x₁ : (⟨2, ![N, a]⟩ : Shape).Idx → α)
    (hxk : xs[k] = ⟨⟨2, ![N, a]⟩, x₁⟩) (pre : Nat)
    (hpre : (((xs.take k).map (·.1)).map fun s => if h : s.rank = (⟨2, ![N, n]⟩ : Shape).rank then s.size ((1 : Fin 2).cast h.symm) else 0).sum = pre)
    (q' : Fin a) (hq : pre + q'.val = q.val) :
    concatenate ⟨2, ![N, n]⟩ 1 xs h (ix2 r q) = x₁ (ix2 r q') :=
  concatenate_apply_piece 1 xs h (ix2 r q) k hk ⟨2, ![N, a]⟩ x₁ hxk rfl pre hpre (ix2 r q')
    (fun b hb => by
      match b with
      | ⟨0, _⟩ => rfl
      | ⟨1, _⟩ => exact absurd rfl hb)
    hq

/-- The slice lemma with the index it reads spelt out. -/
theorem slice_at' {A B A' B' : Nat} (off : Fin 2 → Nat) (x : (⟨2, ![A, B]⟩ : Shape).Idx → α)
    (h : (⟨2, ![A, B]⟩ : Shape).Slices off ⟨2, ![A', B']⟩) (r : Fin A') (q : Fin B') :
    extractStridedSlice ⟨2, ![A', B']⟩ off x h (ix2 r q)
      = x (ix2 ⟨off 0 + r.val, Nat.lt_of_lt_of_le (Nat.add_lt_add_left r.isLt _) (h.2 0)⟩
              ⟨off 1 + q.val, Nat.lt_of_lt_of_le (Nat.add_lt_add_left q.isLt _) (h.2 1)⟩) :=
  slice_at off x h r q _ _ rfl rfl

/-- The rotation lemmas with the index they read spelt out. -/
theorem rot0_at' {A B : Nat} (sb : BitVec 32) (x : (⟨2, ![A, B]⟩ : Shape).Idx → α)
    (h : (⟨2, ![A, B]⟩ : Shape).Rotates 0 none) (r : Fin A) (q : Fin B) :
    dynamicRotate 0 sb none x h (ix2 r q) = x (ix2 ⟨(r.val + A - sb.toNat % A) % A, Nat.mod_lt _ (Fin.pos r)⟩ q) :=
  rot0_at sb x h r q _ rfl

theorem rot1_at' {A B : Nat} (sb : BitVec 32) (x : (⟨2, ![A, B]⟩ : Shape).Idx → α)
    (h : (⟨2, ![A, B]⟩ : Shape).Rotates 1 none) (r : Fin A) (q : Fin B) :
    dynamicRotate 1 sb none x h (ix2 r q) = x (ix2 r ⟨(q.val + B - sb.toNat % B) % B, Nat.mod_lt _ (Fin.pos q)⟩) :=
  rot1_at sb x h r q _ rfl

/-- An array of extended reals read at natural-number coordinates (zero outside the array). -/
noncomputable def rd {A B : Nat} (v : (⟨2, ![A, B]⟩ : Shape).Idx → EReal) (a b : Nat) : EReal :=
  if h : a < A ∧ b < B then v (ix2 ⟨a, h.1⟩ ⟨b, h.2⟩) else 0

theorem rd_eq {A B : Nat} (v : (⟨2, ![A, B]⟩ : Shape).Idx → EReal) (a : Fin A) (b : Fin B) :
    v (ix2 a b) = rd v a.val b.val := by
  unfold rd; rw [dif_pos ⟨a.isLt, b.isLt⟩]

end Cert.LibAt2
-- ==== Proof.KValueLib.lean ====
/-
  The stages of a dense layer of the kernel read as the plain formulas of the specification: a product into the zero
  accumulator is the matrix product, a one-row array broadcast over the rows is the row, the normalisation chain is
  `norm`, and the select on positivity between a value and its exponential minus one is the exponential linear unit.
-/
import proofs.«133634_g45492293599347_cont_8to1c4_324_9_alg».proof.Proof.Spec
import proofs.«133634_g45492293599347_cont_8to1c4_324_9_alg».proof.Proof.LibDense
import proofs.«133634_g45492293599347_cont_8to1c4_324_9_alg».proof.Proof.LibAt2
import Idealize.ShloMosaic.Lib.ValueLayout
import Idealize.ShloMosaic.Lib.Pipeline.Value
import Idealize.ShloMosaic.PureOps.Ideal.Laws
import Idealize.ShloMosaic.Lib.IdealHost

noncomputable section

namespace Cert.KValue

open Idealize.ShloMosaic Idealize.ShloMosaic.ValueIdx Cert.Spec

variable {M K N : ℕ}

/-- A product into the zero accumulator, for dimension numbers that are the plain ones, is the matrix product. -/
theorem matmul_eq_dense (D : DotDims ⟨2, ![M, K]⟩ ⟨2, ![K, N]⟩ ⟨2, ![M, N]⟩) (hD : D = DotDims.plain M K N)
    (prec : Option ContractPrecision) (x : Mat M K) (w : Mat K N) :
    matmul (F := Ideal) (φ₁ := .f32) (φ₂ := .f32) D prec x w (constant ⟨2, ![M, N]⟩ .f32 0x00000000#32) = dense x w := by
  subst hD
  funext j
  obtain ⟨p, q, rfl⟩ : ∃ (p : Fin M) (q : Fin N), j = ix2 p q := ⟨j 0, j 1, eq_ix2 j⟩
  exact Cert.LibDense.plain_matmul_apply prec x w p q

/-- A one-row array, cast to its own shape and broadcast over M rows, reads at (p, q) the row at q. -/
theorem bcastRow_apply (r : Mat 1 N) (hc : (⟨2, ![1, N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ r hc) hb (ix2 p q) = rowVec r (ix1 q) := by
  rw [shapeCast_self, broadcastTo_1b_ab_apply]
  rfl

/-- The same without the cast. -/
theorem bcastRow_apply' (r : Mat 1 N) (hb : (⟨2, ![1, N]⟩ : Shape).Broadcasts ⟨2, ![M, N]⟩) (p : Fin M) (q : Fin N) :
    broadcastTo ⟨2, ![M, N]⟩ r hb (ix2 p q) = rowVec r (ix1 q) := by
  rw [broadcastTo_1b_ab_apply]
  rfl

/-- A bias row added to every row. -/
theorem addRow_stage (v : Mat M N) (b : Mat 1 N) (hb : (⟨2, ![1, N]⟩ : Shape).Broadcasts ⟨2, ![M, N]⟩) :
    addf (F := Ideal) (φ := .f32) v (broadcastTo ⟨2, ![M, N]⟩ b hb) = addRow v (rowVec b) := by
  funext j
  obtain ⟨p, q, rfl⟩ : ∃ (p : Fin M) (q : Fin N), j = ix2 p q := ⟨j 0, j 1, eq_ix2 j⟩
  rw [addf_apply, bcastRow_apply', addRow_ix2]

/-- The normalisation chain: subtract the mean row, divide by the square root of the variance row plus the small
    constant, multiply by the scale row, add the shift row. -/
theorem norm_stage (v : Mat M N) (g b rm rv : Mat 1 N) (hb : (⟨2, ![1, N]⟩ : Shape).Broadcasts ⟨2, ![M, N]⟩) :
    addf (F := Ideal) (φ := .f32)
      (mulf (F := Ideal) (φ := .f32)
        (divf (F := Ideal) (φ := .f32) (subf (F := Ideal) (φ := .f32) v (broadcastTo ⟨2, ![M, N]⟩ rm hb))
          (broadcastTo ⟨2, ![M, N]⟩
            (sqrt (F := Ideal) (φ := .f32)
              (addf (F := Ideal) (φ := .f32) rv (broadcast ⟨2, ![1, N]⟩ (Scalar.ofBits (F := Ideal) .f32 0x3A83126F#32)))) hb))
        (broadcastTo ⟨2, ![M, N]⟩ g hb))
      (broadcastTo ⟨2, ![M, N]⟩ b hb)
      = norm v (rowVec g) (rowVec b) (rowVec rm) (rowVec rv) := by
  funext j
  obtain ⟨p, q, rfl⟩ : ∃ (p : Fin M) (q : Fin N), j = ix2 p q := ⟨j 0, j 1, eq_ix2 j⟩
  rw [addf_apply, mulf_apply, divf_apply, subf_apply, bcastRow_apply', bcastRow_apply', bcastRow_apply',
    broadcastTo_1b_ab_apply, norm_ix2]
  rfl

/-- The select on positivity between a value and its exponential minus one is the exponential linear unit. -/
theorem elu_stage {s : Shape} (y : FVec Ideal s .f32) :
    select (cmpf (F := Ideal) (φ := .f32) .ogt y (broadcast s (Scalar.ofBits (F := Ideal) .f32 0x00000000#32))) y
        (subf (F := Ideal) (φ := .f32) (exp (F := Ideal) (φ := .f32) y) (broadcast s (Scalar.ofBits (F := Ideal) .f32 0x3F800000#32)))
      = fun j => elu (y j) := by
  funext j
  show Scalar.select (FloatOps.cmpf (F := Ideal) (φ := .f32) .ogt (y j) (Ideal.ofBits .f32 0x00000000#32)) (y j)
      (Ideal.exp (y j) - Ideal.ofBits .f32 0x3F800000#32) = _
  rw [Ideal.ofBits_zero_f32, Ideal.ofBits_one_f32]
  rfl

/-- The maximum with the zero constant is the rectifier. -/
theorem relu_stage {s : Shape} (y : FVec Ideal s .f32) :
    maximumf (F := Ideal) (φ := .f32) y (broadcast s (Scalar.ofBits (F := Ideal) .f32 0x00000000#32)) = fun j => max (y j) 0 := by
  funext j
  show max (y j) (Ideal.ofBits .f32 0x00000000#32) = _
  rw [Ideal.ofBits_zero_f32]

end Cert.KValue

end
-- ==== Proof.KValueA.lean ====
/-
  The two dense layers that give the node features, and the first graph layer's support, as the kernel computes them:
  each payload, applied to arrays of the literal shapes, is the specification's function of them.
-/
import proofs.«133634_g45492293599347_cont_8to1c4_324_9_alg».proof.Proof.KValueLib

import proofs.«133634_g45492293599347_cont_8to1c4_324_9_alg».proof.Proof.Gen.KernelIdeal.Skeleton

noncomputable section

namespace Cert.KValue

open Idealize.ShloMosaic Idealize.ShloMosaic.ValueIdx Cert.Spec Cert.KernelIdeal Cert.KernelIdeal.Gen

/-- The first dense layer followed by the product with the second layer's weight. -/
theorem pay6_eq (x0 : Mat 10000 128) (x2 : Mat 128 64) (x3 x4 x5 x6 x7 : Mat 1 64) (x8 : Mat 64 32) :
    k0_pay6 (F := Ideal) x0 x2 x3 x4 x5 x6 x7 x8
      = dense (layer x0 x2 (rowVec x3) (rowVec x4) (rowVec x5) (rowVec x6) (rowVec x7)) x8 := by
  unfold k0_pay6
  simp only [shapeCast_self, norm_stage]
  simp only [matmul_eq_dense dot_S10000x128_S128x64_S10000x64_1_0_0_1_n_n rfl,
    matmul_eq_dense dot_S10000x64_S64x32_S10000x32_1_0_0_1_n_n rfl, addRow_stage, elu_stage]
  rfl

/-- The second layer's bias, normalisation and exponential unit, over the product it is handed. -/
theorem pay1_eq (d : Mat 10000 32) (x9 x10 x11 x12 x13 : Mat 1 32) :
    k0_pay1 (F := Ideal) d (k0_pay7 x9) x10 x11 x12 x13
      = fun j => elu (norm (addRow d (rowVec x9)) (rowVec x10) (rowVec x11) (rowVec x12) (rowVec x13) j) := by
  unfold k0_pay1 k0_pay7
  simp only [shapeCast_self, norm_stage]
  simp only [addRow_stage, elu_stage]

/-- The node features as the kernel stores them. -/
theorem feat_eq (x0 : Mat 10000 128) (x2 : Mat 128 64) (x3 x4 x5 x6 x7 : Mat 1 64) (x8 : Mat 64 32)
    (x9 x10 x11 x12 x13 : Mat 1 32) :
    k0_pay2 (F := Ideal) (k0_pay6 x0 x2 x3 x4 x5 x6 x7 x8) (k0_pay7 x9) x10 x11 x12 x13
      = feat x0 x2 (rowVec x3) (rowVec x4) (rowVec x5) (rowVec x6) (rowVec x7) x8 (rowVec x9) (rowVec x10) (rowVec x11)
          (rowVec x12) (rowVec x13) := by
  unfold k0_pay2
  simp only [shapeCast_self, pay1_eq, pay6_eq]
  rfl

/-- The first graph layer's support as the kernel stores it. -/
theorem support1_eq (x0 : Mat 10000 128) (x2 : Mat 128 64) (x3 x4 x5 x6 x7 : Mat 1 64) (x8 : Mat 64 32)
    (x9 x10 x11 x12 x13 : Mat 1 32) (x14 : Mat 32 32) :
    k0_pay3 (F := Ideal) (k0_pay6 x0 x2 x3 x4 x5 x6 x7 x8) (k0_pay7 x9) x10 x11 x12 x13 x14
      = dense (feat x0 x2 (rowVec x3) (rowVec x4) (rowVec x5) (rowVec x6) (rowVec x7) x8 (rowVec x9) (rowVec x10)
          (rowVec x11) (rowVec x12) (rowVec x13)) x14 := by
  unfold k0_pay3
  simp only [shapeCast_self, pay1_eq, pay6_eq, matmul_eq_dense dot_S10000x32_S32x32_S10000x32_1_0_0_1_n_n rfl]
  rfl

end Cert.KValue

end
-- ==== Proof.KValueB.lean ====
/-
  The second graph layer as the kernel computes it on a block of 400 rows of the adjacency matrix: the two supports
  side by side, the mean and the log-deviation as the left and right halves of one product, and the latent code as the
  features and the mean side by side.
-/
import proofs.«133634_g45492293599347_cont_8to1c4_324_9_alg».proof.Proof.KValueLib

import proofs.«133634_g45492293599347_cont_8to1c4_324_9_alg».proof.Proof.Gen.KernelIdeal.Skeleton

noncomputable section

namespace Cert.KValue

open Idealize.ShloMosaic Idealize.ShloMosaic.ValueIdx Cert.Spec Cert.KernelIdeal Cert.KernelIdeal.Gen

variable {M A B : ℕ}

/-- Two arrays concatenated along the second axis are the two side by side. -/
theorem cat_eq_hcat (x : Mat M A) (y : Mat M B)
    (h : Shape.Concatenates [(⟨2, ![M, A]⟩ : Shape), (⟨2, ![M, B]⟩ : Shape)] ⟨2, ![M, A + B]⟩ 1) :
    concatenate ⟨2, ![M, A + B]⟩ 1 [⟨⟨2, ![M, A]⟩, x⟩, ⟨⟨2, ![M, B]⟩, y⟩] h = hcat x y := by
  funext j
  obtain ⟨p, q, rfl⟩ : ∃ (p : Fin M) (q : Fin (A + B)), j = ix2 p q := ⟨j 0, j 1, eq_ix2 j⟩
  by_cases hq : q.val < A
  · rw [hcat_left _ _ _ _ hq]
    exact Cert.LibAt2.cat1_at [⟨⟨2, ![M, A]⟩, x⟩, ⟨⟨2, ![M, B]⟩, y⟩] h p q 0 (by simp) A x rfl 0 rfl ⟨q.val, hq⟩ (by simp)
  · rw [hcat_right _ _ _ _ hq]
    exact Cert.LibAt2.cat1_at [⟨⟨2, ![M, A]⟩, x⟩, ⟨⟨2, ![M, B]⟩, y⟩] h p q 1 (by simp) B y rfl A (by simp) ⟨q.val - A, by have := q.isLt; omega⟩
      (by show A + (q.val - A) = q.val; omega)

/-- The slice of the first A columns. -/
theorem slice_left (z : Mat M (A + B)) (h : (⟨2, ![M, A + B]⟩ : Shape).Slices ![0, 0] ⟨2, ![M, A]⟩) :
    extractStridedSlice ⟨2, ![M, A]⟩ ![0, 0] z h = leftCols z := by
  funext j
  obtain ⟨p, q, rfl⟩ : ∃ (p : Fin M) (q : Fin A), j = ix2 p q := ⟨j 0, j 1, eq_ix2 j⟩
  exact Cert.LibAt2.slice_at ![0, 0] z h p q p ⟨q.val, by have := q.isLt; omega⟩ (by simp) (by simp)

/-- The slice of the last B columns. -/
theorem slice_right (z : Mat M (A + B)) (h : (⟨2, ![M, A + B]⟩ : Shape).Slices ![0, A] ⟨2, ![M, B]⟩) :
    extractStridedSlice ⟨2, ![M, B]⟩ ![0, A] z h = rightCols z := by
  funext j
  obtain ⟨p, q, rfl⟩ : ∃ (p : Fin M) (q : Fin B), j = ix2 p q := ⟨j 0, j 1, eq_ix2 j⟩
  exact Cert.LibAt2.slice_at ![0, A] z h p q p ⟨A + q.val, by have := q.isLt; omega⟩ (by simp) (by simp)

/-- The two supports of the second graph layer, side by side, on a block of rows. -/
theorem support2_block_eq (x1 : Mat 400 10000) (s1 : Mat 10000 32) (x15 x16 : Mat 32 16) :
    k0_pay4 (F := Ideal) x1 s1 x15 x16 = hcat (dense (dense x1 s1) x15) (dense (dense x1 s1) x16) := by
  unfold k0_pay4
  dsimp only
  rw [shapeCast_self, matmul_eq_dense dot_S400x10000_S10000x32_S400x32_1_0_0_1_n_n rfl,
    matmul_eq_dense dot_S400x32_S32x16_S400x16_1_0_0_1_n_n rfl, matmul_eq_dense dot_S400x32_S32x16_S400x16_1_0_0_1_n_n rfl]
  exact cat_eq_hcat (M := 400) (A := 16) (B := 16) _ _ _

/-- The block of the adjacency matrix applied to the two supports side by side. -/
theorem pay8_eq (x1 : Mat 400 10000) (a2 a3 : Mat 10000 16) :
    k0_pay8 (F := Ideal) x1 (hcat a2 a3) = hcat (dense x1 a2) (dense x1 a3) := by
  unfold k0_pay8
  simp only [matmul_eq_dense dot_S400x10000_S10000x32_S400x32_1_0_0_1_n_n rfl]
  exact dense_hcat x1 a2 a3

/-- The mean on a block of rows: the left half. -/
theorem mu_block_eq (x1 : Mat 400 10000) (a2 a3 : Mat 10000 16) : k0_pay9 (F := Ideal) x1 (hcat a2 a3) = dense x1 a2 := by
  unfold k0_pay9
  rw [pay8_eq]
  exact (slice_left (M := 400) (A := 16) (B := 16) _ _).trans (leftCols_hcat _ _)

/-- The log-deviation on a block of rows: the right half. -/
theorem logstd_block_eq (x1 : Mat 400 10000) (a2 a3 : Mat 10000 16) : k0_pay10 (F := Ideal) x1 (hcat a2 a3) = dense x1 a3 := by
  unfold k0_pay10
  rw [pay8_eq]
  exact (slice_right (M := 400) (A := 16) (B := 16) _ _).trans (rightCols_hcat _ _)

/-- The latent code on a block of rows: the features and the mean side by side. -/
theorem latent_block_eq (x1 : Mat 400 10000) (a2 a3 : Mat 10000 16) (fb : Mat 400 32) :
    k0_pay11 (F := Ideal) x1 (hcat a2 a3) fb = hcat fb (dense x1 a2) := by
  unfold k0_pay11
  rw [mu_block_eq]
  exact cat_eq_hcat (M := 400) (A := 32) (B := 16) _ _ _

end Cert.KValue

end
-- ==== Proof.KValueC.lean ====
/-
  The decoder as the kernel computes it on a block of 400 rows: a dense layer with the exponential unit over the latent
  code, then a dense layer ending in the rectifier.
-/
import proofs.«133634_g45492293599347_cont_8to1c4_324_9_alg».proof.Proof.KValueLib
import proofs.«133634_g45492293599347_cont_8to1c4_324_9_alg».proof.Proof.KValueB
import proofs.«133634_g45492293599347_cont_8to1c4_324_9_alg».proof.Proof.Gen.KernelIdeal.Skeleton

noncomputable section

namespace Cert.KValue

open Idealize.ShloMosaic Idealize.ShloMosaic.ValueIdx Cert.Spec Cert.KernelIdeal Cert.KernelIdeal.Gen

/-- The decoder's first product and bias over the latent code. -/
theorem pay12_eq (x1 : Mat 400 10000) (a2 a3 : Mat 10000 16) (fb : Mat 400 32) (x17 : Mat 48 64) (x18 : Mat 1 64) :
    k0_pay12 (F := Ideal) x1 (hcat a2 a3) fb x17 x18 = addRow (dense (hcat fb (dense x1 a2)) x17) (rowVec x18) := by
  unfold k0_pay12
  simp only [shapeCast_self, latent_block_eq]
  simp only [matmul_eq_dense dot_S400x48_S48x64_S400x64_1_0_0_1_n_n rfl, addRow_stage]

/-- The rest of the decoder over its first product and bias. -/
theorem pay17_eq (v : Mat 400 64) (x19 x20 x21 x22 : Mat 1 64) (x23 : Mat 64 128) (x24 x25 x26 x27 x28 : Mat 1 128) :
    k0_pay5 (F := Ideal) (k0_pay17 v (k0_pay13 x19) (k0_pay14 x20) (k0_pay15 x22) (k0_pay16 x21) x23 x24 x25 x26 x27 x28) k0_pay18
      = fun j => max (norm (addRow (dense (fun i => elu (norm v (rowVec x19) (rowVec x20) (rowVec x21) (rowVec x22) i)) x23)
          (rowVec x24)) (rowVec x25) (rowVec x26) (rowVec x27) (rowVec x28) j) 0 := by
  unfold k0_pay5 k0_pay17 k0_pay18 k0_pay13 k0_pay14 k0_pay15 k0_pay16
  simp only [shapeCast_self, norm_stage]
  simp only [matmul_eq_dense dot_S400x64_S64x128_S400x128_1_0_0_1_n_n rfl, addRow_stage, elu_stage, relu_stage]

/-- The decoded block as the kernel stores it. -/
theorem decoded_block_eq (x1 : Mat 400 10000) (a2 a3 : Mat 10000 16) (fb : Mat 400 32) (x17 : Mat 48 64)
    (x18 x19 x20 x21 x22 : Mat 1 64) (x23 : Mat 64 128) (x24 x25 x26 x27 x28 : Mat 1 128) :
    k0_pay5 (F := Ideal)
        (k0_pay17 (k0_pay12 x1 (hcat a2 a3) fb x17 x18) (k0_pay13 x19) (k0_pay14 x20) (k0_pay15 x22) (k0_pay16 x21) x23 x24 x25
          x26 x27 x28) k0_pay18
      = layerRelu (layer (hcat fb (dense x1 a2)) x17 (rowVec x18) (rowVec x19) (rowVec x20) (rowVec x21) (rowVec x22)) x23
          (rowVec x24) (rowVec x25) (rowVec x26) (rowVec x27) (rowVec x28) := by
  rw [pay17_eq, pay12_eq]
  rfl

end Cert.KValue

end
-- ==== Proof.KValue.lean ====
/-
  The kernel's arithmetic as plain formulas: each stored value of the kernel, applied to arrays of the literal shapes,
  is the specification's function of them (the node features and the first support; on a block of 400 rows the two
  second supports, the mean, the log-deviation, the latent code and the decoded block).
-/
import proofs.«133634_g45492293599347_cont_8to1c4_324_9_alg».proof.Proof.KValueA
import proofs.«133634_g45492293599347_cont_8to1c4_324_9_alg».proof.Proof.KValueB
import proofs.«133634_g45492293599347_cont_8to1c4_324_9_alg».proof.Proof.KValueC
-- ==== Proof.KIPure.lean ====
/-
  Row blocks: the kernel's arithmetic on a block of 400 rows of the adjacency matrix is the block of rows of the
  specification's function of the whole matrix, because every product and every pointwise stage acts row by row.
-/
import proofs.«133634_g45492293599347_cont_8to1c4_324_9_alg».proof.Proof.KValue
import Idealize.ShloMosaic.Lib.WritesUnit
import Idealize.ShloMosaic.Lib.Pipeline.FrameBody

noncomputable section

namespace Cert.KIVal

open Idealize.ShloMosaic Idealize.ShloMosaic.ValueIdx Cert.Spec Cert.KernelIdeal Cert.KernelIdeal.Gen

variable {M N : ℕ}

/-- Blocks of rows that start at equal rows are equal. -/
theorem rows_congr {M' : ℕ} (o o' : ℕ) (e : o = o') (h : o + M' ≤ M) (h' : o' + M' ≤ M) (x : Mat M N) :
    rows o h x = rows o' h' x := by
  subst e; rfl

/-- The two second supports side by side, on a block of rows of the adjacency matrix. -/
theorem support2_rows (o : ℕ) (h : o + 400 ≤ 10000) (adj : Mat 10000 10000) (s1 : Mat 10000 32) (wg2 wg3 : Mat 32 16) :
    k0_pay4 (F := Ideal) (rows o h adj) s1 wg2 wg3
      = rows o h (hcat (dense (dense adj s1) wg2) (dense (dense adj s1) wg3)) :=
  Cert.KValue.support2_block_eq (rows o h adj) s1 wg2 wg3

/-- The mean on a block of rows. -/
theorem mu_rows (o : ℕ) (h : o + 400 ≤ 10000) (adj : Mat 10000 10000) (a2 a3 : Mat 10000 16) :
    k0_pay9 (F := Ideal) (rows o h adj) (hcat a2 a3) = rows o h (dense adj a2) :=
  Cert.KValue.mu_block_eq (rows o h adj) a2 a3

/-- The log-deviation on a block of rows. -/
theorem logstd_rows (o : ℕ) (h : o + 400 ≤ 10000) (adj : Mat 10000 10000) (a2 a3 : Mat 10000 16) :
    k0_pay10 (F := Ideal) (rows o h adj) (hcat a2 a3) = rows o h (dense adj a3) :=
  Cert.KValue.logstd_block_eq (rows o h adj) a2 a3

/-- The latent code on a block of rows. -/
theorem latent_rows (o : ℕ) (h : o + 400 ≤ 10000) (adj : Mat 10000 10000) (a2 a3 : Mat 10000 16) (f : Mat 10000 32) :
    k0_pay11 (F := Ideal) (rows o h adj) (hcat a2 a3) (rows o h f) = rows o h (hcat f (dense adj a2)) :=
  Cert.KValue.latent_block_eq (rows o h adj) a2 a3 (rows o h f)

/-- The decoded block on a block of rows. -/
theorem decoded_rows (o : ℕ) (h : o + 400 ≤ 10000) (adj : Mat 10000 10000) (a2 a3 : Mat 10000 16) (f : Mat 10000 32)
    (x17 : Mat 48 64) (x18 x19 x20 x21 x22 : Mat 1 64) (x23 : Mat 64 128) (x24 x25 x26 x27 x28 : Mat 1 128) :
    k0_pay5 (F := Ideal)
        (k0_pay17 (k0_pay12 (rows o h adj) (hcat a2 a3) (rows o h f) x17 x18) (k0_pay13 x19) (k0_pay14 x20) (k0_pay15 x22)
          (k0_pay16 x21) x23 x24 x25 x26 x27 x28) k0_pay18
      = rows o h (layerRelu (layer (hcat f (dense adj a2)) x17 (rowVec x18) (rowVec x19) (rowVec x20) (rowVec x21) (rowVec x22))
          x23 (rowVec x24) (rowVec x25) (rowVec x26) (rowVec x27) (rowVec x28)) :=
  Cert.KValue.decoded_block_eq (rows o h adj) a2 a3 (rows o h f) x17 x18 x19 x20 x21 x22 x23 x24 x25 x26 x27 x28

/-- A load of 400 whole rows that start at row o reads that block of rows. -/
theorem ld_rows (X : Mat 10000 32) {off : Fin 2 → ℕ} (inb : ∀ a, off a + S400x32.size a ≤ S10000x32.size a) (o : ℕ)
    (h : o + 400 ≤ 10000) (hoff : off = ![o, 0]) :
    View.ld (Val := Elt Ideal) (e' := .f32) X (Rect.unit (s := S10000x32) off S400x32.size inb) = rows o h X := by
  subst hoff
  funext x
  show X ((Rect.unit (s := S10000x32) ![o, 0] S400x32.size inb).emb x) = X (ix2 ⟨o + (x 0).val, _⟩ (x 1))
  congr 1
  funext a
  apply Fin.ext
  match a with
  | ⟨0, _⟩ => show o + 1 * (x 0).val = o + (x 0).val; omega
  | ⟨1, _⟩ => show 0 + 1 * (x 1).val = (x 1).val; omega

/-- A block of rows read at an index's position within the block is the array at the index. -/
theorem rows_unitLocal (Z : Mat 10000 32) (o : ℕ) (h : o + 400 ≤ 10000) (y : S10000x32.Idx)
    (hy : ∀ a, (![o, 0] : Fin 2 → ℕ) a ≤ (y a).val ∧ (y a).val < (![o, 0] : Fin 2 → ℕ) a + S400x32.size a) :
    rows o h Z (Rect.unitLocal (s := S10000x32) (off := ![o, 0]) (size := S400x32.size) y hy) = Z y := by
  show Z (ix2 ⟨o + ((y 0).val - o), _⟩ ⟨(y 1).val - 0, _⟩) = Z y
  congr 1
  funext a
  apply Fin.ext
  have h0 := hy 0
  match a with
  | ⟨0, _⟩ => show o + ((y 0).val - o) = (y 0).val; have : o ≤ (y 0).val := h0.1; omega
  | ⟨1, _⟩ => show (y 1).val - 0 = (y 1).val; omega

end Cert.KIVal

end
-- ==== Proof.KBlocksIn.lean ====
/-
  The input windows' blocks at a grid point, as arrays of the launch: a window that stages a whole argument array holds
  that array at every point; the adjacency window holds the 400 rows of the adjacency matrix that start at row
  400 · (t mod 25); a window that stages the 1×N reshape of a length-N argument holds, as its one row, that argument.
  Also the two row offsets the kernel computes for its 400-row slices of the carried arrays.
-/
import proofs.«133634_g45492293599347_cont_8to1c4_324_9_alg».proof.Proof.Spec
import proofs.«133634_g45492293599347_cont_8to1c4_324_9_alg».proof.Proof.LibRowBias

import proofs.«133634_g45492293599347_cont_8to1c4_324_9_alg».proof.Proof.Gen.KernelIdeal.Frame
import Idealize.ShloMosaic.Lib.Pipeline.Value
import Idealize.ShloMosaic.Lib.StableHlo.Run

set_option maxRecDepth 16384

noncomputable section

namespace Cert.KBlocks

open Idealize.ShloMosaic Idealize.ShloMosaic.TcCoe Idealize.ShloMosaic.ValueIdx Idealize.ShloMosaic.Tactic
open Idealize.SL Idealize.SL.Sem
open Cert.KernelIdeal Cert.KernelIdeal.Gen

variable (m : (ℓ : Loc nD τ sig) → Buf (Elt Ideal) ℓ) (c : Dev nD) (t : Fin cfg0.N)

/-! ## Windows that stage a whole argument array -/

/-- Window 0's block index is (0, 0) at every point. -/
theorem idx_0 : ∀ t : Fin cfg0.N, win0_0.index t = ![0, 0] := (by decide +kernel : ∀ t : Fin grid0.N, _)

/-- Window 0's block is the whole 10000×128 argument array. -/
theorem iblk_0 : iblk m c 0 t = m ((c.tc : Thread nD τ).loc main_arg0) := by
  unfold iblk
  rw [show V m c (Pipeline.arrRef spec0 0) = V m c main_arg0 from rfl, V_main_arg0]
  funext x
  rw [View.read_apply]
  show m (c.tc.loc main_arg0) (((cfg0.win 0).blk t).view.emb x) = m (c.tc.loc main_arg0) x
  congr 1
  funext a
  apply Fin.ext
  have h := idx_0 t
  match a with
  | ⟨0, _⟩ => show win0_0.index t 0 * 10000 + 1 * (x 0).val = (x 0).val; rw [h]; simp
  | ⟨1, _⟩ => show win0_0.index t 1 * 128 + 1 * (x 1).val = (x 1).val; rw [h]; simp

/-- Window 2's block index is (0, 0) at every point. -/
theorem idx_2 : ∀ t : Fin cfg0.N, win0_2.index t = ![0, 0] := (by decide +kernel : ∀ t : Fin grid0.N, _)

/-- Window 2's block is the whole 128×64 argument array. -/
theorem iblk_2 : iblk m c 2 t = m ((c.tc : Thread nD τ).loc main_arg2) := by
  unfold iblk
  rw [show V m c (Pipeline.arrRef spec0 2) = V m c main_arg2 from rfl, V_main_arg2]
  funext x
  rw [View.read_apply]
  show m (c.tc.loc main_arg2) (((cfg0.win 2).blk t).view.emb x) = m (c.tc.loc main_arg2) x
  congr 1
  funext a
  apply Fin.ext
  have h := idx_2 t
  match a with
  | ⟨0, _⟩ => show win0_2.index t 0 * 128 + 1 * (x 0).val = (x 0).val; rw [h]; simp
  | ⟨1, _⟩ => show win0_2.index t 1 * 64 + 1 * (x 1).val = (x 1).val; rw [h]; simp

/-- Window 8's block index is (0, 0) at every point. -/
theorem idx_8 : ∀ t : Fin cfg0.N, win0_8.index t = ![0, 0] := (by decide +kernel : ∀ t : Fin grid0.N, _)

/-- Window 8's block is the whole 64×32 argument array. -/
theorem iblk_8 : iblk m c 8 t = m ((c.tc : Thread nD τ).loc main_arg8) := by
  unfold iblk
  rw [show V m c (Pipeline.arrRef spec0 8) = V m c main_arg8 from rfl, V_main_arg8]
  funext x
  rw [View.read_apply]
  show m (c.tc.loc main_arg8) (((cfg0.win 8).blk t).view.emb x) = m (c.tc.loc main_arg8) x
  congr 1
  funext a
  apply Fin.ext
  have h := idx_8 t
  match a with
  | ⟨0, _⟩ => show win0_8.index t 0 * 64 + 1 * (x 0).val = (x 0).val; rw [h]; simp
  | ⟨1, _⟩ => show win0_8.index t 1 * 32 + 1 * (x 1).val = (x 1).val; rw [h]; simp

/-- Window 14's block index is (0, 0) at every point. -/
theorem idx_14 : ∀ t : Fin cfg0.N, win0_14.index t = ![0, 0] := (by decide +kernel : ∀ t : Fin grid0.N, _)

/-- Window 14's block is the whole 32×32 argument array. -/
theorem iblk_14 : iblk m c 14 t = m ((c.tc : Thread nD τ).loc main_arg14) := by
  unfold iblk
  rw [show V m c (Pipeline.arrRef spec0 14) = V m c main_arg14 from rfl, V_main_arg14]
  funext x
  rw [View.read_apply]
  show m (c.tc.loc main_arg14) (((cfg0.win 14).blk t).view.emb x) = m (c.tc.loc main_arg14) x
  congr 1
  funext a
  apply Fin.ext
  have h := idx_14 t
  match a with
  | ⟨0, _⟩ => show win0_14.index t 0 * 32 + 1 * (x 0).val = (x 0).val; rw [h]; simp
  | ⟨1, _⟩ => show win0_14.index t 1 * 32 + 1 * (x 1).val = (x 1).val; rw [h]; simp

/-- Window 15's block index is (0, 0) at every point. -/
theorem idx_15 : ∀ t : Fin cfg0.N, win0_15.index t = ![0, 0] := (by decide +kernel : ∀ t : Fin grid0.N, _)

/-- Window 15's block is the whole 32×16 argument array. -/
theorem iblk_15 : iblk m c 15 t = m ((c.tc : Thread nD τ).loc main_arg15) := by
  unfold iblk
  rw [show V m c (Pipeline.arrRef spec0 15) = V m c main_arg15 from rfl, V_main_arg15]
  funext x
  rw [View.read_apply]
  show m (c.tc.loc main_arg15) (((cfg0.win 15).blk t).view.emb x) = m (c.tc.loc main_arg15) x
  congr 1
  funext a
  apply Fin.ext
  have h := idx_15 t
  match a with
  | ⟨0, _⟩ => show win0_15.index t 0 * 32 + 1 * (x 0).val = (x 0).val; rw [h]; simp
  | ⟨1, _⟩ => show win0_15.index t 1 * 16 + 1 * (x 1).val = (x 1).val; rw [h]; simp

/-- Window 16's block index is (0, 0) at every point. -/
theorem idx_16 : ∀ t : Fin cfg0.N, win0_16.index t = ![0, 0] := (by decide +kernel : ∀ t : Fin grid0.N, _)

/-- Window 16's block is the whole 32×16 argument array. -/
theorem iblk_16 : iblk m c 16 t = m ((c.tc : Thread nD τ).loc main_arg16) := by
  unfold iblk
  rw [show V m c (Pipeline.arrRef spec0 16) = V m c main_arg16 from rfl, V_main_arg16]
  funext x
  rw [View.read_apply]
  show m (c.tc.loc main_arg16) (((cfg0.win 16).blk t).view.emb x) = m (c.tc.loc main_arg16) x
  congr 1
  funext a
  apply Fin.ext
  have h := idx_16 t
  match a with
  | ⟨0, _⟩ => show win0_16.index t 0 * 32 + 1 * (x 0).val = (x 0).val; rw [h]; simp
  | ⟨1, _⟩ => show win0_16.index t 1 * 16 + 1 * (x 1).val = (x 1).val; rw [h]; simp

/-- Window 17's block index is (0, 0) at every point. -/
theorem idx_17 : ∀ t : Fin cfg0.N, win0_17.index t = ![0, 0] := (by decide +kernel : ∀ t : Fin grid0.N, _)

/-- Window 17's block is the whole 48×64 argument array. -/
theorem iblk_17 : iblk m c 17 t = m ((c.tc : Thread nD τ).loc main_arg17) := by
  unfold iblk
  rw [show V m c (Pipeline.arrRef spec0 17) = V m c main_arg17 from rfl, V_main_arg17]
  funext x
  rw [View.read_apply]
  show m (c.tc.loc main_arg17) (((cfg0.win 17).blk t).view.emb x) = m (c.tc.loc main_arg17) x
  congr 1
  funext a
  apply Fin.ext
  have h := idx_17 t
  match a with
  | ⟨0, _⟩ => show win0_17.index t 0 * 48 + 1 * (x 0).val = (x 0).val; rw [h]; simp
  | ⟨1, _⟩ => show win0_17.index t 1 * 64 + 1 * (x 1).val = (x 1).val; rw [h]; simp

/-- Window 23's block index is (0, 0) at every point. -/
theorem idx_23 : ∀ t : Fin cfg0.N, win0_23.index t = ![0, 0] := (by decide +kernel : ∀ t : Fin grid0.N, _)

/-- Window 23's block is the whole 64×128 argument array. -/
theorem iblk_23 : iblk m c 23 t = m ((c.tc : Thread nD τ).loc main_arg23) := by
  unfold iblk
  rw [show V m c (Pipeline.arrRef spec0 23) = V m c main_arg23 from rfl, V_main_arg23]
  funext x
  rw [View.read_apply]
  show m (c.tc.loc main_arg23) (((cfg0.win 23).blk t).view.emb x) = m (c.tc.loc main_arg23) x
  congr 1
  funext a
  apply Fin.ext
  have h := idx_23 t
  match a with
  | ⟨0, _⟩ => show win0_23.index t 0 * 64 + 1 * (x 0).val = (x 0).val; rw [h]; simp
  | ⟨1, _⟩ => show win0_23.index t 1 * 128 + 1 * (x 1).val = (x 1).val; rw [h]; simp

/-! ## The adjacency window: 400 rows at a time -/

/-- Window 1's block index at point t is (t mod 25, 0). -/
theorem idx_1 : ∀ t : Fin cfg0.N, win0_1.index t = ![t.val % 25, 0] := (by decide +kernel : ∀ t : Fin grid0.N, _)

/-- Window 1's block at point t is rows 400 · (t mod 25) … + 399 of the adjacency matrix. -/
theorem iblk_1 (h1 : 400 * (t.val % 25) + 400 ≤ 10000) :
    iblk m c 1 t = Cert.Spec.rows (400 * (t.val % 25)) h1 (m ((c.tc : Thread nD τ).loc main_arg1)) := by
  unfold iblk
  rw [show V m c (Pipeline.arrRef spec0 1) = V m c main_arg1 from rfl, V_main_arg1]
  funext x
  rw [View.read_apply]
  show m (c.tc.loc main_arg1) (((cfg0.win 1).blk t).view.emb x)
    = m (c.tc.loc main_arg1) (ix2 ⟨400 * (t.val % 25) + (x 0).val, _⟩ (x 1))
  congr 1
  funext a
  apply Fin.ext
  have h := idx_1 t
  match a with
  | ⟨0, _⟩ => show win0_1.index t 0 * 400 + 1 * (x 0).val = 400 * (t.val % 25) + (x 0).val; rw [h]; simp; omega
  | ⟨1, _⟩ => show win0_1.index t 1 * 10000 + 1 * (x 1).val = (x 1).val; rw [h]; simp

/-- The bound is automatic. -/
theorem iblk_1' : iblk m c 1 t
    = Cert.Spec.rows (400 * (t.val % 25)) (by omega) (m ((c.tc : Thread nD τ).loc main_arg1)) :=
  iblk_1 m c t _

/-! ## Windows that stage the 1×N reshape of a length-N argument -/

/-- The one row of a length-N vector reshaped to 1×N is the vector. -/
theorem rowVec_reshape {N : ℕ} (b : Cert.Spec.Vect N) (h : (⟨1, ![N]⟩ : Shape).ShapeCasts ⟨2, ![1, N]⟩) :
    Cert.Spec.rowVec (shapeCast ⟨2, ![1, N]⟩ b h) = b := by
  rw [Cert.LibRowBias.reshape_eq_rowOf]
  funext j
  exact congrArg b (eq_ix1 j).symm

/-- Window 3's block index is (0, 0) at every point. -/
theorem idx_3 : ∀ t : Fin cfg0.N, win0_3.index t = ![0, 0] := (by decide +kernel : ∀ t : Fin grid0.N, _)

/-- The array window 3 stages is the 1×64 reshape of a length-64 argument. -/
theorem V_main_v0 : (V m c main_v0 : S1x64.Idx → EReal)
    = shapeCast S1x64 (m ((c.tc : Thread nD τ).loc main_arg3) : S64.Idx → EReal) shapeCasts_S64_S1x64 := by
  dsimp only [V, hostOps0]
  after_results
  rfl

/-- Window 3's one row is that argument. -/
theorem row_3 : Cert.Spec.rowVec (iblk m c 3 t) = m ((c.tc : Thread nD τ).loc main_arg3) := by
  have e : iblk m c 3 t = (V m c main_v0 : S1x64.Idx → EReal) := by
    unfold iblk
    funext x
    rw [View.read_apply]
    show V m c main_v0 (((cfg0.win 3).blk t).view.emb x) = V m c main_v0 x
    congr 1
    funext a
    apply Fin.ext
    have h := idx_3 t
    match a with
    | ⟨0, _⟩ => show win0_3.index t 0 * 1 + 1 * (x 0).val = (x 0).val; rw [h]; simp
    | ⟨1, _⟩ => show win0_3.index t 1 * 64 + 1 * (x 1).val = (x 1).val; rw [h]; simp
  rw [e, V_main_v0]
  exact rowVec_reshape _ _

/-- Window 4's block index is (0, 0) at every point. -/
theorem idx_4 : ∀ t : Fin cfg0.N, win0_4.index t = ![0, 0] := (by decide +kernel : ∀ t : Fin grid0.N, _)

/-- The array window 4 stages is the 1×64 reshape of a length-64 argument. -/
theorem V_main_v1 : (V m c main_v1 : S1x64.Idx → EReal)
    = shapeCast S1x64 (m ((c.tc : Thread nD τ).loc main_arg4) : S64.Idx → EReal) shapeCasts_S64_S1x64 := by
  dsimp only [V, hostOps0]
  after_results
  rfl

/-- Window 4's one row is that argument. -/
theorem row_4 : Cert.Spec.rowVec (iblk m c 4 t) = m ((c.tc : Thread nD τ).loc main_arg4) := by
  have e : iblk m c 4 t = (V m c main_v1 : S1x64.Idx → EReal) := by
    unfold iblk
    funext x
    rw [View.read_apply]
    show V m c main_v1 (((cfg0.win 4).blk t).view.emb x) = V m c main_v1 x
    congr 1
    funext a
    apply Fin.ext
    have h := idx_4 t
    match a with
    | ⟨0, _⟩ => show win0_4.index t 0 * 1 + 1 * (x 0).val = (x 0).val; rw [h]; simp
    | ⟨1, _⟩ => show win0_4.index t 1 * 64 + 1 * (x 1).val = (x 1).val; rw [h]; simp
  rw [e, V_main_v1]
  exact rowVec_reshape _ _

/-- Window 5's block index is (0, 0) at every point. -/
theorem idx_5 : ∀ t : Fin cfg0.N, win0_5.index t = ![0, 0] := (by decide +kernel : ∀ t : Fin grid0.N, _)

/-- The array window 5 stages is the 1×64 reshape of a length-64 argument. -/
theorem V_main_v2 : (V m c main_v2 : S1x64.Idx → EReal)
    = shapeCast S1x64 (m ((c.tc : Thread nD τ).loc main_arg5) : S64.Idx → EReal) shapeCasts_S64_S1x64 := by
  dsimp only [V, hostOps0]
  after_results
  rfl

/-- Window 5's one row is that argument. -/
theorem row_5 : Cert.Spec.rowVec (iblk m c 5 t) = m ((c.tc : Thread nD τ).loc main_arg5) := by
  have e : iblk m c 5 t = (V m c main_v2 : S1x64.Idx → EReal) := by
    unfold iblk
    funext x
    rw [View.read_apply]
    show V m c main_v2 (((cfg0.win 5).blk t).view.emb x) = V m c main_v2 x
    congr 1
    funext a
    apply Fin.ext
    have h := idx_5 t
    match a with
    | ⟨0, _⟩ => show win0_5.index t 0 * 1 + 1 * (x 0).val = (x 0).val; rw [h]; simp
    | ⟨1, _⟩ => show win0_5.index t 1 * 64 + 1 * (x 1).val = (x 1).val; rw [h]; simp
  rw [e, V_main_v2]
  exact rowVec_reshape _ _

/-- Window 6's block index is (0, 0) at every point. -/
theorem idx_6 : ∀ t : Fin cfg0.N, win0_6.index t = ![0, 0] := (by decide +kernel : ∀ t : Fin grid0.N, _)

/-- The array window 6 stages is the 1×64 reshape of a length-64 argument. -/
theorem V_main_v3 : (V m c main_v3 : S1x64.Idx → EReal)
    = shapeCast S1x64 (m ((c.tc : Thread nD τ).loc main_arg6) : S64.Idx → EReal) shapeCasts_S64_S1x64 := by
  dsimp only [V, hostOps0]
  after_results
  rfl

/-- Window 6's one row is that argument. -/
theorem row_6 : Cert.Spec.rowVec (iblk m c 6 t) = m ((c.tc : Thread nD τ).loc main_arg6) := by
  have e : iblk m c 6 t = (V m c main_v3 : S1x64.Idx → EReal) := by
    unfold iblk
    funext x
    rw [View.read_apply]
    show V m c main_v3 (((cfg0.win 6).blk t).view.emb x) = V m c main_v3 x
    congr 1
    funext a
    apply Fin.ext
    have h := idx_6 t
    match a with
    | ⟨0, _⟩ => show win0_6.index t 0 * 1 + 1 * (x 0).val = (x 0).val; rw [h]; simp
    | ⟨1, _⟩ => show win0_6.index t 1 * 64 + 1 * (x 1).val = (x 1).val; rw [h]; simp
  rw [e, V_main_v3]
  exact rowVec_reshape _ _

/-- Window 7's block index is (0, 0) at every point. -/
theorem idx_7 : ∀ t : Fin cfg0.N, win0_7.index t = ![0, 0] := (by decide +kernel : ∀ t : Fin grid0.N, _)

/-- The array window 7 stages is the 1×64 reshape of a length-64 argument. -/
theorem V_main_v4 : (V m c main_v4 : S1x64.Idx → EReal)
    = shapeCast S1x64 (m ((c.tc : Thread nD τ).loc main_arg7) : S64.Idx → EReal) shapeCasts_S64_S1x64 := by
  dsimp only [V, hostOps0]
  after_results
  rfl

/-- Window 7's one row is that argument. -/
theorem row_7 : Cert.Spec.rowVec (iblk m c 7 t) = m ((c.tc : Thread nD τ).loc main_arg7) := by
  have e : iblk m c 7 t = (V m c main_v4 : S1x64.Idx → EReal) := by
    unfold iblk
    funext x
    rw [View.read_apply]
    show V m c main_v4 (((cfg0.win 7).blk t).view.emb x) = V m c main_v4 x
    congr 1
    funext a
    apply Fin.ext
    have h := idx_7 t
    match a with
    | ⟨0, _⟩ => show win0_7.index t 0 * 1 + 1 * (x 0).val = (x 0).val; rw [h]; simp
    | ⟨1, _⟩ => show win0_7.index t 1 * 64 + 1 * (x 1).val = (x 1).val; rw [h]; simp
  rw [e, V_main_v4]
  exact rowVec_reshape _ _

/-- Window 9's block index is (0, 0) at every point. -/
theorem idx_9 : ∀ t : Fin cfg0.N, win0_9.index t = ![0, 0] := (by decide +kernel : ∀ t : Fin grid0.N, _)

/-- The array window 9 stages is the 1×32 reshape of a length-32 argument. -/
theorem V_main_v5 : (V m c main_v5 : S1x32.Idx → EReal)
    = shapeCast S1x32 (m ((c.tc : Thread nD τ).loc main_arg9) : S32.Idx → EReal) shapeCasts_S32_S1x32 := by
  dsimp only [V, hostOps0]
  after_results
  rfl

/-- Window 9's one row is that argument. -/
theorem row_9 : Cert.Spec.rowVec (iblk m c 9 t) = m ((c.tc : Thread nD τ).loc main_arg9) := by
  have e : iblk m c 9 t = (V m c main_v5 : S1x32.Idx → EReal) := by
    unfold iblk
    funext x
    rw [View.read_apply]
    show V m c main_v5 (((cfg0.win 9).blk t).view.emb x) = V m c main_v5 x
    congr 1
    funext a
    apply Fin.ext
    have h := idx_9 t
    match a with
    | ⟨0, _⟩ => show win0_9.index t 0 * 1 + 1 * (x 0).val = (x 0).val; rw [h]; simp
    | ⟨1, _⟩ => show win0_9.index t 1 * 32 + 1 * (x 1).val = (x 1).val; rw [h]; simp
  rw [e, V_main_v5]
  exact rowVec_reshape _ _

/-- Window 10's block index is (0, 0) at every point. -/
theorem idx_10 : ∀ t : Fin cfg0.N, win0_10.index t = ![0, 0] := (by decide +kernel : ∀ t : Fin grid0.N, _)

/-- The array window 10 stages is the 1×32 reshape of a length-32 argument. -/
theorem V_main_v6 : (V m c main_v6 : S1x32.Idx → EReal)
    = shapeCast S1x32 (m ((c.tc : Thread nD τ).loc main_arg10) : S32.Idx → EReal) shapeCasts_S32_S1x32 := by
  dsimp only [V, hostOps0]
  after_results
  rfl

/-- Window 10's one row is that argument. -/
theorem row_10 : Cert.Spec.rowVec (iblk m c 10 t) = m ((c.tc : Thread nD τ).loc main_arg10) := by
  have e : iblk m c 10 t = (V m c main_v6 : S1x32.Idx → EReal) := by
    unfold iblk
    funext x
    rw [View.read_apply]
    show V m c main_v6 (((cfg0.win 10).blk t).view.emb x) = V m c main_v6 x
    congr 1
    funext a
    apply Fin.ext
    have h := idx_10 t
    match a with
    | ⟨0, _⟩ => show win0_10.index t 0 * 1 + 1 * (x 0).val = (x 0).val; rw [h]; simp
    | ⟨1, _⟩ => show win0_10.index t 1 * 32 + 1 * (x 1).val = (x 1).val; rw [h]; simp
  rw [e, V_main_v6]
  exact rowVec_reshape _ _

/-- Window 11's block index is (0, 0) at every point. -/
theorem idx_11 : ∀ t : Fin cfg0.N, win0_11.index t = ![0, 0] := (by decide +kernel : ∀ t : Fin grid0.N, _)

/-- The array window 11 stages is the 1×32 reshape of a length-32 argument. -/
theorem V_main_v7 : (V m c main_v7 : S1x32.Idx → EReal)
    = shapeCast S1x32 (m ((c.tc : Thread nD τ).loc main_arg11) : S32.Idx → EReal) shapeCasts_S32_S1x32 := by
  dsimp only [V, hostOps0]
  after_results
  rfl

/-- Window 11's one row is that argument. -/
theorem row_11 : Cert.Spec.rowVec (iblk m c 11 t) = m ((c.tc : Thread nD τ).loc main_arg11) := by
  have e : iblk m c 11 t = (V m c main_v7 : S1x32.Idx → EReal) := by
    unfold iblk
    funext x
    rw [View.read_apply]
    show V m c main_v7 (((cfg0.win 11).blk t).view.emb x) = V m c main_v7 x
    congr 1
    funext a
    apply Fin.ext
    have h := idx_11 t
    match a with
    | ⟨0, _⟩ => show win0_11.index t 0 * 1 + 1 * (x 0).val = (x 0).val; rw [h]; simp
    | ⟨1, _⟩ => show win0_11.index t 1 * 32 + 1 * (x 1).val = (x 1).val; rw [h]; simp
  rw [e, V_main_v7]
  exact rowVec_reshape _ _

/-- Window 12's block index is (0, 0) at every point. -/
theorem idx_12 : ∀ t : Fin cfg0.N, win0_12.index t = ![0, 0] := (by decide +kernel : ∀ t : Fin grid0.N, _)

/-- The array window 12 stages is the 1×32 reshape of a length-32 argument. -/
theorem V_main_v8 : (V m c main_v8 : S1x32.Idx → EReal)
    = shapeCast S1x32 (m ((c.tc : Thread nD τ).loc main_arg12) : S32.Idx → EReal) shapeCasts_S32_S1x32 := by
  dsimp only [V, hostOps0]
  after_results
  rfl

/-- Window 12's one row is that argument. -/
theorem row_12 : Cert.Spec.rowVec (iblk m c 12 t) = m ((c.tc : Thread nD τ).loc main_arg12) := by
  have e : iblk m c 12 t = (V m c main_v8 : S1x32.Idx → EReal) := by
    unfold iblk
    funext x
    rw [View.read_apply]
    show V m c main_v8 (((cfg0.win 12).blk t).view.emb x) = V m c main_v8 x
    congr 1
    funext a
    apply Fin.ext
    have h := idx_12 t
    match a with
    | ⟨0, _⟩ => show win0_12.index t 0 * 1 + 1 * (x 0).val = (x 0).val; rw [h]; simp
    | ⟨1, _⟩ => show win0_12.index t 1 * 32 + 1 * (x 1).val = (x 1).val; rw [h]; simp
  rw [e, V_main_v8]
  exact rowVec_reshape _ _

/-- Window 13's block index is (0, 0) at every point. -/
theorem idx_13 : ∀ t : Fin cfg0.N, win0_13.index t = ![0, 0] := (by decide +kernel : ∀ t : Fin grid0.N, _)

/-- The array window 13 stages is the 1×32 reshape of a length-32 argument. -/
theorem V_main_v9 : (V m c main_v9 : S1x32.Idx → EReal)
    = shapeCast S1x32 (m ((c.tc : Thread nD τ).loc main_arg13) : S32.Idx → EReal) shapeCasts_S32_S1x32 := by
  dsimp only [V, hostOps0]
  after_results
  rfl

/-- Window 13's one row is that argument. -/
theorem row_13 : Cert.Spec.rowVec (iblk m c 13 t) = m ((c.tc : Thread nD τ).loc main_arg13) := by
  have e : iblk m c 13 t = (V m c main_v9 : S1x32.Idx → EReal) := by
    unfold iblk
    funext x
    rw [View.read_apply]
    show V m c main_v9 (((cfg0.win 13).blk t).view.emb x) = V m c main_v9 x
    congr 1
    funext a
    apply Fin.ext
    have h := idx_13 t
    match a with
    | ⟨0, _⟩ => show win0_13.index t 0 * 1 + 1 * (x 0).val = (x 0).val; rw [h]; simp
    | ⟨1, _⟩ => show win0_13.index t 1 * 32 + 1 * (x 1).val = (x 1).val; rw [h]; simp
  rw [e, V_main_v9]
  exact rowVec_reshape _ _

/-- Window 18's block index is (0, 0) at every point. -/
theorem idx_18 : ∀ t : Fin cfg0.N, win0_18.index t = ![0, 0] := (by decide +kernel : ∀ t : Fin grid0.N, _)

/-- The array window 18 stages is the 1×64 reshape of a length-64 argument. -/
theorem V_main_v10 : (V m c main_v10 : S1x64.Idx → EReal)
    = shapeCast S1x64 (m ((c.tc : Thread nD τ).loc main_arg18) : S64.Idx → EReal) shapeCasts_S64_S1x64 := by
  dsimp only [V, hostOps0]
  after_results
  rfl

/-- Window 18's one row is that argument. -/
theorem row_18 : Cert.Spec.rowVec (iblk m c 18 t) = m ((c.tc : Thread nD τ).loc main_arg18) := by
  have e : iblk m c 18 t = (V m c main_v10 : S1x64.Idx → EReal) := by
    unfold iblk
    funext x
    rw [View.read_apply]
    show V m c main_v10 (((cfg0.win 18).blk t).view.emb x) = V m c main_v10 x
    congr 1
    funext a
    apply Fin.ext
    have h := idx_18 t
    match a with
    | ⟨0, _⟩ => show win0_18.index t 0 * 1 + 1 * (x 0).val = (x 0).val; rw [h]; simp
    | ⟨1, _⟩ => show win0_18.index t 1 * 64 + 1 * (x 1).val = (x 1).val; rw [h]; simp
  rw [e, V_main_v10]
  exact rowVec_reshape _ _

/-- Window 19's block index is (0, 0) at every point. -/
theorem idx_19 : ∀ t : Fin cfg0.N, win0_19.index t = ![0, 0] := (by decide +kernel : ∀ t : Fin grid0.N, _)

/-- The array window 19 stages is the 1×64 reshape of a length-64 argument. -/
theorem V_main_v11 : (V m c main_v11 : S1x64.Idx → EReal)
    = shapeCast S1x64 (m ((c.tc : Thread nD τ).loc main_arg19) : S64.Idx → EReal) shapeCasts_S64_S1x64 := by
  dsimp only [V, hostOps0]
  after_results
  rfl

/-- Window 19's one row is that argument. -/
theorem row_19 : Cert.Spec.rowVec (iblk m c 19 t) = m ((c.tc : Thread nD τ).loc main_arg19) := by
  have e : iblk m c 19 t = (V m c main_v11 : S1x64.Idx → EReal) := by
    unfold iblk
    funext x
    rw [View.read_apply]
    show V m c main_v11 (((cfg0.win 19).blk t).view.emb x) = V m c main_v11 x
    congr 1
    funext a
    apply Fin.ext
    have h := idx_19 t
    match a with
    | ⟨0, _⟩ => show win0_19.index t 0 * 1 + 1 * (x 0).val = (x 0).val; rw [h]; simp
    | ⟨1, _⟩ => show win0_19.index t 1 * 64 + 1 * (x 1).val = (x 1).val; rw [h]; simp
  rw [e, V_main_v11]
  exact rowVec_reshape _ _

/-- Window 20's block index is (0, 0) at every point. -/
theorem idx_20 : ∀ t : Fin cfg0.N, win0_20.index t = ![0, 0] := (by decide +kernel : ∀ t : Fin grid0.N, _)

/-- The array window 20 stages is the 1×64 reshape of a length-64 argument. -/
theorem V_main_v12 : (V m c main_v12 : S1x64.Idx → EReal)
    = shapeCast S1x64 (m ((c.tc : Thread nD τ).loc main_arg20) : S64.Idx → EReal) shapeCasts_S64_S1x64 := by
  dsimp only [V, hostOps0]
  after_results
  rfl

/-- Window 20's one row is that argument. -/
theorem row_20 : Cert.Spec.rowVec (iblk m c 20 t) = m ((c.tc : Thread nD τ).loc main_arg20) := by
  have e : iblk m c 20 t = (V m c main_v12 : S1x64.Idx → EReal) := by
    unfold iblk
    funext x
    rw [View.read_apply]
    show V m c main_v12 (((cfg0.win 20).blk t).view.emb x) = V m c main_v12 x
    congr 1
    funext a
    apply Fin.ext
    have h := idx_20 t
    match a with
    | ⟨0, _⟩ => show win0_20.index t 0 * 1 + 1 * (x 0).val = (x 0).val; rw [h]; simp
    | ⟨1, _⟩ => show win0_20.index t 1 * 64 + 1 * (x 1).val = (x 1).val; rw [h]; simp
  rw [e, V_main_v12]
  exact rowVec_reshape _ _

/-- Window 21's block index is (0, 0) at every point. -/
theorem idx_21 : ∀ t : Fin cfg0.N, win0_21.index t = ![0, 0] := (by decide +kernel : ∀ t : Fin grid0.N, _)

/-- The array window 21 stages is the 1×64 reshape of a length-64 argument. -/
theorem V_main_v13 : (V m c main_v13 : S1x64.Idx → EReal)
    = shapeCast S1x64 (m ((c.tc : Thread nD τ).loc main_arg21) : S64.Idx → EReal) shapeCasts_S64_S1x64 := by
  dsimp only [V, hostOps0]
  after_results
  rfl

/-- Window 21's one row is that argument. -/
theorem row_21 : Cert.Spec.rowVec (iblk m c 21 t) = m ((c.tc : Thread nD τ).loc main_arg21) := by
  have e : iblk m c 21 t = (V m c main_v13 : S1x64.Idx → EReal) := by
    unfold iblk
    funext x
    rw [View.read_apply]
    show V m c main_v13 (((cfg0.win 21).blk t).view.emb x) = V m c main_v13 x
    congr 1
    funext a
    apply Fin.ext
    have h := idx_21 t
    match a with
    | ⟨0, _⟩ => show win0_21.index t 0 * 1 + 1 * (x 0).val = (x 0).val; rw [h]; simp
    | ⟨1, _⟩ => show win0_21.index t 1 * 64 + 1 * (x 1).val = (x 1).val; rw [h]; simp
  rw [e, V_main_v13]
  exact rowVec_reshape _ _

/-- Window 22's block index is (0, 0) at every point. -/
theorem idx_22 : ∀ t : Fin cfg0.N, win0_22.index t = ![0, 0] := (by decide +kernel : ∀ t : Fin grid0.N, _)

/-- The array window 22 stages is the 1×64 reshape of a length-64 argument. -/
theorem V_main_v14 : (V m c main_v14 : S1x64.Idx → EReal)
    = shapeCast S1x64 (m ((c.tc : Thread nD τ).loc main_arg22) : S64.Idx → EReal) shapeCasts_S64_S1x64 := by
  dsimp only [V, hostOps0]
  after_results
  rfl

/-- Window 22's one row is that argument. -/
theorem row_22 : Cert.Spec.rowVec (iblk m c 22 t) = m ((c.tc : Thread nD τ).loc main_arg22) := by
  have e : iblk m c 22 t = (V m c main_v14 : S1x64.Idx → EReal) := by
    unfold iblk
    funext x
    rw [View.read_apply]
    show V m c main_v14 (((cfg0.win 22).blk t).view.emb x) = V m c main_v14 x
    congr 1
    funext a
    apply Fin.ext
    have h := idx_22 t
    match a with
    | ⟨0, _⟩ => show win0_22.index t 0 * 1 + 1 * (x 0).val = (x 0).val; rw [h]; simp
    | ⟨1, _⟩ => show win0_22.index t 1 * 64 + 1 * (x 1).val = (x 1).val; rw [h]; simp
  rw [e, V_main_v14]
  exact rowVec_reshape _ _

/-- Window 24's block index is (0, 0) at every point. -/
theorem idx_24 : ∀ t : Fin cfg0.N, win0_24.index t = ![0, 0] := (by decide +kernel : ∀ t : Fin grid0.N, _)

/-- The array window 24 stages is the 1×128 reshape of a length-128 argument. -/
theorem V_main_v15 : (V m c main_v15 : S1x128.Idx → EReal)
    = shapeCast S1x128 (m ((c.tc : Thread nD τ).loc main_arg24) : S128.Idx → EReal) shapeCasts_S128_S1x128 := by
  dsimp only [V, hostOps0]
  after_results
  rfl

/-- Window 24's one row is that argument. -/
theorem row_24 : Cert.Spec.rowVec (iblk m c 24 t) = m ((c.tc : Thread nD τ).loc main_arg24) := by
  have e : iblk m c 24 t = (V m c main_v15 : S1x128.Idx → EReal) := by
    unfold iblk
    funext x
    rw [View.read_apply]
    show V m c main_v15 (((cfg0.win 24).blk t).view.emb x) = V m c main_v15 x
    congr 1
    funext a
    apply Fin.ext
    have h := idx_24 t
    match a with
    | ⟨0, _⟩ => show win0_24.index t 0 * 1 + 1 * (x 0).val = (x 0).val; rw [h]; simp
    | ⟨1, _⟩ => show win0_24.index t 1 * 128 + 1 * (x 1).val = (x 1).val; rw [h]; simp
  rw [e, V_main_v15]
  exact rowVec_reshape _ _

/-- Window 25's block index is (0, 0) at every point. -/
theorem idx_25 : ∀ t : Fin cfg0.N, win0_25.index t = ![0, 0] := (by decide +kernel : ∀ t : Fin grid0.N, _)

/-- The array window 25 stages is the 1×128 reshape of a length-128 argument. -/
theorem V_main_v16 : (V m c main_v16 : S1x128.Idx → EReal)
    = shapeCast S1x128 (m ((c.tc : Thread nD τ).loc main_arg25) : S128.Idx → EReal) shapeCasts_S128_S1x128 := by
  dsimp only [V, hostOps0]
  after_results
  rfl

/-- Window 25's one row is that argument. -/
theorem row_25 : Cert.Spec.rowVec (iblk m c 25 t) = m ((c.tc : Thread nD τ).loc main_arg25) := by
  have e : iblk m c 25 t = (V m c main_v16 : S1x128.Idx → EReal) := by
    unfold iblk
    funext x
    rw [View.read_apply]
    show V m c main_v16 (((cfg0.win 25).blk t).view.emb x) = V m c main_v16 x
    congr 1
    funext a
    apply Fin.ext
    have h := idx_25 t
    match a with
    | ⟨0, _⟩ => show win0_25.index t 0 * 1 + 1 * (x 0).val = (x 0).val; rw [h]; simp
    | ⟨1, _⟩ => show win0_25.index t 1 * 128 + 1 * (x 1).val = (x 1).val; rw [h]; simp
  rw [e, V_main_v16]
  exact rowVec_reshape _ _

/-- Window 26's block index is (0, 0) at every point. -/
theorem idx_26 : ∀ t : Fin cfg0.N, win0_26.index t = ![0, 0] := (by decide +kernel : ∀ t : Fin grid0.N, _)

/-- The array window 26 stages is the 1×128 reshape of a length-128 argument. -/
theorem V_main_v17 : (V m c main_v17 : S1x128.Idx → EReal)
    = shapeCast S1x128 (m ((c.tc : Thread nD τ).loc main_arg26) : S128.Idx → EReal) shapeCasts_S128_S1x128 := by
  dsimp only [V, hostOps0]
  after_results
  rfl

/-- Window 26's one row is that argument. -/
theorem row_26 : Cert.Spec.rowVec (iblk m c 26 t) = m ((c.tc : Thread nD τ).loc main_arg26) := by
  have e : iblk m c 26 t = (V m c main_v17 : S1x128.Idx → EReal) := by
    unfold iblk
    funext x
    rw [View.read_apply]
    show V m c main_v17 (((cfg0.win 26).blk t).view.emb x) = V m c main_v17 x
    congr 1
    funext a
    apply Fin.ext
    have h := idx_26 t
    match a with
    | ⟨0, _⟩ => show win0_26.index t 0 * 1 + 1 * (x 0).val = (x 0).val; rw [h]; simp
    | ⟨1, _⟩ => show win0_26.index t 1 * 128 + 1 * (x 1).val = (x 1).val; rw [h]; simp
  rw [e, V_main_v17]
  exact rowVec_reshape _ _

/-- Window 27's block index is (0, 0) at every point. -/
theorem idx_27 : ∀ t : Fin cfg0.N, win0_27.index t = ![0, 0] := (by decide +kernel : ∀ t : Fin grid0.N, _)

/-- The array window 27 stages is the 1×128 reshape of a length-128 argument. -/
theorem V_main_v18 : (V m c main_v18 : S1x128.Idx → EReal)
    = shapeCast S1x128 (m ((c.tc : Thread nD τ).loc main_arg27) : S128.Idx → EReal) shapeCasts_S128_S1x128 := by
  dsimp only [V, hostOps0]
  after_results
  rfl

/-- Window 27's one row is that argument. -/
theorem row_27 : Cert.Spec.rowVec (iblk m c 27 t) = m ((c.tc : Thread nD τ).loc main_arg27) := by
  have e : iblk m c 27 t = (V m c main_v18 : S1x128.Idx → EReal) := by
    unfold iblk
    funext x
    rw [View.read_apply]
    show V m c main_v18 (((cfg0.win 27).blk t).view.emb x) = V m c main_v18 x
    congr 1
    funext a
    apply Fin.ext
    have h := idx_27 t
    match a with
    | ⟨0, _⟩ => show win0_27.index t 0 * 1 + 1 * (x 0).val = (x 0).val; rw [h]; simp
    | ⟨1, _⟩ => show win0_27.index t 1 * 128 + 1 * (x 1).val = (x 1).val; rw [h]; simp
  rw [e, V_main_v18]
  exact rowVec_reshape _ _

/-- Window 28's block index is (0, 0) at every point. -/
theorem idx_28 : ∀ t : Fin cfg0.N, win0_28.index t = ![0, 0] := (by decide +kernel : ∀ t : Fin grid0.N, _)

/-- The array window 28 stages is the 1×128 reshape of a length-128 argument. -/
theorem V_main_v19 : (V m c main_v19 : S1x128.Idx → EReal)
    = shapeCast S1x128 (m ((c.tc : Thread nD τ).loc main_arg28) : S128.Idx → EReal) shapeCasts_S128_S1x128 := by
  dsimp only [V, hostOps0]
  after_results
  rfl

/-- Window 28's one row is that argument. -/
theorem row_28 : Cert.Spec.rowVec (iblk m c 28 t) = m ((c.tc : Thread nD τ).loc main_arg28) := by
  have e : iblk m c 28 t = (V m c main_v19 : S1x128.Idx → EReal) := by
    unfold iblk
    funext x
    rw [View.read_apply]
    show V m c main_v19 (((cfg0.win 28).blk t).view.emb x) = V m c main_v19 x
    congr 1
    funext a
    apply Fin.ext
    have h := idx_28 t
    match a with
    | ⟨0, _⟩ => show win0_28.index t 0 * 1 + 1 * (x 0).val = (x 0).val; rw [h]; simp
    | ⟨1, _⟩ => show win0_28.index t 1 * 128 + 1 * (x 1).val = (x 1).val; rw [h]; simp
  rw [e, V_main_v19]
  exact rowVec_reshape _ _

/-! ## The row offsets of the kernel's 400-row slices -/

/-- In the first 25 points the slice of the second-support array starts at row 400 · t. -/
theorem off1 : ∀ t : Fin cfg0.N, t.val < 25 → k0_off1 (grid0.coords t) = ![400 * t.val, 0] :=
  (by decide +kernel : ∀ t : Fin grid0.N, _)

/-- In the last 25 points the slice of the feature array starts at row 400 · (t − 25). -/
theorem off2 : ∀ t : Fin cfg0.N, 25 ≤ t.val → k0_off2 (grid0.coords t) = ![400 * (t.val - 25), 0] :=
  (by decide +kernel : ∀ t : Fin grid0.N, _)

end Cert.KBlocks

end
-- ==== Proof.KBlocksOut.lean ====
/-
  The output windows' blocks: each of the five result arrays is written back in blocks of 400 rows, at the last 25 grid
  points only, point t writing rows 400 · (t − 25) … + 399; every row of a result array is in exactly such a block, and
  what a point writes back is all of its staging buffer.
-/
import proofs.«133634_g45492293599347_cont_8to1c4_324_9_alg».proof.Proof.Spec
import proofs.«133634_g45492293599347_cont_8to1c4_324_9_alg».proof.Proof.LibRowBias

import proofs.«133634_g45492293599347_cont_8to1c4_324_9_alg».proof.Proof.Gen.KernelIdeal.Frame
import Idealize.ShloMosaic.Lib.Pipeline.Value
import Idealize.ShloMosaic.Lib.StableHlo.Run

set_option maxRecDepth 16384

noncomputable section

namespace Cert.KBlocks

open Idealize.ShloMosaic Idealize.ShloMosaic.TcCoe Idealize.ShloMosaic.ValueIdx Idealize.ShloMosaic.Tactic
open Idealize.SL Idealize.SL.Sem
open Cert.KernelIdeal Cert.KernelIdeal.Gen

variable (m : (ℓ : Loc nD τ sig) → Buf (Elt Ideal) ℓ) (c : Dev nD) (t : Fin cfg0.N)

/-! ## Window 29: the 10000×16 result -/

/-- In the last 25 points window 29's block index is (t − 25, 0). -/
theorem idx_29 : ∀ t : Fin cfg0.N, 25 ≤ t.val → win0_29.index t = ![t.val - 25, 0] :=
  (by decide +kernel : ∀ t : Fin grid0.N, _)

/-- Window 29 is written back at each of the last 25 points. -/
theorem flush_29 : ∀ t : Fin cfg0.N, 25 ≤ t.val → (cfg0.win 29).flush t = true :=
  (by decide +kernel : ∀ t : Fin grid0.N, 25 ≤ t.val → win0_29.flush t = true)

/-- The block of window 29 at one of the last 25 points, read off an array, is its rows 400 · (t − 25) … + 399. -/
theorem out_read_29 (h : 25 ≤ t.val) (G : Cert.Spec.Mat 10000 16) :
    ((cfg0.win 29).blk t).view.read (Elt Ideal) G
      = Cert.Spec.rows (400 * (t.val - 25)) (by have : t.val < 50 := lt_of_lt_of_eq t.isLt N_0; omega) G := by
  funext x
  rw [View.read_apply]
  show G (((cfg0.win 29).blk t).view.emb x) = G (ix2 ⟨400 * (t.val - 25) + (x 0).val, _⟩ (x 1))
  congr 1
  funext a
  apply Fin.ext
  have hi := idx_29 t h
  match a with
  | ⟨0, _⟩ => show win0_29.index t 0 * 400 + 1 * (x 0).val = 400 * (t.val - 25) + (x 0).val; rw [hi]; simp; omega
  | ⟨1, _⟩ => show win0_29.index t 1 * 16 + 1 * (x 1).val = (x 1).val; rw [hi]; simp

/-- Every entry of the result is in the block some point writes back: row r in the block of point 25 + r / 400. -/
theorem out_cover_29 (i : S10000x16.Idx) :
    ∃ t : Fin cfg0.N, (cfg0.win 29).flush t = true ∧ i ∈ ((cfg0.win 29).blk t).view.set := by
  have hi0 : (i 0).val < 10000 := (i 0).isLt
  have hi1 : (i 1).val < 16 := (i 1).isLt
  obtain ⟨t, ht⟩ : ∃ t : Fin cfg0.N, t.val = 25 + (i 0).val / 400 :=
    ⟨⟨25 + (i 0).val / 400, lt_of_lt_of_eq (by omega : 25 + (i 0).val / 400 < 50) N_0.symm⟩, rfl⟩
  have h25 : 25 ≤ t.val := by omega
  refine ⟨t, flush_29 t h25, ?_⟩
  show i ∈ ((View.whole main_v20_0).slice (win0_29.rect t)).set
  rw [View.set_slice_whole, Rect.mem_set_unit]
  have hidx := idx_29 t h25
  intro a
  match a with
  | ⟨0, _⟩ =>
    show win0_29.index t 0 * 400 ≤ (i 0).val ∧ (i 0).val < win0_29.index t 0 * 400 + 400
    rw [hidx]; simp; omega
  | ⟨1, _⟩ =>
    show win0_29.index t 1 * 16 ≤ (i 1).val ∧ (i 1).val < win0_29.index t 1 * 16 + 16
    rw [hidx]; simp; omega

/-- What a point writes back of window 29's staging buffer is all of it. -/
theorem out_cut_29 {α : Type} (X : (cfg0.win 29).block.Idx → α) : (cfg0.win 29).cut (grid0.coords t) X = X := rfl

/-! ## Window 30: the 10000×16 result -/

/-- In the last 25 points window 30's block index is (t − 25, 0). -/
theorem idx_30 : ∀ t : Fin cfg0.N, 25 ≤ t.val → win0_30.index t = ![t.val - 25, 0] :=
  (by decide +kernel : ∀ t : Fin grid0.N, _)

/-- Window 30 is written back at each of the last 25 points. -/
theorem flush_30 : ∀ t : Fin cfg0.N, 25 ≤ t.val → (cfg0.win 30).flush t = true :=
  (by decide +kernel : ∀ t : Fin grid0.N, 25 ≤ t.val → win0_30.flush t = true)

/-- The block of window 30 at one of the last 25 points, read off an array, is its rows 400 · (t − 25) … + 399. -/
theorem out_read_30 (h : 25 ≤ t.val) (G : Cert.Spec.Mat 10000 16) :
    ((cfg0.win 30).blk t).view.read (Elt Ideal) G
      = Cert.Spec.rows (400 * (t.val - 25)) (by have : t.val < 50 := lt_of_lt_of_eq t.isLt N_0; omega) G := by
  funext x
  rw [View.read_apply]
  show G (((cfg0.win 30).blk t).view.emb x) = G (ix2 ⟨400 * (t.val - 25) + (x 0).val, _⟩ (x 1))
  congr 1
  funext a
  apply Fin.ext
  have hi := idx_30 t h
  match a with
  | ⟨0, _⟩ => show win0_30.index t 0 * 400 + 1 * (x 0).val = 400 * (t.val - 25) + (x 0).val; rw [hi]; simp; omega
  | ⟨1, _⟩ => show win0_30.index t 1 * 16 + 1 * (x 1).val = (x 1).val; rw [hi]; simp

/-- Every entry of the result is in the block some point writes back: row r in the block of point 25 + r / 400. -/
theorem out_cover_30 (i : S10000x16.Idx) :
    ∃ t : Fin cfg0.N, (cfg0.win 30).flush t = true ∧ i ∈ ((cfg0.win 30).blk t).view.set := by
  have hi0 : (i 0).val < 10000 := (i 0).isLt
  have hi1 : (i 1).val < 16 := (i 1).isLt
  obtain ⟨t, ht⟩ : ∃ t : Fin cfg0.N, t.val = 25 + (i 0).val / 400 :=
    ⟨⟨25 + (i 0).val / 400, lt_of_lt_of_eq (by omega : 25 + (i 0).val / 400 < 50) N_0.symm⟩, rfl⟩
  have h25 : 25 ≤ t.val := by omega
  refine ⟨t, flush_30 t h25, ?_⟩
  show i ∈ ((View.whole main_v20_1).slice (win0_30.rect t)).set
  rw [View.set_slice_whole, Rect.mem_set_unit]
  have hidx := idx_30 t h25
  intro a
  match a with
  | ⟨0, _⟩ =>
    show win0_30.index t 0 * 400 ≤ (i 0).val ∧ (i 0).val < win0_30.index t 0 * 400 + 400
    rw [hidx]; simp; omega
  | ⟨1, _⟩ =>
    show win0_30.index t 1 * 16 ≤ (i 1).val ∧ (i 1).val < win0_30.index t 1 * 16 + 16
    rw [hidx]; simp; omega

/-- What a point writes back of window 30's staging buffer is all of it. -/
theorem out_cut_30 {α : Type} (X : (cfg0.win 30).block.Idx → α) : (cfg0.win 30).cut (grid0.coords t) X = X := rfl

/-! ## Window 31: the 10000×32 result -/

/-- In the last 25 points window 31's block index is (t − 25, 0). -/
theorem idx_31 : ∀ t : Fin cfg0.N, 25 ≤ t.val → win0_31.index t = ![t.val - 25, 0] :=
  (by decide +kernel : ∀ t : Fin grid0.N, _)

/-- Window 31 is written back at each of the last 25 points. -/
theorem flush_31 : ∀ t : Fin cfg0.N, 25 ≤ t.val → (cfg0.win 31).flush t = true :=
  (by decide +kernel : ∀ t : Fin grid0.N, 25 ≤ t.val → win0_31.flush t = true)

/-- The block of window 31 at one of the last 25 points, read off an array, is its rows 400 · (t − 25) … + 399. -/
theorem out_read_31 (h : 25 ≤ t.val) (G : Cert.Spec.Mat 10000 32) :
    ((cfg0.win 31).blk t).view.read (Elt Ideal) G
      = Cert.Spec.rows (400 * (t.val - 25)) (by have : t.val < 50 := lt_of_lt_of_eq t.isLt N_0; omega) G := by
  funext x
  rw [View.read_apply]
  show G (((cfg0.win 31).blk t).view.emb x) = G (ix2 ⟨400 * (t.val - 25) + (x 0).val, _⟩ (x 1))
  congr 1
  funext a
  apply Fin.ext
  have hi := idx_31 t h
  match a with
  | ⟨0, _⟩ => show win0_31.index t 0 * 400 + 1 * (x 0).val = 400 * (t.val - 25) + (x 0).val; rw [hi]; simp; omega
  | ⟨1, _⟩ => show win0_31.index t 1 * 32 + 1 * (x 1).val = (x 1).val; rw [hi]; simp

/-- Every entry of the result is in the block some point writes back: row r in the block of point 25 + r / 400. -/
theorem out_cover_31 (i : S10000x32.Idx) :
    ∃ t : Fin cfg0.N, (cfg0.win 31).flush t = true ∧ i ∈ ((cfg0.win 31).blk t).view.set := by
  have hi0 : (i 0).val < 10000 := (i 0).isLt
  have hi1 : (i 1).val < 32 := (i 1).isLt
  obtain ⟨t, ht⟩ : ∃ t : Fin cfg0.N, t.val = 25 + (i 0).val / 400 :=
    ⟨⟨25 + (i 0).val / 400, lt_of_lt_of_eq (by omega : 25 + (i 0).val / 400 < 50) N_0.symm⟩, rfl⟩
  have h25 : 25 ≤ t.val := by omega
  refine ⟨t, flush_31 t h25, ?_⟩
  show i ∈ ((View.whole main_v20_2).slice (win0_31.rect t)).set
  rw [View.set_slice_whole, Rect.mem_set_unit]
  have hidx := idx_31 t h25
  intro a
  match a with
  | ⟨0, _⟩ =>
    show win0_31.index t 0 * 400 ≤ (i 0).val ∧ (i 0).val < win0_31.index t 0 * 400 + 400
    rw [hidx]; simp; omega
  | ⟨1, _⟩ =>
    show win0_31.index t 1 * 32 ≤ (i 1).val ∧ (i 1).val < win0_31.index t 1 * 32 + 32
    rw [hidx]; simp; omega

/-- What a point writes back of window 31's staging buffer is all of it. -/
theorem out_cut_31 {α : Type} (X : (cfg0.win 31).block.Idx → α) : (cfg0.win 31).cut (grid0.coords t) X = X := rfl

/-! ## Window 32: the 10000×48 result -/

/-- In the last 25 points window 32's block index is (t − 25, 0). -/
theorem idx_32 : ∀ t : Fin cfg0.N, 25 ≤ t.val → win0_32.index t = ![t.val - 25, 0] :=
  (by decide +kernel : ∀ t : Fin grid0.N, _)

/-- Window 32 is written back at each of the last 25 points. -/
theorem flush_32 : ∀ t : Fin cfg0.N, 25 ≤ t.val → (cfg0.win 32).flush t = true :=
  (by decide +kernel : ∀ t : Fin grid0.N, 25 ≤ t.val → win0_32.flush t = true)

/-- The block of window 32 at one of the last 25 points, read off an array, is its rows 400 · (t − 25) … + 399. -/
theorem out_read_32 (h : 25 ≤ t.val) (G : Cert.Spec.Mat 10000 48) :
    ((cfg0.win 32).blk t).view.read (Elt Ideal) G
      = Cert.Spec.rows (400 * (t.val - 25)) (by have : t.val < 50 := lt_of_lt_of_eq t.isLt N_0; omega) G := by
  funext x
  rw [View.read_apply]
  show G (((cfg0.win 32).blk t).view.emb x) = G (ix2 ⟨400 * (t.val - 25) + (x 0).val, _⟩ (x 1))
  congr 1
  funext a
  apply Fin.ext
  have hi := idx_32 t h
  match a with
  | ⟨0, _⟩ => show win0_32.index t 0 * 400 + 1 * (x 0).val = 400 * (t.val - 25) + (x 0).val; rw [hi]; simp; omega
  | ⟨1, _⟩ => show win0_32.index t 1 * 48 + 1 * (x 1).val = (x 1).val; rw [hi]; simp

/-- Every entry of the result is in the block some point writes back: row r in the block of point 25 + r / 400. -/
theorem out_cover_32 (i : S10000x48.Idx) :
    ∃ t : Fin cfg0.N, (cfg0.win 32).flush t = true ∧ i ∈ ((cfg0.win 32).blk t).view.set := by
  have hi0 : (i 0).val < 10000 := (i 0).isLt
  have hi1 : (i 1).val < 48 := (i 1).isLt
  obtain ⟨t, ht⟩ : ∃ t : Fin cfg0.N, t.val = 25 + (i 0).val / 400 :=
    ⟨⟨25 + (i 0).val / 400, lt_of_lt_of_eq (by omega : 25 + (i 0).val / 400 < 50) N_0.symm⟩, rfl⟩
  have h25 : 25 ≤ t.val := by omega
  refine ⟨t, flush_32 t h25, ?_⟩
  show i ∈ ((View.whole main_v20_3).slice (win0_32.rect t)).set
  rw [View.set_slice_whole, Rect.mem_set_unit]
  have hidx := idx_32 t h25
  intro a
  match a with
  | ⟨0, _⟩ =>
    show win0_32.index t 0 * 400 ≤ (i 0).val ∧ (i 0).val < win0_32.index t 0 * 400 + 400
    rw [hidx]; simp; omega
  | ⟨1, _⟩ =>
    show win0_32.index t 1 * 48 ≤ (i 1).val ∧ (i 1).val < win0_32.index t 1 * 48 + 48
    rw [hidx]; simp; omega

/-- What a point writes back of window 32's staging buffer is all of it. -/
theorem out_cut_32 {α : Type} (X : (cfg0.win 32).block.Idx → α) : (cfg0.win 32).cut (grid0.coords t) X = X := rfl

/-! ## Window 33: the 10000×128 result -/

/-- In the last 25 points window 33's block index is (t − 25, 0). -/
theorem idx_33 : ∀ t : Fin cfg0.N, 25 ≤ t.val → win0_33.index t = ![t.val - 25, 0] :=
  (by decide +kernel : ∀ t : Fin grid0.N, _)

/-- Window 33 is written back at each of the last 25 points. -/
theorem flush_33 : ∀ t : Fin cfg0.N, 25 ≤ t.val → (cfg0.win 33).flush t = true :=
  (by decide +kernel : ∀ t : Fin grid0.N, 25 ≤ t.val → win0_33.flush t = true)

/-- The block of window 33 at one of the last 25 points, read off an array, is its rows 400 · (t − 25) … + 399. -/
theorem out_read_33 (h : 25 ≤ t.val) (G : Cert.Spec.Mat 10000 128) :
    ((cfg0.win 33).blk t).view.read (Elt Ideal) G
      = Cert.Spec.rows (400 * (t.val - 25)) (by have : t.val < 50 := lt_of_lt_of_eq t.isLt N_0; omega) G := by
  funext x
  rw [View.read_apply]
  show G (((cfg0.win 33).blk t).view.emb x) = G (ix2 ⟨400 * (t.val - 25) + (x 0).val, _⟩ (x 1))
  congr 1
  funext a
  apply Fin.ext
  have hi := idx_33 t h
  match a with
  | ⟨0, _⟩ => show win0_33.index t 0 * 400 + 1 * (x 0).val = 400 * (t.val - 25) + (x 0).val; rw [hi]; simp; omega
  | ⟨1, _⟩ => show win0_33.index t 1 * 128 + 1 * (x 1).val = (x 1).val; rw [hi]; simp

/-- Every entry of the result is in the block some point writes back: row r in the block of point 25 + r / 400. -/
theorem out_cover_33 (i : S10000x128.Idx) :
    ∃ t : Fin cfg0.N, (cfg0.win 33).flush t = true ∧ i ∈ ((cfg0.win 33).blk t).view.set := by
  have hi0 : (i 0).val < 10000 := (i 0).isLt
  have hi1 : (i 1).val < 128 := (i 1).isLt
  obtain ⟨t, ht⟩ : ∃ t : Fin cfg0.N, t.val = 25 + (i 0).val / 400 :=
    ⟨⟨25 + (i 0).val / 400, lt_of_lt_of_eq (by omega : 25 + (i 0).val / 400 < 50) N_0.symm⟩, rfl⟩
  have h25 : 25 ≤ t.val := by omega
  refine ⟨t, flush_33 t h25, ?_⟩
  show i ∈ ((View.whole main_v20_4).slice (win0_33.rect t)).set
  rw [View.set_slice_whole, Rect.mem_set_unit]
  have hidx := idx_33 t h25
  intro a
  match a with
  | ⟨0, _⟩ =>
    show win0_33.index t 0 * 400 ≤ (i 0).val ∧ (i 0).val < win0_33.index t 0 * 400 + 400
    rw [hidx]; simp; omega
  | ⟨1, _⟩ =>
    show win0_33.index t 1 * 128 ≤ (i 1).val ∧ (i 1).val < win0_33.index t 1 * 128 + 128
    rw [hidx]; simp; omega

/-- What a point writes back of window 33's staging buffer is all of it. -/
theorem out_cut_33 {α : Type} (X : (cfg0.win 33).block.Idx → α) : (cfg0.win 33).cut (grid0.coords t) X = X := rfl

end Cert.KBlocks

end
-- ==== Proof.KBlocks.lean ====
/-
  The geometry of the windows' blocks over the fifty grid points: what each input window's block is as an array of the
  launch, and where each output window's blocks lie in its result array.
-/
import proofs.«133634_g45492293599347_cont_8to1c4_324_9_alg».proof.Proof.KBlocksIn
import proofs.«133634_g45492293599347_cont_8to1c4_324_9_alg».proof.Proof.KBlocksOut
-- ==== Proof.BodyShared_KI.lean ====
/-
  The two-pass kernel's grid has fifty points: pass 0 (points 0–24) and pass 1 (points 25–49), twenty-five row blocks each.
  Three conditions on the grid coordinates select what the body does: the first point alone runs the encoder, every
  point of pass 0 fills one slice of the second support, every point of pass 1 produces one block of each result.
  Here: the conditions in closed form, where each window is idle and when it is written back, the names of the
  staging buffers at a point, and the region's invariant with the three scratch buffers owned at some contents.
-/
import proofs.«133634_g45492293599347_cont_8to1c4_324_9_alg».proof.Proof.Gen.KernelIdeal.Frame
import proofs.«133634_g45492293599347_cont_8to1c4_324_9_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, decided over the grid -/

/-- The encoder's condition: both grid coordinates are zero. -/
abbrev condE (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcondE : ∀ t : Fin cfg0.N, condE (grid0.coords t) ↔ t.val = 0 :=
  (by decide +kernel : ∀ t : Fin grid0.N, condE (grid0.coords t) ↔ t.val = 0)

/-- Pass 0: the first grid coordinate is zero. -/
abbrev cond0 (i : grid0.Coords) : Prop := k0_cond2 i = 1#1
theorem hcond0 : ∀ t : Fin cfg0.N, cond0 (grid0.coords t) ↔ t.val < 25 :=
  (by decide +kernel : ∀ t : Fin grid0.N, cond0 (grid0.coords t) ↔ t.val < 25)

/-- Pass 1: the first grid coordinate is one. -/
abbrev cond1 (i : grid0.Coords) : Prop := k0_cond3 i = 1#1
theorem hcond1 : ∀ t : Fin cfg0.N, cond1 (grid0.coords t) ↔ 25 ≤ t.val :=
  (by decide +kernel : ∀ t : Fin grid0.N, cond1 (grid0.coords t) ↔ 25 ≤ t.val)

/-! ## Where the windows are idle and when they are written back -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
theorem liveAt_9 : ∀ t : Fin cfg0.N, cfg0.idle 9 (grid0.coords t) = false := by decide +kernel
theorem liveAt_10 : ∀ t : Fin cfg0.N, cfg0.idle 10 (grid0.coords t) = false := by decide +kernel
theorem liveAt_11 : ∀ t : Fin cfg0.N, cfg0.idle 11 (grid0.coords t) = false := by decide +kernel
theorem liveAt_12 : ∀ t : Fin cfg0.N, cfg0.idle 12 (grid0.coords t) = false := by decide +kernel
theorem liveAt_13 : ∀ t : Fin cfg0.N, cfg0.idle 13 (grid0.coords t) = false := by decide +kernel
theorem liveAt_14 : ∀ t : Fin cfg0.N, cfg0.idle 14 (grid0.coords t) = false := by decide +kernel
theorem liveAt_15 : ∀ t : Fin cfg0.N, cfg0.idle 15 (grid0.coords t) = false := by decide +kernel
theorem liveAt_16 : ∀ t : Fin cfg0.N, cfg0.idle 16 (grid0.coords t) = false := by decide +kernel
theorem liveAt_17 : ∀ t : Fin cfg0.N, cfg0.idle 17 (grid0.coords t) = false := by decide +kernel
theorem liveAt_18 : ∀ t : Fin cfg0.N, cfg0.idle 18 (grid0.coords t) = false := by decide +kernel
theorem liveAt_19 : ∀ t : Fin cfg0.N, cfg0.idle 19 (grid0.coords t) = false := by decide +kernel
theorem liveAt_20 : ∀ t : Fin cfg0.N, cfg0.idle 20 (grid0.coords t) = false := by decide +kernel
theorem liveAt_21 : ∀ t : Fin cfg0.N, cfg0.idle 21 (grid0.coords t) = false := by decide +kernel
theorem liveAt_22 : ∀ t : Fin cfg0.N, cfg0.idle 22 (grid0.coords t) = false := by decide +kernel
theorem liveAt_23 : ∀ t : Fin cfg0.N, cfg0.idle 23 (grid0.coords t) = false := by decide +kernel
theorem liveAt_24 : ∀ t : Fin cfg0.N, cfg0.idle 24 (grid0.coords t) = false := by decide +kernel
theorem liveAt_25 : ∀ t : Fin cfg0.N, cfg0.idle 25 (grid0.coords t) = false := by decide +kernel
theorem liveAt_26 : ∀ t : Fin cfg0.N, cfg0.idle 26 (grid0.coords t) = false := by decide +kernel
theorem liveAt_27 : ∀ t : Fin cfg0.N, cfg0.idle 27 (grid0.coords t) = false := by decide +kernel
theorem liveAt_28 : ∀ t : Fin cfg0.N, cfg0.idle 28 (grid0.coords t) = false := by decide +kernel
theorem idleAt_29 : ∀ t : Fin cfg0.N, t.val < 25 → cfg0.idle 29 (grid0.coords t) = true := by decide +kernel
theorem noFlush_29 : ∀ t : Fin cfg0.N, t.val < 25 → (cfg0.win 29).flush t = false := by decide +kernel
theorem liveAt_29 : ∀ t : Fin cfg0.N, 25 ≤ t.val → cfg0.idle 29 (grid0.coords t) = false := by decide +kernel
theorem flush_29 : ∀ t : Fin cfg0.N, 25 ≤ t.val → (cfg0.win 29).flush t = true := by decide +kernel
theorem idleAt_30 : ∀ t : Fin cfg0.N, t.val < 25 → cfg0.idle 30 (grid0.coords t) = true := by decide +kernel
theorem noFlush_30 : ∀ t : Fin cfg0.N, t.val < 25 → (cfg0.win 30).flush t = false := by decide +kernel
theorem liveAt_30 : ∀ t : Fin cfg0.N, 25 ≤ t.val → cfg0.idle 30 (grid0.coords t) = false := by decide +kernel
theorem flush_30 : ∀ t : Fin cfg0.N, 25 ≤ t.val → (cfg0.win 30).flush t = true := by decide +kernel
theorem idleAt_31 : ∀ t : Fin cfg0.N, t.val < 25 → cfg0.idle 31 (grid0.coords t) = true := by decide +kernel
theorem noFlush_31 : ∀ t : Fin cfg0.N, t.val < 25 → (cfg0.win 31).flush t = false := by decide +kernel
theorem liveAt_31 : ∀ t : Fin cfg0.N, 25 ≤ t.val → cfg0.idle 31 (grid0.coords t) = false := by decide +kernel
theorem flush_31 : ∀ t : Fin cfg0.N, 25 ≤ t.val → (cfg0.win 31).flush t = true := by decide +kernel
theorem idleAt_32 : ∀ t : Fin cfg0.N, t.val < 25 → cfg0.idle 32 (grid0.coords t) = true := by decide +kernel
theorem noFlush_32 : ∀ t : Fin cfg0.N, t.val < 25 → (cfg0.win 32).flush t = false := by decide +kernel
theorem liveAt_32 : ∀ t : Fin cfg0.N, 25 ≤ t.val → cfg0.idle 32 (grid0.coords t) = false := by decide +kernel
theorem flush_32 : ∀ t : Fin cfg0.N, 25 ≤ t.val → (cfg0.win 32).flush t = true := by decide +kernel
theorem idleAt_33 : ∀ t : Fin cfg0.N, t.val < 25 → cfg0.idle 33 (grid0.coords t) = true := by decide +kernel
theorem noFlush_33 : ∀ t : Fin cfg0.N, t.val < 25 → (cfg0.win 33).flush t = false := by decide +kernel
theorem liveAt_33 : ∀ t : Fin cfg0.N, 25 ≤ t.val → cfg0.idle 33 (grid0.coords t) = false := by decide +kernel
theorem flush_33 : ∀ t : Fin cfg0.N, 25 ≤ t.val → (cfg0.win 33).flush t = true := by decide +kernel

/-! ## The staging buffers at a point, and the scratch buffers -/

abbrev ms_0 (t : Fin cfg0.N) : Memref sig .tc .vmem S10000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S400x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x64 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x64 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S64x32 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x32 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x32 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x32 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x32 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x32 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S32x32 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S32x16 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S32x16 .f32 := win0_16.stage (cfg0.slots t 16)
abbrev hs_16 (t : Fin cfg0.N) : (ms_16 t).IsWhole := hstage0_16 ((cfg0.slots t 16).cast nbuf0_16)
abbrev ms_17 (t : Fin cfg0.N) : Memref sig .tc .vmem S48x64 .f32 := win0_17.stage (cfg0.slots t 17)
abbrev hs_17 (t : Fin cfg0.N) : (ms_17 t).IsWhole := hstage0_17 ((cfg0.slots t 17).cast nbuf0_17)
abbrev ms_18 (t : Fin cfg0.N) : Memref sig .tc .vmem S1x64 .f32 := win0_18.stage (cfg0.slots t 18)
abbrev hs_18 (t : Fin cfg0.N) : (ms_18 t).IsWhole := hstage0_18 ((cfg0.slots t 18).cast nbuf0_18)
abbrev ms_19 (t : Fin cfg0.N) : Memref sig .tc .vmem S1x64 .f32 := win0_19.stage (cfg0.slots t 19)
abbrev hs_19 (t : Fin cfg0.N) : (ms_19 t).IsWhole := hstage0_19 ((cfg0.slots t 19).cast nbuf0_19)
abbrev ms_20 (t : Fin cfg0.N) : Memref sig .tc .vmem S1x64 .f32 := win0_20.stage (cfg0.slots t 20)
abbrev hs_20 (t : Fin cfg0.N) : (ms_20 t).IsWhole := hstage0_20 ((cfg0.slots t 20).cast nbuf0_20)
abbrev ms_21 (t : Fin cfg0.N) : Memref sig .tc .vmem S1x64 .f32 := win0_21.stage (cfg0.slots t 21)
abbrev hs_21 (t : Fin cfg0.N) : (ms_21 t).IsWhole := hstage0_21 ((cfg0.slots t 21).cast nbuf0_21)
abbrev ms_22 (t : Fin cfg0.N) : Memref sig .tc .vmem S1x64 .f32 := win0_22.stage (cfg0.slots t 22)
abbrev hs_22 (t : Fin cfg0.N) : (ms_22 t).IsWhole := hstage0_22 ((cfg0.slots t 22).cast nbuf0_22)
abbrev ms_23 (t : Fin cfg0.N) : Memref sig .tc .vmem S64x128 .f32 := win0_23.stage (cfg0.slots t 23)
abbrev hs_23 (t : Fin cfg0.N) : (ms_23 t).IsWhole := hstage0_23 ((cfg0.slots t 23).cast nbuf0_23)
abbrev ms_24 (t : Fin cfg0.N) : Memref sig .tc .vmem S1x128 .f32 := win0_24.stage (cfg0.slots t 24)
abbrev hs_24 (t : Fin cfg0.N) : (ms_24 t).IsWhole := hstage0_24 ((cfg0.slots t 24).cast nbuf0_24)
abbrev ms_25 (t : Fin cfg0.N) : Memref sig .tc .vmem S1x128 .f32 := win0_25.stage (cfg0.slots t 25)
abbrev hs_25 (t : Fin cfg0.N) : (ms_25 t).IsWhole := hstage0_25 ((cfg0.slots t 25).cast nbuf0_25)
abbrev ms_26 (t : Fin cfg0.N) : Memref sig .tc .vmem S1x128 .f32 := win0_26.stage (cfg0.slots t 26)
abbrev hs_26 (t : Fin cfg0.N) : (ms_26 t).IsWhole := hstage0_26 ((cfg0.slots t 26).cast nbuf0_26)
abbrev ms_27 (t : Fin cfg0.N) : Memref sig .tc .vmem S1x128 .f32 := win0_27.stage (cfg0.slots t 27)
abbrev hs_27 (t : Fin cfg0.N) : (ms_27 t).IsWhole := hstage0_27 ((cfg0.slots t 27).cast nbuf0_27)
abbrev ms_28 (t : Fin cfg0.N) : Memref sig .tc .vmem S1x128 .f32 := win0_28.stage (cfg0.slots t 28)
abbrev hs_28 (t : Fin cfg0.N) : (ms_28 t).IsWhole := hstage0_28 ((cfg0.slots t 28).cast nbuf0_28)
abbrev ms_29 (t : Fin cfg0.N) : Memref sig .tc .vmem S400x16 .f32 := win0_29.stage (cfg0.slots t 29)
abbrev hs_29 (t : Fin cfg0.N) : (ms_29 t).IsWhole := hstage0_29 ((cfg0.slots t 29).cast nbuf0_29)
abbrev ms_30 (t : Fin cfg0.N) : Memref sig .tc .vmem S400x16 .f32 := win0_30.stage (cfg0.slots t 30)
abbrev hs_30 (t : Fin cfg0.N) : (ms_30 t).IsWhole := hstage0_30 ((cfg0.slots t 30).cast nbuf0_30)
abbrev ms_31 (t : Fin cfg0.N) : Memref sig .tc .vmem S400x32 .f32 := win0_31.stage (cfg0.slots t 31)
abbrev hs_31 (t : Fin cfg0.N) : (ms_31 t).IsWhole := hstage0_31 ((cfg0.slots t 31).cast nbuf0_31)
abbrev ms_32 (t : Fin cfg0.N) : Memref sig .tc .vmem S400x48 .f32 := win0_32.stage (cfg0.slots t 32)
abbrev hs_32 (t : Fin cfg0.N) : (ms_32 t).IsWhole := hstage0_32 ((cfg0.slots t 32).cast nbuf0_32)
abbrev ms_33 (t : Fin cfg0.N) : Memref sig .tc .vmem S400x128 .f32 := win0_33.stage (cfg0.slots t 33)
abbrev hs_33 (t : Fin cfg0.N) : (ms_33 t).IsWhole := hstage0_33 ((cfg0.slots t 33).cast nbuf0_33)
abbrev scM_0 : Memref sig .tc .vmem S10000x32 .f32 := Memref.whole cc0_scratch0
abbrev scM_1 : Memref sig .tc .vmem S10000x32 .f32 := Memref.whole cc0_scratch1
abbrev scM_2 : Memref sig .tc .vmem S10000x32 .f32 := Memref.whole cc0_scratch2

/-- The class invariant with the scratch buffers as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d)) ∗ (∃ r, prngReg c r)) := by
  unfold Pipeline.ΦA; rw [scopedRest0_eq]; simp only [scM_0, scM_1, scM_2, owns_whole]; try rfl

end Cert.KernelIdeal.Body

end
-- ==== Proof.BodyRunA_KI.lean ====
/-
  The body at the grid's first point: the encoder (two dense layers) fills the feature buffer whole, one more matrix
  product fills the first support's buffer whole, and then, as at every point of pass 0, the adjacency block times that
  support, times the two weight matrices side by side, goes into the point's slice of the second support's buffer.
-/
import proofs.«133634_g45492293599347_cont_8to1c4_324_9_alg».proof.Proof.BodyShared_KI

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
/-- The pieces the body leaves in the three scratch buffers at the first point, with the proof that it runs. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S32x32 .f32) (harg16 : arg16.IsWhole) (arg17 : Memref sig .tc .vmem S32x16 .f32) (harg17 : arg17.IsWhole) (arg18 : Memref sig .tc .vmem S32x16 .f32) (harg18 : arg18.IsWhole) (arg19 : Memref sig .tc .vmem S48x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S1x64 .f32) (harg24 : arg24.IsWhole) (arg25 : Memref sig .tc .vmem S64x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S400x16 .f32) (harg31 : arg31.IsWhole) (arg32 : Memref sig .tc .vmem S400x16 .f32) (harg32 : arg32.IsWhole) (arg33 : Memref sig .tc .vmem S400x32 .f32) (harg33 : arg33.IsWhole) (arg34 : Memref sig .tc .vmem S400x48 .f32) (harg34 : arg34.IsWhole) (arg35 : Memref sig .tc .vmem S400x128 .f32) (harg35 : arg35.IsWhole) (arg36 : Memref sig .tc .vmem S10000x32 .f32) (harg36 : arg36.IsWhole) (arg37 : Memref sig .tc .vmem S10000x32 .f32) (harg37 : arg37.IsWhole) (arg38 : Memref sig .tc .vmem S10000x32 .f32) (harg38 : arg38.IsWhole) (hcE : condE i) (hc0 : cond0 i) (hc1 : ¬cond1 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S1x64 .f32) (x7 : Vec F S1x64 .f32) (x8 : Vec F S64x32 .f32) (x9 : Vec F S1x32 .f32) (x10 : Vec F S1x32 .f32) (x11 : Vec F S1x32 .f32) (x12 : Vec F S1x32 .f32) (x13 : Vec F S1x32 .f32) (x14 : Vec F S32x32 .f32) (x15 : Vec F S32x16 .f32) (x16 : Vec F S32x16 .f32) (x17 : Vec F S48x64 .f32) (x18 : Vec F S1x64 .f32) (x19 : Vec F S1x64 .f32) (x20 : Vec F S1x64 .f32) (x21 : Vec F S1x64 .f32) (x22 : Vec F S1x64 .f32) (x23 : Vec F S64x128 .f32) (x24 : Vec F S1x128 .f32) (x25 : Vec F S1x128 .f32) (x26 : Vec F S1x128 .f32) (x27 : Vec F S1x128 .f32) (x28 : Vec F S1x128 .f32) :
    Σ' (LS0 : List (View.Piece (Elt F) S10000x32 .f32)) (LS1 : List (View.Piece (Elt F) S10000x32 .f32)), { LS2 : List (View.Piece (Elt F) S10000x32 .f32) //
      ∀ (y29 : Vec F S400x16 .f32) (y30 : Vec F S400x16 .f32) (y31 : Vec F S400x32 .f32) (y32 : Vec F S400x48 .f32) (y33 : Vec F S400x128 .f32) (xs2 : Vec F S10000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ (∃ d, owns (c : Thread nD τ) arg36 fullShare d) ∗ (∃ d, owns (c : Thread nD τ) arg37 fullShare d) ∗ owns (c : Thread nD τ) arg38 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ (∃ f, arg36.view.loc (c : Thread nD τ) ↦[arg36.view.set]{fullShare} arg36.view.writes (Elt F) f LS0) ∗ (∃ f, arg37.view.loc (c : Thread nD τ) ↦[arg37.view.set]{fullShare} arg37.view.writes (Elt F) f LS1) ∗ (arg38.view.loc (c : Thread nD τ) ↦[arg38.view.set]{fullShare} arg38.view.writes (Elt F) (harg38.unread xs2) LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, fun y29 y30 y31 y32 y33 xs2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%ds0, %f34, -, H34⟩, ⟨%ds1, %f35, -, H35⟩, ⟨%f36, %hf36, H36⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg38.eq_unread hf36
    sl_exec (disch := first | exact hcE | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]; · iexists _; iexact H34
    isplitl [H35]; · iexists _; iexact H35
    iexact H36

end Cert.KernelIdeal.Body

end
-- ==== Proof.BodyRunB_KI.lean ====
/-
  The body at a point of pass 0 other than the first: the adjacency block times the first support, times the two
  weight matrices side by side, stored into the point's slice of the second support's scratch buffer.  Nothing else
  is written: every input, every result buffer and the other two scratch buffers come back as they were, and the
  second support's buffer comes back as what it held with that one slice overwritten.
-/
import proofs.«133634_g45492293599347_cont_8to1c4_324_9_alg».proof.Proof.BodyShared_KI

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the second support's buffer at such a point (one slice), with the proof that the body
    runs from the buffers at the stated contents to the continuation holding them as described above. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S32x32 .f32) (harg16 : arg16.IsWhole) (arg17 : Memref sig .tc .vmem S32x16 .f32) (harg17 : arg17.IsWhole) (arg18 : Memref sig .tc .vmem S32x16 .f32) (harg18 : arg18.IsWhole) (arg19 : Memref sig .tc .vmem S48x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S1x64 .f32) (harg24 : arg24.IsWhole) (arg25 : Memref sig .tc .vmem S64x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S400x16 .f32) (harg31 : arg31.IsWhole) (arg32 : Memref sig .tc .vmem S400x16 .f32) (harg32 : arg32.IsWhole) (arg33 : Memref sig .tc .vmem S400x32 .f32) (harg33 : arg33.IsWhole) (arg34 : Memref sig .tc .vmem S400x48 .f32) (harg34 : arg34.IsWhole) (arg35 : Memref sig .tc .vmem S400x128 .f32) (harg35 : arg35.IsWhole) (arg36 : Memref sig .tc .vmem S10000x32 .f32) (harg36 : arg36.IsWhole) (arg37 : Memref sig .tc .vmem S10000x32 .f32) (harg37 : arg37.IsWhole) (arg38 : Memref sig .tc .vmem S10000x32 .f32) (harg38 : arg38.IsWhole) (hcE : ¬condE i) (hc0 : cond0 i) (hc1 : ¬cond1 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S1x64 .f32) (x7 : Vec F S1x64 .f32) (x8 : Vec F S64x32 .f32) (x9 : Vec F S1x32 .f32) (x10 : Vec F S1x32 .f32) (x11 : Vec F S1x32 .f32) (x12 : Vec F S1x32 .f32) (x13 : Vec F S1x32 .f32) (x14 : Vec F S32x32 .f32) (x15 : Vec F S32x16 .f32) (x16 : Vec F S32x16 .f32) (x17 : Vec F S48x64 .f32) (x18 : Vec F S1x64 .f32) (x19 : Vec F S1x64 .f32) (x20 : Vec F S1x64 .f32) (x21 : Vec F S1x64 .f32) (x22 : Vec F S1x64 .f32) (x23 : Vec F S64x128 .f32) (x24 : Vec F S1x128 .f32) (x25 : Vec F S1x128 .f32) (x26 : Vec F S1x128 .f32) (x27 : Vec F S1x128 .f32) (x28 : Vec F S1x128 .f32) (xs1 : Vec F S10000x32 .f32) :
    { LS2 : List (View.Piece (Elt F) S10000x32 .f32) //
      ∀ (y29 : Vec F S400x16 .f32) (y30 : Vec F S400x16 .f32) (y31 : Vec F S400x32 .f32) (y32 : Vec F S400x48 .f32) (y33 : Vec F S400x128 .f32) (xs0 xs2 : Vec F S10000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ owns (c : Thread nD τ) arg36 fullShare xs0 ∗ owns (c : Thread nD τ) arg37 fullShare xs1 ∗ owns (c : Thread nD τ) arg38 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare y29 ∗ owns (c : Thread nD τ) arg32 fullShare y30 ∗ owns (c : Thread nD τ) arg33 fullShare y31 ∗ owns (c : Thread nD τ) arg34 fullShare y32 ∗ owns (c : Thread nD τ) arg35 fullShare y33 ∗ owns (c : Thread nD τ) arg36 fullShare xs0 ∗ owns (c : Thread nD τ) arg37 fullShare xs1 ∗ (arg38.view.loc (c : Thread nD τ) ↦[arg38.view.set]{fullShare} arg38.view.writes (Elt F) (harg38.unread xs2) LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, fun y29 y30 y31 y32 y33 xs0 xs2 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36
    sl_exec (disch := first | exact hcE | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    iexact H36

end Cert.KernelIdeal.Body

end
-- ==== Proof.BodyRunC_KI.lean ====
/-
  The body at a point of pass 1: the adjacency block times the second support gives the block's mean (left columns) and
  log-deviation (right columns); the block's rows of the features are copied out; features and mean side by side are
  the latent block; two more dense layers decode it.  Five result buffers are stored whole; nothing else is written.
-/
import proofs.«133634_g45492293599347_cont_8to1c4_324_9_alg».proof.Proof.BodyShared_KI

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
/-- The pieces the body leaves in the five result buffers at such a point, with the proof that it runs. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S32x32 .f32) (harg16 : arg16.IsWhole) (arg17 : Memref sig .tc .vmem S32x16 .f32) (harg17 : arg17.IsWhole) (arg18 : Memref sig .tc .vmem S32x16 .f32) (harg18 : arg18.IsWhole) (arg19 : Memref sig .tc .vmem S48x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S1x64 .f32) (harg23 : arg23.IsWhole) (arg24 : Memref sig .tc .vmem S1x64 .f32) (harg24 : arg24.IsWhole) (arg25 : Memref sig .tc .vmem S64x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S400x16 .f32) (harg31 : arg31.IsWhole) (arg32 : Memref sig .tc .vmem S400x16 .f32) (harg32 : arg32.IsWhole) (arg33 : Memref sig .tc .vmem S400x32 .f32) (harg33 : arg33.IsWhole) (arg34 : Memref sig .tc .vmem S400x48 .f32) (harg34 : arg34.IsWhole) (arg35 : Memref sig .tc .vmem S400x128 .f32) (harg35 : arg35.IsWhole) (arg36 : Memref sig .tc .vmem S10000x32 .f32) (harg36 : arg36.IsWhole) (arg37 : Memref sig .tc .vmem S10000x32 .f32) (harg37 : arg37.IsWhole) (arg38 : Memref sig .tc .vmem S10000x32 .f32) (harg38 : arg38.IsWhole) (hcE : ¬condE i) (hc0 : ¬cond0 i) (hc1 : cond1 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S1x64 .f32) (x7 : Vec F S1x64 .f32) (x8 : Vec F S64x32 .f32) (x9 : Vec F S1x32 .f32) (x10 : Vec F S1x32 .f32) (x11 : Vec F S1x32 .f32) (x12 : Vec F S1x32 .f32) (x13 : Vec F S1x32 .f32) (x14 : Vec F S32x32 .f32) (x15 : Vec F S32x16 .f32) (x16 : Vec F S32x16 .f32) (x17 : Vec F S48x64 .f32) (x18 : Vec F S1x64 .f32) (x19 : Vec F S1x64 .f32) (x20 : Vec F S1x64 .f32) (x21 : Vec F S1x64 .f32) (x22 : Vec F S1x64 .f32) (x23 : Vec F S64x128 .f32) (x24 : Vec F S1x128 .f32) (x25 : Vec F S1x128 .f32) (x26 : Vec F S1x128 .f32) (x27 : Vec F S1x128 .f32) (x28 : Vec F S1x128 .f32) (xs0 xs2 : Vec F S10000x32 .f32) :
    Σ' (L29 : List (View.Piece (Elt F) S400x16 .f32)) (L30 : List (View.Piece (Elt F) S400x16 .f32)) (L31 : List (View.Piece (Elt F) S400x32 .f32)) (L32 : List (View.Piece (Elt F) S400x48 .f32)), { L33 : List (View.Piece (Elt F) S400x128 .f32) //
      ∀ (xs1 : Vec F S10000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ owns (c : Thread nD τ) arg36 fullShare xs0 ∗ owns (c : Thread nD τ) arg37 fullShare xs1 ∗ owns (c : Thread nD τ) arg38 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33) ∗ owns (c : Thread nD τ) arg36 fullShare xs0 ∗ owns (c : Thread nD τ) arg37 fullShare xs1 ∗ owns (c : Thread nD τ) arg38 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, ?_, ?_, fun xs1 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%f34, %hf34, H34⟩, ⟨%f35, %hf35, H35⟩, ⟨%f36, %hf36, H36⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg36.eq_unread hf34; obtain rfl := harg37.eq_unread hf35; obtain rfl := harg38.eq_unread hf36
    sl_exec (disch := first | exact hcE | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]
    · iexists _; isplitr; · ipureintro; exact harg36.read_unread _
      iexact H34
    isplitl [H35]
    · iexists _; isplitr; · ipureintro; exact harg37.read_unread _
      iexact H35
    iexists _; isplitr; · ipureintro; exact harg38.read_unread _
    iexact H36

end Cert.KernelIdeal.Body

end
-- ==== Proof.BodyData_KI.lean ====
/-
  What the scratch buffers and the result buffers hold after each grid point, and the region's invariant.

  After the first point the feature buffer holds the encoder's output and the first support's buffer the features times
  its weight; neither is written again.  The second support's buffer is filled one slice of 400 rows per point of pass 0:
  after point n < 25 it is what it held at entry with slices 0 … n overwritten, and from point 24 on it no longer depends
  on what it held at entry.  At a point of pass 1 the five result buffers hold the block computed from the adjacency
  block, the second support and the block's rows of the features.
-/
import proofs.«133634_g45492293599347_cont_8to1c4_324_9_alg».proof.Proof.BodyRunA_KI
import proofs.«133634_g45492293599347_cont_8to1c4_324_9_alg».proof.Proof.BodyRunB_KI
import proofs.«133634_g45492293599347_cont_8to1c4_324_9_alg».proof.Proof.BodyRunC_KI
import Idealize.ShloMosaic.Lib.WritesUnit
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The body's pieces at the first point, on that point's staging buffers and blocks. -/
def runAat (c : Dev nD) (t : Fin cfg0.N) (h : t.val = 0) :=
  runA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (ms_26 t) (hs_26 t) (ms_27 t) (hs_27 t) (ms_28 t) (hs_28 t) (ms_29 t) (hs_29 t) (ms_30 t) (hs_30 t) (ms_31 t) (hs_31 t) (ms_32 t) (hs_32 t) (ms_33 t) (hs_33 t) scM_0 (Memref.isWhole_whole _) scM_1 (Memref.isWhole_whole _) scM_2 (Memref.isWhole_whole _) ((hcondE t).mpr h) ((hcond0 t).mpr (by omega)) (fun hh => absurd ((hcond1 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

/-- The body's pieces at a later point of pass 0, the first support's buffer holding `xs1`. -/
def runBat (c : Dev nD) (t : Fin cfg0.N) (h : t.val ≠ 0) (h' : t.val < 25) (xs1 : Vec F S10000x32 .f32) :=
  runB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (ms_26 t) (hs_26 t) (ms_27 t) (hs_27 t) (ms_28 t) (hs_28 t) (ms_29 t) (hs_29 t) (ms_30 t) (hs_30 t) (ms_31 t) (hs_31 t) (ms_32 t) (hs_32 t) (ms_33 t) (hs_33 t) scM_0 (Memref.isWhole_whole _) scM_1 (Memref.isWhole_whole _) scM_2 (Memref.isWhole_whole _) (fun hh => h ((hcondE t).mp hh)) ((hcond0 t).mpr h') (fun hh => absurd ((hcond1 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) xs1

/-- The body's pieces at a point of pass 1, the feature buffer holding `xs0` and the second support's `xs2`. -/
def runCat (c : Dev nD) (t : Fin cfg0.N) (h : 25 ≤ t.val) (xs0 xs2 : Vec F S10000x32 .f32) :=
  runC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (ms_26 t) (hs_26 t) (ms_27 t) (hs_27 t) (ms_28 t) (hs_28 t) (ms_29 t) (hs_29 t) (ms_30 t) (hs_30 t) (ms_31 t) (hs_31 t) (ms_32 t) (hs_32 t) (ms_33 t) (hs_33 t) scM_0 (Memref.isWhole_whole _) scM_1 (Memref.isWhole_whole _) scM_2 (Memref.isWhole_whole _) (fun hh => absurd ((hcondE t).mp hh) (by omega)) (fun hh => absurd ((hcond0 t).mp hh) (by omega)) ((hcond1 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) xs0 xs2

/-- The grid's first point. -/
def t0 : Fin cfg0.N := ⟨0, by rw [N50]; omega⟩

/-- The features: what the first point leaves in the feature buffer. -/
def featC (c : Dev nD) : Vec F S10000x32 .f32 :=
  scM_0.view.read (Elt F) (scM_0.view.writes (Elt F) scM_0.view.junk (runAat m c t0 rfl).1)

/-- The first support: what the first point leaves in its buffer. -/
def s1C (c : Dev nD) : Vec F S10000x32 .f32 :=
  scM_1.view.read (Elt F) (scM_1.view.writes (Elt F) scM_1.view.junk (runAat m c t0 rfl).2.1)

theorem coverS0 (c : Dev nD) (y : S10000x32.Idx) : ∃ pc ∈ (runAat m c t0 rfl).1, y ∈ pc.1.set :=
  View.cover_of_tiledL (runAat m c t0 rfl).1 S10000x32.size (by sl_kernel_rfl) y

theorem coverS1 (c : Dev nD) (y : S10000x32.Idx) : ∃ pc ∈ (runAat m c t0 rfl).2.1, y ∈ pc.1.set :=
  View.cover_of_tiledL (runAat m c t0 rfl).2.1 S10000x32.size (by sl_kernel_rfl) y

/-- The second support's buffer after point `n`, having held `d0` at entry: slice by slice through pass 0, then kept. -/
def s2At (c : Dev nD) (d0 : Vec F S10000x32 .f32) : (n : ℕ) → n < cfg0.N → Vec F S10000x32 .f32
  | 0, hn => scM_2.view.read (Elt F) (scM_2.view.writes (Elt F) ((Memref.isWhole_whole _ : scM_2.IsWhole).unread d0) (runAat m c ⟨0, hn⟩ rfl).2.2.1)
  | n + 1, hn =>
    if h : n + 1 < 25 then
      scM_2.view.read (Elt F) (scM_2.view.writes (Elt F) ((Memref.isWhole_whole _ : scM_2.IsWhole).unread (s2At c d0 n (Nat.lt_of_succ_lt hn))) (runBat m c ⟨n + 1, hn⟩ (Nat.succ_ne_zero n) h (s1C m c)).1)
    else s2At c d0 n (Nat.lt_of_succ_lt hn)

theorem s2At_zero (c : Dev nD) (d0 : Vec F S10000x32 .f32) (t : Fin cfg0.N) (h : t.val = 0) :
    s2At m c d0 t.val t.isLt = scM_2.view.read (Elt F) (scM_2.view.writes (Elt F) ((Memref.isWhole_whole _ : scM_2.IsWhole).unread d0) (runAat m c t h).2.2.1) := by
  obtain ⟨n, hn⟩ := t
  cases n with
  | zero => rfl
  | succ n => exact absurd h (Nat.succ_ne_zero n)

theorem s2At_pass0 (c : Dev nD) (d0 : Vec F S10000x32 .f32) (t : Fin cfg0.N) (h : t.val ≠ 0) (h' : t.val < 25) :
    s2At m c d0 t.val t.isLt = scM_2.view.read (Elt F) (scM_2.view.writes (Elt F) ((Memref.isWhole_whole _ : scM_2.IsWhole).unread (s2At m c d0 (t.val - 1) (Nat.lt_of_le_of_lt (Nat.sub_le _ _) t.isLt))) (runBat m c t h h' (s1C m c)).1) := by
  obtain ⟨n, hn⟩ := t
  cases n with
  | zero => exact absurd rfl h
  | succ n => exact dif_pos h'

theorem s2At_pass1 (c : Dev nD) (d0 : Vec F S10000x32 .f32) (t : Fin cfg0.N) (h : 25 ≤ t.val) :
    s2At m c d0 t.val t.isLt = s2At m c d0 (t.val - 1) (Nat.lt_of_le_of_lt (Nat.sub_le _ _) t.isLt) := by
  obtain ⟨n, hn⟩ := t
  cases n with
  | zero => exact absurd h (by show ¬ 25 ≤ 0; omega)
  | succ n => exact dif_neg (by dsimp only at h; omega)

/-- Contents standing for "anything": a starting point for the closed form of the second support, overwritten entirely. -/
def anyVec : Vec F S10000x32 .f32 := scM_2.view.read (Elt F) scM_2.view.junk

/-- The second support: the buffer after the last point of pass 0. -/
def s2C (c : Dev nD) : Vec F S10000x32 .f32 := s2At m c anyVec 24 (by rw [N50]; omega)

/-- The body's pieces at a point of pass 1, on the features and the second support. -/
def runCC (c : Dev nD) (t : Fin cfg0.N) (h : 25 ≤ t.val) := runCat m c t h (featC m c) (s2C m c)

/-- What a point of pass 1 leaves in result buffer 0: its pieces read back; at a point of pass 0 nothing is stated. -/
def out29 (c : Dev nD) (t : Fin cfg0.N) : Vec F S400x16 .f32 :=
  if h : 25 ≤ t.val then (ms_29 t).view.read (Elt F) ((ms_29 t).view.writes (Elt F) (ms_29 t).view.junk (runCC m c t h).1)
  else Pipeline.Dat.unnamed (cfg := cfg0) ⟨29, by decide⟩ t

theorem cover29 (c : Dev nD) (t : Fin cfg0.N) (h : 25 ≤ t.val) (y : S400x16.Idx) : ∃ pc ∈ (runCC m c t h).1, y ∈ pc.1.set :=
  View.cover_of_tiledL (runCC m c t h).1 S400x16.size (by sl_kernel_rfl) y

/-- What a point of pass 1 leaves in result buffer 1: its pieces read back; at a point of pass 0 nothing is stated. -/
def out30 (c : Dev nD) (t : Fin cfg0.N) : Vec F S400x16 .f32 :=
  if h : 25 ≤ t.val then (ms_30 t).view.read (Elt F) ((ms_30 t).view.writes (Elt F) (ms_30 t).view.junk (runCC m c t h).2.1)
  else Pipeline.Dat.unnamed (cfg := cfg0) ⟨30, by decide⟩ t

theorem cover30 (c : Dev nD) (t : Fin cfg0.N) (h : 25 ≤ t.val) (y : S400x16.Idx) : ∃ pc ∈ (runCC m c t h).2.1, y ∈ pc.1.set :=
  View.cover_of_tiledL (runCC m c t h).2.1 S400x16.size (by sl_kernel_rfl) y

/-- What a point of pass 1 leaves in result buffer 2: its pieces read back; at a point of pass 0 nothing is stated. -/
def out31 (c : Dev nD) (t : Fin cfg0.N) : Vec F S400x32 .f32 :=
  if h : 25 ≤ t.val then (ms_31 t).view.read (Elt F) ((ms_31 t).view.writes (Elt F) (ms_31 t).view.junk (runCC m c t h).2.2.1)
  else Pipeline.Dat.unnamed (cfg := cfg0) ⟨31, by decide⟩ t

theorem cover31 (c : Dev nD) (t : Fin cfg0.N) (h : 25 ≤ t.val) (y : S400x32.Idx) : ∃ pc ∈ (runCC m c t h).2.2.1, y ∈ pc.1.set :=
  View.cover_of_tiledL (runCC m c t h).2.2.1 S400x32.size (by sl_kernel_rfl) y

/-- What a point of pass 1 leaves in result buffer 3: its pieces read back; at a point of pass 0 nothing is stated. -/
def out32 (c : Dev nD) (t : Fin cfg0.N) : Vec F S400x48 .f32 :=
  if h : 25 ≤ t.val then (ms_32 t).view.read (Elt F) ((ms_32 t).view.writes (Elt F) (ms_32 t).view.junk (runCC m c t h).2.2.2.1)
  else Pipeline.Dat.unnamed (cfg := cfg0) ⟨32, by decide⟩ t

theorem cover32 (c : Dev nD) (t : Fin cfg0.N) (h : 25 ≤ t.val) (y : S400x48.Idx) : ∃ pc ∈ (runCC m c t h).2.2.2.1, y ∈ pc.1.set :=
  View.cover_of_tiledL (runCC m c t h).2.2.2.1 S400x48.size (by sl_kernel_rfl) y

/-- What a point of pass 1 leaves in result buffer 4: its pieces read back; at a point of pass 0 nothing is stated. -/
def out33 (c : Dev nD) (t : Fin cfg0.N) : Vec F S400x128 .f32 :=
  if h : 25 ≤ t.val then (ms_33 t).view.read (Elt F) ((ms_33 t).view.writes (Elt F) (ms_33 t).view.junk (runCC m c t h).2.2.2.2.1)
  else Pipeline.Dat.unnamed (cfg := cfg0) ⟨33, by decide⟩ t

theorem cover33 (c : Dev nD) (t : Fin cfg0.N) (h : 25 ≤ t.val) (y : S400x128.Idx) : ∃ pc ∈ (runCC m c t h).2.2.2.2.1, y ∈ pc.1.set :=
  View.cover_of_tiledL (runCC m c t h).2.2.2.2.1 S400x128.size (by sl_kernel_rfl) y

/-! ## The invariant and the proof data -/

/-- Before point `n`: at the start the class's invariant (scratch at anything); afterwards the features and the first
    support in their buffers, the second support's buffer at what the slices so far leave of SOME entry contents, and the
    generator register at some state. -/
def PhiS (c : Dev nD) : (n : ℕ) → n ≤ cfg0.N → sProp 𝕄
  | 0, _ => Pipeline.ΦA spec0 c
  | n + 1, hn => iprop(iprop(owns (c : Thread nD τ) scM_0 fullShare (featC m c) ∗ owns (c : Thread nD τ) scM_1 fullShare (s1C m c) ∗ (∃ d0, owns (c : Thread nD τ) scM_2 fullShare (s2At m c d0 n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare (featC m c) ∗ owns (c : Thread nD τ) scM_1 fullShare (s1C m c) ∗ (∃ d0, owns (c : Thread nD τ) scM_2 fullShare (s2At m c d0 n hn))) ∗ (∃ r, prngReg c r)) := rfl

theorem PhiS_pos (c : Dev nD) (n : ℕ) (h : n ≤ cfg0.N) (hz : n ≠ 0) :
    PhiS m c n h = iprop(iprop(owns (c : Thread nD τ) scM_0 fullShare (featC m c) ∗ owns (c : Thread nD τ) scM_1 fullShare (s1C m c) ∗ (∃ d0, owns (c : Thread nD τ) scM_2 fullShare (s2At m c d0 (n - 1) (by omega)))) ∗ (∃ r, prngReg c r)) := by
  cases n with
  | zero => exact absurd rfl hz
  | succ n => rfl

/-- The proof data on core `c`: the arrays as the region finds them; after the body each input's buffer at its block and
    each result buffer at `out·`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => out29 m c t
    | ⟨30, _⟩ => out30 m c t
    | ⟨31, _⟩ => out31 m c t
    | ⟨32, _⟩ => out32 m c t
    | ⟨33, _⟩ => out33 m c t
    | ⟨_ + 34, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = out29 m c t := by dsimp only [dats]
theorem after_30 (c : Dev nD) (t : Fin cfg0.N) : (dats m 0 c).after 30 t = out30 m c t := by dsimp only [dats]
theorem after_31 (c : Dev nD) (t : Fin cfg0.N) : (dats m 0 c).after 31 t = out31 m c t := by dsimp only [dats]
theorem after_32 (c : Dev nD) (t : Fin cfg0.N) : (dats m 0 c).after 32 t = out32 m c t := by dsimp only [dats]
theorem after_33 (c : Dev nD) (t : Fin cfg0.N) : (dats m 0 c).after 33 t = out33 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d
theorem before_26 (c : Dev nD) (t : Fin cfg0.N) (d) : (dats m 0 c).before 26 t d = iblk m c 26 t :=
  before0_26_of m (dats m 0 c) (A_eq m c 26) (after_26 m c) t d
theorem before_27 (c : Dev nD) (t : Fin cfg0.N) (d) : (dats m 0 c).before 27 t d = iblk m c 27 t :=
  before0_27_of m (dats m 0 c) (A_eq m c 27) (after_27 m c) t d
theorem before_28 (c : Dev nD) (t : Fin cfg0.N) (d) : (dats m 0 c).before 28 t d = iblk m c 28 t :=
  before0_28_of m (dats m 0 c) (A_eq m c 28) (after_28 m c) t d

/-! ## The second support's buffer is complete after pass 0 -/

/-- The slice's offsets at a point of pass 0: row 400·t, column 0. -/
theorem off1 : ∀ t : Fin cfg0.N, t.val < 25 → k0_off1 (grid0.coords t) = ![400 * t.val, 0] :=
  (by decide +kernel : ∀ t : Fin grid0.N, t.val < 25 → k0_off1 (grid0.coords t) = ![400 * t.val, 0])

/-- The rows of the second support's buffer that point `t` of pass 0 writes. -/
abbrev sliceRect (t : Fin cfg0.N) (h : t.val < 25) : Rect S10000x32 :=
  Rect.unit (s := S10000x32) (k0_off1 (grid0.coords t)) S400x32.size (k0_off1_inb (grid0.coords t) ((hcond0 t).mpr h))

/-- At the first point the second support's buffer gets one piece: the point's slice. -/
theorem runAat_shape (c : Dev nD) (t : Fin cfg0.N) (h : t.val = 0) :
    ∃ w : (sliceRect t (by omega)).shape.Idx → Elt F .f32, (runAat m c t h).2.2.1 = [(⟨sliceRect t (by omega), w⟩ : View.Piece (Elt F) S10000x32 .f32)] := by
  unfold runAat runA; dsimp only; exact ⟨_, rfl⟩

/-- At a later point of pass 0 likewise. -/
theorem runBat_shape (c : Dev nD) (t : Fin cfg0.N) (h : t.val ≠ 0) (h' : t.val < 25) (xs1 : Vec F S10000x32 .f32) :
    ∃ w : (sliceRect t h').shape.Idx → Elt F .f32, (runBat m c t h h' xs1).1 = [(⟨sliceRect t h', w⟩ : View.Piece (Elt F) S10000x32 .f32)] := by
  unfold runBat runB; dsimp only; exact ⟨_, rfl⟩

/-- One slice of 400 rows written over two arrays that agree outside the slice at an index: the results agree there. -/
theorem slice_congr (f f' : Vec F S10000x32 .f32) {off : Fin 2 → ℕ} (o : ℕ) (inb : ∀ a, off a + S400x32.size a ≤ S10000x32.size a)
    (w : (Rect.unit (s := S10000x32) off S400x32.size inb).shape.Idx → Elt F .f32) (hoff : off = ![o, 0]) (y : S10000x32.Idx)
    (h : ¬(o ≤ (y (0 : Fin 2)).val ∧ (y (0 : Fin 2)).val < o + 400) → f y = f' y) :
    scM_2.view.read (Elt F) (scM_2.view.writes (Elt F) ((Memref.isWhole_whole _ : (scM_2 : Memref sig .tc .vmem S10000x32 .f32).IsWhole).unread f) [(⟨Rect.unit (s := S10000x32) off S400x32.size inb, w⟩ : View.Piece (Elt F) S10000x32 .f32)]) y
      = scM_2.view.read (Elt F) (scM_2.view.writes (Elt F) ((Memref.isWhole_whole _ : (scM_2 : Memref sig .tc .vmem S10000x32 .f32).IsWhole).unread f') [(⟨Rect.unit (s := S10000x32) off S400x32.size inb, w⟩ : View.Piece (Elt F) S10000x32 .f32)]) y := by
  rw [View.read_writes_cons_rows (d := ![10000, 32]) scM_2.view _ inb w [] y hoff (W := 400) rfl rfl,
      View.read_writes_cons_rows (d := ![10000, 32]) scM_2.view _ inb w [] y hoff (W := 400) rfl rfl]
  split
  · rfl
  · rename_i hn
    rw [View.writes_nil, View.writes_nil]
    exact ((congrFun (Memref.IsWhole.read_unread _ f) y).trans (h hn)).trans (congrFun (Memref.IsWhole.read_unread _ f') y).symm

/-- After point n of pass 0 the rows below 400·(n + 1) do not depend on what the buffer held at entry. -/
theorem s2At_indep (c : Dev nD) (d0 d0' : Vec F S10000x32 .f32) : ∀ (n : ℕ) (hn : n < cfg0.N), n < 25 →
    ∀ y : S10000x32.Idx, (y (0 : Fin 2)).val < 400 * (n + 1) → s2At m c d0 n hn y = s2At m c d0' n hn y
  | 0, hn, _, y, hy => by
    rw [s2At_zero m c d0 ⟨0, hn⟩ rfl, s2At_zero m c d0' ⟨0, hn⟩ rfl]
    obtain ⟨w, hw⟩ := runAat_shape m c ⟨0, hn⟩ rfl
    rw [hw]
    exact slice_congr d0 d0' (400 * 0) _ w (off1 ⟨0, hn⟩ (by show (0 : ℕ) < 25; omega)) y (fun hnot => absurd ⟨by omega, by omega⟩ hnot)
  | n + 1, hn, h25, y, hy => by
    rw [s2At_pass0 m c d0 ⟨n + 1, hn⟩ (Nat.succ_ne_zero n) h25, s2At_pass0 m c d0' ⟨n + 1, hn⟩ (Nat.succ_ne_zero n) h25]
    obtain ⟨w, hw⟩ := runBat_shape m c ⟨n + 1, hn⟩ (Nat.succ_ne_zero n) h25 (s1C m c)
    rw [hw]
    exact slice_congr _ _ (400 * (n + 1)) _ w (off1 ⟨n + 1, hn⟩ h25) y
      (fun hnot => s2At_indep c d0 d0' n (Nat.lt_of_succ_lt hn) (by omega) y (by omega))

/-- From point 24 on the buffer is the second support, whatever it held at entry. -/
theorem s2At_full (c : Dev nD) (d0 : Vec F S10000x32 .f32) : ∀ (n : ℕ) (hn : n < cfg0.N), 24 ≤ n → s2At m c d0 n hn = s2C m c
  | 0, _, h => absurd h (by omega)
  | n + 1, hn, h => by
    by_cases hk : n + 1 = 24
    · have hn' : n = 23 := by omega
      subst hn'
      funext y
      exact s2At_indep m c d0 anyVec 24 hn (by omega) y (by have := Idealize.ShloMosaic.ValueIdx.idx2_lt0 y; omega)
    · have hlt : ¬ (n + 1 < 25) := by omega
      exact (show s2At m c d0 (n + 1) hn = s2At m c d0 n (Nat.lt_of_succ_lt hn) from dif_neg hlt).trans
        (s2At_full c d0 n (Nat.lt_of_succ_lt hn) (by omega))

end Cert.KernelIdeal.Body

end
-- ==== Proof.KIPieces.lean ====
/-
  What the body's stores hold, as the body's arithmetic applied to the blocks it loaded.

  Every store of the body is one piece; its payload is the named arithmetic of the loaded blocks, each load through a
  whole buffer reading that buffer's contents.  So the features, the first support, each slice of the second support
  and each result block are those expressions of the windows' blocks at the point.
-/
import proofs.«133634_g45492293599347_cont_8to1c4_324_9_alg».proof.Proof.BodyData_KI
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- A scratch buffer holding given contents reads them back. -/
theorem rdS0 (x : Vec F S10000x32 .f32) :
    View.read (Elt F) (View.whole cc0_scratch0) ((Memref.isWhole_whole _ : (scM_0 : Memref sig .tc .vmem S10000x32 .f32).IsWhole).unread x) = x :=
  Memref.IsWhole.read_unread _ x
theorem rdS1 (x : Vec F S10000x32 .f32) :
    View.read (Elt F) (View.whole cc0_scratch1) ((Memref.isWhole_whole _ : (scM_1 : Memref sig .tc .vmem S10000x32 .f32).IsWhole).unread x) = x :=
  Memref.IsWhole.read_unread _ x
theorem rdS2 (x : Vec F S10000x32 .f32) :
    View.read (Elt F) (View.whole cc0_scratch2) ((Memref.isWhole_whole _ : (scM_2 : Memref sig .tc .vmem S10000x32 .f32).IsWhole).unread x) = x :=
  Memref.IsWhole.read_unread _ x

/-- The slice a later point of pass 0 writes: the adjacency block, the first support and the two weights, multiplied. -/
theorem runBat_piece (c : Dev nD) (t : Fin cfg0.N) (h : t.val ≠ 0) (h' : t.val < 25) (xs1 : Vec F S10000x32 .f32) :
    (runBat m c t h h' xs1).1 = [(⟨sliceRect t h', k0_pay4 (iblk m c 1 t) xs1 (iblk m c 15 t) (iblk m c 16 t)⟩ : View.Piece (Elt F) S10000x32 .f32)] := by
  unfold runBat runB; dsimp only
  sl_unfold_run_names
  simp only [View.readAt_eq_ld, Memref.IsWhole.read_unread, rdS0, rdS1, rdS2, View.ld_unit_zero (S := S400x10000) hz, View.ld_unit_zero (S := S10000x32) hz, View.ld_unit_zero (S := S32x16) hz]

/-- The features are the encoder's arithmetic of the first point's blocks. -/
theorem featC_pay (c : Dev nD) : featC m c = k0_pay2 (k0_pay6 (iblk m c 0 t0) (iblk m c 2 t0) (iblk m c 3 t0) (iblk m c 4 t0) (iblk m c 5 t0) (iblk m c 6 t0) (iblk m c 7 t0) (iblk m c 8 t0)) (k0_pay7 (iblk m c 9 t0)) (iblk m c 10 t0) (iblk m c 11 t0) (iblk m c 12 t0) (iblk m c 13 t0) := by
  unfold featC
  rw [View.read_writes_eq_canon _ _ _ (coverS0 m c)]
  unfold runAat runA; dsimp only
  sl_unfold_run_names
  rw [View.canon_unit_zero hz]
  simp only [View.readAt_eq_ld, Memref.IsWhole.read_unread, rdS0, rdS1, rdS2, View.ld_unit_zero (S := S10000x128) hz, View.ld_unit_zero (S := S128x64) hz, View.ld_unit_zero (S := S1x64) hz, View.ld_unit_zero (S := S64x32) hz, View.ld_unit_zero (S := S1x32) hz]

/-- The first support likewise. -/
theorem s1C_pay (c : Dev nD) : s1C m c = k0_pay3 (k0_pay6 (iblk m c 0 t0) (iblk m c 2 t0) (iblk m c 3 t0) (iblk m c 4 t0) (iblk m c 5 t0) (iblk m c 6 t0) (iblk m c 7 t0) (iblk m c 8 t0)) (k0_pay7 (iblk m c 9 t0)) (iblk m c 10 t0) (iblk m c 11 t0) (iblk m c 12 t0) (iblk m c 13 t0) (iblk m c 14 t0) := by
  unfold s1C
  rw [View.read_writes_eq_canon _ _ _ (coverS1 m c)]
  unfold runAat runA; dsimp only
  sl_unfold_run_names
  rw [View.canon_unit_zero hz]
  simp only [View.readAt_eq_ld, Memref.IsWhole.read_unread, rdS0, rdS1, rdS2, View.ld_unit_zero (S := S10000x128) hz, View.ld_unit_zero (S := S128x64) hz, View.ld_unit_zero (S := S1x64) hz, View.ld_unit_zero (S := S64x32) hz, View.ld_unit_zero (S := S1x32) hz, View.ld_unit_zero (S := S32x32) hz]

/-- The slice the first point writes: as at the later points, on the first support just stored. -/
theorem runAat_piece (c : Dev nD) (t : Fin cfg0.N) (h : t.val = 0) :
    (runAat m c t h).2.2.1 = [(⟨sliceRect t (by omega), k0_pay4 (iblk m c 1 t) (k0_pay3 (k0_pay6 (iblk m c 0 t) (iblk m c 2 t) (iblk m c 3 t) (iblk m c 4 t) (iblk m c 5 t) (iblk m c 6 t) (iblk m c 7 t) (iblk m c 8 t)) (k0_pay7 (iblk m c 9 t)) (iblk m c 10 t) (iblk m c 11 t) (iblk m c 12 t) (iblk m c 13 t) (iblk m c 14 t)) (iblk m c 15 t) (iblk m c 16 t)⟩ : View.Piece (Elt F) S10000x32 .f32)] := by
  unfold runAat runA; dsimp only
  sl_unfold_run_names
  simp only [View.readCov_unit_zero (S := S10000x32) _ hz]
  simp only [View.readAt_eq_ld, Memref.IsWhole.read_unread, rdS0, rdS1, rdS2, View.ld_unit_zero (S := S10000x128) hz, View.ld_unit_zero (S := S128x64) hz, View.ld_unit_zero (S := S1x64) hz, View.ld_unit_zero (S := S64x32) hz, View.ld_unit_zero (S := S1x32) hz, View.ld_unit_zero (S := S32x32) hz, View.ld_unit_zero (S := S400x10000) hz, View.ld_unit_zero (S := S32x16) hz]

/-- Result buffer 0 after a point of pass 1. -/
theorem out29_pay (c : Dev nD) (t : Fin cfg0.N) (h : 25 ≤ t.val) : out29 m c t = k0_pay9 (iblk m c 1 t) (s2C m c) := by
  unfold out29
  rw [dif_pos h, View.read_writes_eq_canon _ _ _ (cover29 m c t h)]
  unfold runCC runCat runC; dsimp only
  sl_unfold_run_names
  rw [View.canon_unit_zero hz]
  simp only [View.readAt_eq_ld, Memref.IsWhole.read_unread, rdS0, rdS1, rdS2, View.ld_unit_zero (S := S400x10000) hz, View.ld_unit_zero (S := S10000x32) hz]

/-- Result buffer 1 after a point of pass 1. -/
theorem out30_pay (c : Dev nD) (t : Fin cfg0.N) (h : 25 ≤ t.val) : out30 m c t = k0_pay10 (iblk m c 1 t) (s2C m c) := by
  unfold out30
  rw [dif_pos h, View.read_writes_eq_canon _ _ _ (cover30 m c t h)]
  unfold runCC runCat runC; dsimp only
  sl_unfold_run_names
  rw [View.canon_unit_zero hz]
  simp only [View.readAt_eq_ld, Memref.IsWhole.read_unread, rdS0, rdS1, rdS2, View.ld_unit_zero (S := S400x10000) hz, View.ld_unit_zero (S := S10000x32) hz]

/-- Result buffer 2 after a point of pass 1. -/
theorem out31_pay (c : Dev nD) (t : Fin cfg0.N) (h : 25 ≤ t.val) : out31 m c t = (View.ld (featC m c) (Rect.unit (s := S10000x32) (k0_off2 (grid0.coords t)) S400x32.size (k0_off2_inb (grid0.coords t) ((hcond1 t).mpr h)))) := by
  unfold out31
  rw [dif_pos h, View.read_writes_eq_canon _ _ _ (cover31 m c t h)]
  unfold runCC runCat runC; dsimp only
  sl_unfold_run_names
  rw [View.canon_unit_zero hz]
  simp only [View.readAt_eq_ld, Memref.IsWhole.read_unread, rdS0, rdS1, rdS2, View.ld_unit_zero (S := S10000x32) hz]

/-- Result buffer 3 after a point of pass 1. -/
theorem out32_pay (c : Dev nD) (t : Fin cfg0.N) (h : 25 ≤ t.val) : out32 m c t = k0_pay11 (iblk m c 1 t) (s2C m c) (View.ld (featC m c) (Rect.unit (s := S10000x32) (k0_off2 (grid0.coords t)) S400x32.size (k0_off2_inb (grid0.coords t) ((hcond1 t).mpr h)))) := by
  unfold out32
  rw [dif_pos h, View.read_writes_eq_canon _ _ _ (cover32 m c t h)]
  unfold runCC runCat runC; dsimp only
  sl_unfold_run_names
  rw [View.canon_unit_zero hz]
  simp only [View.readAt_eq_ld, Memref.IsWhole.read_unread, rdS0, rdS1, rdS2, View.ld_unit_zero (S := S400x10000) hz, View.ld_unit_zero (S := S10000x32) hz]

/-- Result buffer 4 after a point of pass 1. -/
theorem out33_pay (c : Dev nD) (t : Fin cfg0.N) (h : 25 ≤ t.val) : out33 m c t = k0_pay5 (k0_pay17 (k0_pay12 (iblk m c 1 t) (s2C m c) (View.ld (featC m c) (Rect.unit (s := S10000x32) (k0_off2 (grid0.coords t)) S400x32.size (k0_off2_inb (grid0.coords t) ((hcond1 t).mpr h)))) (iblk m c 17 t) (iblk m c 18 t)) (k0_pay13 (iblk m c 19 t)) (k0_pay14 (iblk m c 20 t)) (k0_pay15 (iblk m c 22 t)) (k0_pay16 (iblk m c 21 t)) (iblk m c 23 t) (iblk m c 24 t) (iblk m c 25 t) (iblk m c 26 t) (iblk m c 27 t) (iblk m c 28 t)) k0_pay18 := by
  unfold out33
  rw [dif_pos h, View.read_writes_eq_canon _ _ _ (cover33 m c t h)]
  unfold runCC runCat runC; dsimp only
  sl_unfold_run_names
  rw [View.canon_unit_zero hz]
  simp only [View.readAt_eq_ld, Memref.IsWhole.read_unread, rdS0, rdS1, rdS2, View.ld_unit_zero (S := S400x10000) hz, View.ld_unit_zero (S := S10000x32) hz, View.ld_unit_zero (S := S48x64) hz, View.ld_unit_zero (S := S1x64) hz, View.ld_unit_zero (S := S64x128) hz, View.ld_unit_zero (S := S1x128) hz]

end Cert.KernelIdeal.Body

end
-- ==== Proof.KIValue1.lean ====
/-
  The kernel's scratch and result buffers as the specification's arrays of the launch's arguments: the feature buffer
  holds the node features, the first support's buffer the first support, the second support's buffer — filled 400 rows per
  point of the first pass — the two second supports side by side, and at each point of the second pass the five result
  buffers hold that point's 400 rows of the mean, the log-deviation, the features, the latent code and the decoded array.
  So each result array, written back block by block, ends holding the specification's array.
-/
import proofs.«133634_g45492293599347_cont_8to1c4_324_9_alg».proof.Proof.Spec
import proofs.«133634_g45492293599347_cont_8to1c4_324_9_alg».proof.Proof.LibRowBias
import proofs.«133634_g45492293599347_cont_8to1c4_324_9_alg».proof.Proof.KIPure
import proofs.«133634_g45492293599347_cont_8to1c4_324_9_alg».proof.Proof.KBlocks
import proofs.«133634_g45492293599347_cont_8to1c4_324_9_alg».proof.Proof.KIPieces
import proofs.«133634_g45492293599347_cont_8to1c4_324_9_alg».proof.Proof.Gen.KernelIdeal.Frame
import Idealize.ShloMosaic.Lib.Pipeline.Value
import Idealize.ShloMosaic.Lib.StableHlo.Run

set_option maxRecDepth 16384

noncomputable section

namespace Cert.KIVal

open Idealize.ShloMosaic Idealize.ShloMosaic.TcCoe Idealize.ShloMosaic.ValueIdx Idealize.ShloMosaic.Tactic
open Idealize.SL Idealize.SL.Sem
open Cert.KernelIdeal Cert.KernelIdeal.Gen

open Cert.KernelIdeal.Body Cert.Spec

variable (m : (ℓ : Loc nD τ sig) → Buf (Elt Ideal) ℓ) (c : Dev nD)

/-! ## The specification's arrays of the launch's arguments -/

/-- The node features. -/
abbrev FEAT : Mat 10000 32 := feat (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
/-- The first graph layer's support. -/
abbrev SUP1 : Mat 10000 32 := support1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
/-- The two second supports side by side. -/
abbrev SUP2 : Mat 10000 (16 + 16) := support2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
/-- The mean. -/
abbrev MU : Mat 10000 16 := mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
/-- The log-deviation. -/
abbrev LOGSTD : Mat 10000 16 := logstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg16))
/-- The latent code. -/
abbrev LATENT : Mat 10000 (32 + 16) := latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
/-- The decoded array. -/
abbrev DECODED : Mat 10000 128 := decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))

/-! ## The first point: the features and the first support -/

/-- The feature buffer holds the node features. -/
theorem featC_eq : featC m c = FEAT m c := by
  rw [featC_pay]
  refine (Cert.KValue.feat_eq _ _ _ _ _ _ _ _ _ _ _ _ _).trans ?_
  rw [Cert.KBlocks.iblk_0, Cert.KBlocks.iblk_2, Cert.KBlocks.iblk_8, Cert.KBlocks.row_3, Cert.KBlocks.row_4, Cert.KBlocks.row_5,
    Cert.KBlocks.row_6, Cert.KBlocks.row_7, Cert.KBlocks.row_9, Cert.KBlocks.row_10, Cert.KBlocks.row_11, Cert.KBlocks.row_12,
    Cert.KBlocks.row_13]

/-- The first support's buffer holds the first support. -/
theorem s1C_eq : s1C m c = SUP1 m c := by
  rw [s1C_pay]
  refine (Cert.KValue.support1_eq _ _ _ _ _ _ _ _ _ _ _ _ _ _).trans ?_
  rw [Cert.KBlocks.iblk_0, Cert.KBlocks.iblk_2, Cert.KBlocks.iblk_8, Cert.KBlocks.iblk_14, Cert.KBlocks.row_3, Cert.KBlocks.row_4,
    Cert.KBlocks.row_5, Cert.KBlocks.row_6, Cert.KBlocks.row_7, Cert.KBlocks.row_9, Cert.KBlocks.row_10, Cert.KBlocks.row_11,
    Cert.KBlocks.row_12, Cert.KBlocks.row_13]
  rfl

/-! ## The first pass: the second supports, 400 rows per point -/

/-- The slice a point of the first pass writes is its 400 rows of the two second supports. -/
theorem slice_pay (t : Fin cfg0.N) (h : t.val < 25) :
    k0_pay4 (F := Ideal) (iblk m c 1 t) (SUP1 m c) (iblk m c 15 t) (iblk m c 16 t)
      = rows (400 * t.val) (by omega) (SUP2 m c) := by
  have e1 : iblk m c 1 t = rows (400 * t.val) (by omega) (m ((c.tc : Thread nD τ).loc main_arg1)) :=
    (Cert.KBlocks.iblk_1 m c t (by omega)).trans (rows_congr _ _ (by omega) _ _ _)
  rw [e1, Cert.KBlocks.iblk_15, Cert.KBlocks.iblk_16]
  exact support2_rows _ _ _ _ _ _

/-- One slice of 400 rows of an array Z written over contents that agree with Z at an index outside the slice: the result
    agrees with Z at the index. -/
theorem slice_read (f : Vec Ideal S10000x32 .f32) {off : Fin 2 → ℕ} (o : ℕ)
    (inb : ∀ a, off a + S400x32.size a ≤ S10000x32.size a)
    (w : (Rect.unit (s := S10000x32) off S400x32.size inb).shape.Idx → Elt Ideal .f32) (hoff : off = ![o, 0])
    (Z : Mat 10000 32) (ho : o + 400 ≤ 10000) (hw : w = rows o ho Z) (y : S10000x32.Idx)
    (h : ¬(o ≤ (y (0 : Fin 2)).val ∧ (y (0 : Fin 2)).val < o + 400) → f y = Z y) :
    scM_2.view.read (Elt Ideal) (scM_2.view.writes (Elt Ideal)
        ((Memref.isWhole_whole _ : (scM_2 : Memref sig .tc .vmem S10000x32 .f32).IsWhole).unread f)
        [(⟨Rect.unit (s := S10000x32) off S400x32.size inb, w⟩ : View.Piece (Elt Ideal) S10000x32 .f32)]) y = Z y := by
  rw [View.read_writes_cons_rows (d := ![10000, 32]) scM_2.view _ inb w [] y hoff (W := 400) rfl rfl]
  split
  · subst hw
    exact rows_unitLocal Z o ho y _
  · rename_i hn
    rw [View.writes_nil]
    exact (congrFun (Memref.IsWhole.read_unread _ f) y).trans (h hn)

/-- After point n of the first pass the rows below 400 · (n + 1) of the second support's buffer are the second supports'. -/
theorem s2At_eq (d0 : Vec Ideal S10000x32 .f32) : ∀ (n : ℕ) (hn : n < cfg0.N), n < 25 →
    ∀ y : S10000x32.Idx, (y (0 : Fin 2)).val < 400 * (n + 1) → s2At m c d0 n hn y = SUP2 m c y
  | 0, hn, _, y, hy => by
    rw [s2At_zero m c d0 ⟨0, hn⟩ rfl, runAat_piece m c ⟨0, hn⟩ rfl]
    refine slice_read _ (400 * 0) _ _ (Cert.KernelIdeal.Body.off1 ⟨0, hn⟩ (by show (0 : ℕ) < 25; omega)) (SUP2 m c) (by omega) ?_ y
      (fun hnot => absurd ⟨by omega, by omega⟩ hnot)
    exact (congrArg (fun s => k0_pay4 (F := Ideal) (iblk m c 1 ⟨0, hn⟩) s (iblk m c 15 ⟨0, hn⟩) (iblk m c 16 ⟨0, hn⟩))
      ((s1C_pay m c).symm.trans (s1C_eq m c))).trans (slice_pay m c ⟨0, hn⟩ (by show (0 : ℕ) < 25; omega))
  | n + 1, hn, h25, y, hy => by
    rw [s2At_pass0 m c d0 ⟨n + 1, hn⟩ (Nat.succ_ne_zero n) h25, runBat_piece m c ⟨n + 1, hn⟩ (Nat.succ_ne_zero n) h25 (s1C m c)]
    refine slice_read _ (400 * (n + 1)) _ _ (Cert.KernelIdeal.Body.off1 ⟨n + 1, hn⟩ h25) (SUP2 m c) (by omega) ?_ y
      (fun hnot => s2At_eq d0 n (Nat.lt_of_succ_lt hn) (by omega) y (by omega))
    rw [s1C_eq]
    exact slice_pay m c ⟨n + 1, hn⟩ h25

/-- After the first pass the second support's buffer holds the two second supports side by side. -/
theorem s2C_eq : s2C m c = SUP2 m c :=
  funext fun y => s2At_eq m c anyVec 24 _ (by omega) y (by have := idx2_lt0 y; omega)

/-! ## The second pass: the five result blocks -/

section Pass1

variable (t : Fin cfg0.N) (h : 25 ≤ t.val)

theorem lt50 : t.val < 50 := lt_of_lt_of_eq t.isLt N_0

/-- The adjacency block at a point of the second pass: rows 400 · (t − 25) … + 399. -/
theorem iblk_1_p1 : iblk m c 1 t = rows (400 * (t.val - 25)) (by have := lt50 t; omega) (m ((c.tc : Thread nD τ).loc main_arg1)) :=
  (Cert.KBlocks.iblk_1 m c t (by omega)).trans (rows_congr _ _ (by have := lt50 t; omega) _ _ _)

/-- The rows of the feature buffer a point of the second pass loads. -/
theorem fb_eq (inb : ∀ a, k0_off2 (grid0.coords t) a + S400x32.size a ≤ S10000x32.size a) :
    View.ld (Val := Elt Ideal) (e' := .f32) (featC m c) (Rect.unit (s := S10000x32) (k0_off2 (grid0.coords t)) S400x32.size inb)
      = rows (400 * (t.val - 25)) (by have := lt50 t; omega) (FEAT m c) := by
  rw [featC_eq]
  exact ld_rows _ inb _ _ (Cert.KBlocks.off2 t h)

theorem out29_eq : out29 m c t = rows (400 * (t.val - 25)) (by have := lt50 t; omega) (MU m c) := by
  rw [out29_pay m c t h, s2C_eq, iblk_1_p1 m c t h]
  exact mu_rows _ _ _ _ _

theorem out30_eq : out30 m c t = rows (400 * (t.val - 25)) (by have := lt50 t; omega) (LOGSTD m c) := by
  rw [out30_pay m c t h, s2C_eq, iblk_1_p1 m c t h]
  exact logstd_rows _ _ _ _ _

theorem out31_eq : out31 m c t = rows (400 * (t.val - 25)) (by have := lt50 t; omega) (FEAT m c) :=
  (out31_pay m c t h).trans (fb_eq m c t h _)

theorem out32_eq : out32 m c t = rows (400 * (t.val - 25)) (by have := lt50 t; omega) (LATENT m c) := by
  rw [out32_pay m c t h, s2C_eq, iblk_1_p1 m c t h, fb_eq m c t h]
  exact latent_rows _ _ _ _ _ _

theorem out33_eq : out33 m c t = rows (400 * (t.val - 25)) (by have := lt50 t; omega) (DECODED m c) := by
  rw [out33_pay m c t h, s2C_eq, iblk_1_p1 m c t h, fb_eq m c t h]
  refine (decoded_rows _ _ _ _ _ _ _ _ _ _ _ _ _ _ _ _ _ _).trans ?_
  rw [Cert.KBlocks.iblk_17, Cert.KBlocks.iblk_23, Cert.KBlocks.row_18, Cert.KBlocks.row_19, Cert.KBlocks.row_20, Cert.KBlocks.row_21,
    Cert.KBlocks.row_22, Cert.KBlocks.row_24, Cert.KBlocks.row_25, Cert.KBlocks.row_26, Cert.KBlocks.row_27, Cert.KBlocks.row_28]
  rfl

end Pass1

/-! ## What each point writes back, and the result arrays after the run -/

/-- What a point writes back of window 29 is its block of the specification's array. -/
theorem flushed_29 (t : Fin cfg0.N) (hf : (cfg0.win 29).flush t = true) :
    (dats m 0 c).flushed 29 t = ((cfg0.win 29).blk t).view.read (Elt Ideal) (MU m c) := by
  have h : 25 ≤ t.val := by
    by_contra hh
    rw [noFlush_29 t (by omega)] at hf
    exact Bool.false_ne_true hf
  show (cfg0.win 29).cut (grid0.coords t) ((dats m 0 c).after 29 t) = _
  rw [after_29, Cert.KBlocks.out_cut_29, out29_eq m c t h, Cert.KBlocks.out_read_29 t h]

/-- Result array 0 ends holding the specification's array. -/
theorem final_29 : (dats m 0 c).arrAt 29 cfg0.N = MU m c :=
  (dats m 0 c).arrAt_eq_of_cover 29 (MU m c) (fun t hf => flushed_29 m c t hf) Cert.KBlocks.out_cover_29

/-- What a point writes back of window 30 is its block of the specification's array. -/
theorem flushed_30 (t : Fin cfg0.N) (hf : (cfg0.win 30).flush t = true) :
    (dats m 0 c).flushed 30 t = ((cfg0.win 30).blk t).view.read (Elt Ideal) (LOGSTD m c) := by
  have h : 25 ≤ t.val := by
    by_contra hh
    rw [noFlush_30 t (by omega)] at hf
    exact Bool.false_ne_true hf
  show (cfg0.win 30).cut (grid0.coords t) ((dats m 0 c).after 30 t) = _
  rw [after_30, Cert.KBlocks.out_cut_30, out30_eq m c t h, Cert.KBlocks.out_read_30 t h]

/-- Result array 1 ends holding the specification's array. -/
theorem final_30 : (dats m 0 c).arrAt 30 cfg0.N = LOGSTD m c :=
  (dats m 0 c).arrAt_eq_of_cover 30 (LOGSTD m c) (fun t hf => flushed_30 m c t hf) Cert.KBlocks.out_cover_30

/-- What a point writes back of window 31 is its block of the specification's array. -/
theorem flushed_31 (t : Fin cfg0.N) (hf : (cfg0.win 31).flush t = true) :
    (dats m 0 c).flushed 31 t = ((cfg0.win 31).blk t).view.read (Elt Ideal) (FEAT m c) := by
  have h : 25 ≤ t.val := by
    by_contra hh
    rw [noFlush_31 t (by omega)] at hf
    exact Bool.false_ne_true hf
  show (cfg0.win 31).cut (grid0.coords t) ((dats m 0 c).after 31 t) = _
  rw [after_31, Cert.KBlocks.out_cut_31, out31_eq m c t h, Cert.KBlocks.out_read_31 t h]

/-- Result array 2 ends holding the specification's array. -/
theorem final_31 : (dats m 0 c).arrAt 31 cfg0.N = FEAT m c :=
  (dats m 0 c).arrAt_eq_of_cover 31 (FEAT m c) (fun t hf => flushed_31 m c t hf) Cert.KBlocks.out_cover_31

/-- What a point writes back of window 32 is its block of the specification's array. -/
theorem flushed_32 (t : Fin cfg0.N) (hf : (cfg0.win 32).flush t = true) :
    (dats m 0 c).flushed 32 t = ((cfg0.win 32).blk t).view.read (Elt Ideal) (LATENT m c) := by
  have h : 25 ≤ t.val := by
    by_contra hh
    rw [noFlush_32 t (by omega)] at hf
    exact Bool.false_ne_true hf
  show (cfg0.win 32).cut (grid0.coords t) ((dats m 0 c).after 32 t) = _
  rw [after_32, Cert.KBlocks.out_cut_32, out32_eq m c t h, Cert.KBlocks.out_read_32 t h]

/-- Result array 3 ends holding the specification's array. -/
theorem final_32 : (dats m 0 c).arrAt 32 cfg0.N = LATENT m c :=
  (dats m 0 c).arrAt_eq_of_cover 32 (LATENT m c) (fun t hf => flushed_32 m c t hf) Cert.KBlocks.out_cover_32

/-- What a point writes back of window 33 is its block of the specification's array. -/
theorem flushed_33 (t : Fin cfg0.N) (hf : (cfg0.win 33).flush t = true) :
    (dats m 0 c).flushed 33 t = ((cfg0.win 33).blk t).view.read (Elt Ideal) (DECODED m c) := by
  have h : 25 ≤ t.val := by
    by_contra hh
    rw [noFlush_33 t (by omega)] at hf
    exact Bool.false_ne_true hf
  show (cfg0.win 33).cut (grid0.coords t) ((dats m 0 c).after 33 t) = _
  rw [after_33, Cert.KBlocks.out_cut_33, out33_eq m c t h, Cert.KBlocks.out_read_33 t h]

/-- Result array 4 ends holding the specification's array. -/
theorem final_33 : (dats m 0 c).arrAt 33 cfg0.N = DECODED m c :=
  (dats m 0 c).arrAt_eq_of_cover 33 (DECODED m c) (fun t hf => flushed_33 m c t hf) Cert.KBlocks.out_cover_33

end Cert.KIVal

end
-- ==== Proof.BodyFrame_KI.lean ====
/-
  The body's obligation at every grid point, the run of the whole program, and its frame.

  At the first point the scratch buffers are found at anything and left at the features, the first support and slice 0 of
  the second; at a later point of pass 0 one more slice is written; at a point of pass 1 the second support's buffer is
  complete, so it is the second support whatever it held at entry, and the five result buffers are stored whole.
-/
import proofs.«133634_g45492293599347_cont_8to1c4_324_9_alg».proof.Proof.BodyData_KI

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d))
    ∗ (∃ d, owns (c : Thread nD τ) (ms_17 t) fullShare ((dats m 0 c).before 17 t d))
    ∗ (∃ d, owns (c : Thread nD τ) (ms_18 t) fullShare ((dats m 0 c).before 18 t d))
    ∗ (∃ d, owns (c : Thread nD τ) (ms_19 t) fullShare ((dats m 0 c).before 19 t d))
    ∗ (∃ d, owns (c : Thread nD τ) (ms_20 t) fullShare ((dats m 0 c).before 20 t d))
    ∗ (∃ d, owns (c : Thread nD τ) (ms_21 t) fullShare ((dats m 0 c).before 21 t d))
    ∗ (∃ d, owns (c : Thread nD τ) (ms_22 t) fullShare ((dats m 0 c).before 22 t d))
    ∗ (∃ d, owns (c : Thread nD τ) (ms_23 t) fullShare ((dats m 0 c).before 23 t d))
    ∗ (∃ d, owns (c : Thread nD τ) (ms_24 t) fullShare ((dats m 0 c).before 24 t d))
    ∗ (∃ d, owns (c : Thread nD τ) (ms_25 t) fullShare ((dats m 0 c).before 25 t d))
    ∗ (∃ d, owns (c : Thread nD τ) (ms_26 t) fullShare ((dats m 0 c).before 26 t d))
    ∗ (∃ d, owns (c : Thread nD τ) (ms_27 t) fullShare ((dats m 0 c).before 27 t d))
    ∗ (∃ d, owns (c : Thread nD τ) (ms_28 t) fullShare ((dats m 0 c).before 28 t d))
    ∗ (∃ d, owns (c : Thread nD τ) (ms_29 t) fullShare ((dats m 0 c).before 29 t d))
    ∗ (∃ d, owns (c : Thread nD τ) (ms_30 t) fullShare ((dats m 0 c).before 30 t d))
    ∗ (∃ d, owns (c : Thread nD τ) (ms_31 t) fullShare ((dats m 0 c).before 31 t d))
    ∗ (∃ d, owns (c : Thread nD τ) (ms_32 t) fullShare ((dats m 0 c).before 32 t d))
    ∗ (∃ d, owns (c : Thread nD τ) (ms_33 t) fullShare ((dats m 0 c).before 33 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t)

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N50
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  rw [show (dats m 0 c).leavesExact 8 t = owns (c : Thread nD τ) (ms_8 t) fullShare ((dats m 0 c).after 8 t) from by
    unfold Dat.leavesExact; rw [liveAt_8 t], after_8]
  rw [show (dats m 0 c).leavesExact 9 t = owns (c : Thread nD τ) (ms_9 t) fullShare ((dats m 0 c).after 9 t) from by
    unfold Dat.leavesExact; rw [liveAt_9 t], after_9]
  rw [show (dats m 0 c).leavesExact 10 t = owns (c : Thread nD τ) (ms_10 t) fullShare ((dats m 0 c).after 10 t) from by
    unfold Dat.leavesExact; rw [liveAt_10 t], after_10]
  rw [show (dats m 0 c).leavesExact 11 t = owns (c : Thread nD τ) (ms_11 t) fullShare ((dats m 0 c).after 11 t) from by
    unfold Dat.leavesExact; rw [liveAt_11 t], after_11]
  rw [show (dats m 0 c).leavesExact 12 t = owns (c : Thread nD τ) (ms_12 t) fullShare ((dats m 0 c).after 12 t) from by
    unfold Dat.leavesExact; rw [liveAt_12 t], after_12]
  rw [show (dats m 0 c).leavesExact 13 t = owns (c : Thread nD τ) (ms_13 t) fullShare ((dats m 0 c).after 13 t) from by
    unfold Dat.leavesExact; rw [liveAt_13 t], after_13]
  rw [show (dats m 0 c).leavesExact 14 t = owns (c : Thread nD τ) (ms_14 t) fullShare ((dats m 0 c).after 14 t) from by
    unfold Dat.leavesExact; rw [liveAt_14 t], after_14]
  rw [show (dats m 0 c).leavesExact 15 t = owns (c : Thread nD τ) (ms_15 t) fullShare ((dats m 0 c).after 15 t) from by
    unfold Dat.leavesExact; rw [liveAt_15 t], after_15]
  rw [show (dats m 0 c).leavesExact 16 t = owns (c : Thread nD τ) (ms_16 t) fullShare ((dats m 0 c).after 16 t) from by
    unfold Dat.leavesExact; rw [liveAt_16 t], after_16]
  rw [show (dats m 0 c).leavesExact 17 t = owns (c : Thread nD τ) (ms_17 t) fullShare ((dats m 0 c).after 17 t) from by
    unfold Dat.leavesExact; rw [liveAt_17 t], after_17]
  rw [show (dats m 0 c).leavesExact 18 t = owns (c : Thread nD τ) (ms_18 t) fullShare ((dats m 0 c).after 18 t) from by
    unfold Dat.leavesExact; rw [liveAt_18 t], after_18]
  rw [show (dats m 0 c).leavesExact 19 t = owns (c : Thread nD τ) (ms_19 t) fullShare ((dats m 0 c).after 19 t) from by
    unfold Dat.leavesExact; rw [liveAt_19 t], after_19]
  rw [show (dats m 0 c).leavesExact 20 t = owns (c : Thread nD τ) (ms_20 t) fullShare ((dats m 0 c).after 20 t) from by
    unfold Dat.leavesExact; rw [liveAt_20 t], after_20]
  rw [show (dats m 0 c).leavesExact 21 t = owns (c : Thread nD τ) (ms_21 t) fullShare ((dats m 0 c).after 21 t) from by
    unfold Dat.leavesExact; rw [liveAt_21 t], after_21]
  rw [show (dats m 0 c).leavesExact 22 t = owns (c : Thread nD τ) (ms_22 t) fullShare ((dats m 0 c).after 22 t) from by
    unfold Dat.leavesExact; rw [liveAt_22 t], after_22]
  rw [show (dats m 0 c).leavesExact 23 t = owns (c : Thread nD τ) (ms_23 t) fullShare ((dats m 0 c).after 23 t) from by
    unfold Dat.leavesExact; rw [liveAt_23 t], after_23]
  rw [show (dats m 0 c).leavesExact 24 t = owns (c : Thread nD τ) (ms_24 t) fullShare ((dats m 0 c).after 24 t) from by
    unfold Dat.leavesExact; rw [liveAt_24 t], after_24]
  rw [show (dats m 0 c).leavesExact 25 t = owns (c : Thread nD τ) (ms_25 t) fullShare ((dats m 0 c).after 25 t) from by
    unfold Dat.leavesExact; rw [liveAt_25 t], after_25]
  rw [show (dats m 0 c).leavesExact 26 t = owns (c : Thread nD τ) (ms_26 t) fullShare ((dats m 0 c).after 26 t) from by
    unfold Dat.leavesExact; rw [liveAt_26 t], after_26]
  rw [show (dats m 0 c).leavesExact 27 t = owns (c : Thread nD τ) (ms_27 t) fullShare ((dats m 0 c).after 27 t) from by
    unfold Dat.leavesExact; rw [liveAt_27 t], after_27]
  rw [show (dats m 0 c).leavesExact 28 t = owns (c : Thread nD τ) (ms_28 t) fullShare ((dats m 0 c).after 28 t) from by
    unfold Dat.leavesExact; rw [liveAt_28 t], after_28]
  by_cases hz : t.val = 0
  · -- the first point: the encoder, the first support, slice 0
    obtain rfl : t = t0 := Fin.ext hz
    rw [Dat.leavesExact_idle (dats m 0 c) 29 t0 (idleAt_29 t0 (by show (0 : ℕ) < 25; omega)) (noFlush_29 t0 (by show (0 : ℕ) < 25; omega))]
    rw [Dat.leavesExact_idle (dats m 0 c) 30 t0 (idleAt_30 t0 (by show (0 : ℕ) < 25; omega)) (noFlush_30 t0 (by show (0 : ℕ) < 25; omega))]
    rw [Dat.leavesExact_idle (dats m 0 c) 31 t0 (idleAt_31 t0 (by show (0 : ℕ) < 25; omega)) (noFlush_31 t0 (by show (0 : ℕ) < 25; omega))]
    rw [Dat.leavesExact_idle (dats m 0 c) 32 t0 (idleAt_32 t0 (by show (0 : ℕ) < 25; omega)) (noFlush_32 t0 (by show (0 : ℕ) < 25; omega))]
    rw [Dat.leavesExact_idle (dats m 0 c) 33 t0 (idleAt_33 t0 (by show (0 : ℕ) < 25; omega)) (noFlush_33 t0 (by show (0 : ℕ) < 25; omega))]
    simp only [s2At_zero m c _ t0 rfl]
    rw [PhiS_castSucc m c t0, PhiS_zero m c _ _ (show (t0 : Fin cfg0.N).val = 0 from rfl), PhiA_eq]
    iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
    iapply ((runAat m c t0 rfl).2.2.2 _ _ _ _ _ ds2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, H22, H23, H24, H25, H26, H27, H28, H29, H30, H31, H32, H33, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_of_cover _ _ _ _ _ (coverS0 m c)
        isplitl [HS1]
        · unfold owns; iexists _; isplitr
          swap; · iexact HS1
          ipureintro; exact View.read_writes_of_cover _ _ _ _ _ (coverS1 m c)
        iexists ds2
        unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    iexists _; iexact H33
  · by_cases h25 : t.val < 25
    · -- a later point of pass 0: one more slice
      rw [Dat.leavesExact_idle (dats m 0 c) 29 t (idleAt_29 t h25) (noFlush_29 t h25)]
      rw [Dat.leavesExact_idle (dats m 0 c) 30 t (idleAt_30 t h25) (noFlush_30 t h25)]
      rw [Dat.leavesExact_idle (dats m 0 c) 31 t (idleAt_31 t h25) (noFlush_31 t h25)]
      rw [Dat.leavesExact_idle (dats m 0 c) 32 t (idleAt_32 t h25) (noFlush_32 t h25)]
      rw [Dat.leavesExact_idle (dats m 0 c) 33 t (idleAt_33 t h25) (noFlush_33 t h25)]
      simp only [s2At_pass0 m c _ t hz h25]
      rw [PhiS_castSucc m c t, PhiS_pos m c _ _ hz]
      iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
      iapply ((runBat m c t hz h25 (s1C m c)).2 _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, H25, H26, H27, H28, H29, H30, H31, H32, H33, HS0, HS1, HS2⟩
      isplitl [HS0 HS1 HS2 Hg]
      · isplitl [HS0 HS1 HS2]
        · isplitl [HS0]; · iexact HS0
          isplitl [HS1]; · iexact HS1
          iexists ds2
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      iexists _; iexact H33
    · -- a point of pass 1: the second support is complete; five result blocks
      have h25' : 25 ≤ t.val := Nat.le_of_not_lt h25
      rw [show (dats m 0 c).leavesExact 29 t = owns (c : Thread nD τ) (ms_29 t) fullShare ((dats m 0 c).after 29 t) from by
        unfold Dat.leavesExact; rw [liveAt_29 t h25'], after_29, out29, dif_pos h25']
      rw [show (dats m 0 c).leavesExact 30 t = owns (c : Thread nD τ) (ms_30 t) fullShare ((dats m 0 c).after 30 t) from by
        unfold Dat.leavesExact; rw [liveAt_30 t h25'], after_30, out30, dif_pos h25']
      rw [show (dats m 0 c).leavesExact 31 t = owns (c : Thread nD τ) (ms_31 t) fullShare ((dats m 0 c).after 31 t) from by
        unfold Dat.leavesExact; rw [liveAt_31 t h25'], after_31, out31, dif_pos h25']
      rw [show (dats m 0 c).leavesExact 32 t = owns (c : Thread nD τ) (ms_32 t) fullShare ((dats m 0 c).after 32 t) from by
        unfold Dat.leavesExact; rw [liveAt_32 t h25'], after_32, out32, dif_pos h25']
      rw [show (dats m 0 c).leavesExact 33 t = owns (c : Thread nD τ) (ms_33 t) fullShare ((dats m 0 c).after 33 t) from by
        unfold Dat.leavesExact; rw [liveAt_33 t h25'], after_33, out33, dif_pos h25']
      simp only [s2At_pass1 m c _ t h25']
      rw [PhiS_castSucc m c t, PhiS_pos m c _ _ hz]
      simp only [s2At_full m c _ (t.val - 1) (Nat.lt_of_le_of_lt (Nat.sub_le _ _) t.isLt) (by omega)]
      iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
      iapply ((runCC m c t h25').2.2.2.2.2 (s1C m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      isplitl [H33]; · iexists _; iexact H33
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, HS0, HS1, HS2⟩
      isplitl [HS0 HS1 HS2 Hg]
      · isplitl [HS0 HS1 HS2]
        · isplitl [HS0]; · iexact HS0
          isplitl [HS1]; · iexact HS1
          iexists ds2; iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]
      · unfold owns; iexists _; isplitr
        swap; · iexact H29
        ipureintro; exact View.read_writes_of_cover _ _ _ _ _ (cover29 m c t h25')
      isplitl [H30]
      · unfold owns; iexists _; isplitr
        swap; · iexact H30
        ipureintro; exact View.read_writes_of_cover _ _ _ _ _ (cover30 m c t h25')
      isplitl [H31]
      · unfold owns; iexists _; isplitr
        swap; · iexact H31
        ipureintro; exact View.read_writes_of_cover _ _ _ _ _ (cover31 m c t h25')
      isplitl [H32]
      · unfold owns; iexists _; isplitr
        swap; · iexact H32
        ipureintro; exact View.read_writes_of_cover _ _ _ _ _ (cover32 m c t h25')
      unfold owns; iexists _; isplitr
      swap; · iexact H33
      ipureintro; exact View.read_writes_of_cover _ _ _ _ _ (cover33 m c t h25')

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, ⟨%ds2, HS2⟩⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 50 := N50; omega)

set_option backward.isDefEq.respectTransparency.types false in
/-- Every weakly fair execution of the program terminates, with every array of the pipeline at what the library computes
    from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

end Cert.KernelIdeal.Body

end
-- ==== Proof.KIValue.lean ====
/-
  The kernel's run, read: every weakly fair execution terminates with the five result arrays holding the specification's
  mean, log-deviation, features, latent code and decoded array of the launch's arguments, and the arguments unchanged.
-/
import proofs.«133634_g45492293599347_cont_8to1c4_324_9_alg».proof.Proof.KIValue1
import proofs.«133634_g45492293599347_cont_8to1c4_324_9_alg».proof.Proof.BodyFrame_KI

set_option maxRecDepth 16384

noncomputable section

namespace Cert.KIVal

open Idealize.ShloMosaic Idealize.ShloMosaic.TcCoe
open Idealize.SL Idealize.SL.Sem

set_option maxHeartbeats 4000000 in
/-- The run of the kernel's program at the ideal values, read against the specification. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v20_0) = Cert.Spec.mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v20_1) = Cert.Spec.logstd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg16))
      ∧ r.2.mem ((c.tc : Thread Cert.KernelIdeal.nD Cert.KernelIdeal.τ).loc Cert.KernelIdeal.main_v20_2) = Cert.Spec.feat (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v20_0) = Cert.Spec.mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v20_3) = Cert.Spec.latent (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v20_4) = Cert.Spec.decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)) :=
  (θ_run (Cert.KernelIdeal.defs (F := Ideal)) _ _).mono (fun r h c => ⟨((h c).1 29).trans (final_29 m c),
      ((h c).1 30).trans (final_30 m c),
      ((h c).1 31).trans (final_31 m c),
      ((h c).1 29).trans (final_29 m c),
      ((h c).1 32).trans (final_32 m c),
      ((h c).1 33).trans (final_33 m c),
      ((h c).1 0).trans (((Cert.KernelIdeal.Body.dats m 0 c).arrAt_in 0 rfl _).trans ((Cert.KernelIdeal.Body.A_eq m c 0).trans (Cert.KernelIdeal.Gen.V_main_arg0 m c))),
      ((h c).1 1).trans (((Cert.KernelIdeal.Body.dats m 0 c).arrAt_in 1 rfl _).trans ((Cert.KernelIdeal.Body.A_eq m c 1).trans (Cert.KernelIdeal.Gen.V_main_arg1 m c))),
      ((h c).1 2).trans (((Cert.KernelIdeal.Body.dats m 0 c).arrAt_in 2 rfl _).trans ((Cert.KernelIdeal.Body.A_eq m c 2).trans (Cert.KernelIdeal.Gen.V_main_arg2 m c))),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).1 8).trans (((Cert.KernelIdeal.Body.dats m 0 c).arrAt_in 8 rfl _).trans ((Cert.KernelIdeal.Body.A_eq m c 8).trans (Cert.KernelIdeal.Gen.V_main_arg8 m c))),
      ((h c).2 Cert.KernelIdeal.main_arg9 (Pipeline.mem_restRefs_of Cert.KernelIdeal.main_arg9 (by decide) (by decide))).trans (Cert.KernelIdeal.Gen.V_main_arg9 m c),
      ((h c).2 Cert.KernelIdeal.main_arg10 (Pipeline.mem_restRefs_of Cert.KernelIdeal.main_arg10 (by decide) (by decide))).trans (Cert.KernelIdeal.Gen.V_main_arg10 m c),
      ((h c).2 Cert.KernelIdeal.main_arg11 (Pipeline.mem_restRefs_of Cert.KernelIdeal.main_arg11 (by decide) (by decide))).trans (Cert.KernelIdeal.Gen.V_main_arg11 m c),
      ((h c).2 Cert.KernelIdeal.main_arg12 (Pipeline.mem_restRefs_of Cert.KernelIdeal.main_arg12 (by decide) (by decide))).trans (Cert.KernelIdeal.Gen.V_main_arg12 m c),
      ((h c).2 Cert.KernelIdeal.main_arg13 (Pipeline.mem_restRefs_of Cert.KernelIdeal.main_arg13 (by decide) (by decide))).trans (Cert.KernelIdeal.Gen.V_main_arg13 m c),
      ((h c).1 14).trans (((Cert.KernelIdeal.Body.dats m 0 c).arrAt_in 14 rfl _).trans ((Cert.KernelIdeal.Body.A_eq m c 14).trans (Cert.KernelIdeal.Gen.V_main_arg14 m c))),
      ((h c).1 15).trans (((Cert.KernelIdeal.Body.dats m 0 c).arrAt_in 15 rfl _).trans ((Cert.KernelIdeal.Body.A_eq m c 15).trans (Cert.KernelIdeal.Gen.V_main_arg15 m c))),
      ((h c).1 16).trans (((Cert.KernelIdeal.Body.dats m 0 c).arrAt_in 16 rfl _).trans ((Cert.KernelIdeal.Body.A_eq m c 16).trans (Cert.KernelIdeal.Gen.V_main_arg16 m c))),
      ((h c).1 17).trans (((Cert.KernelIdeal.Body.dats m 0 c).arrAt_in 17 rfl _).trans ((Cert.KernelIdeal.Body.A_eq m c 17).trans (Cert.KernelIdeal.Gen.V_main_arg17 m c))),
      ((h c).2 Cert.KernelIdeal.main_arg18 (Pipeline.mem_restRefs_of Cert.KernelIdeal.main_arg18 (by decide) (by decide))).trans (Cert.KernelIdeal.Gen.V_main_arg18 m c),
      ((h c).2 Cert.KernelIdeal.main_arg19 (Pipeline.mem_restRefs_of Cert.KernelIdeal.main_arg19 (by decide) (by decide))).trans (Cert.KernelIdeal.Gen.V_main_arg19 m c),
      ((h c).2 Cert.KernelIdeal.main_arg20 (Pipeline.mem_restRefs_of Cert.KernelIdeal.main_arg20 (by decide) (by decide))).trans (Cert.KernelIdeal.Gen.V_main_arg20 m c),
      ((h c).2 Cert.KernelIdeal.main_arg21 (Pipeline.mem_restRefs_of Cert.KernelIdeal.main_arg21 (by decide) (by decide))).trans (Cert.KernelIdeal.Gen.V_main_arg21 m c),
      ((h c).2 Cert.KernelIdeal.main_arg22 (Pipeline.mem_restRefs_of Cert.KernelIdeal.main_arg22 (by decide) (by decide))).trans (Cert.KernelIdeal.Gen.V_main_arg22 m c),
      ((h c).1 23).trans (((Cert.KernelIdeal.Body.dats m 0 c).arrAt_in 23 rfl _).trans ((Cert.KernelIdeal.Body.A_eq m c 23).trans (Cert.KernelIdeal.Gen.V_main_arg23 m c))),
      ((h c).2 Cert.KernelIdeal.main_arg24 (Pipeline.mem_restRefs_of Cert.KernelIdeal.main_arg24 (by decide) (by decide))).trans (Cert.KernelIdeal.Gen.V_main_arg24 m c),
      ((h c).2 Cert.KernelIdeal.main_arg25 (Pipeline.mem_restRefs_of Cert.KernelIdeal.main_arg25 (by decide) (by decide))).trans (Cert.KernelIdeal.Gen.V_main_arg25 m c),
      ((h c).2 Cert.KernelIdeal.main_arg26 (Pipeline.mem_restRefs_of Cert.KernelIdeal.main_arg26 (by decide) (by decide))).trans (Cert.KernelIdeal.Gen.V_main_arg26 m c),
      ((h c).2 Cert.KernelIdeal.main_arg27 (Pipeline.mem_restRefs_of Cert.KernelIdeal.main_arg27 (by decide) (by decide))).trans (Cert.KernelIdeal.Gen.V_main_arg27 m c),
      ((h c).2 Cert.KernelIdeal.main_arg28 (Pipeline.mem_restRefs_of Cert.KernelIdeal.main_arg28 (by decide) (by decide))).trans (Cert.KernelIdeal.Gen.V_main_arg28 m c)⟩)
    (Cert.KernelIdeal.Body.run_main m ρ)

end Cert.KIVal

end
-- ==== Proof.RefRun.lean ====
/-
  The reference program's @main as the straight line of its 135 host operations, and its run.

  The three calls of the exponential linear unit and the call of the rectifier are listed at their call sites over
  the call's own buffers: fifteen operations for each exponential unit (the zero constants and their broadcasts, the
  two comparisons, the inner selection, the exponential minus one, the unit constant and its broadcast, the product,
  the outer selection) and three for the rectifier (the zero, its broadcast, the maximum).  Every weakly fair
  execution of @main terminates with each buffer at the fold of these operations over the launch contents.
-/
import proofs.«133634_g45492293599347_cont_8to1c4_324_9_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 135 operations, in program order, each call's operations in place of the call. -/
abbrev ops : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S10000x64 ![0, 1] bcast_S1x64_S10000x64_0_1 : (⟨S1x64, .f32⟩ : BufTy).Contents (Elt F) → (⟨S10000x64, .f32⟩ : BufTy).Contents (Elt F)),
    binary main_v0 main_v2 main_v3 (addf : (⟨S10000x64, .f32⟩ : BufTy).Contents (Elt F) → (⟨S10000x64, .f32⟩ : BufTy).Contents (Elt F) → (⟨S10000x64, .f32⟩ : BufTy).Contents (Elt F)),
    unary main_arg6 main_v4 (broadcastInDim S1x64 ![1] bcast_S64_S1x64_1 : (⟨S64, .f32⟩ : BufTy).Contents (Elt F) → (⟨S1x64, .f32⟩ : BufTy).Contents (Elt F)),
    unary main_v4 main_v5 (broadcastInDim S10000x64 ![0, 1] bcast_S1x64_S10000x64_0_1 : (⟨S1x64, .f32⟩ : BufTy).Contents (Elt F) → (⟨S10000x64, .f32⟩ : BufTy).Contents (Elt F)),
    binary main_v3 main_v5 main_v6 (subf : (⟨S10000x64, .f32⟩ : BufTy).Contents (Elt F) → (⟨S10000x64, .f32⟩ : BufTy).Contents (Elt F) → (⟨S10000x64, .f32⟩ : BufTy).Contents (Elt F)),
    nullary main_cst (constant S_ .f32 0x3A83126F#32),
    unary main_cst main_v7 (broadcastInDim S64 ![] bcast_S_S64 : (⟨S_, .f32⟩ : BufTy).Contents (Elt F) → (⟨S64, .f32⟩ : BufTy).Contents (Elt F)),
    binary main_arg7 main_v7 main_v8 (addf : (⟨S64, .f32⟩ : BufTy).Contents (Elt F) → (⟨S64, .f32⟩ : BufTy).Contents (Elt F) → (⟨S64, .f32⟩ : BufTy).Contents (Elt F)),
    unary main_v8 main_v9 (Host.sqrt : (⟨S64, .f32⟩ : BufTy).Contents (Elt F) → (⟨S64, .f32⟩ : BufTy).Contents (Elt F)),
    unary main_v9 main_v10 (broadcastInDim S1x64 ![1] bcast_S64_S1x64_1 : (⟨S64, .f32⟩ : BufTy).Contents (Elt F) → (⟨S1x64, .f32⟩ : BufTy).Contents (Elt F)),
    unary main_v10 main_v11 (broadcastInDim S10000x64 ![0, 1] bcast_S1x64_S10000x64_0_1 : (⟨S1x64, .f32⟩ : BufTy).Contents (Elt F) → (⟨S10000x64, .f32⟩ : BufTy).Contents (Elt F)),
    binary main_v6 main_v11 main_v12 (Host.divf : (⟨S10000x64, .f32⟩ : BufTy).Contents (Elt F) → (⟨S10000x64, .f32⟩ : BufTy).Contents (Elt F) → (⟨S10000x64, .f32⟩ : BufTy).Contents (Elt F)),
    unary main_arg4 main_v13 (broadcastInDim S1x64 ![1] bcast_S64_S1x64_1 : (⟨S64, .f32⟩ : BufTy).Contents (Elt F) → (⟨S1x64, .f32⟩ : BufTy).Contents (Elt F)),
    unary main_v13 main_v14 (broadcastInDim S10000x64 ![0, 1] bcast_S1x64_S10000x64_0_1 : (⟨S1x64, .f32⟩ : BufTy).Contents (Elt F) → (⟨S10000x64, .f32⟩ : BufTy).Contents (Elt F)),
    binary main_v12 main_v14 main_v15 (mulf : (⟨S10000x64, .f32⟩ : BufTy).Contents (Elt F) → (⟨S10000x64, .f32⟩ : BufTy).Contents (Elt F) → (⟨S10000x64, .f32⟩ : BufTy).Contents (Elt F)),
    unary main_arg5 main_v16 (broadcastInDim S1x64 ![1] bcast_S64_S1x64_1 : (⟨S64, .f32⟩ : BufTy).Contents (Elt F) → (⟨S1x64, .f32⟩ : BufTy).Contents (Elt F)),
    unary main_v16 main_v17 (broadcastInDim S10000x64 ![0, 1] bcast_S1x64_S10000x64_0_1 : (⟨S1x64, .f32⟩ : BufTy).Contents (Elt F) → (⟨S10000x64, .f32⟩ : BufTy).Contents (Elt F)),
    binary main_v15 main_v17 main_v18 (addf : (⟨S10000x64, .f32⟩ : BufTy).Contents (Elt F) → (⟨S10000x64, .f32⟩ : BufTy).Contents (Elt F) → (⟨S10000x64, .f32⟩ : BufTy).Contents (Elt F)),
    TRef.nullary main_call0.cst (constant S_ .f32 0x00000000#32),
    TRef.unary main_call0.cst main_call0.v0 (broadcastInDim S10000x64 ![] bcast_S_S10000x64),
    TRef.binary (.of main_v18) main_call0.v0 main_call0.v1 (cmpf .ogt),
    TRef.nullary main_call0.cst_0 (constant S_ .f32 0x00000000#32),
    TRef.unary main_call0.cst_0 main_call0.v2 (broadcastInDim S10000x64 ![] bcast_S_S10000x64),
    TRef.binary (.of main_v18) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x64 ![] bcast_S_S10000x64),
    TRef.ternary main_call0.v3 main_call0.call0.v1 (.of main_v18) main_call0.call0.v2 select,
    TRef.unary main_call0.call0.v2 main_call0.v5 Host.expm1,
    TRef.nullary main_call0.cst_2 (constant S_ .f32 0x3F800000#32),
    TRef.unary main_call0.cst_2 main_call0.v6 (broadcastInDim S10000x64 ![] bcast_S_S10000x64),
    TRef.binary main_call0.v6 main_call0.v5 main_call0.v7 mulf,
    TRef.ternary main_call0.v1 (.of main_v18) main_call0.v7 main_call0.call1.v0 select,
    binary main_v19 main_arg8 main_v20 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    unary main_arg9 main_v21 (broadcastInDim S1x32 ![1] bcast_S32_S1x32_1 : (⟨S32, .f32⟩ : BufTy).Contents (Elt F) → (⟨S1x32, .f32⟩ : BufTy).Contents (Elt F)),
    unary main_v21 main_v22 (broadcastInDim S10000x32 ![0, 1] bcast_S1x32_S10000x32_0_1 : (⟨S1x32, .f32⟩ : BufTy).Contents (Elt F) → (⟨S10000x32, .f32⟩ : BufTy).Contents (Elt F)),
    binary main_v20 main_v22 main_v23 (addf : (⟨S10000x32, .f32⟩ : BufTy).Contents (Elt F) → (⟨S10000x32, .f32⟩ : BufTy).Contents (Elt F) → (⟨S10000x32, .f32⟩ : BufTy).Contents (Elt F)),
    unary main_arg12 main_v24 (broadcastInDim S1x32 ![1] bcast_S32_S1x32_1 : (⟨S32, .f32⟩ : BufTy).Contents (Elt F) → (⟨S1x32, .f32⟩ : BufTy).Contents (Elt F)),
    unary main_v24 main_v25 (broadcastInDim S10000x32 ![0, 1] bcast_S1x32_S10000x32_0_1 : (⟨S1x32, .f32⟩ : BufTy).Contents (Elt F) → (⟨S10000x32, .f32⟩ : BufTy).Contents (Elt F)),
    binary main_v23 main_v25 main_v26 (subf : (⟨S10000x32, .f32⟩ : BufTy).Contents (Elt F) → (⟨S10000x32, .f32⟩ : BufTy).Contents (Elt F) → (⟨S10000x32, .f32⟩ : BufTy).Contents (Elt F)),
    nullary main_cst_0 (constant S_ .f32 0x3A83126F#32),
    unary main_cst_0 main_v27 (broadcastInDim S32 ![] bcast_S_S32 : (⟨S_, .f32⟩ : BufTy).Contents (Elt F) → (⟨S32, .f32⟩ : BufTy).Contents (Elt F)),
    binary main_arg13 main_v27 main_v28 (addf : (⟨S32, .f32⟩ : BufTy).Contents (Elt F) → (⟨S32, .f32⟩ : BufTy).Contents (Elt F) → (⟨S32, .f32⟩ : BufTy).Contents (Elt F)),
    unary main_v28 main_v29 (Host.sqrt : (⟨S32, .f32⟩ : BufTy).Contents (Elt F) → (⟨S32, .f32⟩ : BufTy).Contents (Elt F)),
    unary main_v29 main_v30 (broadcastInDim S1x32 ![1] bcast_S32_S1x32_1 : (⟨S32, .f32⟩ : BufTy).Contents (Elt F) → (⟨S1x32, .f32⟩ : BufTy).Contents (Elt F)),
    unary main_v30 main_v31 (broadcastInDim S10000x32 ![0, 1] bcast_S1x32_S10000x32_0_1 : (⟨S1x32, .f32⟩ : BufTy).Contents (Elt F) → (⟨S10000x32, .f32⟩ : BufTy).Contents (Elt F)),
    binary main_v26 main_v31 main_v32 (Host.divf : (⟨S10000x32, .f32⟩ : BufTy).Contents (Elt F) → (⟨S10000x32, .f32⟩ : BufTy).Contents (Elt F) → (⟨S10000x32, .f32⟩ : BufTy).Contents (Elt F)),
    unary main_arg10 main_v33 (broadcastInDim S1x32 ![1] bcast_S32_S1x32_1 : (⟨S32, .f32⟩ : BufTy).Contents (Elt F) → (⟨S1x32, .f32⟩ : BufTy).Contents (Elt F)),
    unary main_v33 main_v34 (broadcastInDim S10000x32 ![0, 1] bcast_S1x32_S10000x32_0_1 : (⟨S1x32, .f32⟩ : BufTy).Contents (Elt F) → (⟨S10000x32, .f32⟩ : BufTy).Contents (Elt F)),
    binary main_v32 main_v34 main_v35 (mulf : (⟨S10000x32, .f32⟩ : BufTy).Contents (Elt F) → (⟨S10000x32, .f32⟩ : BufTy).Contents (Elt F) → (⟨S10000x32, .f32⟩ : BufTy).Contents (Elt F)),
    unary main_arg11 main_v36 (broadcastInDim S1x32 ![1] bcast_S32_S1x32_1 : (⟨S32, .f32⟩ : BufTy).Contents (Elt F) → (⟨S1x32, .f32⟩ : BufTy).Contents (Elt F)),
    unary main_v36 main_v37 (broadcastInDim S10000x32 ![0, 1] bcast_S1x32_S10000x32_0_1 : (⟨S1x32, .f32⟩ : BufTy).Contents (Elt F) → (⟨S10000x32, .f32⟩ : BufTy).Contents (Elt F)),
    binary main_v35 main_v37 main_v38 (addf : (⟨S10000x32, .f32⟩ : BufTy).Contents (Elt F) → (⟨S10000x32, .f32⟩ : BufTy).Contents (Elt F) → (⟨S10000x32, .f32⟩ : BufTy).Contents (Elt F)),
    TRef.nullary main_call1.cst (constant S_ .f32 0x00000000#32),
    TRef.unary main_call1.cst main_call1.v0 (broadcastInDim S10000x32 ![] bcast_S_S10000x32),
    TRef.binary (.of main_v38) main_call1.v0 main_call1.v1 (cmpf .ogt),
    TRef.nullary main_call1.cst_0 (constant S_ .f32 0x00000000#32),
    TRef.unary main_call1.cst_0 main_call1.v2 (broadcastInDim S10000x32 ![] bcast_S_S10000x32),
    TRef.binary (.of main_v38) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x32 ![] bcast_S_S10000x32),
    TRef.ternary main_call1.v3 main_call1.call0.v1 (.of main_v38) main_call1.call0.v2 select,
    TRef.unary main_call1.call0.v2 main_call1.v5 Host.expm1,
    TRef.nullary main_call1.cst_2 (constant S_ .f32 0x3F800000#32),
    TRef.unary main_call1.cst_2 main_call1.v6 (broadcastInDim S10000x32 ![] bcast_S_S10000x32),
    TRef.binary main_call1.v6 main_call1.v5 main_call1.v7 mulf,
    TRef.ternary main_call1.v1 (.of main_v38) main_call1.v7 main_call1.call1.v0 select,
    binary main_v39 main_arg14 main_v40 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    binary main_arg1 main_v40 main_v41 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    binary main_v41 main_arg15 main_v42 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    binary main_arg1 main_v42 main_v43 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    binary main_v41 main_arg16 main_v44 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    binary main_arg1 main_v44 main_v45 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    binary main_v39 main_v43 main_v46 ((fun a b => concatenate S10000x48 1 [⟨S10000x32, a⟩, ⟨S10000x16, b⟩] concatenates_S10000x32_S10000x16_S10000x48_d1) : (⟨S10000x32, .f32⟩ : BufTy).Contents (Elt F) → (⟨S10000x16, .f32⟩ : BufTy).Contents (Elt F) → (⟨S10000x48, .f32⟩ : BufTy).Contents (Elt F)),
    binary main_v46 main_arg17 main_v47 ((fun l r => Host.dotGeneral dot_S10000x48_S48x64_S10000x64_1_0_0_1_n_n none l r) : (⟨S10000x48, .f32⟩ : BufTy).Contents (Elt F) → (⟨S48x64, .f32⟩ : BufTy).Contents (Elt F) → (⟨S10000x64, .f32⟩ : BufTy).Contents (Elt F)),
    unary main_arg18 main_v48 (broadcastInDim S1x64 ![1] bcast_S64_S1x64_1 : (⟨S64, .f32⟩ : BufTy).Contents (Elt F) → (⟨S1x64, .f32⟩ : BufTy).Contents (Elt F)),
    unary main_v48 main_v49 (broadcastInDim S10000x64 ![0, 1] bcast_S1x64_S10000x64_0_1 : (⟨S1x64, .f32⟩ : BufTy).Contents (Elt F) → (⟨S10000x64, .f32⟩ : BufTy).Contents (Elt F)),
    binary main_v47 main_v49 main_v50 (addf : (⟨S10000x64, .f32⟩ : BufTy).Contents (Elt F) → (⟨S10000x64, .f32⟩ : BufTy).Contents (Elt F) → (⟨S10000x64, .f32⟩ : BufTy).Contents (Elt F)),
    unary main_arg21 main_v51 (broadcastInDim S1x64 ![1] bcast_S64_S1x64_1 : (⟨S64, .f32⟩ : BufTy).Contents (Elt F) → (⟨S1x64, .f32⟩ : BufTy).Contents (Elt F)),
    unary main_v51 main_v52 (broadcastInDim S10000x64 ![0, 1] bcast_S1x64_S10000x64_0_1 : (⟨S1x64, .f32⟩ : BufTy).Contents (Elt F) → (⟨S10000x64, .f32⟩ : BufTy).Contents (Elt F)),
    binary main_v50 main_v52 main_v53 (subf : (⟨S10000x64, .f32⟩ : BufTy).Contents (Elt F) → (⟨S10000x64, .f32⟩ : BufTy).Contents (Elt F) → (⟨S10000x64, .f32⟩ : BufTy).Contents (Elt F)),
    nullary main_cst_1 (constant S_ .f32 0x3A83126F#32),
    unary main_cst_1 main_v54 (broadcastInDim S64 ![] bcast_S_S64 : (⟨S_, .f32⟩ : BufTy).Contents (Elt F) → (⟨S64, .f32⟩ : BufTy).Contents (Elt F)),
    binary main_arg22 main_v54 main_v55 (addf : (⟨S64, .f32⟩ : BufTy).Contents (Elt F) → (⟨S64, .f32⟩ : BufTy).Contents (Elt F) → (⟨S64, .f32⟩ : BufTy).Contents (Elt F)),
    unary main_v55 main_v56 (Host.sqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S10000x64 ![0, 1] bcast_S1x64_S10000x64_0_1 : (⟨S1x64, .f32⟩ : BufTy).Contents (Elt F) → (⟨S10000x64, .f32⟩ : BufTy).Contents (Elt F)),
    binary main_v53 main_v58 main_v59 (Host.divf : (⟨S10000x64, .f32⟩ : BufTy).Contents (Elt F) → (⟨S10000x64, .f32⟩ : BufTy).Contents (Elt F) → (⟨S10000x64, .f32⟩ : BufTy).Contents (Elt F)),
    unary main_arg19 main_v60 (broadcastInDim S1x64 ![1] bcast_S64_S1x64_1 : (⟨S64, .f32⟩ : BufTy).Contents (Elt F) → (⟨S1x64, .f32⟩ : BufTy).Contents (Elt F)),
    unary main_v60 main_v61 (broadcastInDim S10000x64 ![0, 1] bcast_S1x64_S10000x64_0_1 : (⟨S1x64, .f32⟩ : BufTy).Contents (Elt F) → (⟨S10000x64, .f32⟩ : BufTy).Contents (Elt F)),
    binary main_v59 main_v61 main_v62 (mulf : (⟨S10000x64, .f32⟩ : BufTy).Contents (Elt F) → (⟨S10000x64, .f32⟩ : BufTy).Contents (Elt F) → (⟨S10000x64, .f32⟩ : BufTy).Contents (Elt F)),
    unary main_arg20 main_v63 (broadcastInDim S1x64 ![1] bcast_S64_S1x64_1 : (⟨S64, .f32⟩ : BufTy).Contents (Elt F) → (⟨S1x64, .f32⟩ : BufTy).Contents (Elt F)),
    unary main_v63 main_v64 (broadcastInDim S10000x64 ![0, 1] bcast_S1x64_S10000x64_0_1 : (⟨S1x64, .f32⟩ : BufTy).Contents (Elt F) → (⟨S10000x64, .f32⟩ : BufTy).Contents (Elt F)),
    binary main_v62 main_v64 main_v65 (addf : (⟨S10000x64, .f32⟩ : BufTy).Contents (Elt F) → (⟨S10000x64, .f32⟩ : BufTy).Contents (Elt F) → (⟨S10000x64, .f32⟩ : BufTy).Contents (Elt F)),
    TRef.nullary main_call2.cst (constant S_ .f32 0x00000000#32),
    TRef.unary main_call2.cst main_call2.v0 (broadcastInDim S10000x64 ![] bcast_S_S10000x64),
    TRef.binary (.of main_v65) main_call2.v0 main_call2.v1 (cmpf .ogt),
    TRef.nullary main_call2.cst_0 (constant S_ .f32 0x00000000#32),
    TRef.unary main_call2.cst_0 main_call2.v2 (broadcastInDim S10000x64 ![] bcast_S_S10000x64),
    TRef.binary (.of main_v65) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S10000x64 ![] bcast_S_S10000x64),
    TRef.ternary main_call2.v3 main_call2.call0.v1 (.of main_v65) main_call2.call0.v2 select,
    TRef.unary main_call2.call0.v2 main_call2.v5 Host.expm1,
    TRef.nullary main_call2.cst_2 (constant S_ .f32 0x3F800000#32),
    TRef.unary main_call2.cst_2 main_call2.v6 (broadcastInDim S10000x64 ![] bcast_S_S10000x64),
    TRef.binary main_call2.v6 main_call2.v5 main_call2.v7 mulf,
    TRef.ternary main_call2.v1 (.of main_v65) main_call2.v7 main_call2.call1.v0 select,
    binary main_v66 main_arg23 main_v67 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    unary main_arg24 main_v68 (broadcastInDim S1x128 ![1] bcast_S128_S1x128_1 : (⟨S128, .f32⟩ : BufTy).Contents (Elt F) → (⟨S1x128, .f32⟩ : BufTy).Contents (Elt F)),
    unary main_v68 main_v69 (broadcastInDim S10000x128 ![0, 1] bcast_S1x128_S10000x128_0_1 : (⟨S1x128, .f32⟩ : BufTy).Contents (Elt F) → (⟨S10000x128, .f32⟩ : BufTy).Contents (Elt F)),
    binary main_v67 main_v69 main_v70 (addf : (⟨S10000x128, .f32⟩ : BufTy).Contents (Elt F) → (⟨S10000x128, .f32⟩ : BufTy).Contents (Elt F) → (⟨S10000x128, .f32⟩ : BufTy).Contents (Elt F)),
    unary main_arg27 main_v71 (broadcastInDim S1x128 ![1] bcast_S128_S1x128_1 : (⟨S128, .f32⟩ : BufTy).Contents (Elt F) → (⟨S1x128, .f32⟩ : BufTy).Contents (Elt F)),
    unary main_v71 main_v72 (broadcastInDim S10000x128 ![0, 1] bcast_S1x128_S10000x128_0_1 : (⟨S1x128, .f32⟩ : BufTy).Contents (Elt F) → (⟨S10000x128, .f32⟩ : BufTy).Contents (Elt F)),
    binary main_v70 main_v72 main_v73 (subf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x3A83126F#32),
    unary main_cst_2 main_v74 (broadcastInDim S128 ![] bcast_S_S128 : (⟨S_, .f32⟩ : BufTy).Contents (Elt F) → (⟨S128, .f32⟩ : BufTy).Contents (Elt F)),
    binary main_arg28 main_v74 main_v75 (addf : (⟨S128, .f32⟩ : BufTy).Contents (Elt F) → (⟨S128, .f32⟩ : BufTy).Contents (Elt F) → (⟨S128, .f32⟩ : BufTy).Contents (Elt F)),
    unary main_v75 main_v76 (Host.sqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S10000x128 ![0, 1] bcast_S1x128_S10000x128_0_1 : (⟨S1x128, .f32⟩ : BufTy).Contents (Elt F) → (⟨S10000x128, .f32⟩ : BufTy).Contents (Elt F)),
    binary main_v73 main_v78 main_v79 (Host.divf : (⟨S10000x128, .f32⟩ : BufTy).Contents (Elt F) → (⟨S10000x128, .f32⟩ : BufTy).Contents (Elt F) → (⟨S10000x128, .f32⟩ : BufTy).Contents (Elt F)),
    unary main_arg25 main_v80 (broadcastInDim S1x128 ![1] bcast_S128_S1x128_1 : (⟨S128, .f32⟩ : BufTy).Contents (Elt F) → (⟨S1x128, .f32⟩ : BufTy).Contents (Elt F)),
    unary main_v80 main_v81 (broadcastInDim S10000x128 ![0, 1] bcast_S1x128_S10000x128_0_1 : (⟨S1x128, .f32⟩ : BufTy).Contents (Elt F) → (⟨S10000x128, .f32⟩ : BufTy).Contents (Elt F)),
    binary main_v79 main_v81 main_v82 (mulf : (⟨S10000x128, .f32⟩ : BufTy).Contents (Elt F) → (⟨S10000x128, .f32⟩ : BufTy).Contents (Elt F) → (⟨S10000x128, .f32⟩ : BufTy).Contents (Elt F)),
    unary main_arg26 main_v83 (broadcastInDim S1x128 ![1] bcast_S128_S1x128_1 : (⟨S128, .f32⟩ : BufTy).Contents (Elt F) → (⟨S1x128, .f32⟩ : BufTy).Contents (Elt F)),
    unary main_v83 main_v84 (broadcastInDim S10000x128 ![0, 1] bcast_S1x128_S10000x128_0_1 : (⟨S1x128, .f32⟩ : BufTy).Contents (Elt F) → (⟨S10000x128, .f32⟩ : BufTy).Contents (Elt F)),
    binary main_v82 main_v84 main_v85 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v85) main_call3.v0 main_call3.v1 maximumf ]

set_option maxRecDepth 8192 in
set_option maxHeartbeats 4000000 in
/-- @main is that straight line: the two windows and the called functions unfolded, the sequencing reassociated. -/
theorem main_eq (c : Dev nD) : main (F := F) c = seq ops := by
  simp only [main, main_part0, main_part1, fn_elu.body, fn_elu_1.body, fn_relu.body, fn_where.body, fn_where_0.body,
    fn_where_2.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., binary_bufs_sub ..,
    binary_bufs_sub .., binary_bufs_sub .., binary_bufs_sub .., binary_bufs_sub .., binary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

/-- From any memory with zero counters, for any float values: every weakly fair execution of @main terminates, and
    every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefStages.lean ====
/-
  The host's operations, stage by stage, as the specification's functions (at the exact instance).

  A plain matrix product is the entry-wise sum; a vector broadcast to a row and then to every row, added, subtracted,
  divided and multiplied entry by entry, is the normalisation by stored column statistics; the selection between an
  entry and the exponential-minus-one of the entry-or-zero is the exponential linear unit; the maximum with the zero
  array is the rectifier; two arrays concatenated along the second axis are the two side by side.
-/
import proofs.«133634_g45492293599347_cont_8to1c4_324_9_alg».proof.Proof.Spec
import proofs.«133634_g45492293599347_cont_8to1c4_324_9_alg».proof.Proof.LibDense
import proofs.«133634_g45492293599347_cont_8to1c4_324_9_alg».proof.Proof.LibRowBias
import proofs.«133634_g45492293599347_cont_8to1c4_324_9_alg».proof.Proof.LibAt2
import Idealize.ShloMosaic.Lib.IdealHost

noncomputable section

namespace Cert.RefSide

open Idealize.ShloMosaic Idealize.ShloMosaic.ValueIdx Cert.Spec

variable {M K N : ℕ}

/-! ## The matrix product -/

/-- The host's plain product is the specification's. -/
theorem hostDot_eq (x : FVec Ideal ⟨2, ![M, K]⟩ .f32) (w : FVec Ideal ⟨2, ![K, N]⟩ .f32) :
    Host.dotGeneral (DotDims.plain M K N) none x w = dense x w := by
  funext j
  obtain ⟨p, q, rfl⟩ : ∃ (p : Fin M) (q : Fin N), j = ix2 p q := ⟨j 0, j 1, eq_ix2 j⟩
  rw [dense_ix2]
  exact Cert.LibDense.plain_dotGeneral_apply none .single x w p q

/-- The same for a record of dimension numbers that is the plain one. -/
theorem hostDot_eq' (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) :
    Host.dotGeneral d none x w = dense x w := by
  subst hd
  exact hostDot_eq x w

/-! ## The bias row and the normalisation -/

/-- The host's term for the bias row and the normalisation of a matrix `D`: each vector broadcast to a row and then
    to every row; the variance plus the small constant, its square root, broadcast likewise. -/
def hostNorm (D : FVec Ideal ⟨2, ![M, N]⟩ .f32) (b g be rm rv : FVec Ideal ⟨1, ![N]⟩ .f32)
    (h0 : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1]) : FVec Ideal ⟨2, ![M, N]⟩ .f32 :=
  addf (mulf (Host.divf
          (subf (addf D (broadcastInDim ⟨2, ![M, N]⟩ ![0, 1] h2 (broadcastInDim ⟨2, ![1, N]⟩ ![1] h1 b)))
            (broadcastInDim ⟨2, ![M, N]⟩ ![0, 1] h2 (broadcastInDim ⟨2, ![1, N]⟩ ![1] h1 rm)))
          (broadcastInDim ⟨2, ![M, N]⟩ ![0, 1] h2 (broadcastInDim ⟨2, ![1, N]⟩ ![1] h1
            (Host.sqrt (addf rv (broadcastInDim ⟨1, ![N]⟩ ![] h0 (constant (F := Ideal) ⟨0, ![]⟩ .f32 0x3A83126F#32)))))))
        (broadcastInDim ⟨2, ![M, N]⟩ ![0, 1] h2 (broadcastInDim ⟨2, ![1, N]⟩ ![1] h1 g)))
    (broadcastInDim ⟨2, ![M, N]⟩ ![0, 1] h2 (broadcastInDim ⟨2, ![1, N]⟩ ![1] h1 be))

theorem hostNorm_eq (D : FVec Ideal ⟨2, ![M, N]⟩ .f32) (b g be rm rv : FVec Ideal ⟨1, ![N]⟩ .f32)
    (h0 : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1]) :
    hostNorm D b g be rm rv h0 h1 h2 = norm (addRow D b) g be rm rv := by
  funext j
  obtain ⟨p, q, rfl⟩ : ∃ (p : Fin M) (q : Fin N), j = ix2 p q := ⟨j 0, j 1, eq_ix2 j⟩
  rw [norm_ix2, addRow_ix2]
  unfold hostNorm
  simp only [addf_apply, mulf_apply, hostDivf_apply, subf_apply]
  rw [Cert.LibRowBias.bcast_row_apply b h1 h2 p q, Cert.LibRowBias.bcast_row_apply rm h1 h2 p q,
    Cert.LibRowBias.bcast_row_apply g h1 h2 p q, Cert.LibRowBias.bcast_row_apply be h1 h2 p q,
    Cert.LibRowBias.bcast_row_apply _ h1 h2 p q]
  rfl

/-! ## The exponential linear unit and the rectifier -/

/-- The host's term for the exponential linear unit of an array `y`. -/
def hostElu {S : Shape} (y : FVec Ideal S .f32) (h : (⟨0, ![]⟩ : Shape).BroadcastsInDim S ![]) : FVec Ideal S .f32 :=
  select (cmpf .ogt y (broadcastInDim S ![] h (constant (F := Ideal) ⟨0, ![]⟩ .f32 0x00000000#32))) y
    (mulf (broadcastInDim S ![] h (constant (F := Ideal) ⟨0, ![]⟩ .f32 0x3F800000#32))
      (Host.expm1 (select (cmpf .ogt y (broadcastInDim S ![] h (constant (F := Ideal) ⟨0, ![]⟩ .f32 0x00000000#32)))
        (broadcastInDim S ![] h (id (constant (F := Ideal) ⟨0, ![]⟩ .f32 0x00000000#32))) y)))

theorem hostElu_apply {S : Shape} (y : FVec Ideal S .f32) (h : (⟨0, ![]⟩ : Shape).BroadcastsInDim S ![]) (j : S.Idx) :
    hostElu y h j = elu (y j) := by
  show Scalar.select (FloatOps.cmpf (F := Ideal) (φ := .f32) .ogt (y j) (Ideal.ofBits .f32 0x00000000#32)) (y j)
      (Ideal.ofBits .f32 0x3F800000#32 * FloatOps.hostUnary (F := Ideal) (φ := .f32) .expm1
        (Scalar.select (FloatOps.cmpf (F := Ideal) (φ := .f32) .ogt (y j) (Ideal.ofBits .f32 0x00000000#32))
          (Ideal.ofBits .f32 0x00000000#32) (y j))) = _
  rw [Ideal.ofBits_zero_f32, Ideal.ofBits_one_f32, one_mul]
  unfold elu
  by_cases hc : FloatOps.cmpf (F := Ideal) (φ := .f32) .ogt (y j) (0 : EReal) = 1#1
  · rw [hc, select_one, select_one]
  · rw [eq_zero_of_ne_one hc, select_zero, select_zero, select_zero, Ideal.hostUnary_expm1_def]

theorem hostElu_eq {S : Shape} (y : FVec Ideal S .f32) (h : (⟨0, ![]⟩ : Shape).BroadcastsInDim S ![]) :
    hostElu y h = fun j => elu (y j) := funext (hostElu_apply y h)

/-- The host's term for the rectifier of an array `y`. -/
def hostRelu {S : Shape} (y : FVec Ideal S .f32) (h : (⟨0, ![]⟩ : Shape).BroadcastsInDim S ![]) : FVec Ideal S .f32 :=
  maximumf y (broadcastInDim S ![] h (constant (F := Ideal) ⟨0, ![]⟩ .f32 0x00000000#32))

theorem hostRelu_eq {S : Shape} (y : FVec Ideal S .f32) (h : (⟨0, ![]⟩ : Shape).BroadcastsInDim S ![]) :
    hostRelu y h = fun j => max (y j) 0 := by
  funext j
  show max (y j) (Ideal.ofBits .f32 0x00000000#32) = _
  rw [Ideal.ofBits_zero_f32]

/-! ## The dense layers -/

/-- A dense layer ending in the exponential unit, as the host computes it. -/
theorem hostLayer_eq (x : FVec Ideal ⟨2, ![M, K]⟩ .f32) (w : FVec Ideal ⟨2, ![K, N]⟩ .f32)
    (b g be rm rv : FVec Ideal ⟨1, ![N]⟩ .f32)
    (h0 : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hS : (⟨0, ![]⟩ : Shape).BroadcastsInDim ⟨2, ![M, N]⟩ ![]) :
    hostElu (hostNorm (Host.dotGeneral (DotDims.plain M K N) none x w) b g be rm rv h0 h1 h2) hS
      = layer x w b g be rm rv := by
  rw [hostElu_eq, hostNorm_eq, hostDot_eq]
  rfl

/-- A dense layer ending in the rectifier, as the host computes it. -/
theorem hostLayerRelu_eq (x : FVec Ideal ⟨2, ![M, K]⟩ .f32) (w : FVec Ideal ⟨2, ![K, N]⟩ .f32)
    (b g be rm rv : FVec Ideal ⟨1, ![N]⟩ .f32)
    (h0 : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hS : (⟨0, ![]⟩ : Shape).BroadcastsInDim ⟨2, ![M, N]⟩ ![]) :
    hostRelu (hostNorm (Host.dotGeneral (DotDims.plain M K N) none x w) b g be rm rv h0 h1 h2) hS
      = layerRelu x w b g be rm rv := by
  rw [hostRelu_eq, hostNorm_eq, hostDot_eq]
  rfl

/-! ## Two arrays side by side -/

/-- The host's concatenation of two arrays along the second axis is the two side by side. -/
theorem hostCat_eq {A B : ℕ} (a : FVec Ideal ⟨2, ![M, A]⟩ .f32) (b : FVec Ideal ⟨2, ![M, B]⟩ .f32)
    (h : Shape.Concatenates [(⟨2, ![M, A]⟩ : Shape), ⟨2, ![M, B]⟩] ⟨2, ![M, A + B]⟩ 1) :
    concatenate ⟨2, ![M, A + B]⟩ 1 [⟨⟨2, ![M, A]⟩, a⟩, ⟨⟨2, ![M, B]⟩, b⟩] h = hcat a b := by
  funext j
  obtain ⟨p, q, rfl⟩ : ∃ (p : Fin M) (q : Fin (A + B)), j = ix2 p q := ⟨j 0, j 1, eq_ix2 j⟩
  by_cases hq : q.val < A
  · rw [hcat_left _ _ _ _ hq]
    exact Cert.LibAt2.cat1_at ([⟨⟨2, ![M, A]⟩, a⟩, ⟨⟨2, ![M, B]⟩, b⟩] : List ((s : Shape) × (s.Idx → EReal))) h p q 0
      (by simp) A a rfl 0 rfl ⟨q.val, hq⟩ (by simp)
  · rw [hcat_right _ _ _ _ hq]
    exact Cert.LibAt2.cat1_at ([⟨⟨2, ![M, A]⟩, a⟩, ⟨⟨2, ![M, B]⟩, b⟩] : List ((s : Shape) × (s.Idx → EReal))) h p q 1
      (by simp) B b rfl A (by simp) ⟨q.val - A, by have := q.isLt; omega⟩ (by show A + (q.val - A) = q.val; omega)

end Cert.RefSide

end
-- ==== Proof.LibTRef.lean ====
/-
  Contents moved to a typed reference's buffer type and back are the contents: the two transports along the reference's
  type equation cancel, whatever the reference.
-/
import Idealize.ShloMosaic.Lib.StableHlo

noncomputable section

namespace Cert.LibTRef

open Idealize.ShloMosaic Idealize.ShloMosaic.StableHlo

variable {sig : RefSig} {Val : EltTy → Type} {T : BufTy}

/-- From the value's type to the buffer's and back. -/
theorem ofBuf_toBuf (x : TRef sig T) (v : T.Contents Val) : x.ofBuf (x.toBuf v) = v := by
  obtain ⟨r, h, h2, h3⟩ := x
  subst h
  rfl

/-- From the buffer's type to the value's and back. -/
theorem toBuf_ofBuf (x : TRef sig T) (v : x.ref.ty.Contents Val) : x.toBuf (x.ofBuf v) = v := by
  obtain ⟨r, h, h2, h3⟩ := x
  subst h
  rfl

end Cert.LibTRef

end
-- ==== Proof.RefSegs.lean ====
import proofs.«133634_g45492293599347_cont_8to1c4_324_9_alg».proof.Proof.RefRun
import proofs.«133634_g45492293599347_cont_8to1c4_324_9_alg».proof.Proof.RefStages
import proofs.«133634_g45492293599347_cont_8to1c4_324_9_alg».proof.Proof.LibTRef

noncomputable section

/-
  The reference's straight line cut into five stretches — the first dense layer, the second, the graph layers with
  the concatenation, the decoder's first layer, its last — and what each stretch leaves in its result buffers as the
  specification's function of what it found in its operand buffers; every other buffer a later stretch or the
  result reads is left as it was.
-/
namespace Cert.RefSide

open Cert.ReferenceIdeal Cert.ReferenceIdeal.Gen Idealize.ShloMosaic Idealize.ShloMosaic.TcCoe Idealize.SL.Sem Idealize.ShloMosaic.StableHlo

section
variable {F : FTy → Type} [FloatOps F]

/-- Operations 1 … 35 of @main. -/
def seg1 : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S10000x64 ![0, 1] bcast_S1x64_S10000x64_0_1 : (⟨S1x64, .f32⟩ : BufTy).Contents (Elt F) → (⟨S10000x64, .f32⟩ : BufTy).Contents (Elt F)),
    binary main_v0 main_v2 main_v3 (addf : (⟨S10000x64, .f32⟩ : BufTy).Contents (Elt F) → (⟨S10000x64, .f32⟩ : BufTy).Contents (Elt F) → (⟨S10000x64, .f32⟩ : BufTy).Contents (Elt F)),
    unary main_arg6 main_v4 (broadcastInDim S1x64 ![1] bcast_S64_S1x64_1 : (⟨S64, .f32⟩ : BufTy).Contents (Elt F) → (⟨S1x64, .f32⟩ : BufTy).Contents (Elt F)),
    unary main_v4 main_v5 (broadcastInDim S10000x64 ![0, 1] bcast_S1x64_S10000x64_0_1 : (⟨S1x64, .f32⟩ : BufTy).Contents (Elt F) → (⟨S10000x64, .f32⟩ : BufTy).Contents (Elt F)),
    binary main_v3 main_v5 main_v6 (subf : (⟨S10000x64, .f32⟩ : BufTy).Contents (Elt F) → (⟨S10000x64, .f32⟩ : BufTy).Contents (Elt F) → (⟨S10000x64, .f32⟩ : BufTy).Contents (Elt F)),
    nullary main_cst (constant S_ .f32 0x3A83126F#32),
    unary main_cst main_v7 (broadcastInDim S64 ![] bcast_S_S64 : (⟨S_, .f32⟩ : BufTy).Contents (Elt F) → (⟨S64, .f32⟩ : BufTy).Contents (Elt F)),
    binary main_arg7 main_v7 main_v8 (addf : (⟨S64, .f32⟩ : BufTy).Contents (Elt F) → (⟨S64, .f32⟩ : BufTy).Contents (Elt F) → (⟨S64, .f32⟩ : BufTy).Contents (Elt F)),
    unary main_v8 main_v9 (Host.sqrt : (⟨S64, .f32⟩ : BufTy).Contents (Elt F) → (⟨S64, .f32⟩ : BufTy).Contents (Elt F)),
    unary main_v9 main_v10 (broadcastInDim S1x64 ![1] bcast_S64_S1x64_1 : (⟨S64, .f32⟩ : BufTy).Contents (Elt F) → (⟨S1x64, .f32⟩ : BufTy).Contents (Elt F)),
    unary main_v10 main_v11 (broadcastInDim S10000x64 ![0, 1] bcast_S1x64_S10000x64_0_1 : (⟨S1x64, .f32⟩ : BufTy).Contents (Elt F) → (⟨S10000x64, .f32⟩ : BufTy).Contents (Elt F)),
    binary main_v6 main_v11 main_v12 (Host.divf : (⟨S10000x64, .f32⟩ : BufTy).Contents (Elt F) → (⟨S10000x64, .f32⟩ : BufTy).Contents (Elt F) → (⟨S10000x64, .f32⟩ : BufTy).Contents (Elt F)),
    unary main_arg4 main_v13 (broadcastInDim S1x64 ![1] bcast_S64_S1x64_1 : (⟨S64, .f32⟩ : BufTy).Contents (Elt F) → (⟨S1x64, .f32⟩ : BufTy).Contents (Elt F)),
    unary main_v13 main_v14 (broadcastInDim S10000x64 ![0, 1] bcast_S1x64_S10000x64_0_1 : (⟨S1x64, .f32⟩ : BufTy).Contents (Elt F) → (⟨S10000x64, .f32⟩ : BufTy).Contents (Elt F)),
    binary main_v12 main_v14 main_v15 (mulf : (⟨S10000x64, .f32⟩ : BufTy).Contents (Elt F) → (⟨S10000x64, .f32⟩ : BufTy).Contents (Elt F) → (⟨S10000x64, .f32⟩ : BufTy).Contents (Elt F)),
    unary main_arg5 main_v16 (broadcastInDim S1x64 ![1] bcast_S64_S1x64_1 : (⟨S64, .f32⟩ : BufTy).Contents (Elt F) → (⟨S1x64, .f32⟩ : BufTy).Contents (Elt F)),
    unary main_v16 main_v17 (broadcastInDim S10000x64 ![0, 1] bcast_S1x64_S10000x64_0_1 : (⟨S1x64, .f32⟩ : BufTy).Contents (Elt F) → (⟨S10000x64, .f32⟩ : BufTy).Contents (Elt F)),
    binary main_v15 main_v17 main_v18 (addf : (⟨S10000x64, .f32⟩ : BufTy).Contents (Elt F) → (⟨S10000x64, .f32⟩ : BufTy).Contents (Elt F) → (⟨S10000x64, .f32⟩ : BufTy).Contents (Elt F)),
    TRef.nullary main_call0.cst (constant S_ .f32 0x00000000#32),
    TRef.unary main_call0.cst main_call0.v0 (broadcastInDim S10000x64 ![] bcast_S_S10000x64),
    TRef.binary (.of main_v18) main_call0.v0 main_call0.v1 (cmpf .ogt),
    TRef.nullary main_call0.cst_0 (constant S_ .f32 0x00000000#32),
    TRef.unary main_call0.cst_0 main_call0.v2 (broadcastInDim S10000x64 ![] bcast_S_S10000x64),
    TRef.binary (.of main_v18) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x64 ![] bcast_S_S10000x64),
    TRef.ternary main_call0.v3 main_call0.call0.v1 (.of main_v18) main_call0.call0.v2 select,
    TRef.unary main_call0.call0.v2 main_call0.v5 Host.expm1,
    TRef.nullary main_call0.cst_2 (constant S_ .f32 0x3F800000#32),
    TRef.unary main_call0.cst_2 main_call0.v6 (broadcastInDim S10000x64 ![] bcast_S_S10000x64),
    TRef.binary main_call0.v6 main_call0.v5 main_call0.v7 mulf,
    TRef.ternary main_call0.v1 (.of main_v18) main_call0.v7 main_call0.call1.v0 select ]

/-- Operations 36 … 70 of @main. -/
def seg2 : List (HloOp τ sig (Elt F)) :=
  [ binary main_v19 main_arg8 main_v20 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    unary main_arg9 main_v21 (broadcastInDim S1x32 ![1] bcast_S32_S1x32_1 : (⟨S32, .f32⟩ : BufTy).Contents (Elt F) → (⟨S1x32, .f32⟩ : BufTy).Contents (Elt F)),
    unary main_v21 main_v22 (broadcastInDim S10000x32 ![0, 1] bcast_S1x32_S10000x32_0_1 : (⟨S1x32, .f32⟩ : BufTy).Contents (Elt F) → (⟨S10000x32, .f32⟩ : BufTy).Contents (Elt F)),
    binary main_v20 main_v22 main_v23 (addf : (⟨S10000x32, .f32⟩ : BufTy).Contents (Elt F) → (⟨S10000x32, .f32⟩ : BufTy).Contents (Elt F) → (⟨S10000x32, .f32⟩ : BufTy).Contents (Elt F)),
    unary main_arg12 main_v24 (broadcastInDim S1x32 ![1] bcast_S32_S1x32_1 : (⟨S32, .f32⟩ : BufTy).Contents (Elt F) → (⟨S1x32, .f32⟩ : BufTy).Contents (Elt F)),
    unary main_v24 main_v25 (broadcastInDim S10000x32 ![0, 1] bcast_S1x32_S10000x32_0_1 : (⟨S1x32, .f32⟩ : BufTy).Contents (Elt F) → (⟨S10000x32, .f32⟩ : BufTy).Contents (Elt F)),
    binary main_v23 main_v25 main_v26 (subf : (⟨S10000x32, .f32⟩ : BufTy).Contents (Elt F) → (⟨S10000x32, .f32⟩ : BufTy).Contents (Elt F) → (⟨S10000x32, .f32⟩ : BufTy).Contents (Elt F)),
    nullary main_cst_0 (constant S_ .f32 0x3A83126F#32),
    unary main_cst_0 main_v27 (broadcastInDim S32 ![] bcast_S_S32 : (⟨S_, .f32⟩ : BufTy).Contents (Elt F) → (⟨S32, .f32⟩ : BufTy).Contents (Elt F)),
    binary main_arg13 main_v27 main_v28 (addf : (⟨S32, .f32⟩ : BufTy).Contents (Elt F) → (⟨S32, .f32⟩ : BufTy).Contents (Elt F) → (⟨S32, .f32⟩ : BufTy).Contents (Elt F)),
    unary main_v28 main_v29 (Host.sqrt : (⟨S32, .f32⟩ : BufTy).Contents (Elt F) → (⟨S32, .f32⟩ : BufTy).Contents (Elt F)),
    unary main_v29 main_v30 (broadcastInDim S1x32 ![1] bcast_S32_S1x32_1 : (⟨S32, .f32⟩ : BufTy).Contents (Elt F) → (⟨S1x32, .f32⟩ : BufTy).Contents (Elt F)),
    unary main_v30 main_v31 (broadcastInDim S10000x32 ![0, 1] bcast_S1x32_S10000x32_0_1 : (⟨S1x32, .f32⟩ : BufTy).Contents (Elt F) → (⟨S10000x32, .f32⟩ : BufTy).Contents (Elt F)),
    binary main_v26 main_v31 main_v32 (Host.divf : (⟨S10000x32, .f32⟩ : BufTy).Contents (Elt F) → (⟨S10000x32, .f32⟩ : BufTy).Contents (Elt F) → (⟨S10000x32, .f32⟩ : BufTy).Contents (Elt F)),
    unary main_arg10 main_v33 (broadcastInDim S1x32 ![1] bcast_S32_S1x32_1 : (⟨S32, .f32⟩ : BufTy).Contents (Elt F) → (⟨S1x32, .f32⟩ : BufTy).Contents (Elt F)),
    unary main_v33 main_v34 (broadcastInDim S10000x32 ![0, 1] bcast_S1x32_S10000x32_0_1 : (⟨S1x32, .f32⟩ : BufTy).Contents (Elt F) → (⟨S10000x32, .f32⟩ : BufTy).Contents (Elt F)),
    binary main_v32 main_v34 main_v35 (mulf : (⟨S10000x32, .f32⟩ : BufTy).Contents (Elt F) → (⟨S10000x32, .f32⟩ : BufTy).Contents (Elt F) → (⟨S10000x32, .f32⟩ : BufTy).Contents (Elt F)),
    unary main_arg11 main_v36 (broadcastInDim S1x32 ![1] bcast_S32_S1x32_1 : (⟨S32, .f32⟩ : BufTy).Contents (Elt F) → (⟨S1x32, .f32⟩ : BufTy).Contents (Elt F)),
    unary main_v36 main_v37 (broadcastInDim S10000x32 ![0, 1] bcast_S1x32_S10000x32_0_1 : (⟨S1x32, .f32⟩ : BufTy).Contents (Elt F) → (⟨S10000x32, .f32⟩ : BufTy).Contents (Elt F)),
    binary main_v35 main_v37 main_v38 (addf : (⟨S10000x32, .f32⟩ : BufTy).Contents (Elt F) → (⟨S10000x32, .f32⟩ : BufTy).Contents (Elt F) → (⟨S10000x32, .f32⟩ : BufTy).Contents (Elt F)),
    TRef.nullary main_call1.cst (constant S_ .f32 0x00000000#32),
    TRef.unary main_call1.cst main_call1.v0 (broadcastInDim S10000x32 ![] bcast_S_S10000x32),
    TRef.binary (.of main_v38) main_call1.v0 main_call1.v1 (cmpf .ogt),
    TRef.nullary main_call1.cst_0 (constant S_ .f32 0x00000000#32),
    TRef.unary main_call1.cst_0 main_call1.v2 (broadcastInDim S10000x32 ![] bcast_S_S10000x32),
    TRef.binary (.of main_v38) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x32 ![] bcast_S_S10000x32),
    TRef.ternary main_call1.v3 main_call1.call0.v1 (.of main_v38) main_call1.call0.v2 select,
    TRef.unary main_call1.call0.v2 main_call1.v5 Host.expm1,
    TRef.nullary main_call1.cst_2 (constant S_ .f32 0x3F800000#32),
    TRef.unary main_call1.cst_2 main_call1.v6 (broadcastInDim S10000x32 ![] bcast_S_S10000x32),
    TRef.binary main_call1.v6 main_call1.v5 main_call1.v7 mulf,
    TRef.ternary main_call1.v1 (.of main_v38) main_call1.v7 main_call1.call1.v0 select ]

/-- Operations 71 … 77 of @main. -/
def seg3 : List (HloOp τ sig (Elt F)) :=
  [ binary main_v39 main_arg14 main_v40 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    binary main_arg1 main_v40 main_v41 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    binary main_v41 main_arg15 main_v42 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    binary main_arg1 main_v42 main_v43 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    binary main_v41 main_arg16 main_v44 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    binary main_arg1 main_v44 main_v45 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    binary main_v39 main_v43 main_v46 ((fun a b => concatenate S10000x48 1 [⟨S10000x32, a⟩, ⟨S10000x16, b⟩] concatenates_S10000x32_S10000x16_S10000x48_d1) : (⟨S10000x32, .f32⟩ : BufTy).Contents (Elt F) → (⟨S10000x16, .f32⟩ : BufTy).Contents (Elt F) → (⟨S10000x48, .f32⟩ : BufTy).Contents (Elt F)) ]

/-- Operations 78 … 112 of @main. -/
def seg4 : List (HloOp τ sig (Elt F)) :=
  [ binary main_v46 main_arg17 main_v47 ((fun l r => Host.dotGeneral dot_S10000x48_S48x64_S10000x64_1_0_0_1_n_n none l r) : (⟨S10000x48, .f32⟩ : BufTy).Contents (Elt F) → (⟨S48x64, .f32⟩ : BufTy).Contents (Elt F) → (⟨S10000x64, .f32⟩ : BufTy).Contents (Elt F)),
    unary main_arg18 main_v48 (broadcastInDim S1x64 ![1] bcast_S64_S1x64_1 : (⟨S64, .f32⟩ : BufTy).Contents (Elt F) → (⟨S1x64, .f32⟩ : BufTy).Contents (Elt F)),
    unary main_v48 main_v49 (broadcastInDim S10000x64 ![0, 1] bcast_S1x64_S10000x64_0_1 : (⟨S1x64, .f32⟩ : BufTy).Contents (Elt F) → (⟨S10000x64, .f32⟩ : BufTy).Contents (Elt F)),
    binary main_v47 main_v49 main_v50 (addf : (⟨S10000x64, .f32⟩ : BufTy).Contents (Elt F) → (⟨S10000x64, .f32⟩ : BufTy).Contents (Elt F) → (⟨S10000x64, .f32⟩ : BufTy).Contents (Elt F)),
    unary main_arg21 main_v51 (broadcastInDim S1x64 ![1] bcast_S64_S1x64_1 : (⟨S64, .f32⟩ : BufTy).Contents (Elt F) → (⟨S1x64, .f32⟩ : BufTy).Contents (Elt F)),
    unary main_v51 main_v52 (broadcastInDim S10000x64 ![0, 1] bcast_S1x64_S10000x64_0_1 : (⟨S1x64, .f32⟩ : BufTy).Contents (Elt F) → (⟨S10000x64, .f32⟩ : BufTy).Contents (Elt F)),
    binary main_v50 main_v52 main_v53 (subf : (⟨S10000x64, .f32⟩ : BufTy).Contents (Elt F) → (⟨S10000x64, .f32⟩ : BufTy).Contents (Elt F) → (⟨S10000x64, .f32⟩ : BufTy).Contents (Elt F)),
    nullary main_cst_1 (constant S_ .f32 0x3A83126F#32),
    unary main_cst_1 main_v54 (broadcastInDim S64 ![] bcast_S_S64 : (⟨S_, .f32⟩ : BufTy).Contents (Elt F) → (⟨S64, .f32⟩ : BufTy).Contents (Elt F)),
    binary main_arg22 main_v54 main_v55 (addf : (⟨S64, .f32⟩ : BufTy).Contents (Elt F) → (⟨S64, .f32⟩ : BufTy).Contents (Elt F) → (⟨S64, .f32⟩ : BufTy).Contents (Elt F)),
    unary main_v55 main_v56 (Host.sqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S10000x64 ![0, 1] bcast_S1x64_S10000x64_0_1 : (⟨S1x64, .f32⟩ : BufTy).Contents (Elt F) → (⟨S10000x64, .f32⟩ : BufTy).Contents (Elt F)),
    binary main_v53 main_v58 main_v59 (Host.divf : (⟨S10000x64, .f32⟩ : BufTy).Contents (Elt F) → (⟨S10000x64, .f32⟩ : BufTy).Contents (Elt F) → (⟨S10000x64, .f32⟩ : BufTy).Contents (Elt F)),
    unary main_arg19 main_v60 (broadcastInDim S1x64 ![1] bcast_S64_S1x64_1 : (⟨S64, .f32⟩ : BufTy).Contents (Elt F) → (⟨S1x64, .f32⟩ : BufTy).Contents (Elt F)),
    unary main_v60 main_v61 (broadcastInDim S10000x64 ![0, 1] bcast_S1x64_S10000x64_0_1 : (⟨S1x64, .f32⟩ : BufTy).Contents (Elt F) → (⟨S10000x64, .f32⟩ : BufTy).Contents (Elt F)),
    binary main_v59 main_v61 main_v62 (mulf : (⟨S10000x64, .f32⟩ : BufTy).Contents (Elt F) → (⟨S10000x64, .f32⟩ : BufTy).Contents (Elt F) → (⟨S10000x64, .f32⟩ : BufTy).Contents (Elt F)),
    unary main_arg20 main_v63 (broadcastInDim S1x64 ![1] bcast_S64_S1x64_1 : (⟨S64, .f32⟩ : BufTy).Contents (Elt F) → (⟨S1x64, .f32⟩ : BufTy).Contents (Elt F)),
    unary main_v63 main_v64 (broadcastInDim S10000x64 ![0, 1] bcast_S1x64_S10000x64_0_1 : (⟨S1x64, .f32⟩ : BufTy).Contents (Elt F) → (⟨S10000x64, .f32⟩ : BufTy).Contents (Elt F)),
    binary main_v62 main_v64 main_v65 (addf : (⟨S10000x64, .f32⟩ : BufTy).Contents (Elt F) → (⟨S10000x64, .f32⟩ : BufTy).Contents (Elt F) → (⟨S10000x64, .f32⟩ : BufTy).Contents (Elt F)),
    TRef.nullary main_call2.cst (constant S_ .f32 0x00000000#32),
    TRef.unary main_call2.cst main_call2.v0 (broadcastInDim S10000x64 ![] bcast_S_S10000x64),
    TRef.binary (.of main_v65) main_call2.v0 main_call2.v1 (cmpf .ogt),
    TRef.nullary main_call2.cst_0 (constant S_ .f32 0x00000000#32),
    TRef.unary main_call2.cst_0 main_call2.v2 (broadcastInDim S10000x64 ![] bcast_S_S10000x64),
    TRef.binary (.of main_v65) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S10000x64 ![] bcast_S_S10000x64),
    TRef.ternary main_call2.v3 main_call2.call0.v1 (.of main_v65) main_call2.call0.v2 select,
    TRef.unary main_call2.call0.v2 main_call2.v5 Host.expm1,
    TRef.nullary main_call2.cst_2 (constant S_ .f32 0x3F800000#32),
    TRef.unary main_call2.cst_2 main_call2.v6 (broadcastInDim S10000x64 ![] bcast_S_S10000x64),
    TRef.binary main_call2.v6 main_call2.v5 main_call2.v7 mulf,
    TRef.ternary main_call2.v1 (.of main_v65) main_call2.v7 main_call2.call1.v0 select ]

/-- Operations 113 … 135 of @main. -/
def seg5 : List (HloOp τ sig (Elt F)) :=
  [ binary main_v66 main_arg23 main_v67 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    unary main_arg24 main_v68 (broadcastInDim S1x128 ![1] bcast_S128_S1x128_1 : (⟨S128, .f32⟩ : BufTy).Contents (Elt F) → (⟨S1x128, .f32⟩ : BufTy).Contents (Elt F)),
    unary main_v68 main_v69 (broadcastInDim S10000x128 ![0, 1] bcast_S1x128_S10000x128_0_1 : (⟨S1x128, .f32⟩ : BufTy).Contents (Elt F) → (⟨S10000x128, .f32⟩ : BufTy).Contents (Elt F)),
    binary main_v67 main_v69 main_v70 (addf : (⟨S10000x128, .f32⟩ : BufTy).Contents (Elt F) → (⟨S10000x128, .f32⟩ : BufTy).Contents (Elt F) → (⟨S10000x128, .f32⟩ : BufTy).Contents (Elt F)),
    unary main_arg27 main_v71 (broadcastInDim S1x128 ![1] bcast_S128_S1x128_1 : (⟨S128, .f32⟩ : BufTy).Contents (Elt F) → (⟨S1x128, .f32⟩ : BufTy).Contents (Elt F)),
    unary main_v71 main_v72 (broadcastInDim S10000x128 ![0, 1] bcast_S1x128_S10000x128_0_1 : (⟨S1x128, .f32⟩ : BufTy).Contents (Elt F) → (⟨S10000x128, .f32⟩ : BufTy).Contents (Elt F)),
    binary main_v70 main_v72 main_v73 (subf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x3A83126F#32),
    unary main_cst_2 main_v74 (broadcastInDim S128 ![] bcast_S_S128 : (⟨S_, .f32⟩ : BufTy).Contents (Elt F) → (⟨S128, .f32⟩ : BufTy).Contents (Elt F)),
    binary main_arg28 main_v74 main_v75 (addf : (⟨S128, .f32⟩ : BufTy).Contents (Elt F) → (⟨S128, .f32⟩ : BufTy).Contents (Elt F) → (⟨S128, .f32⟩ : BufTy).Contents (Elt F)),
    unary main_v75 main_v76 (Host.sqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S10000x128 ![0, 1] bcast_S1x128_S10000x128_0_1 : (⟨S1x128, .f32⟩ : BufTy).Contents (Elt F) → (⟨S10000x128, .f32⟩ : BufTy).Contents (Elt F)),
    binary main_v73 main_v78 main_v79 (Host.divf : (⟨S10000x128, .f32⟩ : BufTy).Contents (Elt F) → (⟨S10000x128, .f32⟩ : BufTy).Contents (Elt F) → (⟨S10000x128, .f32⟩ : BufTy).Contents (Elt F)),
    unary main_arg25 main_v80 (broadcastInDim S1x128 ![1] bcast_S128_S1x128_1 : (⟨S128, .f32⟩ : BufTy).Contents (Elt F) → (⟨S1x128, .f32⟩ : BufTy).Contents (Elt F)),
    unary main_v80 main_v81 (broadcastInDim S10000x128 ![0, 1] bcast_S1x128_S10000x128_0_1 : (⟨S1x128, .f32⟩ : BufTy).Contents (Elt F) → (⟨S10000x128, .f32⟩ : BufTy).Contents (Elt F)),
    binary main_v79 main_v81 main_v82 (mulf : (⟨S10000x128, .f32⟩ : BufTy).Contents (Elt F) → (⟨S10000x128, .f32⟩ : BufTy).Contents (Elt F) → (⟨S10000x128, .f32⟩ : BufTy).Contents (Elt F)),
    unary main_arg26 main_v83 (broadcastInDim S1x128 ![1] bcast_S128_S1x128_1 : (⟨S128, .f32⟩ : BufTy).Contents (Elt F) → (⟨S1x128, .f32⟩ : BufTy).Contents (Elt F)),
    unary main_v83 main_v84 (broadcastInDim S10000x128 ![0, 1] bcast_S1x128_S10000x128_0_1 : (⟨S1x128, .f32⟩ : BufTy).Contents (Elt F) → (⟨S10000x128, .f32⟩ : BufTy).Contents (Elt F)),
    binary main_v82 main_v84 main_v85 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v85) main_call3.v0 main_call3.v1 maximumf ]

/-- The five stretches in a row are @main's line. -/
theorem ops_split : (ops : List (HloOp τ sig (Elt F))) = seg1 ++ (seg2 ++ (seg3 ++ (seg4 ++ seg5))) := rfl

end

/-- The fold over two lines in a row. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-! ## What each stretch computes -/

set_option maxHeartbeats 1000000 in
theorem seg1_v19 (W : Valuation τ sig (Elt Ideal)) :
    after (seg1 (F := Ideal)) W (main_v19 : DevRef τ sig)
      = Spec.layer (W (main_arg0 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) := by
  unfold seg1
  after_results_simp
  simp only [Cert.LibTRef.ofBuf_toBuf]
  exact hostLayer_eq (M := 10000) (K := 128) (N := 64) (W (main_arg0 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig))
    bcast_S_S64 bcast_S64_S1x64_1 bcast_S1x64_S10000x64_0_1 bcast_S_S10000x64

set_option maxHeartbeats 1000000 in
theorem seg2_v39 (W : Valuation τ sig (Elt Ideal)) :
    after (seg2 (F := Ideal)) W (main_v39 : DevRef τ sig)
      = Spec.layer (W (main_v19 : DevRef τ sig)) (W (main_arg8 : DevRef τ sig)) (W (main_arg9 : DevRef τ sig)) (W (main_arg10 : DevRef τ sig)) (W (main_arg11 : DevRef τ sig)) (W (main_arg12 : DevRef τ sig)) (W (main_arg13 : DevRef τ sig)) := by
  unfold seg2
  after_results_simp
  simp only [Cert.LibTRef.ofBuf_toBuf]
  exact hostLayer_eq (M := 10000) (K := 64) (N := 32) (W (main_v19 : DevRef τ sig)) (W (main_arg8 : DevRef τ sig)) (W (main_arg9 : DevRef τ sig)) (W (main_arg10 : DevRef τ sig)) (W (main_arg11 : DevRef τ sig)) (W (main_arg12 : DevRef τ sig)) (W (main_arg13 : DevRef τ sig))
    bcast_S_S32 bcast_S32_S1x32_1 bcast_S1x32_S10000x32_0_1 bcast_S_S10000x32

theorem seg3_v43 (W : Valuation τ sig (Elt Ideal)) :
    after (seg3 (F := Ideal)) W (main_v43 : DevRef τ sig) = (Spec.dense (W (main_arg1 : DevRef τ sig)) (Spec.dense (Spec.dense (W (main_arg1 : DevRef τ sig)) (Spec.dense (W (main_v39 : DevRef τ sig)) (W (main_arg14 : DevRef τ sig)))) (W (main_arg15 : DevRef τ sig)))) := by
  unfold seg3
  after_results_simp
  rw [hostDot_eq' dot_S10000x10000_S10000x16_S10000x16_1_0_0_1_n_n rfl, hostDot_eq' dot_S10000x32_S32x16_S10000x16_1_0_0_1_n_n rfl, hostDot_eq' dot_S10000x10000_S10000x32_S10000x32_1_0_0_1_n_n rfl, hostDot_eq' dot_S10000x32_S32x32_S10000x32_1_0_0_1_n_n rfl]

theorem seg3_v45 (W : Valuation τ sig (Elt Ideal)) :
    after (seg3 (F := Ideal)) W (main_v45 : DevRef τ sig) = (Spec.dense (W (main_arg1 : DevRef τ sig)) (Spec.dense (Spec.dense (W (main_arg1 : DevRef τ sig)) (Spec.dense (W (main_v39 : DevRef τ sig)) (W (main_arg14 : DevRef τ sig)))) (W (main_arg16 : DevRef τ sig)))) := by
  unfold seg3
  after_results_simp
  rw [hostDot_eq' dot_S10000x10000_S10000x16_S10000x16_1_0_0_1_n_n rfl, hostDot_eq' dot_S10000x32_S32x16_S10000x16_1_0_0_1_n_n rfl, hostDot_eq' dot_S10000x10000_S10000x32_S10000x32_1_0_0_1_n_n rfl, hostDot_eq' dot_S10000x32_S32x32_S10000x32_1_0_0_1_n_n rfl]

theorem seg3_v46 (W : Valuation τ sig (Elt Ideal)) :
    after (seg3 (F := Ideal)) W (main_v46 : DevRef τ sig) = Spec.hcat (W (main_v39 : DevRef τ sig)) (Spec.dense (W (main_arg1 : DevRef τ sig)) (Spec.dense (Spec.dense (W (main_arg1 : DevRef τ sig)) (Spec.dense (W (main_v39 : DevRef τ sig)) (W (main_arg14 : DevRef τ sig)))) (W (main_arg15 : DevRef τ sig)))) := by
  unfold seg3
  after_results_simp
  refine (hostCat_eq (M := 10000) (A := 32) (B := 16) _ _ concatenates_S10000x32_S10000x16_S10000x48_d1).trans ?_
  after_results_simp
  rw [hostDot_eq' dot_S10000x10000_S10000x16_S10000x16_1_0_0_1_n_n rfl, hostDot_eq' dot_S10000x32_S32x16_S10000x16_1_0_0_1_n_n rfl, hostDot_eq' dot_S10000x10000_S10000x32_S10000x32_1_0_0_1_n_n rfl, hostDot_eq' dot_S10000x32_S32x32_S10000x32_1_0_0_1_n_n rfl]

set_option maxHeartbeats 1000000 in
theorem seg4_v66 (W : Valuation τ sig (Elt Ideal)) :
    after (seg4 (F := Ideal)) W (main_v66 : DevRef τ sig)
      = Spec.layer (W (main_v46 : DevRef τ sig)) (W (main_arg17 : DevRef τ sig)) (W (main_arg18 : DevRef τ sig)) (W (main_arg19 : DevRef τ sig)) (W (main_arg20 : DevRef τ sig)) (W (main_arg21 : DevRef τ sig)) (W (main_arg22 : DevRef τ sig)) := by
  unfold seg4
  after_results_simp
  simp only [Cert.LibTRef.ofBuf_toBuf]
  exact hostLayer_eq (M := 10000) (K := 48) (N := 64) (W (main_v46 : DevRef τ sig)) (W (main_arg17 : DevRef τ sig)) (W (main_arg18 : DevRef τ sig)) (W (main_arg19 : DevRef τ sig)) (W (main_arg20 : DevRef τ sig)) (W (main_arg21 : DevRef τ sig)) (W (main_arg22 : DevRef τ sig))
    bcast_S_S64 bcast_S64_S1x64_1 bcast_S1x64_S10000x64_0_1 bcast_S_S10000x64

set_option maxHeartbeats 1000000 in
theorem seg5_v86 (W : Valuation τ sig (Elt Ideal)) :
    after (seg5 (F := Ideal)) W (main_v86 : DevRef τ sig)
      = Spec.layerRelu (W (main_v66 : DevRef τ sig)) (W (main_arg23 : DevRef τ sig)) (W (main_arg24 : DevRef τ sig)) (W (main_arg25 : DevRef τ sig)) (W (main_arg26 : DevRef τ sig)) (W (main_arg27 : DevRef τ sig)) (W (main_arg28 : DevRef τ sig)) := by
  unfold seg5
  after_results_simp
  simp only [Cert.LibTRef.ofBuf_toBuf]
  exact hostLayerRelu_eq (M := 10000) (K := 64) (N := 128) (W (main_v66 : DevRef τ sig)) (W (main_arg23 : DevRef τ sig)) (W (main_arg24 : DevRef τ sig)) (W (main_arg25 : DevRef τ sig)) (W (main_arg26 : DevRef τ sig)) (W (main_arg27 : DevRef τ sig)) (W (main_arg28 : DevRef τ sig))
    bcast_S_S128 bcast_S128_S1x128_1 bcast_S1x128_S10000x128_0_1 bcast_S_S10000x128

/-! ## What each stretch leaves alone -/

theorem seg1_keep_arg1 (W : Valuation τ sig (Elt Ideal)) :
    after (seg1 (F := Ideal)) W (main_arg1 : DevRef τ sig) = W (main_arg1 : DevRef τ sig) := by
  unfold seg1
  after_results_simp

theorem seg1_keep_arg8 (W : Valuation τ sig (Elt Ideal)) :
    after (seg1 (F := Ideal)) W (main_arg8 : DevRef τ sig) = W (main_arg8 : DevRef τ sig) := by
  unfold seg1
  after_results_simp

theorem seg1_keep_arg9 (W : Valuation τ sig (Elt Ideal)) :
    after (seg1 (F := Ideal)) W (main_arg9 : DevRef τ sig) = W (main_arg9 : DevRef τ sig) := by
  unfold seg1
  after_results_simp

theorem seg1_keep_arg10 (W : Valuation τ sig (Elt Ideal)) :
    after (seg1 (F := Ideal)) W (main_arg10 : DevRef τ sig) = W (main_arg10 : DevRef τ sig) := by
  unfold seg1
  after_results_simp

theorem seg1_keep_arg11 (W : Valuation τ sig (Elt Ideal)) :
    after (seg1 (F := Ideal)) W (main_arg11 : DevRef τ sig) = W (main_arg11 : DevRef τ sig) := by
  unfold seg1
  after_results_simp

theorem seg1_keep_arg12 (W : Valuation τ sig (Elt Ideal)) :
    after (seg1 (F := Ideal)) W (main_arg12 : DevRef τ sig) = W (main_arg12 : DevRef τ sig) := by
  unfold seg1
  after_results_simp

theorem seg1_keep_arg13 (W : Valuation τ sig (Elt Ideal)) :
    after (seg1 (F := Ideal)) W (main_arg13 : DevRef τ sig) = W (main_arg13 : DevRef τ sig) := by
  unfold seg1
  after_results_simp

theorem seg1_keep_arg14 (W : Valuation τ sig (Elt Ideal)) :
    after (seg1 (F := Ideal)) W (main_arg14 : DevRef τ sig) = W (main_arg14 : DevRef τ sig) := by
  unfold seg1
  after_results_simp

theorem seg1_keep_arg15 (W : Valuation τ sig (Elt Ideal)) :
    after (seg1 (F := Ideal)) W (main_arg15 : DevRef τ sig) = W (main_arg15 : DevRef τ sig) := by
  unfold seg1
  after_results_simp

theorem seg1_keep_arg16 (W : Valuation τ sig (Elt Ideal)) :
    after (seg1 (F := Ideal)) W (main_arg16 : DevRef τ sig) = W (main_arg16 : DevRef τ sig) := by
  unfold seg1
  after_results_simp

theorem seg1_keep_arg17 (W : Valuation τ sig (Elt Ideal)) :
    after (seg1 (F := Ideal)) W (main_arg17 : DevRef τ sig) = W (main_arg17 : DevRef τ sig) := by
  unfold seg1
  after_results_simp

theorem seg1_keep_arg18 (W : Valuation τ sig (Elt Ideal)) :
    after (seg1 (F := Ideal)) W (main_arg18 : DevRef τ sig) = W (main_arg18 : DevRef τ sig) := by
  unfold seg1
  after_results_simp

theorem seg1_keep_arg19 (W : Valuation τ sig (Elt Ideal)) :
    after (seg1 (F := Ideal)) W (main_arg19 : DevRef τ sig) = W (main_arg19 : DevRef τ sig) := by
  unfold seg1
  after_results_simp

theorem seg1_keep_arg20 (W : Valuation τ sig (Elt Ideal)) :
    after (seg1 (F := Ideal)) W (main_arg20 : DevRef τ sig) = W (main_arg20 : DevRef τ sig) := by
  unfold seg1
  after_results_simp

theorem seg1_keep_arg21 (W : Valuation τ sig (Elt Ideal)) :
    after (seg1 (F := Ideal)) W (main_arg21 : DevRef τ sig) = W (main_arg21 : DevRef τ sig) := by
  unfold seg1
  after_results_simp

theorem seg1_keep_arg22 (W : Valuation τ sig (Elt Ideal)) :
    after (seg1 (F := Ideal)) W (main_arg22 : DevRef τ sig) = W (main_arg22 : DevRef τ sig) := by
  unfold seg1
  after_results_simp

theorem seg1_keep_arg23 (W : Valuation τ sig (Elt Ideal)) :
    after (seg1 (F := Ideal)) W (main_arg23 : DevRef τ sig) = W (main_arg23 : DevRef τ sig) := by
  unfold seg1
  after_results_simp

theorem seg1_keep_arg24 (W : Valuation τ sig (Elt Ideal)) :
    after (seg1 (F := Ideal)) W (main_arg24 : DevRef τ sig) = W (main_arg24 : DevRef τ sig) := by
  unfold seg1
  after_results_simp

theorem seg1_keep_arg25 (W : Valuation τ sig (Elt Ideal)) :
    after (seg1 (F := Ideal)) W (main_arg25 : DevRef τ sig) = W (main_arg25 : DevRef τ sig) := by
  unfold seg1
  after_results_simp

theorem seg1_keep_arg26 (W : Valuation τ sig (Elt Ideal)) :
    after (seg1 (F := Ideal)) W (main_arg26 : DevRef τ sig) = W (main_arg26 : DevRef τ sig) := by
  unfold seg1
  after_results_simp

theorem seg1_keep_arg27 (W : Valuation τ sig (Elt Ideal)) :
    after (seg1 (F := Ideal)) W (main_arg27 : DevRef τ sig) = W (main_arg27 : DevRef τ sig) := by
  unfold seg1
  after_results_simp

theorem seg1_keep_arg28 (W : Valuation τ sig (Elt Ideal)) :
    after (seg1 (F := Ideal)) W (main_arg28 : DevRef τ sig) = W (main_arg28 : DevRef τ sig) := by
  unfold seg1
  after_results_simp

theorem seg2_keep_arg1 (W : Valuation τ sig (Elt Ideal)) :
    after (seg2 (F := Ideal)) W (main_arg1 : DevRef τ sig) = W (main_arg1 : DevRef τ sig) := by
  unfold seg2
  after_results_simp

theorem seg2_keep_arg14 (W : Valuation τ sig (Elt Ideal)) :
    after (seg2 (F := Ideal)) W (main_arg14 : DevRef τ sig) = W (main_arg14 : DevRef τ sig) := by
  unfold seg2
  after_results_simp

theorem seg2_keep_arg15 (W : Valuation τ sig (Elt Ideal)) :
    after (seg2 (F := Ideal)) W (main_arg15 : DevRef τ sig) = W (main_arg15 : DevRef τ sig) := by
  unfold seg2
  after_results_simp

theorem seg2_keep_arg16 (W : Valuation τ sig (Elt Ideal)) :
    after (seg2 (F := Ideal)) W (main_arg16 : DevRef τ sig) = W (main_arg16 : DevRef τ sig) := by
  unfold seg2
  after_results_simp

theorem seg2_keep_arg17 (W : Valuation τ sig (Elt Ideal)) :
    after (seg2 (F := Ideal)) W (main_arg17 : DevRef τ sig) = W (main_arg17 : DevRef τ sig) := by
  unfold seg2
  after_results_simp

theorem seg2_keep_arg18 (W : Valuation τ sig (Elt Ideal)) :
    after (seg2 (F := Ideal)) W (main_arg18 : DevRef τ sig) = W (main_arg18 : DevRef τ sig) := by
  unfold seg2
  after_results_simp

theorem seg2_keep_arg19 (W : Valuation τ sig (Elt Ideal)) :
    after (seg2 (F := Ideal)) W (main_arg19 : DevRef τ sig) = W (main_arg19 : DevRef τ sig) := by
  unfold seg2
  after_results_simp

theorem seg2_keep_arg20 (W : Valuation τ sig (Elt Ideal)) :
    after (seg2 (F := Ideal)) W (main_arg20 : DevRef τ sig) = W (main_arg20 : DevRef τ sig) := by
  unfold seg2
  after_results_simp

theorem seg2_keep_arg21 (W : Valuation τ sig (Elt Ideal)) :
    after (seg2 (F := Ideal)) W (main_arg21 : DevRef τ sig) = W (main_arg21 : DevRef τ sig) := by
  unfold seg2
  after_results_simp

theorem seg2_keep_arg22 (W : Valuation τ sig (Elt Ideal)) :
    after (seg2 (F := Ideal)) W (main_arg22 : DevRef τ sig) = W (main_arg22 : DevRef τ sig) := by
  unfold seg2
  after_results_simp

theorem seg2_keep_arg23 (W : Valuation τ sig (Elt Ideal)) :
    after (seg2 (F := Ideal)) W (main_arg23 : DevRef τ sig) = W (main_arg23 : DevRef τ sig) := by
  unfold seg2
  after_results_simp

theorem seg2_keep_arg24 (W : Valuation τ sig (Elt Ideal)) :
    after (seg2 (F := Ideal)) W (main_arg24 : DevRef τ sig) = W (main_arg24 : DevRef τ sig) := by
  unfold seg2
  after_results_simp

theorem seg2_keep_arg25 (W : Valuation τ sig (Elt Ideal)) :
    after (seg2 (F := Ideal)) W (main_arg25 : DevRef τ sig) = W (main_arg25 : DevRef τ sig) := by
  unfold seg2
  after_results_simp

theorem seg2_keep_arg26 (W : Valuation τ sig (Elt Ideal)) :
    after (seg2 (F := Ideal)) W (main_arg26 : DevRef τ sig) = W (main_arg26 : DevRef τ sig) := by
  unfold seg2
  after_results_simp

theorem seg2_keep_arg27 (W : Valuation τ sig (Elt Ideal)) :
    after (seg2 (F := Ideal)) W (main_arg27 : DevRef τ sig) = W (main_arg27 : DevRef τ sig) := by
  unfold seg2
  after_results_simp

theorem seg2_keep_arg28 (W : Valuation τ sig (Elt Ideal)) :
    after (seg2 (F := Ideal)) W (main_arg28 : DevRef τ sig) = W (main_arg28 : DevRef τ sig) := by
  unfold seg2
  after_results_simp

theorem seg3_keep_v39 (W : Valuation τ sig (Elt Ideal)) :
    after (seg3 (F := Ideal)) W (main_v39 : DevRef τ sig) = W (main_v39 : DevRef τ sig) := by
  unfold seg3
  after_results_simp

theorem seg3_keep_arg17 (W : Valuation τ sig (Elt Ideal)) :
    after (seg3 (F := Ideal)) W (main_arg17 : DevRef τ sig) = W (main_arg17 : DevRef τ sig) := by
  unfold seg3
  after_results_simp

theorem seg3_keep_arg18 (W : Valuation τ sig (Elt Ideal)) :
    after (seg3 (F := Ideal)) W (main_arg18 : DevRef τ sig) = W (main_arg18 : DevRef τ sig) := by
  unfold seg3
  after_results_simp

theorem seg3_keep_arg19 (W : Valuation τ sig (Elt Ideal)) :
    after (seg3 (F := Ideal)) W (main_arg19 : DevRef τ sig) = W (main_arg19 : DevRef τ sig) := by
  unfold seg3
  after_results_simp

theorem seg3_keep_arg20 (W : Valuation τ sig (Elt Ideal)) :
    after (seg3 (F := Ideal)) W (main_arg20 : DevRef τ sig) = W (main_arg20 : DevRef τ sig) := by
  unfold seg3
  after_results_simp

theorem seg3_keep_arg21 (W : Valuation τ sig (Elt Ideal)) :
    after (seg3 (F := Ideal)) W (main_arg21 : DevRef τ sig) = W (main_arg21 : DevRef τ sig) := by
  unfold seg3
  after_results_simp

theorem seg3_keep_arg22 (W : Valuation τ sig (Elt Ideal)) :
    after (seg3 (F := Ideal)) W (main_arg22 : DevRef τ sig) = W (main_arg22 : DevRef τ sig) := by
  unfold seg3
  after_results_simp

theorem seg3_keep_arg23 (W : Valuation τ sig (Elt Ideal)) :
    after (seg3 (F := Ideal)) W (main_arg23 : DevRef τ sig) = W (main_arg23 : DevRef τ sig) := by
  unfold seg3
  after_results_simp

theorem seg3_keep_arg24 (W : Valuation τ sig (Elt Ideal)) :
    after (seg3 (F := Ideal)) W (main_arg24 : DevRef τ sig) = W (main_arg24 : DevRef τ sig) := by
  unfold seg3
  after_results_simp

theorem seg3_keep_arg25 (W : Valuation τ sig (Elt Ideal)) :
    after (seg3 (F := Ideal)) W (main_arg25 : DevRef τ sig) = W (main_arg25 : DevRef τ sig) := by
  unfold seg3
  after_results_simp

theorem seg3_keep_arg26 (W : Valuation τ sig (Elt Ideal)) :
    after (seg3 (F := Ideal)) W (main_arg26 : DevRef τ sig) = W (main_arg26 : DevRef τ sig) := by
  unfold seg3
  after_results_simp

theorem seg3_keep_arg27 (W : Valuation τ sig (Elt Ideal)) :
    after (seg3 (F := Ideal)) W (main_arg27 : DevRef τ sig) = W (main_arg27 : DevRef τ sig) := by
  unfold seg3
  after_results_simp

theorem seg3_keep_arg28 (W : Valuation τ sig (Elt Ideal)) :
    after (seg3 (F := Ideal)) W (main_arg28 : DevRef τ sig) = W (main_arg28 : DevRef τ sig) := by
  unfold seg3
  after_results_simp

theorem seg4_keep_v39 (W : Valuation τ sig (Elt Ideal)) :
    after (seg4 (F := Ideal)) W (main_v39 : DevRef τ sig) = W (main_v39 : DevRef τ sig) := by
  unfold seg4
  after_results_simp

theorem seg4_keep_v43 (W : Valuation τ sig (Elt Ideal)) :
    after (seg4 (F := Ideal)) W (main_v43 : DevRef τ sig) = W (main_v43 : DevRef τ sig) := by
  unfold seg4
  after_results_simp

theorem seg4_keep_v45 (W : Valuation τ sig (Elt Ideal)) :
    after (seg4 (F := Ideal)) W (main_v45 : DevRef τ sig) = W (main_v45 : DevRef τ sig) := by
  unfold seg4
  after_results_simp

theorem seg4_keep_v46 (W : Valuation τ sig (Elt Ideal)) :
    after (seg4 (F := Ideal)) W (main_v46 : DevRef τ sig) = W (main_v46 : DevRef τ sig) := by
  unfold seg4
  after_results_simp

theorem seg4_keep_arg23 (W : Valuation τ sig (Elt Ideal)) :
    after (seg4 (F := Ideal)) W (main_arg23 : DevRef τ sig) = W (main_arg23 : DevRef τ sig) := by
  unfold seg4
  after_results_simp

theorem seg4_keep_arg24 (W : Valuation τ sig (Elt Ideal)) :
    after (seg4 (F := Ideal)) W (main_arg24 : DevRef τ sig) = W (main_arg24 : DevRef τ sig) := by
  unfold seg4
  after_results_simp

theorem seg4_keep_arg25 (W : Valuation τ sig (Elt Ideal)) :
    after (seg4 (F := Ideal)) W (main_arg25 : DevRef τ sig) = W (main_arg25 : DevRef τ sig) := by
  unfold seg4
  after_results_simp

theorem seg4_keep_arg26 (W : Valuation τ sig (Elt Ideal)) :
    after (seg4 (F := Ideal)) W (main_arg26 : DevRef τ sig) = W (main_arg26 : DevRef τ sig) := by
  unfold seg4
  after_results_simp

theorem seg4_keep_arg27 (W : Valuation τ sig (Elt Ideal)) :
    after (seg4 (F := Ideal)) W (main_arg27 : DevRef τ sig) = W (main_arg27 : DevRef τ sig) := by
  unfold seg4
  after_results_simp

theorem seg4_keep_arg28 (W : Valuation τ sig (Elt Ideal)) :
    after (seg4 (F := Ideal)) W (main_arg28 : DevRef τ sig) = W (main_arg28 : DevRef τ sig) := by
  unfold seg4
  after_results_simp

theorem seg5_keep_v39 (W : Valuation τ sig (Elt Ideal)) :
    after (seg5 (F := Ideal)) W (main_v39 : DevRef τ sig) = W (main_v39 : DevRef τ sig) := by
  unfold seg5
  after_results_simp

theorem seg5_keep_v43 (W : Valuation τ sig (Elt Ideal)) :
    after (seg5 (F := Ideal)) W (main_v43 : DevRef τ sig) = W (main_v43 : DevRef τ sig) := by
  unfold seg5
  after_results_simp

theorem seg5_keep_v45 (W : Valuation τ sig (Elt Ideal)) :
    after (seg5 (F := Ideal)) W (main_v45 : DevRef τ sig) = W (main_v45 : DevRef τ sig) := by
  unfold seg5
  after_results_simp

theorem seg5_keep_v46 (W : Valuation τ sig (Elt Ideal)) :
    after (seg5 (F := Ideal)) W (main_v46 : DevRef τ sig) = W (main_v46 : DevRef τ sig) := by
  unfold seg5
  after_results_simp

end Cert.RefSide

end
-- ==== Proof.RefValue.lean ====
import proofs.«133634_g45492293599347_cont_8to1c4_324_9_alg».proof.Proof.RefSegs

noncomputable section

/-
  The reference's results as the specification's functions of its arguments: the five stretches composed, and the
  run of @main read at the five result buffers and at the twenty-nine argument buffers.
-/
namespace Cert.RefSide

open Cert.ReferenceIdeal Cert.ReferenceIdeal.Gen Idealize.ShloMosaic Idealize.ShloMosaic.TcCoe Idealize.SL.Sem Idealize.ShloMosaic.StableHlo

/-! ## The results after the whole line -/

theorem v39_eq (V : Valuation τ sig (Elt Ideal)) :
    after ops V (main_v39 : DevRef τ sig) = Spec.feat (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_split, after_app, after_app, after_app, after_app]
  rw [seg5_keep_v39, seg4_keep_v39, seg3_keep_v39, seg2_v39, seg1_v19, seg1_keep_arg8, seg1_keep_arg9, seg1_keep_arg10, seg1_keep_arg11, seg1_keep_arg12, seg1_keep_arg13]
  rfl

theorem v43_eq (V : Valuation τ sig (Elt Ideal)) :
    after ops V (main_v43 : DevRef τ sig) = Spec.mu (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [ops_split, after_app, after_app, after_app, after_app]
  rw [seg5_keep_v43, seg4_keep_v43, seg3_v43, seg2_keep_arg1, seg1_keep_arg1, seg2_v39, seg1_v19, seg1_keep_arg8, seg1_keep_arg9, seg1_keep_arg10, seg1_keep_arg11, seg1_keep_arg12, seg1_keep_arg13, seg2_keep_arg14, seg1_keep_arg14, seg2_keep_arg15, seg1_keep_arg15]
  rfl

theorem v45_eq (V : Valuation τ sig (Elt Ideal)) :
    after ops V (main_v45 : DevRef τ sig) = Spec.logstd (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg16 : DevRef τ sig)) := by
  rw [ops_split, after_app, after_app, after_app, after_app]
  rw [seg5_keep_v45, seg4_keep_v45, seg3_v45, seg2_keep_arg1, seg1_keep_arg1, seg2_v39, seg1_v19, seg1_keep_arg8, seg1_keep_arg9, seg1_keep_arg10, seg1_keep_arg11, seg1_keep_arg12, seg1_keep_arg13, seg2_keep_arg14, seg1_keep_arg14, seg2_keep_arg16, seg1_keep_arg16]
  rfl

theorem v46_eq (V : Valuation τ sig (Elt Ideal)) :
    after ops V (main_v46 : DevRef τ sig) = Spec.latent (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [ops_split, after_app, after_app, after_app, after_app]
  rw [seg5_keep_v46, seg4_keep_v46, seg3_v46, seg2_keep_arg1, seg1_keep_arg1, seg2_v39, seg1_v19, seg1_keep_arg8, seg1_keep_arg9, seg1_keep_arg10, seg1_keep_arg11, seg1_keep_arg12, seg1_keep_arg13, seg2_keep_arg14, seg1_keep_arg14, seg2_keep_arg15, seg1_keep_arg15]
  rfl

theorem v86_eq (V : Valuation τ sig (Elt Ideal)) :
    after ops V (main_v86 : DevRef τ sig) = Spec.decoded (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) := by
  rw [ops_split, after_app, after_app, after_app, after_app]
  rw [seg5_v86, seg4_v66, seg3_v46, seg2_keep_arg1, seg1_keep_arg1, seg2_v39, seg1_v19, seg1_keep_arg8, seg1_keep_arg9, seg1_keep_arg10, seg1_keep_arg11, seg1_keep_arg12, seg1_keep_arg13, seg2_keep_arg14, seg1_keep_arg14, seg2_keep_arg15, seg1_keep_arg15, seg3_keep_arg17, seg2_keep_arg17, seg1_keep_arg17, seg3_keep_arg18, seg2_keep_arg18, seg1_keep_arg18, seg3_keep_arg19, seg2_keep_arg19, seg1_keep_arg19, seg3_keep_arg20, seg2_keep_arg20, seg1_keep_arg20, seg3_keep_arg21, seg2_keep_arg21, seg1_keep_arg21, seg3_keep_arg22, seg2_keep_arg22, seg1_keep_arg22, seg4_keep_arg23, seg3_keep_arg23, seg2_keep_arg23, seg1_keep_arg23, seg4_keep_arg24, seg3_keep_arg24, seg2_keep_arg24, seg1_keep_arg24, seg4_keep_arg25, seg3_keep_arg25, seg2_keep_arg25, seg1_keep_arg25, seg4_keep_arg26, seg3_keep_arg26, seg2_keep_arg26, seg1_keep_arg26, seg4_keep_arg27, seg3_keep_arg27, seg2_keep_arg27, seg1_keep_arg27, seg4_keep_arg28, seg3_keep_arg28, seg2_keep_arg28, seg1_keep_arg28]
  rfl

/-! ## The arguments after the whole line: no operation writes them -/

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

theorem arg4_eq (V : Valuation τ sig (Elt Ideal)) :
    after ops V (main_arg4 : DevRef τ sig) = V (main_arg4 : DevRef τ sig) := by
  after_results_simp

theorem arg5_eq (V : Valuation τ sig (Elt Ideal)) :
    after ops V (main_arg5 : DevRef τ sig) = V (main_arg5 : DevRef τ sig) := by
  after_results_simp

theorem arg6_eq (V : Valuation τ sig (Elt Ideal)) :
    after ops V (main_arg6 : DevRef τ sig) = V (main_arg6 : DevRef τ sig) := by
  after_results_simp

theorem arg7_eq (V : Valuation τ sig (Elt Ideal)) :
    after ops V (main_arg7 : DevRef τ sig) = V (main_arg7 : DevRef τ sig) := by
  after_results_simp

theorem arg8_eq (V : Valuation τ sig (Elt Ideal)) :
    after ops V (main_arg8 : DevRef τ sig) = V (main_arg8 : DevRef τ sig) := by
  after_results_simp

theorem arg9_eq (V : Valuation τ sig (Elt Ideal)) :
    after ops V (main_arg9 : DevRef τ sig) = V (main_arg9 : DevRef τ sig) := by
  after_results_simp

theorem arg10_eq (V : Valuation τ sig (Elt Ideal)) :
    after ops V (main_arg10 : DevRef τ sig) = V (main_arg10 : DevRef τ sig) := by
  after_results_simp

theorem arg11_eq (V : Valuation τ sig (Elt Ideal)) :
    after ops V (main_arg11 : DevRef τ sig) = V (main_arg11 : DevRef τ sig) := by
  after_results_simp

theorem arg12_eq (V : Valuation τ sig (Elt Ideal)) :
    after ops V (main_arg12 : DevRef τ sig) = V (main_arg12 : DevRef τ sig) := by
  after_results_simp

theorem arg13_eq (V : Valuation τ sig (Elt Ideal)) :
    after ops V (main_arg13 : DevRef τ sig) = V (main_arg13 : DevRef τ sig) := by
  after_results_simp

theorem arg14_eq (V : Valuation τ sig (Elt Ideal)) :
    after ops V (main_arg14 : DevRef τ sig) = V (main_arg14 : DevRef τ sig) := by
  after_results_simp

theorem arg15_eq (V : Valuation τ sig (Elt Ideal)) :
    after ops V (main_arg15 : DevRef τ sig) = V (main_arg15 : DevRef τ sig) := by
  after_results_simp

theorem arg16_eq (V : Valuation τ sig (Elt Ideal)) :
    after ops V (main_arg16 : DevRef τ sig) = V (main_arg16 : DevRef τ sig) := by
  after_results_simp

theorem arg17_eq (V : Valuation τ sig (Elt Ideal)) :
    after ops V (main_arg17 : DevRef τ sig) = V (main_arg17 : DevRef τ sig) := by
  after_results_simp

theorem arg18_eq (V : Valuation τ sig (Elt Ideal)) :
    after ops V (main_arg18 : DevRef τ sig) = V (main_arg18 : DevRef τ sig) := by
  after_results_simp

theorem arg19_eq (V : Valuation τ sig (Elt Ideal)) :
    after ops V (main_arg19 : DevRef τ sig) = V (main_arg19 : DevRef τ sig) := by
  after_results_simp

theorem arg20_eq (V : Valuation τ sig (Elt Ideal)) :
    after ops V (main_arg20 : DevRef τ sig) = V (main_arg20 : DevRef τ sig) := by
  after_results_simp

theorem arg21_eq (V : Valuation τ sig (Elt Ideal)) :
    after ops V (main_arg21 : DevRef τ sig) = V (main_arg21 : DevRef τ sig) := by
  after_results_simp

theorem arg22_eq (V : Valuation τ sig (Elt Ideal)) :
    after ops V (main_arg22 : DevRef τ sig) = V (main_arg22 : DevRef τ sig) := by
  after_results_simp

theorem arg23_eq (V : Valuation τ sig (Elt Ideal)) :
    after ops V (main_arg23 : DevRef τ sig) = V (main_arg23 : DevRef τ sig) := by
  after_results_simp

theorem arg24_eq (V : Valuation τ sig (Elt Ideal)) :
    after ops V (main_arg24 : DevRef τ sig) = V (main_arg24 : DevRef τ sig) := by
  after_results_simp

theorem arg25_eq (V : Valuation τ sig (Elt Ideal)) :
    after ops V (main_arg25 : DevRef τ sig) = V (main_arg25 : DevRef τ sig) := by
  after_results_simp

theorem arg26_eq (V : Valuation τ sig (Elt Ideal)) :
    after ops V (main_arg26 : DevRef τ sig) = V (main_arg26 : DevRef τ sig) := by
  after_results_simp

theorem arg27_eq (V : Valuation τ sig (Elt Ideal)) :
    after ops V (main_arg27 : DevRef τ sig) = V (main_arg27 : DevRef τ sig) := by
  after_results_simp

theorem arg28_eq (V : Valuation τ sig (Elt Ideal)) :
    after ops V (main_arg28 : DevRef τ sig) = V (main_arg28 : DevRef τ sig) := by
  after_results_simp

/-! ## The run -/

/-- From any memory with zero counters, at the exact instance: every weakly fair execution of @main terminates, and in
    every final state, on every device, the five result buffers hold the specification's mean, log-deviation, node
    features, latent code and decoded features of the twenty-nine argument arrays found at the launch, and each of the
    twenty-nine argument buffers holds what it held at the launch (the last conjunct is the conjunction of these
    twenty-nine facts, argument 0 first). -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v43) = Spec.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v45) = Spec.logstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg16))
      ∧ r.2.mem ((c.tc : Thread nD τ).loc main_v39) = Spec.feat (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v46) = Spec.latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v86) = Spec.decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ (r.2.mem ((c.tc : Thread nD τ).loc main_arg0) = (m ((c.tc : Thread nD τ).loc main_arg0))
        ∧ r.2.mem ((c.tc : Thread nD τ).loc main_arg1) = (m ((c.tc : Thread nD τ).loc main_arg1))
        ∧ r.2.mem ((c.tc : Thread nD τ).loc main_arg2) = (m ((c.tc : Thread nD τ).loc main_arg2))
        ∧ r.2.mem ((c.tc : Thread nD τ).loc main_arg3) = (m ((c.tc : Thread nD τ).loc main_arg3))
        ∧ r.2.mem ((c.tc : Thread nD τ).loc main_arg4) = (m ((c.tc : Thread nD τ).loc main_arg4))
        ∧ r.2.mem ((c.tc : Thread nD τ).loc main_arg5) = (m ((c.tc : Thread nD τ).loc main_arg5))
        ∧ r.2.mem ((c.tc : Thread nD τ).loc main_arg6) = (m ((c.tc : Thread nD τ).loc main_arg6))
        ∧ r.2.mem ((c.tc : Thread nD τ).loc main_arg7) = (m ((c.tc : Thread nD τ).loc main_arg7))
        ∧ r.2.mem ((c.tc : Thread nD τ).loc main_arg8) = (m ((c.tc : Thread nD τ).loc main_arg8))
        ∧ r.2.mem ((c.tc : Thread nD τ).loc main_arg9) = (m ((c.tc : Thread nD τ).loc main_arg9))
        ∧ r.2.mem ((c.tc : Thread nD τ).loc main_arg10) = (m ((c.tc : Thread nD τ).loc main_arg10))
        ∧ r.2.mem ((c.tc : Thread nD τ).loc main_arg11) = (m ((c.tc : Thread nD τ).loc main_arg11))
        ∧ r.2.mem ((c.tc : Thread nD τ).loc main_arg12) = (m ((c.tc : Thread nD τ).loc main_arg12))
        ∧ r.2.mem ((c.tc : Thread nD τ).loc main_arg13) = (m ((c.tc : Thread nD τ).loc main_arg13))
        ∧ r.2.mem ((c.tc : Thread nD τ).loc main_arg14) = (m ((c.tc : Thread nD τ).loc main_arg14))
        ∧ r.2.mem ((c.tc : Thread nD τ).loc main_arg15) = (m ((c.tc : Thread nD τ).loc main_arg15))
        ∧ r.2.mem ((c.tc : Thread nD τ).loc main_arg16) = (m ((c.tc : Thread nD τ).loc main_arg16))
        ∧ r.2.mem ((c.tc : Thread nD τ).loc main_arg17) = (m ((c.tc : Thread nD τ).loc main_arg17))
        ∧ r.2.mem ((c.tc : Thread nD τ).loc main_arg18) = (m ((c.tc : Thread nD τ).loc main_arg18))
        ∧ r.2.mem ((c.tc : Thread nD τ).loc main_arg19) = (m ((c.tc : Thread nD τ).loc main_arg19))
        ∧ r.2.mem ((c.tc : Thread nD τ).loc main_arg20) = (m ((c.tc : Thread nD τ).loc main_arg20))
        ∧ r.2.mem ((c.tc : Thread nD τ).loc main_arg21) = (m ((c.tc : Thread nD τ).loc main_arg21))
        ∧ r.2.mem ((c.tc : Thread nD τ).loc main_arg22) = (m ((c.tc : Thread nD τ).loc main_arg22))
        ∧ r.2.mem ((c.tc : Thread nD τ).loc main_arg23) = (m ((c.tc : Thread nD τ).loc main_arg23))
        ∧ r.2.mem ((c.tc : Thread nD τ).loc main_arg24) = (m ((c.tc : Thread nD τ).loc main_arg24))
        ∧ r.2.mem ((c.tc : Thread nD τ).loc main_arg25) = (m ((c.tc : Thread nD τ).loc main_arg25))
        ∧ r.2.mem ((c.tc : Thread nD τ).loc main_arg26) = (m ((c.tc : Thread nD τ).loc main_arg26))
        ∧ r.2.mem ((c.tc : Thread nD τ).loc main_arg27) = (m ((c.tc : Thread nD τ).loc main_arg27))
        ∧ r.2.mem ((c.tc : Thread nD τ).loc main_arg28) = (m ((c.tc : Thread nD τ).loc main_arg28)))) :=
  (θ_run defs _ _).mono (fun _ h c =>
    ⟨(h c main_v43).trans (v43_eq _), (h c main_v45).trans (v45_eq _), (h c main_v39).trans (v39_eq _),
      (h c main_v46).trans (v46_eq _), (h c main_v86).trans (v86_eq _),
      (h c main_arg0).trans (arg0_eq _), (h c main_arg1).trans (arg1_eq _), (h c main_arg2).trans (arg2_eq _), (h c main_arg3).trans (arg3_eq _),
      (h c main_arg4).trans (arg4_eq _), (h c main_arg5).trans (arg5_eq _), (h c main_arg6).trans (arg6_eq _), (h c main_arg7).trans (arg7_eq _),
      (h c main_arg8).trans (arg8_eq _), (h c main_arg9).trans (arg9_eq _), (h c main_arg10).trans (arg10_eq _), (h c main_arg11).trans (arg11_eq _),
      (h c main_arg12).trans (arg12_eq _), (h c main_arg13).trans (arg13_eq _), (h c main_arg14).trans (arg14_eq _), (h c main_arg15).trans (arg15_eq _),
      (h c main_arg16).trans (arg16_eq _), (h c main_arg17).trans (arg17_eq _), (h c main_arg18).trans (arg18_eq _), (h c main_arg19).trans (arg19_eq _),
      (h c main_arg20).trans (arg20_eq _), (h c main_arg21).trans (arg21_eq _), (h c main_arg22).trans (arg22_eq _), (h c main_arg23).trans (arg23_eq _),
      (h c main_arg24).trans (arg24_eq _), (h c main_arg25).trans (arg25_eq _), (h c main_arg26).trans (arg26_eq _), (h c main_arg27).trans (arg27_eq _),
      (h c main_arg28).trans (arg28_eq _)⟩)
    (run_main m ρ)

end Cert.RefSide

end
-- ==== Proof.lean ====
/-
  The two-pass graph auto-encoder kernel against its plain reference, over the extended reals.

  The kernel streams the adjacency matrix twice in blocks of 400 rows.  Pass 0: the first point runs the encoder (the
  node features) and the first support (features times a weight); every point applies its adjacency block to that
  support and multiplies by two weight matrices side by side, filling its 400 rows of the second support.  Pass 1:
  every point applies its adjacency block to the second support — its left columns are the mean, its right columns the
  log-deviation —, copies its rows of the features, sets features and mean side by side, and decodes them by two dense
  layers.  The reference does the same with whole matrices.  Every matrix product on either side is one sum over the whole
  contracted axis, so entry by entry the two programs compute the same expression; only rows are grouped differently, and
  a block of rows of a product is the product of the block of rows.  No law of arithmetic beyond that is used, and the
  precondition (finite inputs) is not needed.

  Frames: each kernel program runs to the end at every grid point (the body's obligation per point, the scratch buffers
  carried from point to point) and leaves its argument arrays unchanged; the reference is a straight line of host
  operations.  The sanctioned idealization rewrote nothing, so that conjunct is trivial.
-/
import proofs.«133634_g45492293599347_cont_8to1c4_324_9_alg».proof.Defs
import proofs.«133634_g45492293599347_cont_8to1c4_324_9_alg».proof.Proof.Gen.Kernel
import proofs.«133634_g45492293599347_cont_8to1c4_324_9_alg».proof.Proof.Gen.KernelIdeal
import proofs.«133634_g45492293599347_cont_8to1c4_324_9_alg».proof.Proof.Gen.ReferenceIdeal
import proofs.«133634_g45492293599347_cont_8to1c4_324_9_alg».proof.Proof.Gen.Pre_finite_inputs
import proofs.«133634_g45492293599347_cont_8to1c4_324_9_alg».proof.Proof.BodyFrame_K
import proofs.«133634_g45492293599347_cont_8to1c4_324_9_alg».proof.Proof.KIValue
import proofs.«133634_g45492293599347_cont_8to1c4_324_9_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Body.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference runs and keeps its arguments: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2) (Cert.RefSide.run m ρ)

set_option maxHeartbeats 16000000 in
/-- Both idealized programs end with each result at the specification's function of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, _, _, _, Cert.KIVal.run m ρ, ?_⟩
  refine (θ_run Cert.ReferenceIdeal.defs _ _).mono (fun _ h c => ?_) (Cert.RefSide.run m' ρ')
  obtain ⟨e0, e1, e2, e3, e4, e5⟩ := h c
  obtain ⟨a0, a1, a2, a3, a4, a5, a6, a7, a8, a9, a10, a11, a12, a13, a14, a15, a16, a17, a18, a19, a20, a21, a22, a23, a24, a25, a26, a27, a28⟩ := hagree c
  refine ⟨?_, ?_, ?_, ?_, ?_, ?_, e5⟩
  · rw [e0, a0, a1, a2, a3, a4, a5, a6, a7, a8, a9, a10, a11, a12, a13, a14, a15]
  · rw [e1, a0, a1, a2, a3, a4, a5, a6, a7, a8, a9, a10, a11, a12, a13, a14, a16]
  · rw [e2, a0, a2, a3, a4, a5, a6, a7, a8, a9, a10, a11, a12, a13]
  · rw [e0, a0, a1, a2, a3, a4, a5, a6, a7, a8, a9, a10, a11, a12, a13, a14, a15]
  · rw [e3, a0, a1, a2, a3, a4, a5, a6, a7, a8, a9, a10, a11, a12, a13, a14, a15]
  · rw [e4, a0, a1, a2, a3, a4, a5, a6, a7, a8, a9, a10, a11, a12, a13, a14, a15, a17, a18, a19, a20, a21, a22, a23, a24, a25, a26, a27, a28]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
